-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v214)) (v1 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v214) = v0 c
          ∧ r.2.mem ((c.tc : Thread Cert.KernelIdeal.nD Cert.KernelIdeal.τ).loc Cert.KernelIdeal.main_v215) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v310) = v0 c
          ∧ r.2.mem ((c.tc : Thread Cert.ReferenceIdeal.nD Cert.ReferenceIdeal.τ).loc Cert.ReferenceIdeal.main_v311) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S200x200x50x1 : Shape := ⟨4, ![200, 200, 50, 1]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel
  bcast_S_S200x200x50x1 : S_.BroadcastsInDim S200x200x50x1 (![] : Fin 0 → Fin S200x200x50x1.rank)
  reducesTo_S200x200x50x1_S_d0_1_2_3 : S200x200x50x1.ReducesTo [0, 1, 2, 3] S_

variable [Facts]

def fn {F : FTy → Type} [FloatOps F] (main_arg0 : FVec F S8388608x3 .f32) (main_arg1 : FVec F S200x200x50x1 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_v4 : FVec F S200x200x50x1 .f32 := Host.absf main_arg1
  let main_cst_0 : FVec F S_ .f32 := constant S_ .f32 0x7F800000#32
  let main_v5 : FVec F S200x200x50x1 .f32 := broadcastInDim S200x200x50x1 ![] bcast_S_S200x200x50x1 main_cst_0
  let main_v6 : IVec S200x200x50x1 1 := cmpf .olt main_v4 main_v5
  let main_c_1 : IVec S_ 1 := constantI S_ 1 1#1
  let main_v7 : IVec S_ 1 := (fun x v => Host.reduce IntOp.andi x v reducesTo_S200x200x50x1_S_d0_1_2_3 h_S_) main_v6 main_c_1
  let main_v8 : IVec S_ 1 := andi main_v3 main_v7
  main_v8
-- ==== Kernel.lean ====
abbrev S8388608x3 : Shape := ⟨2, ![8388608, 3]⟩
abbrev S200x200x50x1 : Shape := ⟨4, ![200, 200, 50, 1]⟩
abbrev S3 : Shape := ⟨1, ![3]⟩
abbrev S1x3 : Shape := ⟨2, ![1, 3]⟩
abbrev S_ : Shape := ⟨0, ![]⟩
abbrev S8388608 : Shape := ⟨1, ![8388608]⟩
abbrev S200x200x50 : Shape := ⟨3, ![200, 200, 50]⟩
abbrev S8388608x1 : Shape := ⟨2, ![8388608, 1]⟩
abbrev S1x8388608 : Shape := ⟨2, ![1, 8388608]⟩
abbrev S8x8388608 : Shape := ⟨2, ![8, 8388608]⟩
abbrev S3x8388608 : Shape := ⟨2, ![3, 8388608]⟩
abbrev S8x131072 : Shape := ⟨2, ![8, 131072]⟩
abbrev S3x131072 : Shape := ⟨2, ![3, 131072]⟩
abbrev S1x131072 : Shape := ⟨2, ![1, 131072]⟩

abbrev nBuf : Space → Nat
  | .hbm => 283
  | .vmem => 8
  | .smem => 0
  | _ => 0

abbrev hbmTy0_0 (i : Nat) : BufTy := match i % 128 with
  | 0 => ⟨S8388608x3, .f32⟩
  | 1 => ⟨S200x200x50x1, .f32⟩
  | 2 => ⟨S3, .f32⟩
  | 3 => ⟨S3, .i32⟩
  | 4 => ⟨S3, .f32⟩
  | 5 => ⟨S1x3, .f32⟩
  | 6 => ⟨S8388608x3, .f32⟩
  | 7 => ⟨S8388608x3, .f32⟩
  | 8 => ⟨S_, .f32⟩
  | 9 => ⟨S8388608x3, .f32⟩
  | 10 => ⟨S8388608x3, .f32⟩
  | 11 => ⟨S_, .f32⟩
  | 12 => ⟨S8388608x3, .f32⟩
  | 13 => ⟨S8388608x3, .i1⟩
  | 14 => ⟨S_, .f32⟩
  | 15 => ⟨S3, .f32⟩
  | 16 => ⟨S3, .f32⟩
  | 17 => ⟨S1x3, .f32⟩
  | 18 => ⟨S8388608x3, .f32⟩
  | 19 => ⟨S8388608x3, .i1⟩
  | 20 => ⟨S8388608x3, .i1⟩
  | 21 => ⟨S_, .i1⟩
  | 22 => ⟨S8388608, .i1⟩
  | 23 => ⟨S8388608x3, .f32⟩
  | 24 => ⟨S8388608x3, .i32⟩
  | 25 => ⟨S_, .i32⟩
  | 26 => ⟨S3, .i32⟩
  | 27 => ⟨S3, .i32⟩
  | 28 => ⟨S_, .i32⟩
  | 29 => ⟨S_, .i32⟩
  | 30 => ⟨S8388608x3, .i32⟩
  | 31 => ⟨S8388608x3, .i32⟩
  | 32 => ⟨S1x3, .i32⟩
  | 33 => ⟨S8388608x3, .i32⟩
  | 34 => ⟨S8388608x3, .i32⟩
  | 35 => ⟨S_, .i32⟩
  | 36 => ⟨S8388608x3, .i32⟩
  | 37 => ⟨S8388608x3, .i32⟩
  | 38 => ⟨S_, .i32⟩
  | 39 => ⟨S3, .i32⟩
  | 40 => ⟨S3, .i32⟩
  | 41 => ⟨S1x3, .i32⟩
  | 42 => ⟨S8388608x3, .i32⟩
  | 43 => ⟨S8388608x3, .i32⟩
  | 44 => ⟨S8388608x3, .f32⟩
  | 45 => ⟨S8388608x3, .f32⟩
  | 46 => ⟨S200x200x50, .f32⟩
  | 47 => ⟨S8388608x1, .i32⟩
  | 48 => ⟨S8388608, .i32⟩
  | 49 => ⟨S8388608x1, .i32⟩
  | 50 => ⟨S8388608, .i32⟩
  | 51 => ⟨S8388608x1, .i32⟩
  | 52 => ⟨S8388608, .i32⟩
  | 53 => ⟨S8388608x1, .i32⟩
  | 54 => ⟨S8388608, .i32⟩
  | 55 => ⟨S8388608x1, .i32⟩
  | 56 => ⟨S8388608, .i32⟩
  | 57 => ⟨S8388608x1, .i32⟩
  | 58 => ⟨S8388608, .i32⟩
  | 59 => ⟨S_, .i32⟩
  | 60 => ⟨S8388608, .i32⟩
  | 61 => ⟨S8388608, .i1⟩
  | 62 => ⟨S_, .i32⟩
  | 63 => ⟨S8388608, .i32⟩
  | 64 => ⟨S8388608, .i32⟩
  | 65 => ⟨S8388608, .i32⟩
  | 66 => ⟨S_, .i32⟩
  | 67 => ⟨S8388608, .i32⟩
  | 68 => ⟨S8388608, .i1⟩
  | 69 => ⟨S_, .i32⟩
  | 70 => ⟨S8388608, .i32⟩
  | 71 => ⟨S8388608, .i32⟩
  | 72 => ⟨S8388608, .i32⟩
  | 73 => ⟨S_, .i32⟩
  | 74 => ⟨S8388608, .i32⟩
  | 75 => ⟨S8388608, .i1⟩
  | 76 => ⟨S_, .i32⟩
  | 77 => ⟨S8388608, .i32⟩
  | 78 => ⟨S8388608, .i32⟩
  | 79 => ⟨S8388608, .i32⟩
  | 80 => ⟨S8388608x1, .i32⟩
  | 81 => ⟨S8388608x1, .i32⟩
  | 82 => ⟨S8388608x1, .i32⟩
  | 83 => ⟨S8388608x3, .i32⟩
  | 84 => ⟨S8388608, .f32⟩
  | 85 => ⟨S_, .i32⟩
  | 86 => ⟨S8388608, .i32⟩
  | 87 => ⟨S8388608, .i1⟩
  | 88 => ⟨S_, .i32⟩
  | 89 => ⟨S8388608, .i32⟩
  | 90 => ⟨S8388608, .i32⟩
  | 91 => ⟨S8388608, .i32⟩
  | 92 => ⟨S_, .i32⟩
  | 93 => ⟨S8388608, .i32⟩
  | 94 => ⟨S8388608, .i1⟩
  | 95 => ⟨S_, .i32⟩
  | 96 => ⟨S8388608, .i32⟩
  | 97 => ⟨S8388608, .i32⟩
  | 98 => ⟨S8388608, .i32⟩
  | 99 => ⟨S_, .i32⟩
  | 100 => ⟨S8388608, .i32⟩
  | 101 => ⟨S8388608, .i1⟩
  | 102 => ⟨S_, .i32⟩
  | 103 => ⟨S8388608, .i32⟩
  | 104 => ⟨S8388608, .i32⟩
  | 105 => ⟨S8388608, .i32⟩
  | 106 => ⟨S8388608x1, .i32⟩
  | 107 => ⟨S8388608x1, .i32⟩
  | 108 => ⟨S8388608x1, .i32⟩
  | 109 => ⟨S8388608x3, .i32⟩
  | 110 => ⟨S8388608, .f32⟩
  | 111 => ⟨S_, .i32⟩
  | 112 => ⟨S8388608, .i32⟩
  | 113 => ⟨S8388608, .i1⟩
  | 114 => ⟨S_, .i32⟩
  | 115 => ⟨S8388608, .i32⟩
  | 116 => ⟨S8388608, .i32⟩
  | 117 => ⟨S8388608, .i32⟩
  | 118 => ⟨S_, .i32⟩
  | 119 => ⟨S8388608, .i32⟩
  | 120 => ⟨S8388608, .i1⟩
  | 121 => ⟨S_, .i32⟩
  | 122 => ⟨S8388608, .i32⟩
  | 123 => ⟨S8388608, .i32⟩
  | 124 => ⟨S8388608, .i32⟩
  | 125 => ⟨S_, .i32⟩
  | 126 => ⟨S8388608, .i32⟩
  | 127 => ⟨S8388608, .i1⟩
  | _ => ⟨S8388608x3, .f32⟩

abbrev hbmTy0_1 (i : Nat) : BufTy := match i % 128 with
  | 0 => ⟨S_, .i32⟩
  | 1 => ⟨S8388608, .i32⟩
  | 2 => ⟨S8388608, .i32⟩
  | 3 => ⟨S8388608, .i32⟩
  | 4 => ⟨S8388608x1, .i32⟩
  | 5 => ⟨S8388608x1, .i32⟩
  | 6 => ⟨S8388608x1, .i32⟩
  | 7 => ⟨S8388608x3, .i32⟩
  | 8 => ⟨S8388608, .f32⟩
  | 9 => ⟨S_, .i32⟩
  | 10 => ⟨S8388608, .i32⟩
  | 11 => ⟨S8388608, .i1⟩
  | 12 => ⟨S_, .i32⟩
  | 13 => ⟨S8388608, .i32⟩
  | 14 => ⟨S8388608, .i32⟩
  | 15 => ⟨S8388608, .i32⟩
  | 16 => ⟨S_, .i32⟩
  | 17 => ⟨S8388608, .i32⟩
  | 18 => ⟨S8388608, .i1⟩
  | 19 => ⟨S_, .i32⟩
  | 20 => ⟨S8388608, .i32⟩
  | 21 => ⟨S8388608, .i32⟩
  | 22 => ⟨S8388608, .i32⟩
  | 23 => ⟨S_, .i32⟩
  | 24 => ⟨S8388608, .i32⟩
  | 25 => ⟨S8388608, .i1⟩
  | 26 => ⟨S_, .i32⟩
  | 27 => ⟨S8388608, .i32⟩
  | 28 => ⟨S8388608, .i32⟩
  | 29 => ⟨S8388608, .i32⟩
  | 30 => ⟨S8388608x1, .i32⟩
  | 31 => ⟨S8388608x1, .i32⟩
  | 32 => ⟨S8388608x1, .i32⟩
  | 33 => ⟨S8388608x3, .i32⟩
  | 34 => ⟨S8388608, .f32⟩
  | 35 => ⟨S_, .i32⟩
  | 36 => ⟨S8388608, .i32⟩
  | 37 => ⟨S8388608, .i1⟩
  | 38 => ⟨S_, .i32⟩
  | 39 => ⟨S8388608, .i32⟩
  | 40 => ⟨S8388608, .i32⟩
  | 41 => ⟨S8388608, .i32⟩
  | 42 => ⟨S_, .i32⟩
  | 43 => ⟨S8388608, .i32⟩
  | 44 => ⟨S8388608, .i1⟩
  | 45 => ⟨S_, .i32⟩
  | 46 => ⟨S8388608, .i32⟩
  | 47 => ⟨S8388608, .i32⟩
  | 48 => ⟨S8388608, .i32⟩
  | 49 => ⟨S_, .i32⟩
  | 50 => ⟨S8388608, .i32⟩
  | 51 => ⟨S8388608, .i1⟩
  | 52 => ⟨S_, .i32⟩
  | 53 => ⟨S8388608, .i32⟩
  | 54 => ⟨S8388608, .i32⟩
  | 55 => ⟨S8388608, .i32⟩
  | 56 => ⟨S8388608x1, .i32⟩
  | 57 => ⟨S8388608x1, .i32⟩
  | 58 => ⟨S8388608x1, .i32⟩
  | 59 => ⟨S8388608x3, .i32⟩
  | 60 => ⟨S8388608, .f32⟩
  | 61 => ⟨S_, .i32⟩
  | 62 => ⟨S8388608, .i32⟩
  | 63 => ⟨S8388608, .i1⟩
  | 64 => ⟨S_, .i32⟩
  | 65 => ⟨S8388608, .i32⟩
  | 66 => ⟨S8388608, .i32⟩
  | 67 => ⟨S8388608, .i32⟩
  | 68 => ⟨S_, .i32⟩
  | 69 => ⟨S8388608, .i32⟩
  | 70 => ⟨S8388608, .i1⟩
  | 71 => ⟨S_, .i32⟩
  | 72 => ⟨S8388608, .i32⟩
  | 73 => ⟨S8388608, .i32⟩
  | 74 => ⟨S8388608, .i32⟩
  | 75 => ⟨S_, .i32⟩
  | 76 => ⟨S8388608, .i32⟩
  | 77 => ⟨S8388608, .i1⟩
  | 78 => ⟨S_, .i32⟩
  | 79 => ⟨S8388608, .i32⟩
  | 80 => ⟨S8388608, .i32⟩
  | 81 => ⟨S8388608, .i32⟩
  | 82 => ⟨S8388608x1, .i32⟩
  | 83 => ⟨S8388608x1, .i32⟩
  | 84 => ⟨S8388608x1, .i32⟩
  | 85 => ⟨S8388608x3, .i32⟩
  | 86 => ⟨S8388608, .f32⟩
  | 87 => ⟨S_, .i32⟩
  | 88 => ⟨S8388608, .i32⟩
  | 89 => ⟨S8388608, .i1⟩
  | 90 => ⟨S_, .i32⟩
  | 91 => ⟨S8388608, .i32⟩
  | 92 => ⟨S8388608, .i32⟩
  | 93 => ⟨S8388608, .i32⟩
  | 94 => ⟨S_, .i32⟩
  | 95 => ⟨S8388608, .i32⟩
  | 96 => ⟨S8388608, .i1⟩
  | 97 => ⟨S_, .i32⟩
  | 98 => ⟨S8388608, .i32⟩
  | 99 => ⟨S8388608, .i32⟩
  | 100 => ⟨S8388608, .i32⟩
  | 101 => ⟨S_, .i32⟩
  | 102 => ⟨S8388608, .i32⟩
  | 103 => ⟨S8388608, .i1⟩
  | 104 => ⟨S_, .i32⟩
  | 105 => ⟨S8388608, .i32⟩
  | 106 => ⟨S8388608, .i32⟩
  | 107 => ⟨S8388608, .i32⟩
  | 108 => ⟨S8388608x1, .i32⟩
  | 109 => ⟨S8388608x1, .i32⟩
  | 110 => ⟨S8388608x1, .i32⟩
  | 111 => ⟨S8388608x3, .i32⟩
  | 112 => ⟨S8388608, .f32⟩
  | 113 => ⟨S_, .i32⟩
  | 114 => ⟨S8388608, .i32⟩
  | 115 => ⟨S8388608, .i1⟩
  | 116 => ⟨S_, .i32⟩
  | 117 => ⟨S8388608, .i32⟩
  | 118 => ⟨S8388608, .i32⟩
  | 119 => ⟨S8388608, .i32⟩
  | 120 => ⟨S_, .i32⟩
  | 121 => ⟨S8388608, .i32⟩
  | 122 => ⟨S8388608, .i1⟩
  | 123 => ⟨S_, .i32⟩
  | 124 => ⟨S8388608, .i32⟩
  | 125 => ⟨S8388608, .i32⟩
  | 126 => ⟨S8388608, .i32⟩
  | 127 => ⟨S_, .i32⟩
  | _ => ⟨S8388608x3, .f32⟩

abbrev hbmTy0_2 (i : Nat) : BufTy := match i % 128 with
  | 0 => ⟨S8388608, .i32⟩
  | 1 => ⟨S8388608, .i1⟩
  | 2 => ⟨S_, .i32⟩
  | 3 => ⟨S8388608, .i32⟩
  | 4 => ⟨S8388608, .i32⟩
  | 5 => ⟨S8388608, .i32⟩
  | 6 => ⟨S8388608x1, .i32⟩
  | 7 => ⟨S8388608x1, .i32⟩
  | 8 => ⟨S8388608x1, .i32⟩
  | 9 => ⟨S8388608x3, .i32⟩
  | 10 => ⟨S8388608, .f32⟩
  | 11 => ⟨S1x8388608, .f32⟩
  | 12 => ⟨S1x8388608, .f32⟩
  | 13 => ⟨S1x8388608, .f32⟩
  | 14 => ⟨S1x8388608, .f32⟩
  | 15 => ⟨S1x8388608, .f32⟩
  | 16 => ⟨S1x8388608, .f32⟩
  | 17 => ⟨S1x8388608, .f32⟩
  | 18 => ⟨S1x8388608, .f32⟩
  | 19 => ⟨S8x8388608, .f32⟩
  | 20 => ⟨S3x8388608, .f32⟩
  | 21 => ⟨S8388608, .f32⟩
  | 22 => ⟨S1x8388608, .f32⟩
  | 23 => ⟨S1x8388608, .f32⟩
  | 24 => ⟨S8388608, .f32⟩
  | 25 => ⟨S_, .f32⟩
  | 26 => ⟨S8388608, .f32⟩
  | _ => ⟨S8388608x3, .f32⟩

abbrev hbmTy (i : Nat) : BufTy := match i / 128 with
  | 0 => hbmTy0_0 i
  | 1 => hbmTy0_1 i
  | 2 => hbmTy0_2 i
  | _ => ⟨S8388608x3, .f32⟩

abbrev bufTy : (tb : Table) → Fin (tcTables nBuf tb) → BufTy
  | .hbm, ⟨i, _⟩ => hbmTy i
  | .local _ .vmem, ⟨0, _⟩ => ⟨S8x131072, .f32⟩
  | .local _ .vmem, ⟨1, _⟩ => ⟨S8x131072, .f32⟩
  | .local _ .vmem, ⟨2, _⟩ => ⟨S3x131072, .f32⟩
  | .local _ .vmem, ⟨3, _⟩ => ⟨S3x131072, .f32⟩
  | .local _ .vmem, ⟨4, _⟩ => ⟨S1x131072, .f32⟩
  | .local _ .vmem, ⟨5, _⟩ => ⟨S1x131072, .f32⟩
  | .local _ .vmem, ⟨6, _⟩ => ⟨S1x131072, .f32⟩
  | .local _ .vmem, ⟨7, _⟩ => ⟨S1x131072, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_c_6 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_c_7 : Ref sig .tc := ⟨.hbm, 35, rfl⟩
abbrev main_v19 : Ref sig .tc := ⟨.hbm, 36, rfl⟩
abbrev main_v20 : Ref sig .tc := ⟨.hbm, 37, rfl⟩
abbrev main_c_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_11 : Ref sig .tc := ⟨.hbm, 66, rfl⟩
abbrev main_v46 : Ref sig .tc := ⟨.hbm, 67, rfl⟩
abbrev main_v47 : Ref sig .tc := ⟨.hbm, 68, rfl⟩
abbrev main_c_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_c_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_15 : Ref sig .tc := ⟨.hbm, 85, rfl⟩
abbrev main_v61 : Ref sig .tc := ⟨.hbm, 86, rfl⟩
abbrev main_v62 : Ref sig .tc := ⟨.hbm, 87, rfl⟩
abbrev main_c_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_17 : Ref sig .tc := ⟨.hbm, 92, rfl⟩
abbrev main_v66 : Ref sig .tc := ⟨.hbm, 93, rfl⟩
abbrev main_v67 : Ref sig .tc := ⟨.hbm, 94, rfl⟩
abbrev main_c_18 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_19 : Ref sig .tc := ⟨.hbm, 99, rfl⟩
abbrev main_v71 : Ref sig .tc := ⟨.hbm, 100, rfl⟩
abbrev main_v72 : Ref sig .tc := ⟨.hbm, 101, rfl⟩
abbrev main_c_20 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_21 : Ref sig .tc := ⟨.hbm, 111, rfl⟩
abbrev main_v81 : Ref sig .tc := ⟨.hbm, 112, rfl⟩
abbrev main_v82 : Ref sig .tc := ⟨.hbm, 113, rfl⟩
abbrev main_c_22 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_23 : Ref sig .tc := ⟨.hbm, 118, rfl⟩
abbrev main_v86 : Ref sig .tc := ⟨.hbm, 119, rfl⟩
abbrev main_v87 : Ref sig .tc := ⟨.hbm, 120, rfl⟩
abbrev main_c_24 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_25 : Ref sig .tc := ⟨.hbm, 125, rfl⟩
abbrev main_v91 : Ref sig .tc := ⟨.hbm, 126, rfl⟩
abbrev main_v92 : Ref sig .tc := ⟨.hbm, 127, rfl⟩
abbrev main_c_26 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_27 : Ref sig .tc := ⟨.hbm, 137, rfl⟩
abbrev main_v101 : Ref sig .tc := ⟨.hbm, 138, rfl⟩
abbrev main_v102 : Ref sig .tc := ⟨.hbm, 139, rfl⟩
abbrev main_c_28 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_29 : Ref sig .tc := ⟨.hbm, 144, rfl⟩
abbrev main_v106 : Ref sig .tc := ⟨.hbm, 145, rfl⟩
abbrev main_v107 : Ref sig .tc := ⟨.hbm, 146, rfl⟩
abbrev main_c_30 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_31 : Ref sig .tc := ⟨.hbm, 151, rfl⟩
abbrev main_v111 : Ref sig .tc := ⟨.hbm, 152, rfl⟩
abbrev main_v112 : Ref sig .tc := ⟨.hbm, 153, rfl⟩
abbrev main_c_32 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_33 : Ref sig .tc := ⟨.hbm, 163, rfl⟩
abbrev main_v121 : Ref sig .tc := ⟨.hbm, 164, rfl⟩
abbrev main_v122 : Ref sig .tc := ⟨.hbm, 165, rfl⟩
abbrev main_c_34 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_c_35 : Ref sig .tc := ⟨.hbm, 170, rfl⟩
abbrev main_v126 : Ref sig .tc := ⟨.hbm, 171, rfl⟩
abbrev main_v127 : Ref sig .tc := ⟨.hbm, 172, rfl⟩
abbrev main_c_36 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_c_37 : Ref sig .tc := ⟨.hbm, 177, rfl⟩
abbrev main_v131 : Ref sig .tc := ⟨.hbm, 178, rfl⟩
abbrev main_v132 : Ref sig .tc := ⟨.hbm, 179, rfl⟩
abbrev main_c_38 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_c_39 : Ref sig .tc := ⟨.hbm, 189, rfl⟩
abbrev main_v141 : Ref sig .tc := ⟨.hbm, 190, rfl⟩
abbrev main_v142 : Ref sig .tc := ⟨.hbm, 191, rfl⟩
abbrev main_c_40 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_c_41 : Ref sig .tc := ⟨.hbm, 196, rfl⟩
abbrev main_v146 : Ref sig .tc := ⟨.hbm, 197, rfl⟩
abbrev main_v147 : Ref sig .tc := ⟨.hbm, 198, rfl⟩
abbrev main_c_42 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_c_43 : Ref sig .tc := ⟨.hbm, 203, rfl⟩
abbrev main_v151 : Ref sig .tc := ⟨.hbm, 204, rfl⟩
abbrev main_v152 : Ref sig .tc := ⟨.hbm, 205, rfl⟩
abbrev main_c_44 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_c_45 : Ref sig .tc := ⟨.hbm, 215, rfl⟩
abbrev main_v161 : Ref sig .tc := ⟨.hbm, 216, rfl⟩
abbrev main_v162 : Ref sig .tc := ⟨.hbm, 217, rfl⟩
abbrev main_c_46 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_c_47 : Ref sig .tc := ⟨.hbm, 222, rfl⟩
abbrev main_v166 : Ref sig .tc := ⟨.hbm, 223, rfl⟩
abbrev main_v167 : Ref sig .tc := ⟨.hbm, 224, rfl⟩
abbrev main_c_48 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_c_49 : Ref sig .tc := ⟨.hbm, 229, rfl⟩
abbrev main_v171 : Ref sig .tc := ⟨.hbm, 230, rfl⟩
abbrev main_v172 : Ref sig .tc := ⟨.hbm, 231, rfl⟩
abbrev main_c_50 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_c_51 : Ref sig .tc := ⟨.hbm, 241, rfl⟩
abbrev main_v181 : Ref sig .tc := ⟨.hbm, 242, rfl⟩
abbrev main_v182 : Ref sig .tc := ⟨.hbm, 243, rfl⟩
abbrev main_c_52 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_c_53 : Ref sig .tc := ⟨.hbm, 248, rfl⟩
abbrev main_v186 : Ref sig .tc := ⟨.hbm, 249, rfl⟩
abbrev main_v187 : Ref sig .tc := ⟨.hbm, 250, rfl⟩
abbrev main_c_54 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_c_55 : Ref sig .tc := ⟨.hbm, 255, rfl⟩
abbrev main_v191 : Ref sig .tc := ⟨.hbm, 256, rfl⟩
abbrev main_v192 : Ref sig .tc := ⟨.hbm, 257, rfl⟩
abbrev main_c_56 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_cst_57 : Ref sig .tc := ⟨.hbm, 281, rfl⟩
abbrev main_v215 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x131072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S3_S1x3_1 : S3.BroadcastsInDim S1x3 (![1] : Fin 1 → Fin S1x3.rank)
  bcast_S1x3_S8388608x3_0_1 : S1x3.BroadcastsInDim S8388608x3 (![0, 1] : Fin 2 → Fin S8388608x3.rank)
  bcast_S_S8388608x3 : S_.BroadcastsInDim S8388608x3 (![] : Fin 0 → Fin S8388608x3.rank)
  bcast_S_S3 : S_.BroadcastsInDim S3 (![] : Fin 0 → Fin S3.rank)
  reducesTo_S8388608x3_S8388608_d1 : S8388608x3.ReducesTo [1] S8388608
  h_S_ : 0 < S_.numel
  shapeCasts_S200x200x50x1_S200x200x50 : S200x200x50x1.ShapeCasts S200x200x50
  slices_S8388608x3_S8388608x1_0_0 : S8388608x3.Slices ![0, 0] S8388608x1
  shapeCasts_S8388608x1_S8388608 : S8388608x1.ShapeCasts S8388608
  slices_S8388608x3_S8388608x1_0_1 : S8388608x3.Slices ![0, 1] S8388608x1
  slices_S8388608x3_S8388608x1_0_2 : S8388608x3.Slices ![0, 2] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x3_d1 : Shape.Concatenates [S8388608x1, S8388608x1, S8388608x1] S8388608x3 1
  bcast_S8388608_S1x8388608_1 : S8388608.BroadcastsInDim S1x8388608 (![1] : Fin 1 → Fin S1x8388608.rank)
  concatenates_S1x8388608_S1x8388608_S1x8388608_S1x8388608_S1x8388608_S1x8388608_S1x8388608_S1x8388608_S8x8388608_d0 : Shape.Concatenates [S1x8388608, S1x8388608, S1x8388608, S1x8388608, S1x8388608, S1x8388608, S1x8388608, S1x8388608] S8x8388608 0
  transposes_S8388608x3_S3x8388608_1_0 : S8388608x3.Transposes [1, 0] S3x8388608
  inb_S3x131072_S3x131072_0_0 : ∀ a, (![0, 0] : Fin 2 → Nat) a + S3x131072.size a ≤ S3x131072.size a
  h_S3x131072 : 0 < S3x131072.numel
  shapeCasts_S3x131072_S3x131072 : S3x131072.ShapeCasts S3x131072
  slices_S3x131072_o0_0_S1x131072 : S3x131072.Slices ![0, 0] S1x131072
  slices_S3x131072_o1_0_S1x131072 : S3x131072.Slices ![1, 0] S1x131072
  slices_S3x131072_o2_0_S1x131072 : S3x131072.Slices ![2, 0] S1x131072
  inb_S8x131072_S8x131072_0_0 : ∀ a, (![0, 0] : Fin 2 → Nat) a + S8x131072.size a ≤ S8x131072.size a
  h_S8x131072 : 0 < S8x131072.numel
  shapeCasts_S8x131072_S8x131072 : S8x131072.ShapeCasts S8x131072
  slices_S8x131072_o0_0_S1x131072 : S8x131072.Slices ![0, 0] S1x131072
  slices_S8x131072_o1_0_S1x131072 : S8x131072.Slices ![1, 0] S1x131072
  slices_S8x131072_o2_0_S1x131072 : S8x131072.Slices ![2, 0] S1x131072
  slices_S8x131072_o3_0_S1x131072 : S8x131072.Slices ![3, 0] S1x131072
  slices_S8x131072_o4_0_S1x131072 : S8x131072.Slices ![4, 0] S1x131072
  slices_S8x131072_o5_0_S1x131072 : S8x131072.Slices ![5, 0] S1x131072
  slices_S8x131072_o6_0_S1x131072 : S8x131072.Slices ![6, 0] S1x131072
  slices_S8x131072_o7_0_S1x131072 : S8x131072.Slices ![7, 0] S1x131072
  inb_S1x131072_S1x131072_0_0 : ∀ a, (![0, 0] : Fin 2 → Nat) a + S1x131072.size a ≤ S1x131072.size a
  h_S1x131072 : 0 < S1x131072.numel
  shapeCasts_S1x131072_S1x131072 : S1x131072.ShapeCasts S1x131072
  shapeCasts_S1x8388608_S8388608 : S1x8388608.ShapeCasts S8388608
  gather_S200x200x50_S8388608x3_S8388608_n_012_n_n_012_1_111_wf : GatherDims.WF S200x200x50 S8388608x3 S8388608 [] [0, 1, 2] [] [0, 1, 2] [] 1 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x131072.size a ≤ S8x8388608.size a
  hwx0_0 : ∀ i : grid0.Coords, EltTy.bits .f32 = 32 ∨ (Rect.block (s := S8x8388608) S8x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x131072.size a ≤ S3x8388608.size a
  hwx0_1 : ∀ i : grid0.Coords, EltTy.bits .f32 = 32 ∨ (Rect.block (s := S3x8388608) S3x131072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x131072.size a ≤ S1x8388608.size a
  hwx0_2 : ∀ i : grid0.Coords, EltTy.bits .f32 = 32 ∨ (Rect.block (s := S1x8388608) S1x131072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x131072.size a ≤ S1x8388608.size a
  hwx0_3 : ∀ i : grid0.Coords, EltTy.bits .f32 = 32 ∨ (Rect.block (s := S1x8388608) S1x131072.size (cc0_transform_3 i) (hinb0_3 i)).WholeWords (EltTy.packing .f32)

variable [Facts₀]

def gather_S200x200x50_S8388608x3_S8388608_n_012_n_n_012_1_111 : GatherDims S200x200x50 S8388608x3 S8388608 where
  offsetDims := []
  collapsedSliceDims := [0, 1, 2]
  operandBatchingDims := []
  startIndicesBatchingDims := []
  startIndexMap := [0, 1, 2]
  indexVectorDim := 1
  sliceSizes := ![1, 1, 1]
  wf := gather_S200x200x50_S8388608x3_S8388608_n_012_n_n_012_1_111_wf

abbrev win0_0 : Pipeline.Window sig grid0 :=
  Pipeline.Window.ofSpec (Memref.whole main_v209) S8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v210) S3x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v212) S1x131072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v213) S1x131072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S200x200x50x1 : Shape := ⟨4, ![200, 200, 50, 1]⟩
abbrev S3 : Shape := ⟨1, ![3]⟩
abbrev S1x3 : Shape := ⟨2, ![1, 3]⟩
abbrev S_ : Shape := ⟨0, ![]⟩
abbrev S8388608 : Shape := ⟨1, ![8388608]⟩
abbrev S8388608x3x1 : Shape := ⟨3, ![8388608, 3, 1]⟩
abbrev S8388608x3x2 : Shape := ⟨3, ![8388608, 3, 2]⟩
abbrev S8388608x1 : Shape := ⟨2, ![8388608, 1]⟩
abbrev S8388608x4 : Shape := ⟨2, ![8388608, 4]⟩
abbrev S8388608x1x1 : Shape := ⟨3, ![8388608, 1, 1]⟩

abbrev nBuf : Space → Nat
  | .hbm => 392
  | .vmem => 0
  | .smem => 0
  | _ => 0

abbrev hbmTy0_0 (i : Nat) : BufTy := match i % 128 with
  | 0 => ⟨S8388608x3, .f32⟩
  | 1 => ⟨S200x200x50x1, .f32⟩
  | 2 => ⟨S3, .i32⟩
  | 3 => ⟨S3, .f32⟩
  | 4 => ⟨S3, .f32⟩
  | 5 => ⟨S1x3, .f32⟩
  | 6 => ⟨S8388608x3, .f32⟩
  | 7 => ⟨S8388608x3, .f32⟩
  | 8 => ⟨S_, .f32⟩
  | 9 => ⟨S8388608x3, .f32⟩
  | 10 => ⟨S8388608x3, .f32⟩
  | 11 => ⟨S_, .f32⟩
  | 12 => ⟨S8388608x3, .f32⟩
  | 13 => ⟨S8388608x3, .i1⟩
  | 14 => ⟨S_, .f32⟩
  | 15 => ⟨S3, .f32⟩
  | 16 => ⟨S3, .f32⟩
  | 17 => ⟨S1x3, .f32⟩
  | 18 => ⟨S8388608x3, .f32⟩
  | 19 => ⟨S8388608x3, .i1⟩
  | 20 => ⟨S8388608x3, .i1⟩
  | 21 => ⟨S_, .i1⟩
  | 22 => ⟨S8388608, .i1⟩
  | 23 => ⟨S8388608x3, .f32⟩
  | 24 => ⟨S8388608x3, .i32⟩
  | 25 => ⟨S_, .i32⟩
  | 26 => ⟨S3, .i32⟩
  | 27 => ⟨S3, .i32⟩
  | 28 => ⟨S_, .i32⟩
  | 29 => ⟨S_, .i32⟩
  | 30 => ⟨S8388608x3, .i32⟩
  | 31 => ⟨S8388608x3, .i32⟩
  | 32 => ⟨S1x3, .i32⟩
  | 33 => ⟨S8388608x3, .i32⟩
  | 34 => ⟨S8388608x3, .i32⟩
  | 35 => ⟨S_, .i32⟩
  | 36 => ⟨S8388608x3, .i32⟩
  | 37 => ⟨S8388608x3, .i32⟩
  | 38 => ⟨S_, .i32⟩
  | 39 => ⟨S3, .i32⟩
  | 40 => ⟨S3, .i32⟩
  | 41 => ⟨S1x3, .i32⟩
  | 42 => ⟨S8388608x3, .i32⟩
  | 43 => ⟨S8388608x3, .i32⟩
  | 44 => ⟨S8388608x3, .f32⟩
  | 45 => ⟨S8388608x3, .f32⟩
  | 46 => ⟨S_, .f32⟩
  | 47 => ⟨S8388608x3, .f32⟩
  | 48 => ⟨S8388608x3, .f32⟩
  | 49 => ⟨S8388608x3x1, .f32⟩
  | 50 => ⟨S8388608x3x1, .f32⟩
  | 51 => ⟨S8388608x3x2, .f32⟩
  | 52 => ⟨S8388608x1, .i32⟩
  | 53 => ⟨S8388608, .i32⟩
  | 54 => ⟨S8388608x1, .i32⟩
  | 55 => ⟨S8388608, .i32⟩
  | 56 => ⟨S8388608x1, .i32⟩
  | 57 => ⟨S8388608, .i32⟩
  | 58 => ⟨S8388608x1, .i32⟩
  | 59 => ⟨S8388608, .i32⟩
  | 60 => ⟨S8388608x1, .i32⟩
  | 61 => ⟨S8388608, .i32⟩
  | 62 => ⟨S8388608x1, .i32⟩
  | 63 => ⟨S8388608, .i32⟩
  | 64 => ⟨S_, .f32⟩
  | 65 => ⟨S8388608, .f32⟩
  | 66 => ⟨S_, .i32⟩
  | 67 => ⟨S8388608, .i32⟩
  | 68 => ⟨S8388608, .i1⟩
  | 69 => ⟨S_, .i32⟩
  | 70 => ⟨S8388608, .i32⟩
  | 71 => ⟨S8388608, .i32⟩
  | 72 => ⟨S8388608, .i32⟩
  | 73 => ⟨S_, .i32⟩
  | 74 => ⟨S8388608, .i32⟩
  | 75 => ⟨S8388608, .i1⟩
  | 76 => ⟨S_, .i32⟩
  | 77 => ⟨S8388608, .i32⟩
  | 78 => ⟨S8388608, .i32⟩
  | 79 => ⟨S8388608, .i32⟩
  | 80 => ⟨S_, .i32⟩
  | 81 => ⟨S8388608, .i32⟩
  | 82 => ⟨S8388608, .i1⟩
  | 83 => ⟨S_, .i32⟩
  | 84 => ⟨S8388608, .i32⟩
  | 85 => ⟨S8388608, .i32⟩
  | 86 => ⟨S8388608, .i32⟩
  | 87 => ⟨S_, .i32⟩
  | 88 => ⟨S8388608, .i32⟩
  | 89 => ⟨S8388608, .i32⟩
  | 90 => ⟨S8388608x1, .i32⟩
  | 91 => ⟨S8388608x1, .i32⟩
  | 92 => ⟨S8388608x1, .i32⟩
  | 93 => ⟨S8388608x1, .i32⟩
  | 94 => ⟨S8388608x4, .i32⟩
  | 95 => ⟨S8388608, .f32⟩
  | 96 => ⟨S8388608x1x1, .f32⟩
  | 97 => ⟨S8388608, .f32⟩
  | 98 => ⟨S8388608x1x1, .f32⟩
  | 99 => ⟨S8388608, .f32⟩
  | 100 => ⟨S8388608, .f32⟩
  | 101 => ⟨S8388608x1x1, .f32⟩
  | 102 => ⟨S8388608, .f32⟩
  | 103 => ⟨S8388608, .f32⟩
  | 104 => ⟨S8388608, .f32⟩
  | 105 => ⟨S8388608, .f32⟩
  | 106 => ⟨S_, .i32⟩
  | 107 => ⟨S8388608, .i32⟩
  | 108 => ⟨S8388608, .i1⟩
  | 109 => ⟨S_, .i32⟩
  | 110 => ⟨S8388608, .i32⟩
  | 111 => ⟨S8388608, .i32⟩
  | 112 => ⟨S8388608, .i32⟩
  | 113 => ⟨S_, .i32⟩
  | 114 => ⟨S8388608, .i32⟩
  | 115 => ⟨S8388608, .i1⟩
  | 116 => ⟨S_, .i32⟩
  | 117 => ⟨S8388608, .i32⟩
  | 118 => ⟨S8388608, .i32⟩
  | 119 => ⟨S8388608, .i32⟩
  | 120 => ⟨S_, .i32⟩
  | 121 => ⟨S8388608, .i32⟩
  | 122 => ⟨S8388608, .i1⟩
  | 123 => ⟨S_, .i32⟩
  | 124 => ⟨S8388608, .i32⟩
  | 125 => ⟨S8388608, .i32⟩
  | 126 => ⟨S8388608, .i32⟩
  | 127 => ⟨S_, .i32⟩
  | _ => ⟨S8388608x3, .f32⟩

abbrev hbmTy0_1 (i : Nat) : BufTy := match i % 128 with
  | 0 => ⟨S8388608, .i32⟩
  | 1 => ⟨S8388608, .i32⟩
  | 2 => ⟨S8388608x1, .i32⟩
  | 3 => ⟨S8388608x1, .i32⟩
  | 4 => ⟨S8388608x1, .i32⟩
  | 5 => ⟨S8388608x1, .i32⟩
  | 6 => ⟨S8388608x4, .i32⟩
  | 7 => ⟨S8388608, .f32⟩
  | 8 => ⟨S8388608x1x1, .f32⟩
  | 9 => ⟨S8388608, .f32⟩
  | 10 => ⟨S8388608x1x1, .f32⟩
  | 11 => ⟨S8388608, .f32⟩
  | 12 => ⟨S8388608, .f32⟩
  | 13 => ⟨S8388608x1x1, .f32⟩
  | 14 => ⟨S8388608, .f32⟩
  | 15 => ⟨S8388608, .f32⟩
  | 16 => ⟨S8388608, .f32⟩
  | 17 => ⟨S8388608, .f32⟩
  | 18 => ⟨S_, .i32⟩
  | 19 => ⟨S8388608, .i32⟩
  | 20 => ⟨S8388608, .i1⟩
  | 21 => ⟨S_, .i32⟩
  | 22 => ⟨S8388608, .i32⟩
  | 23 => ⟨S8388608, .i32⟩
  | 24 => ⟨S8388608, .i32⟩
  | 25 => ⟨S_, .i32⟩
  | 26 => ⟨S8388608, .i32⟩
  | 27 => ⟨S8388608, .i1⟩
  | 28 => ⟨S_, .i32⟩
  | 29 => ⟨S8388608, .i32⟩
  | 30 => ⟨S8388608, .i32⟩
  | 31 => ⟨S8388608, .i32⟩
  | 32 => ⟨S_, .i32⟩
  | 33 => ⟨S8388608, .i32⟩
  | 34 => ⟨S8388608, .i1⟩
  | 35 => ⟨S_, .i32⟩
  | 36 => ⟨S8388608, .i32⟩
  | 37 => ⟨S8388608, .i32⟩
  | 38 => ⟨S8388608, .i32⟩
  | 39 => ⟨S_, .i32⟩
  | 40 => ⟨S8388608, .i32⟩
  | 41 => ⟨S8388608, .i32⟩
  | 42 => ⟨S8388608x1, .i32⟩
  | 43 => ⟨S8388608x1, .i32⟩
  | 44 => ⟨S8388608x1, .i32⟩
  | 45 => ⟨S8388608x1, .i32⟩
  | 46 => ⟨S8388608x4, .i32⟩
  | 47 => ⟨S8388608, .f32⟩
  | 48 => ⟨S8388608x1x1, .f32⟩
  | 49 => ⟨S8388608, .f32⟩
  | 50 => ⟨S8388608x1x1, .f32⟩
  | 51 => ⟨S8388608, .f32⟩
  | 52 => ⟨S8388608, .f32⟩
  | 53 => ⟨S8388608x1x1, .f32⟩
  | 54 => ⟨S8388608, .f32⟩
  | 55 => ⟨S8388608, .f32⟩
  | 56 => ⟨S8388608, .f32⟩
  | 57 => ⟨S8388608, .f32⟩
  | 58 => ⟨S_, .i32⟩
  | 59 => ⟨S8388608, .i32⟩
  | 60 => ⟨S8388608, .i1⟩
  | 61 => ⟨S_, .i32⟩
  | 62 => ⟨S8388608, .i32⟩
  | 63 => ⟨S8388608, .i32⟩
  | 64 => ⟨S8388608, .i32⟩
  | 65 => ⟨S_, .i32⟩
  | 66 => ⟨S8388608, .i32⟩
  | 67 => ⟨S8388608, .i1⟩
  | 68 => ⟨S_, .i32⟩
  | 69 => ⟨S8388608, .i32⟩
  | 70 => ⟨S8388608, .i32⟩
  | 71 => ⟨S8388608, .i32⟩
  | 72 => ⟨S_, .i32⟩
  | 73 => ⟨S8388608, .i32⟩
  | 74 => ⟨S8388608, .i1⟩
  | 75 => ⟨S_, .i32⟩
  | 76 => ⟨S8388608, .i32⟩
  | 77 => ⟨S8388608, .i32⟩
  | 78 => ⟨S8388608, .i32⟩
  | 79 => ⟨S_, .i32⟩
  | 80 => ⟨S8388608, .i32⟩
  | 81 => ⟨S8388608, .i32⟩
  | 82 => ⟨S8388608x1, .i32⟩
  | 83 => ⟨S8388608x1, .i32⟩
  | 84 => ⟨S8388608x1, .i32⟩
  | 85 => ⟨S8388608x1, .i32⟩
  | 86 => ⟨S8388608x4, .i32⟩
  | 87 => ⟨S8388608, .f32⟩
  | 88 => ⟨S8388608x1x1, .f32⟩
  | 89 => ⟨S8388608, .f32⟩
  | 90 => ⟨S8388608x1x1, .f32⟩
  | 91 => ⟨S8388608, .f32⟩
  | 92 => ⟨S8388608, .f32⟩
  | 93 => ⟨S8388608x1x1, .f32⟩
  | 94 => ⟨S8388608, .f32⟩
  | 95 => ⟨S8388608, .f32⟩
  | 96 => ⟨S8388608, .f32⟩
  | 97 => ⟨S8388608, .f32⟩
  | 98 => ⟨S_, .i32⟩
  | 99 => ⟨S8388608, .i32⟩
  | 100 => ⟨S8388608, .i1⟩
  | 101 => ⟨S_, .i32⟩
  | 102 => ⟨S8388608, .i32⟩
  | 103 => ⟨S8388608, .i32⟩
  | 104 => ⟨S8388608, .i32⟩
  | 105 => ⟨S_, .i32⟩
  | 106 => ⟨S8388608, .i32⟩
  | 107 => ⟨S8388608, .i1⟩
  | 108 => ⟨S_, .i32⟩
  | 109 => ⟨S8388608, .i32⟩
  | 110 => ⟨S8388608, .i32⟩
  | 111 => ⟨S8388608, .i32⟩
  | 112 => ⟨S_, .i32⟩
  | 113 => ⟨S8388608, .i32⟩
  | 114 => ⟨S8388608, .i1⟩
  | 115 => ⟨S_, .i32⟩
  | 116 => ⟨S8388608, .i32⟩
  | 117 => ⟨S8388608, .i32⟩
  | 118 => ⟨S8388608, .i32⟩
  | 119 => ⟨S_, .i32⟩
  | 120 => ⟨S8388608, .i32⟩
  | 121 => ⟨S8388608, .i32⟩
  | 122 => ⟨S8388608x1, .i32⟩
  | 123 => ⟨S8388608x1, .i32⟩
  | 124 => ⟨S8388608x1, .i32⟩
  | 125 => ⟨S8388608x1, .i32⟩
  | 126 => ⟨S8388608x4, .i32⟩
  | 127 => ⟨S8388608, .f32⟩
  | _ => ⟨S8388608x3, .f32⟩

abbrev hbmTy0_2 (i : Nat) : BufTy := match i % 128 with
  | 0 => ⟨S8388608x1x1, .f32⟩
  | 1 => ⟨S8388608, .f32⟩
  | 2 => ⟨S8388608x1x1, .f32⟩
  | 3 => ⟨S8388608, .f32⟩
  | 4 => ⟨S8388608, .f32⟩
  | 5 => ⟨S8388608x1x1, .f32⟩
  | 6 => ⟨S8388608, .f32⟩
  | 7 => ⟨S8388608, .f32⟩
  | 8 => ⟨S8388608, .f32⟩
  | 9 => ⟨S8388608, .f32⟩
  | 10 => ⟨S_, .i32⟩
  | 11 => ⟨S8388608, .i32⟩
  | 12 => ⟨S8388608, .i1⟩
  | 13 => ⟨S_, .i32⟩
  | 14 => ⟨S8388608, .i32⟩
  | 15 => ⟨S8388608, .i32⟩
  | 16 => ⟨S8388608, .i32⟩
  | 17 => ⟨S_, .i32⟩
  | 18 => ⟨S8388608, .i32⟩
  | 19 => ⟨S8388608, .i1⟩
  | 20 => ⟨S_, .i32⟩
  | 21 => ⟨S8388608, .i32⟩
  | 22 => ⟨S8388608, .i32⟩
  | 23 => ⟨S8388608, .i32⟩
  | 24 => ⟨S_, .i32⟩
  | 25 => ⟨S8388608, .i32⟩
  | 26 => ⟨S8388608, .i1⟩
  | 27 => ⟨S_, .i32⟩
  | 28 => ⟨S8388608, .i32⟩
  | 29 => ⟨S8388608, .i32⟩
  | 30 => ⟨S8388608, .i32⟩
  | 31 => ⟨S_, .i32⟩
  | 32 => ⟨S8388608, .i32⟩
  | 33 => ⟨S8388608, .i32⟩
  | 34 => ⟨S8388608x1, .i32⟩
  | 35 => ⟨S8388608x1, .i32⟩
  | 36 => ⟨S8388608x1, .i32⟩
  | 37 => ⟨S8388608x1, .i32⟩
  | 38 => ⟨S8388608x4, .i32⟩
  | 39 => ⟨S8388608, .f32⟩
  | 40 => ⟨S8388608x1x1, .f32⟩
  | 41 => ⟨S8388608, .f32⟩
  | 42 => ⟨S8388608x1x1, .f32⟩
  | 43 => ⟨S8388608, .f32⟩
  | 44 => ⟨S8388608, .f32⟩
  | 45 => ⟨S8388608x1x1, .f32⟩
  | 46 => ⟨S8388608, .f32⟩
  | 47 => ⟨S8388608, .f32⟩
  | 48 => ⟨S8388608, .f32⟩
  | 49 => ⟨S8388608, .f32⟩
  | 50 => ⟨S_, .i32⟩
  | 51 => ⟨S8388608, .i32⟩
  | 52 => ⟨S8388608, .i1⟩
  | 53 => ⟨S_, .i32⟩
  | 54 => ⟨S8388608, .i32⟩
  | 55 => ⟨S8388608, .i32⟩
  | 56 => ⟨S8388608, .i32⟩
  | 57 => ⟨S_, .i32⟩
  | 58 => ⟨S8388608, .i32⟩
  | 59 => ⟨S8388608, .i1⟩
  | 60 => ⟨S_, .i32⟩
  | 61 => ⟨S8388608, .i32⟩
  | 62 => ⟨S8388608, .i32⟩
  | 63 => ⟨S8388608, .i32⟩
  | 64 => ⟨S_, .i32⟩
  | 65 => ⟨S8388608, .i32⟩
  | 66 => ⟨S8388608, .i1⟩
  | 67 => ⟨S_, .i32⟩
  | 68 => ⟨S8388608, .i32⟩
  | 69 => ⟨S8388608, .i32⟩
  | 70 => ⟨S8388608, .i32⟩
  | 71 => ⟨S_, .i32⟩
  | 72 => ⟨S8388608, .i32⟩
  | 73 => ⟨S8388608, .i32⟩
  | 74 => ⟨S8388608x1, .i32⟩
  | 75 => ⟨S8388608x1, .i32⟩
  | 76 => ⟨S8388608x1, .i32⟩
  | 77 => ⟨S8388608x1, .i32⟩
  | 78 => ⟨S8388608x4, .i32⟩
  | 79 => ⟨S8388608, .f32⟩
  | 80 => ⟨S8388608x1x1, .f32⟩
  | 81 => ⟨S8388608, .f32⟩
  | 82 => ⟨S8388608x1x1, .f32⟩
  | 83 => ⟨S8388608, .f32⟩
  | 84 => ⟨S8388608, .f32⟩
  | 85 => ⟨S8388608x1x1, .f32⟩
  | 86 => ⟨S8388608, .f32⟩
  | 87 => ⟨S8388608, .f32⟩
  | 88 => ⟨S8388608, .f32⟩
  | 89 => ⟨S8388608, .f32⟩
  | 90 => ⟨S_, .i32⟩
  | 91 => ⟨S8388608, .i32⟩
  | 92 => ⟨S8388608, .i1⟩
  | 93 => ⟨S_, .i32⟩
  | 94 => ⟨S8388608, .i32⟩
  | 95 => ⟨S8388608, .i32⟩
  | 96 => ⟨S8388608, .i32⟩
  | 97 => ⟨S_, .i32⟩
  | 98 => ⟨S8388608, .i32⟩
  | 99 => ⟨S8388608, .i1⟩
  | 100 => ⟨S_, .i32⟩
  | 101 => ⟨S8388608, .i32⟩
  | 102 => ⟨S8388608, .i32⟩
  | 103 => ⟨S8388608, .i32⟩
  | 104 => ⟨S_, .i32⟩
  | 105 => ⟨S8388608, .i32⟩
  | 106 => ⟨S8388608, .i1⟩
  | 107 => ⟨S_, .i32⟩
  | 108 => ⟨S8388608, .i32⟩
  | 109 => ⟨S8388608, .i32⟩
  | 110 => ⟨S8388608, .i32⟩
  | 111 => ⟨S_, .i32⟩
  | 112 => ⟨S8388608, .i32⟩
  | 113 => ⟨S8388608, .i32⟩
  | 114 => ⟨S8388608x1, .i32⟩
  | 115 => ⟨S8388608x1, .i32⟩
  | 116 => ⟨S8388608x1, .i32⟩
  | 117 => ⟨S8388608x1, .i32⟩
  | 118 => ⟨S8388608x4, .i32⟩
  | 119 => ⟨S8388608, .f32⟩
  | 120 => ⟨S8388608x1x1, .f32⟩
  | 121 => ⟨S8388608, .f32⟩
  | 122 => ⟨S8388608x1x1, .f32⟩
  | 123 => ⟨S8388608, .f32⟩
  | 124 => ⟨S8388608, .f32⟩
  | 125 => ⟨S8388608x1x1, .f32⟩
  | 126 => ⟨S8388608, .f32⟩
  | 127 => ⟨S8388608, .f32⟩
  | _ => ⟨S8388608x3, .f32⟩

abbrev hbmTy0_3 (i : Nat) : BufTy := match i % 128 with
  | 0 => ⟨S8388608, .f32⟩
  | 1 => ⟨S8388608, .f32⟩
  | 2 => ⟨S_, .f32⟩
  | 3 => ⟨S_, .f32⟩
  | 4 => ⟨S8388608, .f32⟩
  | 5 => ⟨S8388608, .f32⟩
  | 6 => ⟨S_, .f32⟩
  | 7 => ⟨S8388608, .f32⟩
  | _ => ⟨S8388608x3, .f32⟩

abbrev hbmTy (i : Nat) : BufTy := match i / 128 with
  | 0 => hbmTy0_0 i
  | 1 => hbmTy0_1 i
  | 2 => hbmTy0_2 i
  | 3 => hbmTy0_3 i
  | _ => ⟨S8388608x3, .f32⟩

abbrev bufTy : (tb : Table) → Fin (tcTables nBuf tb) → BufTy
  | .hbm, ⟨i, _⟩ => hbmTy i
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_c_6 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_c_7 : Ref sig .tc := ⟨.hbm, 35, rfl⟩
abbrev main_v19 : Ref sig .tc := ⟨.hbm, 36, rfl⟩
abbrev main_v20 : Ref sig .tc := ⟨.hbm, 37, rfl⟩
abbrev main_c_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_c_11 : Ref sig .tc := ⟨.hbm, 66, rfl⟩
abbrev main_v46 : Ref sig .tc := ⟨.hbm, 67, rfl⟩
abbrev main_v47 : Ref sig .tc := ⟨.hbm, 68, rfl⟩
abbrev main_c_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_c_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_15 : Ref sig .tc := ⟨.hbm, 80, rfl⟩
abbrev main_v56 : Ref sig .tc := ⟨.hbm, 81, rfl⟩
abbrev main_v57 : Ref sig .tc := ⟨.hbm, 82, rfl⟩
abbrev main_c_16 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_17 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_18 : Ref sig .tc := ⟨.hbm, 106, rfl⟩
abbrev main_v79 : Ref sig .tc := ⟨.hbm, 107, rfl⟩
abbrev main_v80 : Ref sig .tc := ⟨.hbm, 108, rfl⟩
abbrev main_c_19 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_20 : Ref sig .tc := ⟨.hbm, 113, rfl⟩
abbrev main_v84 : Ref sig .tc := ⟨.hbm, 114, rfl⟩
abbrev main_v85 : Ref sig .tc := ⟨.hbm, 115, rfl⟩
abbrev main_c_21 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_c_22 : Ref sig .tc := ⟨.hbm, 120, rfl⟩
abbrev main_v89 : Ref sig .tc := ⟨.hbm, 121, rfl⟩
abbrev main_v90 : Ref sig .tc := ⟨.hbm, 122, rfl⟩
abbrev main_c_23 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_24 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_25 : Ref sig .tc := ⟨.hbm, 146, rfl⟩
abbrev main_v112 : Ref sig .tc := ⟨.hbm, 147, rfl⟩
abbrev main_v113 : Ref sig .tc := ⟨.hbm, 148, rfl⟩
abbrev main_c_26 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_27 : Ref sig .tc := ⟨.hbm, 153, rfl⟩
abbrev main_v117 : Ref sig .tc := ⟨.hbm, 154, rfl⟩
abbrev main_v118 : Ref sig .tc := ⟨.hbm, 155, rfl⟩
abbrev main_c_28 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_c_29 : Ref sig .tc := ⟨.hbm, 160, rfl⟩
abbrev main_v122 : Ref sig .tc := ⟨.hbm, 161, rfl⟩
abbrev main_v123 : Ref sig .tc := ⟨.hbm, 162, rfl⟩
abbrev main_c_30 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_c_31 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_c_32 : Ref sig .tc := ⟨.hbm, 186, rfl⟩
abbrev main_v145 : Ref sig .tc := ⟨.hbm, 187, rfl⟩
abbrev main_v146 : Ref sig .tc := ⟨.hbm, 188, rfl⟩
abbrev main_c_33 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_c_34 : Ref sig .tc := ⟨.hbm, 193, rfl⟩
abbrev main_v150 : Ref sig .tc := ⟨.hbm, 194, rfl⟩
abbrev main_v151 : Ref sig .tc := ⟨.hbm, 195, rfl⟩
abbrev main_c_35 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_c_36 : Ref sig .tc := ⟨.hbm, 200, rfl⟩
abbrev main_v155 : Ref sig .tc := ⟨.hbm, 201, rfl⟩
abbrev main_v156 : Ref sig .tc := ⟨.hbm, 202, rfl⟩
abbrev main_c_37 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_c_38 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_c_39 : Ref sig .tc := ⟨.hbm, 226, rfl⟩
abbrev main_v178 : Ref sig .tc := ⟨.hbm, 227, rfl⟩
abbrev main_v179 : Ref sig .tc := ⟨.hbm, 228, rfl⟩
abbrev main_c_40 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_c_41 : Ref sig .tc := ⟨.hbm, 233, rfl⟩
abbrev main_v183 : Ref sig .tc := ⟨.hbm, 234, rfl⟩
abbrev main_v184 : Ref sig .tc := ⟨.hbm, 235, rfl⟩
abbrev main_c_42 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_c_43 : Ref sig .tc := ⟨.hbm, 240, rfl⟩
abbrev main_v188 : Ref sig .tc := ⟨.hbm, 241, rfl⟩
abbrev main_v189 : Ref sig .tc := ⟨.hbm, 242, rfl⟩
abbrev main_c_44 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_c_45 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_c_46 : Ref sig .tc := ⟨.hbm, 266, rfl⟩
abbrev main_v211 : Ref sig .tc := ⟨.hbm, 267, rfl⟩
abbrev main_v212 : Ref sig .tc := ⟨.hbm, 268, rfl⟩
abbrev main_c_47 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_c_48 : Ref sig .tc := ⟨.hbm, 273, rfl⟩
abbrev main_v216 : Ref sig .tc := ⟨.hbm, 274, rfl⟩
abbrev main_v217 : Ref sig .tc := ⟨.hbm, 275, rfl⟩
abbrev main_c_49 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_c_50 : Ref sig .tc := ⟨.hbm, 280, rfl⟩
abbrev main_v221 : Ref sig .tc := ⟨.hbm, 281, rfl⟩
abbrev main_v222 : Ref sig .tc := ⟨.hbm, 282, rfl⟩
abbrev main_c_51 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_c_52 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_c_53 : Ref sig .tc := ⟨.hbm, 306, rfl⟩
abbrev main_v244 : Ref sig .tc := ⟨.hbm, 307, rfl⟩
abbrev main_v245 : Ref sig .tc := ⟨.hbm, 308, rfl⟩
abbrev main_c_54 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_c_55 : Ref sig .tc := ⟨.hbm, 313, rfl⟩
abbrev main_v249 : Ref sig .tc := ⟨.hbm, 314, rfl⟩
abbrev main_v250 : Ref sig .tc := ⟨.hbm, 315, rfl⟩
abbrev main_c_56 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_c_57 : Ref sig .tc := ⟨.hbm, 320, rfl⟩
abbrev main_v254 : Ref sig .tc := ⟨.hbm, 321, rfl⟩
abbrev main_v255 : Ref sig .tc := ⟨.hbm, 322, rfl⟩
abbrev main_c_58 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_c_59 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_c_60 : Ref sig .tc := ⟨.hbm, 346, rfl⟩
abbrev main_v277 : Ref sig .tc := ⟨.hbm, 347, rfl⟩
abbrev main_v278 : Ref sig .tc := ⟨.hbm, 348, rfl⟩
abbrev main_c_61 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_c_62 : Ref sig .tc := ⟨.hbm, 353, rfl⟩
abbrev main_v282 : Ref sig .tc := ⟨.hbm, 354, rfl⟩
abbrev main_v283 : Ref sig .tc := ⟨.hbm, 355, rfl⟩
abbrev main_c_63 : Ref sig .tc := ⟨.hbm, 356, rfl⟩
abbrev main_v284 : Ref sig .tc := ⟨.hbm, 357, rfl⟩
abbrev main_v285 : Ref sig .tc := ⟨.hbm, 358, rfl⟩
abbrev main_v286 : Ref sig .tc := ⟨.hbm, 359, rfl⟩
abbrev main_c_64 : Ref sig .tc := ⟨.hbm, 360, rfl⟩
abbrev main_v287 : Ref sig .tc := ⟨.hbm, 361, rfl⟩
abbrev main_v288 : Ref sig .tc := ⟨.hbm, 362, rfl⟩
abbrev main_c_65 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_c_66 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_v309 : Ref sig .tc := ⟨.hbm, 385, rfl⟩
abbrev main_cst_67 : Ref sig .tc := ⟨.hbm, 386, rfl⟩
abbrev main_call1_v0 : Ref sig .tc := ⟨.hbm, 387, rfl⟩
abbrev main_call1_v1 : Ref sig .tc := ⟨.hbm, 388, rfl⟩
abbrev main_v310 : Ref sig .tc := ⟨.hbm, 389, rfl⟩
abbrev main_cst_68 : Ref sig .tc := ⟨.hbm, 390, rfl⟩
abbrev main_v311 : Ref sig .tc := ⟨.hbm, 391, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S8388608x3_0_1 : S1x3.BroadcastsInDim S8388608x3 (![0, 1] : Fin 2 → Fin S8388608x3.rank)
  bcast_S_S8388608x3 : S_.BroadcastsInDim S8388608x3 (![] : Fin 0 → Fin S8388608x3.rank)
  bcast_S_S3 : S_.BroadcastsInDim S3 (![] : Fin 0 → Fin S3.rank)
  reducesTo_S8388608x3_S8388608_d1 : S8388608x3.ReducesTo [1] S8388608
  h_S_ : 0 < S_.numel
  bcast_S8388608x3_S8388608x3x1_0_1 : S8388608x3.BroadcastsInDim S8388608x3x1 (![0, 1] : Fin 2 → Fin S8388608x3x1.rank)
  concatenates_S8388608x3x1_S8388608x3x1_S8388608x3x2_d2 : Shape.Concatenates [S8388608x3x1, S8388608x3x1] S8388608x3x2 2
  slices_S8388608x3_S8388608x1_0_0 : S8388608x3.Slices ![0, 0] S8388608x1
  shapeCasts_S8388608x1_S8388608 : S8388608x1.ShapeCasts S8388608
  slices_S8388608x3_S8388608x1_0_1 : S8388608x3.Slices ![0, 1] S8388608x1
  slices_S8388608x3_S8388608x1_0_2 : S8388608x3.Slices ![0, 2] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x1_S8388608x4_d1 : Shape.Concatenates [S8388608x1, S8388608x1, S8388608x1, S8388608x1] S8388608x4 1
  slices_S8388608x3x2_S8388608x1x1_0_0_0 : S8388608x3x2.Slices ![0, 0, 0] S8388608x1x1
  shapeCasts_S8388608x1x1_S8388608 : S8388608x1x1.ShapeCasts S8388608
  slices_S8388608x3x2_S8388608x1x1_0_1_0 : S8388608x3x2.Slices ![0, 1, 0] S8388608x1x1
  slices_S8388608x3x2_S8388608x1x1_0_2_0 : S8388608x3x2.Slices ![0, 2, 0] S8388608x1x1
  slices_S8388608x3x2_S8388608x1x1_0_2_1 : S8388608x3x2.Slices ![0, 2, 1] S8388608x1x1
  slices_S8388608x3x2_S8388608x1x1_0_1_1 : S8388608x3x2.Slices ![0, 1, 1] S8388608x1x1
  slices_S8388608x3x2_S8388608x1x1_0_0_1 : S8388608x3x2.Slices ![0, 0, 1] S8388608x1x1
  gather_S200x200x50x1_S8388608x4_S8388608_n_0123_n_n_0123_1_1111_wf : GatherDims.WF S200x200x50x1 S8388608x4 S8388608 [] [0, 1, 2, 3] [] [0, 1, 2, 3] [] 1 ![1, 1, 1, 1]

variable [Facts₀]

def gather_S200x200x50x1_S8388608x4_S8388608_n_0123_n_n_0123_1_1111 : GatherDims S200x200x50x1 S8388608x4 S8388608 where
  offsetDims := []
  collapsedSliceDims := [0, 1, 2, 3]
  operandBatchingDims := []
  startIndicesBatchingDims := []
  startIndexMap := [0, 1, 2, 3]
  indexVectorDim := 1
  sliceSizes := ![1, 1, 1, 1]
  wf := gather_S200x200x50x1_S8388608x4_S8388608_n_0123_n_n_0123_1_1111_wf

class Facts : Prop extends Facts₀ where

variable [Facts]
-- ==== Proof.BDefs.lean ====
/-
  The one region of `Kernel`'s @main, as data: what each window's array holds when the region is entered, a window's
  block at a grid point, and what the body leaves in the output window's staging buffer.

  The region has a grid of 64 points. At point `t` the body sees columns `t·131072 … t·131072 + 131071` of three input
  arrays — the eight gathered corner values (8 rows), the three trilinear fractions (3 rows), the validity flag as a
  float (1 row) — and writes the same columns of the one-row output: the weighted sum of the corners where the flag is
  not zero, zero elsewhere.  Nothing is carried from one point to the next.
-/
import proofs.«173088_j25065429139728_2_alg».proof.Proof.Gen.Kernel.Launch
import proofs.«173088_j25065429139728_2_alg».proof.Proof.Gen.Kernel.Skeleton
import proofs.«173088_j25065429139728_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The three stretches of host operations before the region: @main's first lines, the clamp of the integer cell
    indices (an outlined function), and the rest up to the region. -/
abbrev pre : List (List (HloOp τ sig (Elt F))) := [hostOps0, hostOps0_1, hostOps0_2]

/-- Core `c`'s buffer contents when the region is entered: the launch contents after the host operations before it. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-block rectangles the body loads and stores through. -/
abbrev rC : Rect S8x131072 := Rect.unit (s := S8x131072) ![0, 0] S8x131072.size inb_S8x131072_S8x131072_0_0
abbrev rF : Rect S3x131072 := Rect.unit (s := S3x131072) ![0, 0] S3x131072.size inb_S3x131072_S3x131072_0_0
abbrev rO : Rect S1x131072 := Rect.unit (s := S1x131072) ![0, 0] S1x131072.size inb_S1x131072_S1x131072_0_0

/-- What the body leaves in the output window's staging buffer, from the three input blocks: its one store, whose
    value is the masked weighted sum (`k0_pay1` of `k0_pay2`). -/
def out0_3 (xc : Vec F S8x131072 .f32) (xf : Vec F S3x131072 .f32) (xv : Vec F S1x131072 .f32) : Vec F S1x131072 .f32 :=
  View.canon [⟨rO, k0_pay1 (k0_pay2 (View.ld xf rF) (View.ld xc rC)) (View.ld xv rO)⟩]

/-- The proof data of the one pipeline on core `c`: the arrays as the region finds them; after the body at point `t`
    each input's buffer still at its block and the output's at `out0_3` of the input blocks; nothing else kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.Kernel.Hand

end
-- ==== Proof.BFrame.lean ====
/-
  The frame of `Kernel`'s @main: it runs to the end from any memory, faults nowhere, and leaves its two argument
  arrays as they were launched.

  @main is three stretches of host operations, one region over a grid of 64 points, and three more host operations.
  Every host operation writes exactly one buffer, its own result, and no result buffer is an argument array; the region
  writes only its output array, which is no argument array either.  So each argument array is read-only throughout.

  For the region the pipeline needs, at each grid point, a triple for the kernel body: given the three input windows'
  staging buffers at their blocks, the body leaves them as they were and leaves the output window's staging buffer at
  `out0_3` of the three blocks — the body's one store covers that whole buffer.
-/
import proofs.«173088_j25065429139728_2_alg».proof.Proof.BDefs
import Idealize.ShloMosaic.Lib.Ring
import Idealize.ShloMosaic.Lib.Tactic

-- membership in a rectangle spanning a whole block recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered with every buffer at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch only unscoped TensorCore buffers: the pipeline's arrays and the buffers that
    bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the pipeline: each writes its own result buffer, and none of the three results is one of
    the four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays are read-only

Each host operation writes one buffer, its result; telling that buffer from an argument array is telling two
references apart, stretch by stretch. -/

theorem hostOps0_keeps_main_arg0 : (hostOps0 : List (HloOp τ sig (Elt F))).Forall fun op => Proc.devRef .tc main_arg0 ∉ op.writes := by
  simp only [hostOps0, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_1_keeps_main_arg0 : (hostOps0_1 : List (HloOp τ sig (Elt F))).Forall fun op => Proc.devRef .tc main_arg0 ∉ op.writes := by
  simp only [hostOps0_1, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps0_2_keeps_main_arg0 : (hostOps0_2 : List (HloOp τ sig (Elt F))).Forall fun op => Proc.devRef .tc main_arg0 ∉ op.writes := by
  simp only [hostOps0_2, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_keeps_main_arg0 : (hostOps1 : List (HloOp τ sig (Elt F))).Forall fun op => Proc.devRef .tc main_arg0 ∉ op.writes := by
  simp only [hostOps1, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_keeps_main_arg1 : (hostOps0 : List (HloOp τ sig (Elt F))).Forall fun op => Proc.devRef .tc main_arg1 ∉ op.writes := by
  simp only [hostOps0, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_1_keeps_main_arg1 : (hostOps0_1 : List (HloOp τ sig (Elt F))).Forall fun op => Proc.devRef .tc main_arg1 ∉ op.writes := by
  simp only [hostOps0_1, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps0_2_keeps_main_arg1 : (hostOps0_2 : List (HloOp τ sig (Elt F))).Forall fun op => Proc.devRef .tc main_arg1 ∉ op.writes := by
  simp only [hostOps0_2, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_keeps_main_arg1 : (hostOps1 : List (HloOp τ sig (Elt F))).Forall fun op => Proc.devRef .tc main_arg1 ∉ op.writes := by
  simp only [hostOps1, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- A buffer that no operation of any of the three stretches before the region writes is found by the region as launched. -/
theorem V0_of_keeps (c : Dev nD) (b : Ref sig .tc)
    (h0 : (hostOps0 : List (HloOp τ sig (Elt F))).Forall fun op => Proc.devRef .tc b ∉ op.writes)
    (h1 : (hostOps0_1 : List (HloOp τ sig (Elt F))).Forall fun op => Proc.devRef .tc b ∉ op.writes)
    (h2 : (hostOps0_2 : List (HloOp τ sig (Elt F))).Forall fun op => Proc.devRef .tc b ∉ op.writes) :
    V m c b = m ((c : Thread nD τ).loc b) :=
  StableHlo.after_of_forall_not_mem (b := Proc.devRef .tc b) _ _ (fun op hop => by
    obtain ⟨l, hl, hop⟩ := List.mem_flatten.mp hop
    simp only [List.mem_cons, List.mem_nil_iff, or_false] at hl
    rcases hl with rfl | rfl | rfl
    · exact (List.forall_iff_forall_mem.mp h0) op hop
    · exact (List.forall_iff_forall_mem.mp h1) op hop
    · exact (List.forall_iff_forall_mem.mp h2) op hop)

/-- No host operation before the region writes `main_arg0`: the region finds it as launched. -/
theorem V_main_arg0 (c : Dev nD) : V m c main_arg0 = m ((c : Thread nD τ).loc main_arg0) :=
  V0_of_keeps m c main_arg0 hostOps0_keeps_main_arg0 hostOps0_1_keeps_main_arg0 hostOps0_2_keeps_main_arg0
/-- Nor `main_arg1`. -/
theorem V_main_arg1 (c : Dev nD) : V m c main_arg1 = m ((c : Thread nD τ).loc main_arg1) :=
  V0_of_keeps m c main_arg1 hostOps0_keeps_main_arg1 hostOps0_1_keeps_main_arg1 hostOps0_2_keeps_main_arg1

/-- No host operation after the region writes `main_arg0`, and it is no array of the pipeline: it ends as launched. -/
theorem W_main_arg0 (datsF : (p : Fin _) → (c : Dev nD) → Dat τ (Elt F) Unit ℕ (UR sig nD τ) ℕ (cfgs p) c) (c : Dev nD) :
    Pipeline.afterTail₀ cfgs datsF 0 (V0 m) [hostOps1] c main_arg0 = m ((c : Thread nD τ).loc main_arg0) := by
  unfold Pipeline.afterTail₀
  rw [StableHlo.after_of_forall_not_mem (b := Proc.devRef .tc main_arg0) _ _ (by
      simp only [List.flatten_cons, List.flatten_nil, List.append_nil]
      exact List.forall_iff_forall_mem.mp hostOps1_keeps_main_arg0),
    Pipeline.withArrays_of_ne _ c (V0 m c) _ main_arg0 (by exact (by decide : ∀ w, Pipeline.arrRef spec0 w ≠ main_arg0))]
  exact V_main_arg0 m c
/-- The same for `main_arg1`. -/
theorem W_main_arg1 (datsF : (p : Fin _) → (c : Dev nD) → Dat τ (Elt F) Unit ℕ (UR sig nD τ) ℕ (cfgs p) c) (c : Dev nD) :
    Pipeline.afterTail₀ cfgs datsF 0 (V0 m) [hostOps1] c main_arg1 = m ((c : Thread nD τ).loc main_arg1) := by
  unfold Pipeline.afterTail₀
  rw [StableHlo.after_of_forall_not_mem (b := Proc.devRef .tc main_arg1) _ _ (by
      simp only [List.flatten_cons, List.flatten_nil, List.append_nil]
      exact List.forall_iff_forall_mem.mp hostOps1_keeps_main_arg1),
    Pipeline.withArrays_of_ne _ c (V0 m c) _ main_arg1 (by exact (by decide : ∀ w, Pipeline.arrRef spec0 w ≠ main_arg1))]
  exact V_main_arg1 m c

/-! ## The input windows' buffers hold their blocks

An input window is fetched whole at every point, is never cut at the array's edge (131072 divides 8388608) and never
idles, and the body leaves its buffer as found: so wherever the body is handed the buffer, it holds the window's block
of the array as the region found it. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that ends with every unscoped buffer outside the pipeline's arrays as the operations after the region leave
    it ends, in particular, with the two argument arrays as launched: neither is an array of the pipeline, and nothing
    before, in or after the region writes them. -/
theorem frame_of (datsF : (p : Fin 1) → (c : Dev nD) → Dat τ (Elt F) Unit ℕ (UR sig nD τ) ℕ (cfgs p) c)
    (h : θ_run defs (onTc (τ := τ) (main (F := F))) (s₀ m ρ) (Pipeline.FramePost cfgs datsF 0 (Pipeline.afterTail₀ cfgs datsF 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m datsF c),
     ((h c).2 main_arg1 (Pipeline.mem_restRefs_of main_arg1 (by decide) (by decide))).trans (W_main_arg1 m datsF c)⟩) h

/-! ## The body's triple -/

/-- The body's one store spans the output window's whole buffer, so it covers it. -/
theorem cover0_3 (p0 : Vec F S1x131072 .f32) (y : S1x131072.Idx) :
    ∃ pc ∈ ([⟨rO, p0⟩] : List (View.Piece (Elt F) S1x131072 .f32)), y ∈ pc.1.set :=
  View.cover_of_tiled [⟨rO, p0⟩] S1x131072.size (by rfl) y

set_option maxHeartbeats 1000000 in
/-- The kernel body on whole staging memrefs — the three inputs' at contents `xc`, `xf`, `xv`, the output's at
    anything — runs to the continuation with the inputs' as they were and the output's at `out0_3 xc xf xv`: it loads
    the fractions and the corners (its first part), the flag, and the output's old contents (unused), then stores the
    masked weighted sum over the whole output buffer. -/
theorem sound_kernel (c : Dev nD) (E : Set ℕ) (i : grid0.Coords)
    (arg1 : Memref sig .tc .vmem S8x131072 .f32) (harg1 : arg1.IsWhole) (arg2 : Memref sig .tc .vmem S3x131072 .f32) (harg2 : arg2.IsWhole)
    (arg3 : Memref sig .tc .vmem S1x131072 .f32) (harg3 : arg3.IsWhole) (arg4 : Memref sig .tc .vmem S1x131072 .f32) (harg4 : arg4.IsWhole)
    (xc : Vec F S8x131072 .f32) (xf : Vec F S3x131072 .f32) (xv : Vec F S1x131072 .f32) (K : PUnit → sProp 𝕄) :
    iprop(owns (c : Thread nD τ) arg1 fullShare xc ∗ owns (c : Thread nD τ) arg2 fullShare xf ∗ owns (c : Thread nD τ) arg3 fullShare xv
        ∗ (∃ d, owns (c : Thread nD τ) arg4 fullShare d)
        ∗ (iprop(owns (c : Thread nD τ) arg1 fullShare xc ∗ owns (c : Thread nD τ) arg2 fullShare xf ∗ owns (c : Thread nD τ) arg3 fullShare xv
            ∗ owns (c : Thread nD τ) arg4 fullShare (out0_3 xc xf xv)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_3 _)

/-! ## The body obligation, at a generic point -/

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`: the invariant, the core's debts, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has each array of the pipeline at what the proof data give and every other unscoped buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: @main runs to the end and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.KDefs.lean ====
/-
  The one region of `KernelIdeal`'s @main, as data: what each window's array holds when the region is entered, a window's
  block at a grid point, and what the body leaves in the output window's staging buffer.

  The region has a grid of 64 points. At point `t` the body sees columns `t·131072 … t·131072 + 131071` of three input
  arrays — the eight gathered corner values (8 rows), the three trilinear fractions (3 rows), the validity flag as a
  float (1 row) — and writes the same columns of the one-row output: the weighted sum of the corners where the flag is
  not zero, zero elsewhere.  Nothing is carried from one point to the next.
-/
import proofs.«173088_j25065429139728_2_alg».proof.Proof.Gen.KernelIdeal.Launch
import proofs.«173088_j25065429139728_2_alg».proof.Proof.Gen.KernelIdeal.Skeleton
import proofs.«173088_j25065429139728_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The three stretches of host operations before the region: @main's first lines, the clamp of the integer cell
    indices (an outlined function), and the rest up to the region. -/
abbrev pre : List (List (HloOp τ sig (Elt F))) := [hostOps0, hostOps0_1, hostOps0_2]

/-- Core `c`'s buffer contents when the region is entered: the launch contents after the host operations before it. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-block rectangles the body loads and stores through. -/
abbrev rC : Rect S8x131072 := Rect.unit (s := S8x131072) ![0, 0] S8x131072.size inb_S8x131072_S8x131072_0_0
abbrev rF : Rect S3x131072 := Rect.unit (s := S3x131072) ![0, 0] S3x131072.size inb_S3x131072_S3x131072_0_0
abbrev rO : Rect S1x131072 := Rect.unit (s := S1x131072) ![0, 0] S1x131072.size inb_S1x131072_S1x131072_0_0

/-- What the body leaves in the output window's staging buffer, from the three input blocks: its one store, whose
    value is the masked weighted sum (`k0_pay1` of `k0_pay2`). -/
def out0_3 (xc : Vec F S8x131072 .f32) (xf : Vec F S3x131072 .f32) (xv : Vec F S1x131072 .f32) : Vec F S1x131072 .f32 :=
  View.canon [⟨rO, k0_pay1 (k0_pay2 (View.ld xf rF) (View.ld xc rC)) (View.ld xv rO)⟩]

/-- The proof data of the one pipeline on core `c`: the arrays as the region finds them; after the body at point `t`
    each input's buffer still at its block and the output's at `out0_3` of the input blocks; nothing else kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.KernelIdeal.Hand

end
-- ==== Proof.KFrame.lean ====
/-
  The frame of `KernelIdeal`'s @main: it runs to the end from any memory, faults nowhere, and leaves its two argument
  arrays as they were launched.

  @main is three stretches of host operations, one region over a grid of 64 points, and three more host operations.
  Every host operation writes exactly one buffer, its own result, and no result buffer is an argument array; the region
  writes only its output array, which is no argument array either.  So each argument array is read-only throughout.

  For the region the pipeline needs, at each grid point, a triple for the kernel body: given the three input windows'
  staging buffers at their blocks, the body leaves them as they were and leaves the output window's staging buffer at
  `out0_3` of the three blocks — the body's one store covers that whole buffer.
-/
import proofs.«173088_j25065429139728_2_alg».proof.Proof.KDefs
import Idealize.ShloMosaic.Lib.Ring
import Idealize.ShloMosaic.Lib.Tactic

-- membership in a rectangle spanning a whole block recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered with every buffer at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch only unscoped TensorCore buffers: the pipeline's arrays and the buffers that
    bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none writes an array of the pipeline: each writes its own result buffer, and none of the three results is one of
    the four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays are read-only

Each host operation writes one buffer, its result; telling that buffer from an argument array is telling two
references apart, stretch by stretch. -/

theorem hostOps0_keeps_main_arg0 : (hostOps0 : List (HloOp τ sig (Elt F))).Forall fun op => Proc.devRef .tc main_arg0 ∉ op.writes := by
  simp only [hostOps0, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_1_keeps_main_arg0 : (hostOps0_1 : List (HloOp τ sig (Elt F))).Forall fun op => Proc.devRef .tc main_arg0 ∉ op.writes := by
  simp only [hostOps0_1, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps0_2_keeps_main_arg0 : (hostOps0_2 : List (HloOp τ sig (Elt F))).Forall fun op => Proc.devRef .tc main_arg0 ∉ op.writes := by
  simp only [hostOps0_2, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_keeps_main_arg0 : (hostOps1 : List (HloOp τ sig (Elt F))).Forall fun op => Proc.devRef .tc main_arg0 ∉ op.writes := by
  simp only [hostOps1, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_keeps_main_arg1 : (hostOps0 : List (HloOp τ sig (Elt F))).Forall fun op => Proc.devRef .tc main_arg1 ∉ op.writes := by
  simp only [hostOps0, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_1_keeps_main_arg1 : (hostOps0_1 : List (HloOp τ sig (Elt F))).Forall fun op => Proc.devRef .tc main_arg1 ∉ op.writes := by
  simp only [hostOps0_1, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 40000000 in
theorem hostOps0_2_keeps_main_arg1 : (hostOps0_2 : List (HloOp τ sig (Elt F))).Forall fun op => Proc.devRef .tc main_arg1 ∉ op.writes := by
  simp only [hostOps0_2, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_keeps_main_arg1 : (hostOps1 : List (HloOp τ sig (Elt F))).Forall fun op => Proc.devRef .tc main_arg1 ∉ op.writes := by
  simp only [hostOps1, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- A buffer that no operation of any of the three stretches before the region writes is found by the region as launched. -/
theorem V0_of_keeps (c : Dev nD) (b : Ref sig .tc)
    (h0 : (hostOps0 : List (HloOp τ sig (Elt F))).Forall fun op => Proc.devRef .tc b ∉ op.writes)
    (h1 : (hostOps0_1 : List (HloOp τ sig (Elt F))).Forall fun op => Proc.devRef .tc b ∉ op.writes)
    (h2 : (hostOps0_2 : List (HloOp τ sig (Elt F))).Forall fun op => Proc.devRef .tc b ∉ op.writes) :
    V m c b = m ((c : Thread nD τ).loc b) :=
  StableHlo.after_of_forall_not_mem (b := Proc.devRef .tc b) _ _ (fun op hop => by
    obtain ⟨l, hl, hop⟩ := List.mem_flatten.mp hop
    simp only [List.mem_cons, List.mem_nil_iff, or_false] at hl
    rcases hl with rfl | rfl | rfl
    · exact (List.forall_iff_forall_mem.mp h0) op hop
    · exact (List.forall_iff_forall_mem.mp h1) op hop
    · exact (List.forall_iff_forall_mem.mp h2) op hop)

/-- No host operation before the region writes `main_arg0`: the region finds it as launched. -/
theorem V_main_arg0 (c : Dev nD) : V m c main_arg0 = m ((c : Thread nD τ).loc main_arg0) :=
  V0_of_keeps m c main_arg0 hostOps0_keeps_main_arg0 hostOps0_1_keeps_main_arg0 hostOps0_2_keeps_main_arg0
/-- Nor `main_arg1`. -/
theorem V_main_arg1 (c : Dev nD) : V m c main_arg1 = m ((c : Thread nD τ).loc main_arg1) :=
  V0_of_keeps m c main_arg1 hostOps0_keeps_main_arg1 hostOps0_1_keeps_main_arg1 hostOps0_2_keeps_main_arg1

/-- No host operation after the region writes `main_arg0`, and it is no array of the pipeline: it ends as launched. -/
theorem W_main_arg0 (datsF : (p : Fin _) → (c : Dev nD) → Dat τ (Elt F) Unit ℕ (UR sig nD τ) ℕ (cfgs p) c) (c : Dev nD) :
    Pipeline.afterTail₀ cfgs datsF 0 (V0 m) [hostOps1] c main_arg0 = m ((c : Thread nD τ).loc main_arg0) := by
  unfold Pipeline.afterTail₀
  rw [StableHlo.after_of_forall_not_mem (b := Proc.devRef .tc main_arg0) _ _ (by
      simp only [List.flatten_cons, List.flatten_nil, List.append_nil]
      exact List.forall_iff_forall_mem.mp hostOps1_keeps_main_arg0),
    Pipeline.withArrays_of_ne _ c (V0 m c) _ main_arg0 (by exact (by decide : ∀ w, Pipeline.arrRef spec0 w ≠ main_arg0))]
  exact V_main_arg0 m c
/-- The same for `main_arg1`. -/
theorem W_main_arg1 (datsF : (p : Fin _) → (c : Dev nD) → Dat τ (Elt F) Unit ℕ (UR sig nD τ) ℕ (cfgs p) c) (c : Dev nD) :
    Pipeline.afterTail₀ cfgs datsF 0 (V0 m) [hostOps1] c main_arg1 = m ((c : Thread nD τ).loc main_arg1) := by
  unfold Pipeline.afterTail₀
  rw [StableHlo.after_of_forall_not_mem (b := Proc.devRef .tc main_arg1) _ _ (by
      simp only [List.flatten_cons, List.flatten_nil, List.append_nil]
      exact List.forall_iff_forall_mem.mp hostOps1_keeps_main_arg1),
    Pipeline.withArrays_of_ne _ c (V0 m c) _ main_arg1 (by exact (by decide : ∀ w, Pipeline.arrRef spec0 w ≠ main_arg1))]
  exact V_main_arg1 m c

/-! ## The input windows' buffers hold their blocks

An input window is fetched whole at every point, is never cut at the array's edge (131072 divides 8388608) and never
idles, and the body leaves its buffer as found: so wherever the body is handed the buffer, it holds the window's block
of the array as the region found it. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run that ends with every unscoped buffer outside the pipeline's arrays as the operations after the region leave
    it ends, in particular, with the two argument arrays as launched: neither is an array of the pipeline, and nothing
    before, in or after the region writes them. -/
theorem frame_of (datsF : (p : Fin 1) → (c : Dev nD) → Dat τ (Elt F) Unit ℕ (UR sig nD τ) ℕ (cfgs p) c)
    (h : θ_run defs (onTc (τ := τ) (main (F := F))) (s₀ m ρ) (Pipeline.FramePost cfgs datsF 0 (Pipeline.afterTail₀ cfgs datsF 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m datsF c),
     ((h c).2 main_arg1 (Pipeline.mem_restRefs_of main_arg1 (by decide) (by decide))).trans (W_main_arg1 m datsF c)⟩) h

/-! ## The body's triple -/

/-- The body's one store spans the output window's whole buffer, so it covers it. -/
theorem cover0_3 (p0 : Vec F S1x131072 .f32) (y : S1x131072.Idx) :
    ∃ pc ∈ ([⟨rO, p0⟩] : List (View.Piece (Elt F) S1x131072 .f32)), y ∈ pc.1.set :=
  View.cover_of_tiled [⟨rO, p0⟩] S1x131072.size (by rfl) y

set_option maxHeartbeats 1000000 in
/-- The kernel body on whole staging memrefs — the three inputs' at contents `xc`, `xf`, `xv`, the output's at
    anything — runs to the continuation with the inputs' as they were and the output's at `out0_3 xc xf xv`: it loads
    the fractions and the corners (its first part), the flag, and the output's old contents (unused), then stores the
    masked weighted sum over the whole output buffer. -/
theorem sound_kernel (c : Dev nD) (E : Set ℕ) (i : grid0.Coords)
    (arg1 : Memref sig .tc .vmem S8x131072 .f32) (harg1 : arg1.IsWhole) (arg2 : Memref sig .tc .vmem S3x131072 .f32) (harg2 : arg2.IsWhole)
    (arg3 : Memref sig .tc .vmem S1x131072 .f32) (harg3 : arg3.IsWhole) (arg4 : Memref sig .tc .vmem S1x131072 .f32) (harg4 : arg4.IsWhole)
    (xc : Vec F S8x131072 .f32) (xf : Vec F S3x131072 .f32) (xv : Vec F S1x131072 .f32) (K : PUnit → sProp 𝕄) :
    iprop(owns (c : Thread nD τ) arg1 fullShare xc ∗ owns (c : Thread nD τ) arg2 fullShare xf ∗ owns (c : Thread nD τ) arg3 fullShare xv
        ∗ (∃ d, owns (c : Thread nD τ) arg4 fullShare d)
        ∗ (iprop(owns (c : Thread nD τ) arg1 fullShare xc ∗ owns (c : Thread nD τ) arg2 fullShare xf ∗ owns (c : Thread nD τ) arg3 fullShare xv
            ∗ owns (c : Thread nD τ) arg4 fullShare (out0_3 xc xf xv)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_3 _)

/-! ## The body obligation, at a generic point -/

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`: the invariant, the core's debts, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and every
    final state has each array of the pipeline at what the proof data give and every other unscoped buffer as the
    operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: @main runs to the end and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.RefOps.lean ====
/- The reference's @main as lists of host operations, window by window (65, 60, 60, 60, 60, 60, 25 operations; 390 in all):
   each entry is the operation of one printed line, the two outlined functions (the integer clamp and the final masked
   select) listed at their calls over the calls' own buffers. -/
import proofs.«173088_j25065429139728_2_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- The 65 operations of window 0. -/
abbrev ops0 : List (HloOp τ sig (Elt F)) :=
  [ StableHlo.nullary main_c (fun i => lit0 (S3.rowMajor i)),
    StableHlo.nullary main_cst (fun i => FloatOps.ofBits .f32 (lit1 (S3.rowMajor i))),
    StableHlo.nullary main_cst_0 (fun i => FloatOps.ofBits .f32 (lit2 (S3.rowMajor i))),
    StableHlo.unary main_cst_0 main_v0 (broadcastInDim S1x3 ![1] bcast_S3_S1x3_1 : (⟨S3, .f32⟩ : BufTy).Contents (Elt F) → (⟨S1x3, .f32⟩ : BufTy).Contents (Elt F)),
    StableHlo.unary main_v0 main_v1 (broadcastInDim S8388608x3 ![0, 1] bcast_S1x3_S8388608x3_0_1 : (⟨S1x3, .f32⟩ : BufTy).Contents (Elt F) → (⟨S8388608x3, .f32⟩ : BufTy).Contents (Elt F)),
    StableHlo.binary main_arg0 main_v1 main_v2 (subf : (⟨S8388608x3, .f32⟩ : BufTy).Contents (Elt F) → (⟨S8388608x3, .f32⟩ : BufTy).Contents (Elt F) → (⟨S8388608x3, .f32⟩ : BufTy).Contents (Elt F)),
    StableHlo.nullary main_cst_1 (constant S_ .f32 0x41C80000#32),
    StableHlo.unary main_cst_1 main_v3 (broadcastInDim S8388608x3 ![] bcast_S_S8388608x3 : (⟨S_, .f32⟩ : BufTy).Contents (Elt F) → (⟨S8388608x3, .f32⟩ : BufTy).Contents (Elt F)),
    StableHlo.binary main_v2 main_v3 main_v4 (mulf : (⟨S8388608x3, .f32⟩ : BufTy).Contents (Elt F) → (⟨S8388608x3, .f32⟩ : BufTy).Contents (Elt F) → (⟨S8388608x3, .f32⟩ : BufTy).Contents (Elt F)),
    StableHlo.nullary main_cst_2 (constant S_ .f32 0x00000000#32),
    StableHlo.unary main_cst_2 main_v5 (broadcastInDim S8388608x3 ![] bcast_S_S8388608x3 : (⟨S_, .f32⟩ : BufTy).Contents (Elt F) → (⟨S8388608x3, .f32⟩ : BufTy).Contents (Elt F)),
    StableHlo.binary main_v4 main_v5 main_v6 (cmpf .oge : (⟨S8388608x3, .f32⟩ : BufTy).Contents (Elt F) → (⟨S8388608x3, .f32⟩ : BufTy).Contents (Elt F) → (⟨S8388608x3, .i1⟩ : BufTy).Contents (Elt F)),
    StableHlo.nullary main_cst_3 (constant S_ .f32 0x3F800000#32),
    StableHlo.unary main_cst_3 main_v7 (broadcastInDim S3 ![] bcast_S_S3 : (⟨S_, .f32⟩ : BufTy).Contents (Elt F) → (⟨S3, .f32⟩ : BufTy).Contents (Elt F)),
    StableHlo.binary main_cst main_v7 main_v8 (subf : (⟨S3, .f32⟩ : BufTy).Contents (Elt F) → (⟨S3, .f32⟩ : BufTy).Contents (Elt F) → (⟨S3, .f32⟩ : BufTy).Contents (Elt F)),
    StableHlo.unary main_v8 main_v9 (broadcastInDim S1x3 ![1] bcast_S3_S1x3_1 : (⟨S3, .f32⟩ : BufTy).Contents (Elt F) → (⟨S1x3, .f32⟩ : BufTy).Contents (Elt F)),
    StableHlo.unary main_v9 main_v10 (broadcastInDim S8388608x3 ![0, 1] bcast_S1x3_S8388608x3_0_1 : (⟨S1x3, .f32⟩ : BufTy).Contents (Elt F) → (⟨S8388608x3, .f32⟩ : BufTy).Contents (Elt F)),
    StableHlo.binary main_v4 main_v10 main_v11 (cmpf .ole : (⟨S8388608x3, .f32⟩ : BufTy).Contents (Elt F) → (⟨S8388608x3, .f32⟩ : BufTy).Contents (Elt F) → (⟨S8388608x3, .i1⟩ : BufTy).Contents (Elt F)),
    StableHlo.binary main_v6 main_v11 main_v12 (andi : (⟨S8388608x3, .i1⟩ : BufTy).Contents (Elt F) → (⟨S8388608x3, .i1⟩ : BufTy).Contents (Elt F) → (⟨S8388608x3, .i1⟩ : BufTy).Contents (Elt F)),
    StableHlo.nullary main_c_4 (constantI S_ 1 1#1),
    StableHlo.binary main_v12 main_c_4 main_v13 ((fun x v => Host.reduce IntOp.andi x v reducesTo_S8388608x3_S8388608_d1 h_S_) : (⟨S8388608x3, .i1⟩ : BufTy).Contents (Elt F) → (⟨S_, .i1⟩ : BufTy).Contents (Elt F) → (⟨S8388608, .i1⟩ : BufTy).Contents (Elt F)),
    StableHlo.unary main_v4 main_v14 (Host.floor : (⟨S8388608x3, .f32⟩ : BufTy).Contents (Elt F) → (⟨S8388608x3, .f32⟩ : BufTy).Contents (Elt F)),
    StableHlo.unary main_v14 main_v15 (fptosi 32 : (⟨S8388608x3, .f32⟩ : BufTy).Contents (Elt F) → (⟨S8388608x3, .i32⟩ : BufTy).Contents (Elt F)),
    StableHlo.nullary main_c_5 (constantI S_ 32 1#32),
    StableHlo.unary main_c_5 main_v16 (broadcastInDim S3 ![] bcast_S_S3 : (⟨S_, .i32⟩ : BufTy).Contents (Elt F) → (⟨S3, .i32⟩ : BufTy).Contents (Elt F)),
    StableHlo.binary main_c main_v16 main_v17 (subi : (⟨S3, .i32⟩ : BufTy).Contents (Elt F) → (⟨S3, .i32⟩ : BufTy).Contents (Elt F) → (⟨S3, .i32⟩ : BufTy).Contents (Elt F)),
    StableHlo.nullary main_c_6 (constantI S_ 32 0#32),
    StableHlo.TRef.unary (.of main_c_6 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S8388608x3, .i32⟩) (broadcastInDim S8388608x3 ![] bcast_S_S8388608x3),
    StableHlo.TRef.binary (.of main_call0_v1 : StableHlo.TRef sig ⟨S8388608x3, .i32⟩) (.of main_v15 : StableHlo.TRef sig ⟨S8388608x3, .i32⟩) (.of main_call0_v2 : StableHlo.TRef sig ⟨S8388608x3, .i32⟩) maxsi,
    StableHlo.TRef.unary (.of main_v17 : StableHlo.TRef sig ⟨S3, .i32⟩) (.of main_call0_v3 : StableHlo.TRef sig ⟨S1x3, .i32⟩) (broadcastInDim S1x3 ![1] bcast_S3_S1x3_1),
    StableHlo.TRef.unary (.of main_call0_v3 : StableHlo.TRef sig ⟨S1x3, .i32⟩) (.of main_call0_v4 : StableHlo.TRef sig ⟨S8388608x3, .i32⟩) (broadcastInDim S8388608x3 ![0, 1] bcast_S1x3_S8388608x3_0_1),
    StableHlo.TRef.binary (.of main_call0_v4 : StableHlo.TRef sig ⟨S8388608x3, .i32⟩) (.of main_call0_v2 : StableHlo.TRef sig ⟨S8388608x3, .i32⟩) (.of main_v18 : StableHlo.TRef sig ⟨S8388608x3, .i32⟩) minsi,
    StableHlo.nullary main_c_7 (constantI S_ 32 1#32),
    StableHlo.unary main_c_7 main_v19 (broadcastInDim S8388608x3 ![] bcast_S_S8388608x3 : (⟨S_, .i32⟩ : BufTy).Contents (Elt F) → (⟨S8388608x3, .i32⟩ : BufTy).Contents (Elt F)),
    StableHlo.binary main_v18 main_v19 main_v20 (addi : (⟨S8388608x3, .i32⟩ : BufTy).Contents (Elt F) → (⟨S8388608x3, .i32⟩ : BufTy).Contents (Elt F) → (⟨S8388608x3, .i32⟩ : BufTy).Contents (Elt F)),
    StableHlo.nullary main_c_8 (constantI S_ 32 1#32),
    StableHlo.unary main_c_8 main_v21 (broadcastInDim S3 ![] bcast_S_S3 : (⟨S_, .i32⟩ : BufTy).Contents (Elt F) → (⟨S3, .i32⟩ : BufTy).Contents (Elt F)),
    StableHlo.binary main_c main_v21 main_v22 (subi : (⟨S3, .i32⟩ : BufTy).Contents (Elt F) → (⟨S3, .i32⟩ : BufTy).Contents (Elt F) → (⟨S3, .i32⟩ : BufTy).Contents (Elt F)),
    StableHlo.unary main_v22 main_v23 (broadcastInDim S1x3 ![1] bcast_S3_S1x3_1 : (⟨S3, .i32⟩ : BufTy).Contents (Elt F) → (⟨S1x3, .i32⟩ : BufTy).Contents (Elt F)),
    StableHlo.unary main_v23 main_v24 (broadcastInDim S8388608x3 ![0, 1] bcast_S1x3_S8388608x3_0_1 : (⟨S1x3, .i32⟩ : BufTy).Contents (Elt F) → (⟨S8388608x3, .i32⟩ : BufTy).Contents (Elt F)),
    StableHlo.binary main_v20 main_v24 main_v25 (minsi : (⟨S8388608x3, .i32⟩ : BufTy).Contents (Elt F) → (⟨S8388608x3, .i32⟩ : BufTy).Contents (Elt F) → (⟨S8388608x3, .i32⟩ : BufTy).Contents (Elt F)),
    StableHlo.unary main_v4 main_v26 (Host.floor : (⟨S8388608x3, .f32⟩ : BufTy).Contents (Elt F) → (⟨S8388608x3, .f32⟩ : BufTy).Contents (Elt F)),
    StableHlo.binary main_v4 main_v26 main_v27 (subf : (⟨S8388608x3, .f32⟩ : BufTy).Contents (Elt F) → (⟨S8388608x3, .f32⟩ : BufTy).Contents (Elt F) → (⟨S8388608x3, .f32⟩ : BufTy).Contents (Elt F)),
    StableHlo.nullary main_cst_9 (constant S_ .f32 0x3F800000#32),
    StableHlo.unary main_cst_9 main_v28 (broadcastInDim S8388608x3 ![] bcast_S_S8388608x3 : (⟨S_, .f32⟩ : BufTy).Contents (Elt F) → (⟨S8388608x3, .f32⟩ : BufTy).Contents (Elt F)),
    StableHlo.binary main_v28 main_v27 main_v29 (subf : (⟨S8388608x3, .f32⟩ : BufTy).Contents (Elt F) → (⟨S8388608x3, .f32⟩ : BufTy).Contents (Elt F) → (⟨S8388608x3, .f32⟩ : BufTy).Contents (Elt F)),
    StableHlo.unary main_v29 main_v30 (broadcastInDim S8388608x3x1 ![0, 1] bcast_S8388608x3_S8388608x3x1_0_1 : (⟨S8388608x3, .f32⟩ : BufTy).Contents (Elt F) → (⟨S8388608x3x1, .f32⟩ : BufTy).Contents (Elt F)),
    StableHlo.unary main_v27 main_v31 (broadcastInDim S8388608x3x1 ![0, 1] bcast_S8388608x3_S8388608x3x1_0_1 : (⟨S8388608x3, .f32⟩ : BufTy).Contents (Elt F) → (⟨S8388608x3x1, .f32⟩ : BufTy).Contents (Elt F)),
    StableHlo.binary main_v30 main_v31 main_v32 ((fun a b => concatenate S8388608x3x2 2 [⟨S8388608x3x1, a⟩, ⟨S8388608x3x1, b⟩] concatenates_S8388608x3x1_S8388608x3x1_S8388608x3x2_d2) : (⟨S8388608x3x1, .f32⟩ : BufTy).Contents (Elt F) → (⟨S8388608x3x1, .f32⟩ : BufTy).Contents (Elt F) → (⟨S8388608x3x2, .f32⟩ : BufTy).Contents (Elt F)),
    StableHlo.unary main_v18 main_v33 ((extractStridedSlice S8388608x1 ![0, 0] · slices_S8388608x3_S8388608x1_0_0) : (⟨S8388608x3, .i32⟩ : BufTy).Contents (Elt F) → (⟨S8388608x1, .i32⟩ : BufTy).Contents (Elt F)),
    StableHlo.reshape main_v33 main_v34 rfl shapeCasts_S8388608x1_S8388608,
    StableHlo.unary main_v25 main_v35 ((extractStridedSlice S8388608x1 ![0, 0] · slices_S8388608x3_S8388608x1_0_0) : (⟨S8388608x3, .i32⟩ : BufTy).Contents (Elt F) → (⟨S8388608x1, .i32⟩ : BufTy).Contents (Elt F)),
    StableHlo.reshape main_v35 main_v36 rfl shapeCasts_S8388608x1_S8388608,
    StableHlo.unary main_v18 main_v37 ((extractStridedSlice S8388608x1 ![0, 1] · slices_S8388608x3_S8388608x1_0_1) : (⟨S8388608x3, .i32⟩ : BufTy).Contents (Elt F) → (⟨S8388608x1, .i32⟩ : BufTy).Contents (Elt F)),
    StableHlo.reshape main_v37 main_v38 rfl shapeCasts_S8388608x1_S8388608,
    StableHlo.unary main_v25 main_v39 ((extractStridedSlice S8388608x1 ![0, 1] · slices_S8388608x3_S8388608x1_0_1) : (⟨S8388608x3, .i32⟩ : BufTy).Contents (Elt F) → (⟨S8388608x1, .i32⟩ : BufTy).Contents (Elt F)),
    StableHlo.reshape main_v39 main_v40 rfl shapeCasts_S8388608x1_S8388608,
    StableHlo.unary main_v18 main_v41 ((extractStridedSlice S8388608x1 ![0, 2] · slices_S8388608x3_S8388608x1_0_2) : (⟨S8388608x3, .i32⟩ : BufTy).Contents (Elt F) → (⟨S8388608x1, .i32⟩ : BufTy).Contents (Elt F)),
    StableHlo.reshape main_v41 main_v42 rfl shapeCasts_S8388608x1_S8388608,
    StableHlo.unary main_v25 main_v43 ((extractStridedSlice S8388608x1 ![0, 2] · slices_S8388608x3_S8388608x1_0_2) : (⟨S8388608x3, .i32⟩ : BufTy).Contents (Elt F) → (⟨S8388608x1, .i32⟩ : BufTy).Contents (Elt F)),
    StableHlo.reshape main_v43 main_v44 rfl shapeCasts_S8388608x1_S8388608,
    StableHlo.nullary main_cst_10 (constant S_ .f32 0x00000000#32),
    StableHlo.unary main_cst_10 main_v45 (broadcastInDim S8388608 ![] bcast_S_S8388608 : (⟨S_, .f32⟩ : BufTy).Contents (Elt F) → (⟨S8388608, .f32⟩ : BufTy).Contents (Elt F)),
    StableHlo.nullary main_c_11 (constantI S_ 32 0#32) ]

/-- Each touches TensorCore references only. -/
theorem ops0_sub : (ops0 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub ..⟩

set_option maxHeartbeats 40000000 in
/-- The 60 operations of window 1. -/
abbrev ops1 : List (HloOp τ sig (Elt F)) :=
  [ StableHlo.unary main_c_11 main_v46 (broadcastInDim S8388608 ![] bcast_S_S8388608 : (⟨S_, .i32⟩ : BufTy).Contents (Elt F) → (⟨S8388608, .i32⟩ : BufTy).Contents (Elt F)),
    StableHlo.binary main_v34 main_v46 main_v47 (cmpi .slt : (⟨S8388608, .i32⟩ : BufTy).Contents (Elt F) → (⟨S8388608, .i32⟩ : BufTy).Contents (Elt F) → (⟨S8388608, .i1⟩ : BufTy).Contents (Elt F)),
    StableHlo.nullary main_c_12 (constantI S_ 32 200#32),
    StableHlo.unary main_c_12 main_v48 (broadcastInDim S8388608 ![] bcast_S_S8388608 : (⟨S_, .i32⟩ : BufTy).Contents (Elt F) → (⟨S8388608, .i32⟩ : BufTy).Contents (Elt F)),
    StableHlo.binary main_v34 main_v48 main_v49 (addi : (⟨S8388608, .i32⟩ : BufTy).Contents (Elt F) → (⟨S8388608, .i32⟩ : BufTy).Contents (Elt F) → (⟨S8388608, .i32⟩ : BufTy).Contents (Elt F)),
    StableHlo.ternary main_v47 main_v49 main_v34 main_v50 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_13 (constantI S_ 32 0#32),
    StableHlo.unary main_c_13 main_v51 (broadcastInDim S8388608 ![] bcast_S_S8388608 : (⟨S_, .i32⟩ : BufTy).Contents (Elt F) → (⟨S8388608, .i32⟩ : BufTy).Contents (Elt F)),
    StableHlo.binary main_v38 main_v51 main_v52 (cmpi .slt : (⟨S8388608, .i32⟩ : BufTy).Contents (Elt F) → (⟨S8388608, .i32⟩ : BufTy).Contents (Elt F) → (⟨S8388608, .i1⟩ : BufTy).Contents (Elt F)),
    StableHlo.nullary main_c_14 (constantI S_ 32 200#32),
    StableHlo.unary main_c_14 main_v53 (broadcastInDim S8388608 ![] bcast_S_S8388608 : (⟨S_, .i32⟩ : BufTy).Contents (Elt F) → (⟨S8388608, .i32⟩ : BufTy).Contents (Elt F)),
    StableHlo.binary main_v38 main_v53 main_v54 (addi : (⟨S8388608, .i32⟩ : BufTy).Contents (Elt F) → (⟨S8388608, .i32⟩ : BufTy).Contents (Elt F) → (⟨S8388608, .i32⟩ : BufTy).Contents (Elt F)),
    StableHlo.ternary main_v52 main_v54 main_v38 main_v55 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_15 (constantI S_ 32 0#32),
    StableHlo.unary main_c_15 main_v56 (broadcastInDim S8388608 ![] bcast_S_S8388608 : (⟨S_, .i32⟩ : BufTy).Contents (Elt F) → (⟨S8388608, .i32⟩ : BufTy).Contents (Elt F)),
    StableHlo.binary main_v42 main_v56 main_v57 (cmpi .slt : (⟨S8388608, .i32⟩ : BufTy).Contents (Elt F) → (⟨S8388608, .i32⟩ : BufTy).Contents (Elt F) → (⟨S8388608, .i1⟩ : BufTy).Contents (Elt F)),
    StableHlo.nullary main_c_16 (constantI S_ 32 50#32),
    StableHlo.unary main_c_16 main_v58 (broadcastInDim S8388608 ![] bcast_S_S8388608 : (⟨S_, .i32⟩ : BufTy).Contents (Elt F) → (⟨S8388608, .i32⟩ : BufTy).Contents (Elt F)),
    StableHlo.binary main_v42 main_v58 main_v59 (addi : (⟨S8388608, .i32⟩ : BufTy).Contents (Elt F) → (⟨S8388608, .i32⟩ : BufTy).Contents (Elt F) → (⟨S8388608, .i32⟩ : BufTy).Contents (Elt F)),
    StableHlo.ternary main_v57 main_v59 main_v42 main_v60 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_17 (constantI S_ 32 0#32),
    StableHlo.unary main_c_17 main_v61 (broadcastInDim S8388608 ![] bcast_S_S8388608 : (⟨S_, .i32⟩ : BufTy).Contents (Elt F) → (⟨S8388608, .i32⟩ : BufTy).Contents (Elt F)),
    StableHlo.unary main_v61 main_v62 (id : (⟨S8388608, .i32⟩ : BufTy).Contents (Elt F) → (⟨S8388608, .i32⟩ : BufTy).Contents (Elt F)),
    StableHlo.unary main_v50 main_v63 (broadcastInDim S8388608x1 ![0] bcast_S8388608_S8388608x1_0 : (⟨S8388608, .i32⟩ : BufTy).Contents (Elt F) → (⟨S8388608x1, .i32⟩ : BufTy).Contents (Elt F)),
    StableHlo.unary main_v55 main_v64 (broadcastInDim S8388608x1 ![0] bcast_S8388608_S8388608x1_0 : (⟨S8388608, .i32⟩ : BufTy).Contents (Elt F) → (⟨S8388608x1, .i32⟩ : BufTy).Contents (Elt F)),
    StableHlo.unary main_v60 main_v65 (broadcastInDim S8388608x1 ![0] bcast_S8388608_S8388608x1_0 : (⟨S8388608, .i32⟩ : BufTy).Contents (Elt F) → (⟨S8388608x1, .i32⟩ : BufTy).Contents (Elt F)),
    StableHlo.unary main_v62 main_v66 (broadcastInDim S8388608x1 ![0] bcast_S8388608_S8388608x1_0 : (⟨S8388608, .i32⟩ : BufTy).Contents (Elt F) → (⟨S8388608x1, .i32⟩ : BufTy).Contents (Elt F)),
    StableHlo.nary ![main_v63, main_v64, main_v65, main_v66] main_v67 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v67 main_v68 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v69 ((extractStridedSlice S8388608x1x1 ![0, 0, 0] · slices_S8388608x3x2_S8388608x1x1_0_0_0) : (⟨S8388608x3x2, .f32⟩ : BufTy).Contents (Elt F) → (⟨S8388608x1x1, .f32⟩ : BufTy).Contents (Elt F)),
    StableHlo.reshape main_v69 main_v70 rfl shapeCasts_S8388608x1x1_S8388608,
    StableHlo.unary main_v32 main_v71 ((extractStridedSlice S8388608x1x1 ![0, 1, 0] · slices_S8388608x3x2_S8388608x1x1_0_1_0) : (⟨S8388608x3x2, .f32⟩ : BufTy).Contents (Elt F) → (⟨S8388608x1x1, .f32⟩ : BufTy).Contents (Elt F)),
    StableHlo.reshape main_v71 main_v72 rfl shapeCasts_S8388608x1x1_S8388608,
    StableHlo.binary main_v70 main_v72 main_v73 (mulf : (⟨S8388608, .f32⟩ : BufTy).Contents (Elt F) → (⟨S8388608, .f32⟩ : BufTy).Contents (Elt F) → (⟨S8388608, .f32⟩ : BufTy).Contents (Elt F)),
    StableHlo.unary main_v32 main_v74 ((extractStridedSlice S8388608x1x1 ![0, 2, 0] · slices_S8388608x3x2_S8388608x1x1_0_2_0) : (⟨S8388608x3x2, .f32⟩ : BufTy).Contents (Elt F) → (⟨S8388608x1x1, .f32⟩ : BufTy).Contents (Elt F)),
    StableHlo.reshape main_v74 main_v75 rfl shapeCasts_S8388608x1x1_S8388608,
    StableHlo.binary main_v73 main_v75 main_v76 (mulf : (⟨S8388608, .f32⟩ : BufTy).Contents (Elt F) → (⟨S8388608, .f32⟩ : BufTy).Contents (Elt F) → (⟨S8388608, .f32⟩ : BufTy).Contents (Elt F)),
    StableHlo.binary main_v68 main_v76 main_v77 (mulf : (⟨S8388608, .f32⟩ : BufTy).Contents (Elt F) → (⟨S8388608, .f32⟩ : BufTy).Contents (Elt F) → (⟨S8388608, .f32⟩ : BufTy).Contents (Elt F)),
    StableHlo.binary main_v45 main_v77 main_v78 (addf : (⟨S8388608, .f32⟩ : BufTy).Contents (Elt F) → (⟨S8388608, .f32⟩ : BufTy).Contents (Elt F) → (⟨S8388608, .f32⟩ : BufTy).Contents (Elt F)),
    StableHlo.nullary main_c_18 (constantI S_ 32 0#32),
    StableHlo.unary main_c_18 main_v79 (broadcastInDim S8388608 ![] bcast_S_S8388608 : (⟨S_, .i32⟩ : BufTy).Contents (Elt F) → (⟨S8388608, .i32⟩ : BufTy).Contents (Elt F)),
    StableHlo.binary main_v34 main_v79 main_v80 (cmpi .slt : (⟨S8388608, .i32⟩ : BufTy).Contents (Elt F) → (⟨S8388608, .i32⟩ : BufTy).Contents (Elt F) → (⟨S8388608, .i1⟩ : BufTy).Contents (Elt F)),
    StableHlo.nullary main_c_19 (constantI S_ 32 200#32),
    StableHlo.unary main_c_19 main_v81 (broadcastInDim S8388608 ![] bcast_S_S8388608 : (⟨S_, .i32⟩ : BufTy).Contents (Elt F) → (⟨S8388608, .i32⟩ : BufTy).Contents (Elt F)),
    StableHlo.binary main_v34 main_v81 main_v82 (addi : (⟨S8388608, .i32⟩ : BufTy).Contents (Elt F) → (⟨S8388608, .i32⟩ : BufTy).Contents (Elt F) → (⟨S8388608, .i32⟩ : BufTy).Contents (Elt F)),
    StableHlo.ternary main_v80 main_v82 main_v34 main_v83 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_20 (constantI S_ 32 0#32),
    StableHlo.unary main_c_20 main_v84 (broadcastInDim S8388608 ![] bcast_S_S8388608 : (⟨S_, .i32⟩ : BufTy).Contents (Elt F) → (⟨S8388608, .i32⟩ : BufTy).Contents (Elt F)),
    StableHlo.binary main_v38 main_v84 main_v85 (cmpi .slt : (⟨S8388608, .i32⟩ : BufTy).Contents (Elt F) → (⟨S8388608, .i32⟩ : BufTy).Contents (Elt F) → (⟨S8388608, .i1⟩ : BufTy).Contents (Elt F)),
    StableHlo.nullary main_c_21 (constantI S_ 32 200#32),
    StableHlo.unary main_c_21 main_v86 (broadcastInDim S8388608 ![] bcast_S_S8388608 : (⟨S_, .i32⟩ : BufTy).Contents (Elt F) → (⟨S8388608, .i32⟩ : BufTy).Contents (Elt F)),
    StableHlo.binary main_v38 main_v86 main_v87 (addi : (⟨S8388608, .i32⟩ : BufTy).Contents (Elt F) → (⟨S8388608, .i32⟩ : BufTy).Contents (Elt F) → (⟨S8388608, .i32⟩ : BufTy).Contents (Elt F)),
    StableHlo.ternary main_v85 main_v87 main_v38 main_v88 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_22 (constantI S_ 32 0#32),
    StableHlo.unary main_c_22 main_v89 (broadcastInDim S8388608 ![] bcast_S_S8388608 : (⟨S_, .i32⟩ : BufTy).Contents (Elt F) → (⟨S8388608, .i32⟩ : BufTy).Contents (Elt F)),
    StableHlo.binary main_v44 main_v89 main_v90 (cmpi .slt : (⟨S8388608, .i32⟩ : BufTy).Contents (Elt F) → (⟨S8388608, .i32⟩ : BufTy).Contents (Elt F) → (⟨S8388608, .i1⟩ : BufTy).Contents (Elt F)),
    StableHlo.nullary main_c_23 (constantI S_ 32 50#32),
    StableHlo.unary main_c_23 main_v91 (broadcastInDim S8388608 ![] bcast_S_S8388608 : (⟨S_, .i32⟩ : BufTy).Contents (Elt F) → (⟨S8388608, .i32⟩ : BufTy).Contents (Elt F)),
    StableHlo.binary main_v44 main_v91 main_v92 (addi : (⟨S8388608, .i32⟩ : BufTy).Contents (Elt F) → (⟨S8388608, .i32⟩ : BufTy).Contents (Elt F) → (⟨S8388608, .i32⟩ : BufTy).Contents (Elt F)),
    StableHlo.ternary main_v90 main_v92 main_v44 main_v93 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)) ]

/-- Each touches TensorCore references only. -/
theorem ops1_sub : (ops1 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

set_option maxHeartbeats 40000000 in
/-- The 60 operations of window 2. -/
abbrev ops2 : List (HloOp τ sig (Elt F)) :=
  [ StableHlo.nullary main_c_24 (constantI S_ 32 0#32),
    StableHlo.unary main_c_24 main_v94 (broadcastInDim S8388608 ![] bcast_S_S8388608 : (⟨S_, .i32⟩ : BufTy).Contents (Elt F) → (⟨S8388608, .i32⟩ : BufTy).Contents (Elt F)),
    StableHlo.unary main_v94 main_v95 (id : (⟨S8388608, .i32⟩ : BufTy).Contents (Elt F) → (⟨S8388608, .i32⟩ : BufTy).Contents (Elt F)),
    StableHlo.unary main_v83 main_v96 (broadcastInDim S8388608x1 ![0] bcast_S8388608_S8388608x1_0 : (⟨S8388608, .i32⟩ : BufTy).Contents (Elt F) → (⟨S8388608x1, .i32⟩ : BufTy).Contents (Elt F)),
    StableHlo.unary main_v88 main_v97 (broadcastInDim S8388608x1 ![0] bcast_S8388608_S8388608x1_0 : (⟨S8388608, .i32⟩ : BufTy).Contents (Elt F) → (⟨S8388608x1, .i32⟩ : BufTy).Contents (Elt F)),
    StableHlo.unary main_v93 main_v98 (broadcastInDim S8388608x1 ![0] bcast_S8388608_S8388608x1_0 : (⟨S8388608, .i32⟩ : BufTy).Contents (Elt F) → (⟨S8388608x1, .i32⟩ : BufTy).Contents (Elt F)),
    StableHlo.unary main_v95 main_v99 (broadcastInDim S8388608x1 ![0] bcast_S8388608_S8388608x1_0 : (⟨S8388608, .i32⟩ : BufTy).Contents (Elt F) → (⟨S8388608x1, .i32⟩ : BufTy).Contents (Elt F)),
    StableHlo.nary ![main_v96, main_v97, main_v98, main_v99] main_v100 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v100 main_v101 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v102 ((extractStridedSlice S8388608x1x1 ![0, 0, 0] · slices_S8388608x3x2_S8388608x1x1_0_0_0) : (⟨S8388608x3x2, .f32⟩ : BufTy).Contents (Elt F) → (⟨S8388608x1x1, .f32⟩ : BufTy).Contents (Elt F)),
    StableHlo.reshape main_v102 main_v103 rfl shapeCasts_S8388608x1x1_S8388608,
    StableHlo.unary main_v32 main_v104 ((extractStridedSlice S8388608x1x1 ![0, 1, 0] · slices_S8388608x3x2_S8388608x1x1_0_1_0) : (⟨S8388608x3x2, .f32⟩ : BufTy).Contents (Elt F) → (⟨S8388608x1x1, .f32⟩ : BufTy).Contents (Elt F)),
    StableHlo.reshape main_v104 main_v105 rfl shapeCasts_S8388608x1x1_S8388608,
    StableHlo.binary main_v103 main_v105 main_v106 (mulf : (⟨S8388608, .f32⟩ : BufTy).Contents (Elt F) → (⟨S8388608, .f32⟩ : BufTy).Contents (Elt F) → (⟨S8388608, .f32⟩ : BufTy).Contents (Elt F)),
    StableHlo.unary main_v32 main_v107 ((extractStridedSlice S8388608x1x1 ![0, 2, 1] · slices_S8388608x3x2_S8388608x1x1_0_2_1) : (⟨S8388608x3x2, .f32⟩ : BufTy).Contents (Elt F) → (⟨S8388608x1x1, .f32⟩ : BufTy).Contents (Elt F)),
    StableHlo.reshape main_v107 main_v108 rfl shapeCasts_S8388608x1x1_S8388608,
    StableHlo.binary main_v106 main_v108 main_v109 (mulf : (⟨S8388608, .f32⟩ : BufTy).Contents (Elt F) → (⟨S8388608, .f32⟩ : BufTy).Contents (Elt F) → (⟨S8388608, .f32⟩ : BufTy).Contents (Elt F)),
    StableHlo.binary main_v101 main_v109 main_v110 (mulf : (⟨S8388608, .f32⟩ : BufTy).Contents (Elt F) → (⟨S8388608, .f32⟩ : BufTy).Contents (Elt F) → (⟨S8388608, .f32⟩ : BufTy).Contents (Elt F)),
    StableHlo.binary main_v78 main_v110 main_v111 (addf : (⟨S8388608, .f32⟩ : BufTy).Contents (Elt F) → (⟨S8388608, .f32⟩ : BufTy).Contents (Elt F) → (⟨S8388608, .f32⟩ : BufTy).Contents (Elt F)),
    StableHlo.nullary main_c_25 (constantI S_ 32 0#32),
    StableHlo.unary main_c_25 main_v112 (broadcastInDim S8388608 ![] bcast_S_S8388608 : (⟨S_, .i32⟩ : BufTy).Contents (Elt F) → (⟨S8388608, .i32⟩ : BufTy).Contents (Elt F)),
    StableHlo.binary main_v34 main_v112 main_v113 (cmpi .slt : (⟨S8388608, .i32⟩ : BufTy).Contents (Elt F) → (⟨S8388608, .i32⟩ : BufTy).Contents (Elt F) → (⟨S8388608, .i1⟩ : BufTy).Contents (Elt F)),
    StableHlo.nullary main_c_26 (constantI S_ 32 200#32),
    StableHlo.unary main_c_26 main_v114 (broadcastInDim S8388608 ![] bcast_S_S8388608 : (⟨S_, .i32⟩ : BufTy).Contents (Elt F) → (⟨S8388608, .i32⟩ : BufTy).Contents (Elt F)),
    StableHlo.binary main_v34 main_v114 main_v115 (addi : (⟨S8388608, .i32⟩ : BufTy).Contents (Elt F) → (⟨S8388608, .i32⟩ : BufTy).Contents (Elt F) → (⟨S8388608, .i32⟩ : BufTy).Contents (Elt F)),
    StableHlo.ternary main_v113 main_v115 main_v34 main_v116 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_27 (constantI S_ 32 0#32),
    StableHlo.unary main_c_27 main_v117 (broadcastInDim S8388608 ![] bcast_S_S8388608 : (⟨S_, .i32⟩ : BufTy).Contents (Elt F) → (⟨S8388608, .i32⟩ : BufTy).Contents (Elt F)),
    StableHlo.binary main_v40 main_v117 main_v118 (cmpi .slt : (⟨S8388608, .i32⟩ : BufTy).Contents (Elt F) → (⟨S8388608, .i32⟩ : BufTy).Contents (Elt F) → (⟨S8388608, .i1⟩ : BufTy).Contents (Elt F)),
    StableHlo.nullary main_c_28 (constantI S_ 32 200#32),
    StableHlo.unary main_c_28 main_v119 (broadcastInDim S8388608 ![] bcast_S_S8388608 : (⟨S_, .i32⟩ : BufTy).Contents (Elt F) → (⟨S8388608, .i32⟩ : BufTy).Contents (Elt F)),
    StableHlo.binary main_v40 main_v119 main_v120 (addi : (⟨S8388608, .i32⟩ : BufTy).Contents (Elt F) → (⟨S8388608, .i32⟩ : BufTy).Contents (Elt F) → (⟨S8388608, .i32⟩ : BufTy).Contents (Elt F)),
    StableHlo.ternary main_v118 main_v120 main_v40 main_v121 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_29 (constantI S_ 32 0#32),
    StableHlo.unary main_c_29 main_v122 (broadcastInDim S8388608 ![] bcast_S_S8388608 : (⟨S_, .i32⟩ : BufTy).Contents (Elt F) → (⟨S8388608, .i32⟩ : BufTy).Contents (Elt F)),
    StableHlo.binary main_v42 main_v122 main_v123 (cmpi .slt : (⟨S8388608, .i32⟩ : BufTy).Contents (Elt F) → (⟨S8388608, .i32⟩ : BufTy).Contents (Elt F) → (⟨S8388608, .i1⟩ : BufTy).Contents (Elt F)),
    StableHlo.nullary main_c_30 (constantI S_ 32 50#32),
    StableHlo.unary main_c_30 main_v124 (broadcastInDim S8388608 ![] bcast_S_S8388608 : (⟨S_, .i32⟩ : BufTy).Contents (Elt F) → (⟨S8388608, .i32⟩ : BufTy).Contents (Elt F)),
    StableHlo.binary main_v42 main_v124 main_v125 (addi : (⟨S8388608, .i32⟩ : BufTy).Contents (Elt F) → (⟨S8388608, .i32⟩ : BufTy).Contents (Elt F) → (⟨S8388608, .i32⟩ : BufTy).Contents (Elt F)),
    StableHlo.ternary main_v123 main_v125 main_v42 main_v126 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_31 (constantI S_ 32 0#32),
    StableHlo.unary main_c_31 main_v127 (broadcastInDim S8388608 ![] bcast_S_S8388608 : (⟨S_, .i32⟩ : BufTy).Contents (Elt F) → (⟨S8388608, .i32⟩ : BufTy).Contents (Elt F)),
    StableHlo.unary main_v127 main_v128 (id : (⟨S8388608, .i32⟩ : BufTy).Contents (Elt F) → (⟨S8388608, .i32⟩ : BufTy).Contents (Elt F)),
    StableHlo.unary main_v116 main_v129 (broadcastInDim S8388608x1 ![0] bcast_S8388608_S8388608x1_0 : (⟨S8388608, .i32⟩ : BufTy).Contents (Elt F) → (⟨S8388608x1, .i32⟩ : BufTy).Contents (Elt F)),
    StableHlo.unary main_v121 main_v130 (broadcastInDim S8388608x1 ![0] bcast_S8388608_S8388608x1_0 : (⟨S8388608, .i32⟩ : BufTy).Contents (Elt F) → (⟨S8388608x1, .i32⟩ : BufTy).Contents (Elt F)),
    StableHlo.unary main_v126 main_v131 (broadcastInDim S8388608x1 ![0] bcast_S8388608_S8388608x1_0 : (⟨S8388608, .i32⟩ : BufTy).Contents (Elt F) → (⟨S8388608x1, .i32⟩ : BufTy).Contents (Elt F)),
    StableHlo.unary main_v128 main_v132 (broadcastInDim S8388608x1 ![0] bcast_S8388608_S8388608x1_0 : (⟨S8388608, .i32⟩ : BufTy).Contents (Elt F) → (⟨S8388608x1, .i32⟩ : BufTy).Contents (Elt F)),
    StableHlo.nary ![main_v129, main_v130, main_v131, main_v132] main_v133 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v133 main_v134 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v135 ((extractStridedSlice S8388608x1x1 ![0, 0, 0] · slices_S8388608x3x2_S8388608x1x1_0_0_0) : (⟨S8388608x3x2, .f32⟩ : BufTy).Contents (Elt F) → (⟨S8388608x1x1, .f32⟩ : BufTy).Contents (Elt F)),
    StableHlo.reshape main_v135 main_v136 rfl shapeCasts_S8388608x1x1_S8388608,
    StableHlo.unary main_v32 main_v137 ((extractStridedSlice S8388608x1x1 ![0, 1, 1] · slices_S8388608x3x2_S8388608x1x1_0_1_1) : (⟨S8388608x3x2, .f32⟩ : BufTy).Contents (Elt F) → (⟨S8388608x1x1, .f32⟩ : BufTy).Contents (Elt F)),
    StableHlo.reshape main_v137 main_v138 rfl shapeCasts_S8388608x1x1_S8388608,
    StableHlo.binary main_v136 main_v138 main_v139 (mulf : (⟨S8388608, .f32⟩ : BufTy).Contents (Elt F) → (⟨S8388608, .f32⟩ : BufTy).Contents (Elt F) → (⟨S8388608, .f32⟩ : BufTy).Contents (Elt F)),
    StableHlo.unary main_v32 main_v140 ((extractStridedSlice S8388608x1x1 ![0, 2, 0] · slices_S8388608x3x2_S8388608x1x1_0_2_0) : (⟨S8388608x3x2, .f32⟩ : BufTy).Contents (Elt F) → (⟨S8388608x1x1, .f32⟩ : BufTy).Contents (Elt F)),
    StableHlo.reshape main_v140 main_v141 rfl shapeCasts_S8388608x1x1_S8388608,
    StableHlo.binary main_v139 main_v141 main_v142 (mulf : (⟨S8388608, .f32⟩ : BufTy).Contents (Elt F) → (⟨S8388608, .f32⟩ : BufTy).Contents (Elt F) → (⟨S8388608, .f32⟩ : BufTy).Contents (Elt F)),
    StableHlo.binary main_v134 main_v142 main_v143 (mulf : (⟨S8388608, .f32⟩ : BufTy).Contents (Elt F) → (⟨S8388608, .f32⟩ : BufTy).Contents (Elt F) → (⟨S8388608, .f32⟩ : BufTy).Contents (Elt F)),
    StableHlo.binary main_v111 main_v143 main_v144 (addf : (⟨S8388608, .f32⟩ : BufTy).Contents (Elt F) → (⟨S8388608, .f32⟩ : BufTy).Contents (Elt F) → (⟨S8388608, .f32⟩ : BufTy).Contents (Elt F)),
    StableHlo.nullary main_c_32 (constantI S_ 32 0#32) ]

/-- Each touches TensorCore references only. -/
theorem ops2_sub : (ops2 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub ..⟩

set_option maxHeartbeats 40000000 in
/-- The 60 operations of window 3. -/
abbrev ops3 : List (HloOp τ sig (Elt F)) :=
  [ StableHlo.unary main_c_32 main_v145 (broadcastInDim S8388608 ![] bcast_S_S8388608 : (⟨S_, .i32⟩ : BufTy).Contents (Elt F) → (⟨S8388608, .i32⟩ : BufTy).Contents (Elt F)),
    StableHlo.binary main_v34 main_v145 main_v146 (cmpi .slt : (⟨S8388608, .i32⟩ : BufTy).Contents (Elt F) → (⟨S8388608, .i32⟩ : BufTy).Contents (Elt F) → (⟨S8388608, .i1⟩ : BufTy).Contents (Elt F)),
    StableHlo.nullary main_c_33 (constantI S_ 32 200#32),
    StableHlo.unary main_c_33 main_v147 (broadcastInDim S8388608 ![] bcast_S_S8388608 : (⟨S_, .i32⟩ : BufTy).Contents (Elt F) → (⟨S8388608, .i32⟩ : BufTy).Contents (Elt F)),
    StableHlo.binary main_v34 main_v147 main_v148 (addi : (⟨S8388608, .i32⟩ : BufTy).Contents (Elt F) → (⟨S8388608, .i32⟩ : BufTy).Contents (Elt F) → (⟨S8388608, .i32⟩ : BufTy).Contents (Elt F)),
    StableHlo.ternary main_v146 main_v148 main_v34 main_v149 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_34 (constantI S_ 32 0#32),
    StableHlo.unary main_c_34 main_v150 (broadcastInDim S8388608 ![] bcast_S_S8388608 : (⟨S_, .i32⟩ : BufTy).Contents (Elt F) → (⟨S8388608, .i32⟩ : BufTy).Contents (Elt F)),
    StableHlo.binary main_v40 main_v150 main_v151 (cmpi .slt : (⟨S8388608, .i32⟩ : BufTy).Contents (Elt F) → (⟨S8388608, .i32⟩ : BufTy).Contents (Elt F) → (⟨S8388608, .i1⟩ : BufTy).Contents (Elt F)),
    StableHlo.nullary main_c_35 (constantI S_ 32 200#32),
    StableHlo.unary main_c_35 main_v152 (broadcastInDim S8388608 ![] bcast_S_S8388608 : (⟨S_, .i32⟩ : BufTy).Contents (Elt F) → (⟨S8388608, .i32⟩ : BufTy).Contents (Elt F)),
    StableHlo.binary main_v40 main_v152 main_v153 (addi : (⟨S8388608, .i32⟩ : BufTy).Contents (Elt F) → (⟨S8388608, .i32⟩ : BufTy).Contents (Elt F) → (⟨S8388608, .i32⟩ : BufTy).Contents (Elt F)),
    StableHlo.ternary main_v151 main_v153 main_v40 main_v154 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_36 (constantI S_ 32 0#32),
    StableHlo.unary main_c_36 main_v155 (broadcastInDim S8388608 ![] bcast_S_S8388608 : (⟨S_, .i32⟩ : BufTy).Contents (Elt F) → (⟨S8388608, .i32⟩ : BufTy).Contents (Elt F)),
    StableHlo.binary main_v44 main_v155 main_v156 (cmpi .slt : (⟨S8388608, .i32⟩ : BufTy).Contents (Elt F) → (⟨S8388608, .i32⟩ : BufTy).Contents (Elt F) → (⟨S8388608, .i1⟩ : BufTy).Contents (Elt F)),
    StableHlo.nullary main_c_37 (constantI S_ 32 50#32),
    StableHlo.unary main_c_37 main_v157 (broadcastInDim S8388608 ![] bcast_S_S8388608 : (⟨S_, .i32⟩ : BufTy).Contents (Elt F) → (⟨S8388608, .i32⟩ : BufTy).Contents (Elt F)),
    StableHlo.binary main_v44 main_v157 main_v158 (addi : (⟨S8388608, .i32⟩ : BufTy).Contents (Elt F) → (⟨S8388608, .i32⟩ : BufTy).Contents (Elt F) → (⟨S8388608, .i32⟩ : BufTy).Contents (Elt F)),
    StableHlo.ternary main_v156 main_v158 main_v44 main_v159 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_38 (constantI S_ 32 0#32),
    StableHlo.unary main_c_38 main_v160 (broadcastInDim S8388608 ![] bcast_S_S8388608 : (⟨S_, .i32⟩ : BufTy).Contents (Elt F) → (⟨S8388608, .i32⟩ : BufTy).Contents (Elt F)),
    StableHlo.unary main_v160 main_v161 (id : (⟨S8388608, .i32⟩ : BufTy).Contents (Elt F) → (⟨S8388608, .i32⟩ : BufTy).Contents (Elt F)),
    StableHlo.unary main_v149 main_v162 (broadcastInDim S8388608x1 ![0] bcast_S8388608_S8388608x1_0 : (⟨S8388608, .i32⟩ : BufTy).Contents (Elt F) → (⟨S8388608x1, .i32⟩ : BufTy).Contents (Elt F)),
    StableHlo.unary main_v154 main_v163 (broadcastInDim S8388608x1 ![0] bcast_S8388608_S8388608x1_0 : (⟨S8388608, .i32⟩ : BufTy).Contents (Elt F) → (⟨S8388608x1, .i32⟩ : BufTy).Contents (Elt F)),
    StableHlo.unary main_v159 main_v164 (broadcastInDim S8388608x1 ![0] bcast_S8388608_S8388608x1_0 : (⟨S8388608, .i32⟩ : BufTy).Contents (Elt F) → (⟨S8388608x1, .i32⟩ : BufTy).Contents (Elt F)),
    StableHlo.unary main_v161 main_v165 (broadcastInDim S8388608x1 ![0] bcast_S8388608_S8388608x1_0 : (⟨S8388608, .i32⟩ : BufTy).Contents (Elt F) → (⟨S8388608x1, .i32⟩ : BufTy).Contents (Elt F)),
    StableHlo.nary ![main_v162, main_v163, main_v164, main_v165] main_v166 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v166 main_v167 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v168 ((extractStridedSlice S8388608x1x1 ![0, 0, 0] · slices_S8388608x3x2_S8388608x1x1_0_0_0) : (⟨S8388608x3x2, .f32⟩ : BufTy).Contents (Elt F) → (⟨S8388608x1x1, .f32⟩ : BufTy).Contents (Elt F)),
    StableHlo.reshape main_v168 main_v169 rfl shapeCasts_S8388608x1x1_S8388608,
    StableHlo.unary main_v32 main_v170 ((extractStridedSlice S8388608x1x1 ![0, 1, 1] · slices_S8388608x3x2_S8388608x1x1_0_1_1) : (⟨S8388608x3x2, .f32⟩ : BufTy).Contents (Elt F) → (⟨S8388608x1x1, .f32⟩ : BufTy).Contents (Elt F)),
    StableHlo.reshape main_v170 main_v171 rfl shapeCasts_S8388608x1x1_S8388608,
    StableHlo.binary main_v169 main_v171 main_v172 (mulf : (⟨S8388608, .f32⟩ : BufTy).Contents (Elt F) → (⟨S8388608, .f32⟩ : BufTy).Contents (Elt F) → (⟨S8388608, .f32⟩ : BufTy).Contents (Elt F)),
    StableHlo.unary main_v32 main_v173 ((extractStridedSlice S8388608x1x1 ![0, 2, 1] · slices_S8388608x3x2_S8388608x1x1_0_2_1) : (⟨S8388608x3x2, .f32⟩ : BufTy).Contents (Elt F) → (⟨S8388608x1x1, .f32⟩ : BufTy).Contents (Elt F)),
    StableHlo.reshape main_v173 main_v174 rfl shapeCasts_S8388608x1x1_S8388608,
    StableHlo.binary main_v172 main_v174 main_v175 (mulf : (⟨S8388608, .f32⟩ : BufTy).Contents (Elt F) → (⟨S8388608, .f32⟩ : BufTy).Contents (Elt F) → (⟨S8388608, .f32⟩ : BufTy).Contents (Elt F)),
    StableHlo.binary main_v167 main_v175 main_v176 (mulf : (⟨S8388608, .f32⟩ : BufTy).Contents (Elt F) → (⟨S8388608, .f32⟩ : BufTy).Contents (Elt F) → (⟨S8388608, .f32⟩ : BufTy).Contents (Elt F)),
    StableHlo.binary main_v144 main_v176 main_v177 (addf : (⟨S8388608, .f32⟩ : BufTy).Contents (Elt F) → (⟨S8388608, .f32⟩ : BufTy).Contents (Elt F) → (⟨S8388608, .f32⟩ : BufTy).Contents (Elt F)),
    StableHlo.nullary main_c_39 (constantI S_ 32 0#32),
    StableHlo.unary main_c_39 main_v178 (broadcastInDim S8388608 ![] bcast_S_S8388608 : (⟨S_, .i32⟩ : BufTy).Contents (Elt F) → (⟨S8388608, .i32⟩ : BufTy).Contents (Elt F)),
    StableHlo.binary main_v36 main_v178 main_v179 (cmpi .slt : (⟨S8388608, .i32⟩ : BufTy).Contents (Elt F) → (⟨S8388608, .i32⟩ : BufTy).Contents (Elt F) → (⟨S8388608, .i1⟩ : BufTy).Contents (Elt F)),
    StableHlo.nullary main_c_40 (constantI S_ 32 200#32),
    StableHlo.unary main_c_40 main_v180 (broadcastInDim S8388608 ![] bcast_S_S8388608 : (⟨S_, .i32⟩ : BufTy).Contents (Elt F) → (⟨S8388608, .i32⟩ : BufTy).Contents (Elt F)),
    StableHlo.binary main_v36 main_v180 main_v181 (addi : (⟨S8388608, .i32⟩ : BufTy).Contents (Elt F) → (⟨S8388608, .i32⟩ : BufTy).Contents (Elt F) → (⟨S8388608, .i32⟩ : BufTy).Contents (Elt F)),
    StableHlo.ternary main_v179 main_v181 main_v36 main_v182 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_41 (constantI S_ 32 0#32),
    StableHlo.unary main_c_41 main_v183 (broadcastInDim S8388608 ![] bcast_S_S8388608 : (⟨S_, .i32⟩ : BufTy).Contents (Elt F) → (⟨S8388608, .i32⟩ : BufTy).Contents (Elt F)),
    StableHlo.binary main_v38 main_v183 main_v184 (cmpi .slt : (⟨S8388608, .i32⟩ : BufTy).Contents (Elt F) → (⟨S8388608, .i32⟩ : BufTy).Contents (Elt F) → (⟨S8388608, .i1⟩ : BufTy).Contents (Elt F)),
    StableHlo.nullary main_c_42 (constantI S_ 32 200#32),
    StableHlo.unary main_c_42 main_v185 (broadcastInDim S8388608 ![] bcast_S_S8388608 : (⟨S_, .i32⟩ : BufTy).Contents (Elt F) → (⟨S8388608, .i32⟩ : BufTy).Contents (Elt F)),
    StableHlo.binary main_v38 main_v185 main_v186 (addi : (⟨S8388608, .i32⟩ : BufTy).Contents (Elt F) → (⟨S8388608, .i32⟩ : BufTy).Contents (Elt F) → (⟨S8388608, .i32⟩ : BufTy).Contents (Elt F)),
    StableHlo.ternary main_v184 main_v186 main_v38 main_v187 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_43 (constantI S_ 32 0#32),
    StableHlo.unary main_c_43 main_v188 (broadcastInDim S8388608 ![] bcast_S_S8388608 : (⟨S_, .i32⟩ : BufTy).Contents (Elt F) → (⟨S8388608, .i32⟩ : BufTy).Contents (Elt F)),
    StableHlo.binary main_v42 main_v188 main_v189 (cmpi .slt : (⟨S8388608, .i32⟩ : BufTy).Contents (Elt F) → (⟨S8388608, .i32⟩ : BufTy).Contents (Elt F) → (⟨S8388608, .i1⟩ : BufTy).Contents (Elt F)),
    StableHlo.nullary main_c_44 (constantI S_ 32 50#32),
    StableHlo.unary main_c_44 main_v190 (broadcastInDim S8388608 ![] bcast_S_S8388608 : (⟨S_, .i32⟩ : BufTy).Contents (Elt F) → (⟨S8388608, .i32⟩ : BufTy).Contents (Elt F)),
    StableHlo.binary main_v42 main_v190 main_v191 (addi : (⟨S8388608, .i32⟩ : BufTy).Contents (Elt F) → (⟨S8388608, .i32⟩ : BufTy).Contents (Elt F) → (⟨S8388608, .i32⟩ : BufTy).Contents (Elt F)),
    StableHlo.ternary main_v189 main_v191 main_v42 main_v192 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)) ]

/-- Each touches TensorCore references only. -/
theorem ops3_sub : (ops3 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

set_option maxHeartbeats 40000000 in
/-- The 60 operations of window 4. -/
abbrev ops4 : List (HloOp τ sig (Elt F)) :=
  [ StableHlo.nullary main_c_45 (constantI S_ 32 0#32),
    StableHlo.unary main_c_45 main_v193 (broadcastInDim S8388608 ![] bcast_S_S8388608 : (⟨S_, .i32⟩ : BufTy).Contents (Elt F) → (⟨S8388608, .i32⟩ : BufTy).Contents (Elt F)),
    StableHlo.unary main_v193 main_v194 (id : (⟨S8388608, .i32⟩ : BufTy).Contents (Elt F) → (⟨S8388608, .i32⟩ : BufTy).Contents (Elt F)),
    StableHlo.unary main_v182 main_v195 (broadcastInDim S8388608x1 ![0] bcast_S8388608_S8388608x1_0 : (⟨S8388608, .i32⟩ : BufTy).Contents (Elt F) → (⟨S8388608x1, .i32⟩ : BufTy).Contents (Elt F)),
    StableHlo.unary main_v187 main_v196 (broadcastInDim S8388608x1 ![0] bcast_S8388608_S8388608x1_0 : (⟨S8388608, .i32⟩ : BufTy).Contents (Elt F) → (⟨S8388608x1, .i32⟩ : BufTy).Contents (Elt F)),
    StableHlo.unary main_v192 main_v197 (broadcastInDim S8388608x1 ![0] bcast_S8388608_S8388608x1_0 : (⟨S8388608, .i32⟩ : BufTy).Contents (Elt F) → (⟨S8388608x1, .i32⟩ : BufTy).Contents (Elt F)),
    StableHlo.unary main_v194 main_v198 (broadcastInDim S8388608x1 ![0] bcast_S8388608_S8388608x1_0 : (⟨S8388608, .i32⟩ : BufTy).Contents (Elt F) → (⟨S8388608x1, .i32⟩ : BufTy).Contents (Elt F)),
    StableHlo.nary ![main_v195, main_v196, main_v197, main_v198] main_v199 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v199 main_v200 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v201 ((extractStridedSlice S8388608x1x1 ![0, 0, 1] · slices_S8388608x3x2_S8388608x1x1_0_0_1) : (⟨S8388608x3x2, .f32⟩ : BufTy).Contents (Elt F) → (⟨S8388608x1x1, .f32⟩ : BufTy).Contents (Elt F)),
    StableHlo.reshape main_v201 main_v202 rfl shapeCasts_S8388608x1x1_S8388608,
    StableHlo.unary main_v32 main_v203 ((extractStridedSlice S8388608x1x1 ![0, 1, 0] · slices_S8388608x3x2_S8388608x1x1_0_1_0) : (⟨S8388608x3x2, .f32⟩ : BufTy).Contents (Elt F) → (⟨S8388608x1x1, .f32⟩ : BufTy).Contents (Elt F)),
    StableHlo.reshape main_v203 main_v204 rfl shapeCasts_S8388608x1x1_S8388608,
    StableHlo.binary main_v202 main_v204 main_v205 (mulf : (⟨S8388608, .f32⟩ : BufTy).Contents (Elt F) → (⟨S8388608, .f32⟩ : BufTy).Contents (Elt F) → (⟨S8388608, .f32⟩ : BufTy).Contents (Elt F)),
    StableHlo.unary main_v32 main_v206 ((extractStridedSlice S8388608x1x1 ![0, 2, 0] · slices_S8388608x3x2_S8388608x1x1_0_2_0) : (⟨S8388608x3x2, .f32⟩ : BufTy).Contents (Elt F) → (⟨S8388608x1x1, .f32⟩ : BufTy).Contents (Elt F)),
    StableHlo.reshape main_v206 main_v207 rfl shapeCasts_S8388608x1x1_S8388608,
    StableHlo.binary main_v205 main_v207 main_v208 (mulf : (⟨S8388608, .f32⟩ : BufTy).Contents (Elt F) → (⟨S8388608, .f32⟩ : BufTy).Contents (Elt F) → (⟨S8388608, .f32⟩ : BufTy).Contents (Elt F)),
    StableHlo.binary main_v200 main_v208 main_v209 (mulf : (⟨S8388608, .f32⟩ : BufTy).Contents (Elt F) → (⟨S8388608, .f32⟩ : BufTy).Contents (Elt F) → (⟨S8388608, .f32⟩ : BufTy).Contents (Elt F)),
    StableHlo.binary main_v177 main_v209 main_v210 (addf : (⟨S8388608, .f32⟩ : BufTy).Contents (Elt F) → (⟨S8388608, .f32⟩ : BufTy).Contents (Elt F) → (⟨S8388608, .f32⟩ : BufTy).Contents (Elt F)),
    StableHlo.nullary main_c_46 (constantI S_ 32 0#32),
    StableHlo.unary main_c_46 main_v211 (broadcastInDim S8388608 ![] bcast_S_S8388608 : (⟨S_, .i32⟩ : BufTy).Contents (Elt F) → (⟨S8388608, .i32⟩ : BufTy).Contents (Elt F)),
    StableHlo.binary main_v36 main_v211 main_v212 (cmpi .slt : (⟨S8388608, .i32⟩ : BufTy).Contents (Elt F) → (⟨S8388608, .i32⟩ : BufTy).Contents (Elt F) → (⟨S8388608, .i1⟩ : BufTy).Contents (Elt F)),
    StableHlo.nullary main_c_47 (constantI S_ 32 200#32),
    StableHlo.unary main_c_47 main_v213 (broadcastInDim S8388608 ![] bcast_S_S8388608 : (⟨S_, .i32⟩ : BufTy).Contents (Elt F) → (⟨S8388608, .i32⟩ : BufTy).Contents (Elt F)),
    StableHlo.binary main_v36 main_v213 main_v214 (addi : (⟨S8388608, .i32⟩ : BufTy).Contents (Elt F) → (⟨S8388608, .i32⟩ : BufTy).Contents (Elt F) → (⟨S8388608, .i32⟩ : BufTy).Contents (Elt F)),
    StableHlo.ternary main_v212 main_v214 main_v36 main_v215 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_48 (constantI S_ 32 0#32),
    StableHlo.unary main_c_48 main_v216 (broadcastInDim S8388608 ![] bcast_S_S8388608 : (⟨S_, .i32⟩ : BufTy).Contents (Elt F) → (⟨S8388608, .i32⟩ : BufTy).Contents (Elt F)),
    StableHlo.binary main_v38 main_v216 main_v217 (cmpi .slt : (⟨S8388608, .i32⟩ : BufTy).Contents (Elt F) → (⟨S8388608, .i32⟩ : BufTy).Contents (Elt F) → (⟨S8388608, .i1⟩ : BufTy).Contents (Elt F)),
    StableHlo.nullary main_c_49 (constantI S_ 32 200#32),
    StableHlo.unary main_c_49 main_v218 (broadcastInDim S8388608 ![] bcast_S_S8388608 : (⟨S_, .i32⟩ : BufTy).Contents (Elt F) → (⟨S8388608, .i32⟩ : BufTy).Contents (Elt F)),
    StableHlo.binary main_v38 main_v218 main_v219 (addi : (⟨S8388608, .i32⟩ : BufTy).Contents (Elt F) → (⟨S8388608, .i32⟩ : BufTy).Contents (Elt F) → (⟨S8388608, .i32⟩ : BufTy).Contents (Elt F)),
    StableHlo.ternary main_v217 main_v219 main_v38 main_v220 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_50 (constantI S_ 32 0#32),
    StableHlo.unary main_c_50 main_v221 (broadcastInDim S8388608 ![] bcast_S_S8388608 : (⟨S_, .i32⟩ : BufTy).Contents (Elt F) → (⟨S8388608, .i32⟩ : BufTy).Contents (Elt F)),
    StableHlo.binary main_v44 main_v221 main_v222 (cmpi .slt : (⟨S8388608, .i32⟩ : BufTy).Contents (Elt F) → (⟨S8388608, .i32⟩ : BufTy).Contents (Elt F) → (⟨S8388608, .i1⟩ : BufTy).Contents (Elt F)),
    StableHlo.nullary main_c_51 (constantI S_ 32 50#32),
    StableHlo.unary main_c_51 main_v223 (broadcastInDim S8388608 ![] bcast_S_S8388608 : (⟨S_, .i32⟩ : BufTy).Contents (Elt F) → (⟨S8388608, .i32⟩ : BufTy).Contents (Elt F)),
    StableHlo.binary main_v44 main_v223 main_v224 (addi : (⟨S8388608, .i32⟩ : BufTy).Contents (Elt F) → (⟨S8388608, .i32⟩ : BufTy).Contents (Elt F) → (⟨S8388608, .i32⟩ : BufTy).Contents (Elt F)),
    StableHlo.ternary main_v222 main_v224 main_v44 main_v225 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_52 (constantI S_ 32 0#32),
    StableHlo.unary main_c_52 main_v226 (broadcastInDim S8388608 ![] bcast_S_S8388608 : (⟨S_, .i32⟩ : BufTy).Contents (Elt F) → (⟨S8388608, .i32⟩ : BufTy).Contents (Elt F)),
    StableHlo.unary main_v226 main_v227 (id : (⟨S8388608, .i32⟩ : BufTy).Contents (Elt F) → (⟨S8388608, .i32⟩ : BufTy).Contents (Elt F)),
    StableHlo.unary main_v215 main_v228 (broadcastInDim S8388608x1 ![0] bcast_S8388608_S8388608x1_0 : (⟨S8388608, .i32⟩ : BufTy).Contents (Elt F) → (⟨S8388608x1, .i32⟩ : BufTy).Contents (Elt F)),
    StableHlo.unary main_v220 main_v229 (broadcastInDim S8388608x1 ![0] bcast_S8388608_S8388608x1_0 : (⟨S8388608, .i32⟩ : BufTy).Contents (Elt F) → (⟨S8388608x1, .i32⟩ : BufTy).Contents (Elt F)),
    StableHlo.unary main_v225 main_v230 (broadcastInDim S8388608x1 ![0] bcast_S8388608_S8388608x1_0 : (⟨S8388608, .i32⟩ : BufTy).Contents (Elt F) → (⟨S8388608x1, .i32⟩ : BufTy).Contents (Elt F)),
    StableHlo.unary main_v227 main_v231 (broadcastInDim S8388608x1 ![0] bcast_S8388608_S8388608x1_0 : (⟨S8388608, .i32⟩ : BufTy).Contents (Elt F) → (⟨S8388608x1, .i32⟩ : BufTy).Contents (Elt F)),
    StableHlo.nary ![main_v228, main_v229, main_v230, main_v231] main_v232 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v232 main_v233 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v234 ((extractStridedSlice S8388608x1x1 ![0, 0, 1] · slices_S8388608x3x2_S8388608x1x1_0_0_1) : (⟨S8388608x3x2, .f32⟩ : BufTy).Contents (Elt F) → (⟨S8388608x1x1, .f32⟩ : BufTy).Contents (Elt F)),
    StableHlo.reshape main_v234 main_v235 rfl shapeCasts_S8388608x1x1_S8388608,
    StableHlo.unary main_v32 main_v236 ((extractStridedSlice S8388608x1x1 ![0, 1, 0] · slices_S8388608x3x2_S8388608x1x1_0_1_0) : (⟨S8388608x3x2, .f32⟩ : BufTy).Contents (Elt F) → (⟨S8388608x1x1, .f32⟩ : BufTy).Contents (Elt F)),
    StableHlo.reshape main_v236 main_v237 rfl shapeCasts_S8388608x1x1_S8388608,
    StableHlo.binary main_v235 main_v237 main_v238 (mulf : (⟨S8388608, .f32⟩ : BufTy).Contents (Elt F) → (⟨S8388608, .f32⟩ : BufTy).Contents (Elt F) → (⟨S8388608, .f32⟩ : BufTy).Contents (Elt F)),
    StableHlo.unary main_v32 main_v239 ((extractStridedSlice S8388608x1x1 ![0, 2, 1] · slices_S8388608x3x2_S8388608x1x1_0_2_1) : (⟨S8388608x3x2, .f32⟩ : BufTy).Contents (Elt F) → (⟨S8388608x1x1, .f32⟩ : BufTy).Contents (Elt F)),
    StableHlo.reshape main_v239 main_v240 rfl shapeCasts_S8388608x1x1_S8388608,
    StableHlo.binary main_v238 main_v240 main_v241 (mulf : (⟨S8388608, .f32⟩ : BufTy).Contents (Elt F) → (⟨S8388608, .f32⟩ : BufTy).Contents (Elt F) → (⟨S8388608, .f32⟩ : BufTy).Contents (Elt F)),
    StableHlo.binary main_v233 main_v241 main_v242 (mulf : (⟨S8388608, .f32⟩ : BufTy).Contents (Elt F) → (⟨S8388608, .f32⟩ : BufTy).Contents (Elt F) → (⟨S8388608, .f32⟩ : BufTy).Contents (Elt F)),
    StableHlo.binary main_v210 main_v242 main_v243 (addf : (⟨S8388608, .f32⟩ : BufTy).Contents (Elt F) → (⟨S8388608, .f32⟩ : BufTy).Contents (Elt F) → (⟨S8388608, .f32⟩ : BufTy).Contents (Elt F)),
    StableHlo.nullary main_c_53 (constantI S_ 32 0#32) ]

/-- Each touches TensorCore references only. -/
theorem ops4_sub : (ops4 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub ..⟩

set_option maxHeartbeats 40000000 in
/-- The 60 operations of window 5. -/
abbrev ops5 : List (HloOp τ sig (Elt F)) :=
  [ StableHlo.unary main_c_53 main_v244 (broadcastInDim S8388608 ![] bcast_S_S8388608 : (⟨S_, .i32⟩ : BufTy).Contents (Elt F) → (⟨S8388608, .i32⟩ : BufTy).Contents (Elt F)),
    StableHlo.binary main_v36 main_v244 main_v245 (cmpi .slt : (⟨S8388608, .i32⟩ : BufTy).Contents (Elt F) → (⟨S8388608, .i32⟩ : BufTy).Contents (Elt F) → (⟨S8388608, .i1⟩ : BufTy).Contents (Elt F)),
    StableHlo.nullary main_c_54 (constantI S_ 32 200#32),
    StableHlo.unary main_c_54 main_v246 (broadcastInDim S8388608 ![] bcast_S_S8388608 : (⟨S_, .i32⟩ : BufTy).Contents (Elt F) → (⟨S8388608, .i32⟩ : BufTy).Contents (Elt F)),
    StableHlo.binary main_v36 main_v246 main_v247 (addi : (⟨S8388608, .i32⟩ : BufTy).Contents (Elt F) → (⟨S8388608, .i32⟩ : BufTy).Contents (Elt F) → (⟨S8388608, .i32⟩ : BufTy).Contents (Elt F)),
    StableHlo.ternary main_v245 main_v247 main_v36 main_v248 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_55 (constantI S_ 32 0#32),
    StableHlo.unary main_c_55 main_v249 (broadcastInDim S8388608 ![] bcast_S_S8388608 : (⟨S_, .i32⟩ : BufTy).Contents (Elt F) → (⟨S8388608, .i32⟩ : BufTy).Contents (Elt F)),
    StableHlo.binary main_v40 main_v249 main_v250 (cmpi .slt : (⟨S8388608, .i32⟩ : BufTy).Contents (Elt F) → (⟨S8388608, .i32⟩ : BufTy).Contents (Elt F) → (⟨S8388608, .i1⟩ : BufTy).Contents (Elt F)),
    StableHlo.nullary main_c_56 (constantI S_ 32 200#32),
    StableHlo.unary main_c_56 main_v251 (broadcastInDim S8388608 ![] bcast_S_S8388608 : (⟨S_, .i32⟩ : BufTy).Contents (Elt F) → (⟨S8388608, .i32⟩ : BufTy).Contents (Elt F)),
    StableHlo.binary main_v40 main_v251 main_v252 (addi : (⟨S8388608, .i32⟩ : BufTy).Contents (Elt F) → (⟨S8388608, .i32⟩ : BufTy).Contents (Elt F) → (⟨S8388608, .i32⟩ : BufTy).Contents (Elt F)),
    StableHlo.ternary main_v250 main_v252 main_v40 main_v253 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_57 (constantI S_ 32 0#32),
    StableHlo.unary main_c_57 main_v254 (broadcastInDim S8388608 ![] bcast_S_S8388608 : (⟨S_, .i32⟩ : BufTy).Contents (Elt F) → (⟨S8388608, .i32⟩ : BufTy).Contents (Elt F)),
    StableHlo.binary main_v42 main_v254 main_v255 (cmpi .slt : (⟨S8388608, .i32⟩ : BufTy).Contents (Elt F) → (⟨S8388608, .i32⟩ : BufTy).Contents (Elt F) → (⟨S8388608, .i1⟩ : BufTy).Contents (Elt F)),
    StableHlo.nullary main_c_58 (constantI S_ 32 50#32),
    StableHlo.unary main_c_58 main_v256 (broadcastInDim S8388608 ![] bcast_S_S8388608 : (⟨S_, .i32⟩ : BufTy).Contents (Elt F) → (⟨S8388608, .i32⟩ : BufTy).Contents (Elt F)),
    StableHlo.binary main_v42 main_v256 main_v257 (addi : (⟨S8388608, .i32⟩ : BufTy).Contents (Elt F) → (⟨S8388608, .i32⟩ : BufTy).Contents (Elt F) → (⟨S8388608, .i32⟩ : BufTy).Contents (Elt F)),
    StableHlo.ternary main_v255 main_v257 main_v42 main_v258 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_59 (constantI S_ 32 0#32),
    StableHlo.unary main_c_59 main_v259 (broadcastInDim S8388608 ![] bcast_S_S8388608 : (⟨S_, .i32⟩ : BufTy).Contents (Elt F) → (⟨S8388608, .i32⟩ : BufTy).Contents (Elt F)),
    StableHlo.unary main_v259 main_v260 (id : (⟨S8388608, .i32⟩ : BufTy).Contents (Elt F) → (⟨S8388608, .i32⟩ : BufTy).Contents (Elt F)),
    StableHlo.unary main_v248 main_v261 (broadcastInDim S8388608x1 ![0] bcast_S8388608_S8388608x1_0 : (⟨S8388608, .i32⟩ : BufTy).Contents (Elt F) → (⟨S8388608x1, .i32⟩ : BufTy).Contents (Elt F)),
    StableHlo.unary main_v253 main_v262 (broadcastInDim S8388608x1 ![0] bcast_S8388608_S8388608x1_0 : (⟨S8388608, .i32⟩ : BufTy).Contents (Elt F) → (⟨S8388608x1, .i32⟩ : BufTy).Contents (Elt F)),
    StableHlo.unary main_v258 main_v263 (broadcastInDim S8388608x1 ![0] bcast_S8388608_S8388608x1_0 : (⟨S8388608, .i32⟩ : BufTy).Contents (Elt F) → (⟨S8388608x1, .i32⟩ : BufTy).Contents (Elt F)),
    StableHlo.unary main_v260 main_v264 (broadcastInDim S8388608x1 ![0] bcast_S8388608_S8388608x1_0 : (⟨S8388608, .i32⟩ : BufTy).Contents (Elt F) → (⟨S8388608x1, .i32⟩ : BufTy).Contents (Elt F)),
    StableHlo.nary ![main_v261, main_v262, main_v263, main_v264] main_v265 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v265 main_v266 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v267 ((extractStridedSlice S8388608x1x1 ![0, 0, 1] · slices_S8388608x3x2_S8388608x1x1_0_0_1) : (⟨S8388608x3x2, .f32⟩ : BufTy).Contents (Elt F) → (⟨S8388608x1x1, .f32⟩ : BufTy).Contents (Elt F)),
    StableHlo.reshape main_v267 main_v268 rfl shapeCasts_S8388608x1x1_S8388608,
    StableHlo.unary main_v32 main_v269 ((extractStridedSlice S8388608x1x1 ![0, 1, 1] · slices_S8388608x3x2_S8388608x1x1_0_1_1) : (⟨S8388608x3x2, .f32⟩ : BufTy).Contents (Elt F) → (⟨S8388608x1x1, .f32⟩ : BufTy).Contents (Elt F)),
    StableHlo.reshape main_v269 main_v270 rfl shapeCasts_S8388608x1x1_S8388608,
    StableHlo.binary main_v268 main_v270 main_v271 (mulf : (⟨S8388608, .f32⟩ : BufTy).Contents (Elt F) → (⟨S8388608, .f32⟩ : BufTy).Contents (Elt F) → (⟨S8388608, .f32⟩ : BufTy).Contents (Elt F)),
    StableHlo.unary main_v32 main_v272 ((extractStridedSlice S8388608x1x1 ![0, 2, 0] · slices_S8388608x3x2_S8388608x1x1_0_2_0) : (⟨S8388608x3x2, .f32⟩ : BufTy).Contents (Elt F) → (⟨S8388608x1x1, .f32⟩ : BufTy).Contents (Elt F)),
    StableHlo.reshape main_v272 main_v273 rfl shapeCasts_S8388608x1x1_S8388608,
    StableHlo.binary main_v271 main_v273 main_v274 (mulf : (⟨S8388608, .f32⟩ : BufTy).Contents (Elt F) → (⟨S8388608, .f32⟩ : BufTy).Contents (Elt F) → (⟨S8388608, .f32⟩ : BufTy).Contents (Elt F)),
    StableHlo.binary main_v266 main_v274 main_v275 (mulf : (⟨S8388608, .f32⟩ : BufTy).Contents (Elt F) → (⟨S8388608, .f32⟩ : BufTy).Contents (Elt F) → (⟨S8388608, .f32⟩ : BufTy).Contents (Elt F)),
    StableHlo.binary main_v243 main_v275 main_v276 (addf : (⟨S8388608, .f32⟩ : BufTy).Contents (Elt F) → (⟨S8388608, .f32⟩ : BufTy).Contents (Elt F) → (⟨S8388608, .f32⟩ : BufTy).Contents (Elt F)),
    StableHlo.nullary main_c_60 (constantI S_ 32 0#32),
    StableHlo.unary main_c_60 main_v277 (broadcastInDim S8388608 ![] bcast_S_S8388608 : (⟨S_, .i32⟩ : BufTy).Contents (Elt F) → (⟨S8388608, .i32⟩ : BufTy).Contents (Elt F)),
    StableHlo.binary main_v36 main_v277 main_v278 (cmpi .slt : (⟨S8388608, .i32⟩ : BufTy).Contents (Elt F) → (⟨S8388608, .i32⟩ : BufTy).Contents (Elt F) → (⟨S8388608, .i1⟩ : BufTy).Contents (Elt F)),
    StableHlo.nullary main_c_61 (constantI S_ 32 200#32),
    StableHlo.unary main_c_61 main_v279 (broadcastInDim S8388608 ![] bcast_S_S8388608 : (⟨S_, .i32⟩ : BufTy).Contents (Elt F) → (⟨S8388608, .i32⟩ : BufTy).Contents (Elt F)),
    StableHlo.binary main_v36 main_v279 main_v280 (addi : (⟨S8388608, .i32⟩ : BufTy).Contents (Elt F) → (⟨S8388608, .i32⟩ : BufTy).Contents (Elt F) → (⟨S8388608, .i32⟩ : BufTy).Contents (Elt F)),
    StableHlo.ternary main_v278 main_v280 main_v36 main_v281 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_62 (constantI S_ 32 0#32),
    StableHlo.unary main_c_62 main_v282 (broadcastInDim S8388608 ![] bcast_S_S8388608 : (⟨S_, .i32⟩ : BufTy).Contents (Elt F) → (⟨S8388608, .i32⟩ : BufTy).Contents (Elt F)),
    StableHlo.binary main_v40 main_v282 main_v283 (cmpi .slt : (⟨S8388608, .i32⟩ : BufTy).Contents (Elt F) → (⟨S8388608, .i32⟩ : BufTy).Contents (Elt F) → (⟨S8388608, .i1⟩ : BufTy).Contents (Elt F)),
    StableHlo.nullary main_c_63 (constantI S_ 32 200#32),
    StableHlo.unary main_c_63 main_v284 (broadcastInDim S8388608 ![] bcast_S_S8388608 : (⟨S_, .i32⟩ : BufTy).Contents (Elt F) → (⟨S8388608, .i32⟩ : BufTy).Contents (Elt F)),
    StableHlo.binary main_v40 main_v284 main_v285 (addi : (⟨S8388608, .i32⟩ : BufTy).Contents (Elt F) → (⟨S8388608, .i32⟩ : BufTy).Contents (Elt F) → (⟨S8388608, .i32⟩ : BufTy).Contents (Elt F)),
    StableHlo.ternary main_v283 main_v285 main_v40 main_v286 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_64 (constantI S_ 32 0#32),
    StableHlo.unary main_c_64 main_v287 (broadcastInDim S8388608 ![] bcast_S_S8388608 : (⟨S_, .i32⟩ : BufTy).Contents (Elt F) → (⟨S8388608, .i32⟩ : BufTy).Contents (Elt F)),
    StableHlo.binary main_v44 main_v287 main_v288 (cmpi .slt : (⟨S8388608, .i32⟩ : BufTy).Contents (Elt F) → (⟨S8388608, .i32⟩ : BufTy).Contents (Elt F) → (⟨S8388608, .i1⟩ : BufTy).Contents (Elt F)),
    StableHlo.nullary main_c_65 (constantI S_ 32 50#32),
    StableHlo.unary main_c_65 main_v289 (broadcastInDim S8388608 ![] bcast_S_S8388608 : (⟨S_, .i32⟩ : BufTy).Contents (Elt F) → (⟨S8388608, .i32⟩ : BufTy).Contents (Elt F)),
    StableHlo.binary main_v44 main_v289 main_v290 (addi : (⟨S8388608, .i32⟩ : BufTy).Contents (Elt F) → (⟨S8388608, .i32⟩ : BufTy).Contents (Elt F) → (⟨S8388608, .i32⟩ : BufTy).Contents (Elt F)),
    StableHlo.ternary main_v288 main_v290 main_v44 main_v291 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)) ]

/-- Each touches TensorCore references only. -/
theorem ops5_sub : (ops5 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

set_option maxHeartbeats 40000000 in
/-- The 25 operations of window 6. -/
abbrev ops6 : List (HloOp τ sig (Elt F)) :=
  [ StableHlo.nullary main_c_66 (constantI S_ 32 0#32),
    StableHlo.unary main_c_66 main_v292 (broadcastInDim S8388608 ![] bcast_S_S8388608 : (⟨S_, .i32⟩ : BufTy).Contents (Elt F) → (⟨S8388608, .i32⟩ : BufTy).Contents (Elt F)),
    StableHlo.unary main_v292 main_v293 (id : (⟨S8388608, .i32⟩ : BufTy).Contents (Elt F) → (⟨S8388608, .i32⟩ : BufTy).Contents (Elt F)),
    StableHlo.unary main_v281 main_v294 (broadcastInDim S8388608x1 ![0] bcast_S8388608_S8388608x1_0 : (⟨S8388608, .i32⟩ : BufTy).Contents (Elt F) → (⟨S8388608x1, .i32⟩ : BufTy).Contents (Elt F)),
    StableHlo.unary main_v286 main_v295 (broadcastInDim S8388608x1 ![0] bcast_S8388608_S8388608x1_0 : (⟨S8388608, .i32⟩ : BufTy).Contents (Elt F) → (⟨S8388608x1, .i32⟩ : BufTy).Contents (Elt F)),
    StableHlo.unary main_v291 main_v296 (broadcastInDim S8388608x1 ![0] bcast_S8388608_S8388608x1_0 : (⟨S8388608, .i32⟩ : BufTy).Contents (Elt F) → (⟨S8388608x1, .i32⟩ : BufTy).Contents (Elt F)),
    StableHlo.unary main_v293 main_v297 (broadcastInDim S8388608x1 ![0] bcast_S8388608_S8388608x1_0 : (⟨S8388608, .i32⟩ : BufTy).Contents (Elt F) → (⟨S8388608x1, .i32⟩ : BufTy).Contents (Elt F)),
    StableHlo.nary ![main_v294, main_v295, main_v296, main_v297] main_v298 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v298 main_v299 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v300 ((extractStridedSlice S8388608x1x1 ![0, 0, 1] · slices_S8388608x3x2_S8388608x1x1_0_0_1) : (⟨S8388608x3x2, .f32⟩ : BufTy).Contents (Elt F) → (⟨S8388608x1x1, .f32⟩ : BufTy).Contents (Elt F)),
    StableHlo.reshape main_v300 main_v301 rfl shapeCasts_S8388608x1x1_S8388608,
    StableHlo.unary main_v32 main_v302 ((extractStridedSlice S8388608x1x1 ![0, 1, 1] · slices_S8388608x3x2_S8388608x1x1_0_1_1) : (⟨S8388608x3x2, .f32⟩ : BufTy).Contents (Elt F) → (⟨S8388608x1x1, .f32⟩ : BufTy).Contents (Elt F)),
    StableHlo.reshape main_v302 main_v303 rfl shapeCasts_S8388608x1x1_S8388608,
    StableHlo.binary main_v301 main_v303 main_v304 (mulf : (⟨S8388608, .f32⟩ : BufTy).Contents (Elt F) → (⟨S8388608, .f32⟩ : BufTy).Contents (Elt F) → (⟨S8388608, .f32⟩ : BufTy).Contents (Elt F)),
    StableHlo.unary main_v32 main_v305 ((extractStridedSlice S8388608x1x1 ![0, 2, 1] · slices_S8388608x3x2_S8388608x1x1_0_2_1) : (⟨S8388608x3x2, .f32⟩ : BufTy).Contents (Elt F) → (⟨S8388608x1x1, .f32⟩ : BufTy).Contents (Elt F)),
    StableHlo.reshape main_v305 main_v306 rfl shapeCasts_S8388608x1x1_S8388608,
    StableHlo.binary main_v304 main_v306 main_v307 (mulf : (⟨S8388608, .f32⟩ : BufTy).Contents (Elt F) → (⟨S8388608, .f32⟩ : BufTy).Contents (Elt F) → (⟨S8388608, .f32⟩ : BufTy).Contents (Elt F)),
    StableHlo.binary main_v299 main_v307 main_v308 (mulf : (⟨S8388608, .f32⟩ : BufTy).Contents (Elt F) → (⟨S8388608, .f32⟩ : BufTy).Contents (Elt F) → (⟨S8388608, .f32⟩ : BufTy).Contents (Elt F)),
    StableHlo.binary main_v276 main_v308 main_v309 (addf : (⟨S8388608, .f32⟩ : BufTy).Contents (Elt F) → (⟨S8388608, .f32⟩ : BufTy).Contents (Elt F) → (⟨S8388608, .f32⟩ : BufTy).Contents (Elt F)),
    StableHlo.nullary main_cst_67 (constant S_ .f32 0x00000000#32),
    StableHlo.TRef.unary (.of main_cst_67 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S8388608, .f32⟩) (broadcastInDim S8388608 ![] bcast_S_S8388608),
    StableHlo.TRef.ternary (.of main_v13 : StableHlo.TRef sig ⟨S8388608, .i1⟩) (.of main_v309 : StableHlo.TRef sig ⟨S8388608, .f32⟩) (.of main_call1_v1 : StableHlo.TRef sig ⟨S8388608, .f32⟩) (.of main_v310 : StableHlo.TRef sig ⟨S8388608, .f32⟩) select,
    StableHlo.nullary main_cst_68 (constant S_ .f32 0x00000000#32),
    StableHlo.unary main_cst_68 main_v311 (broadcastInDim S8388608 ![] bcast_S_S8388608 : (⟨S_, .f32⟩ : BufTy).Contents (Elt F) → (⟨S8388608, .f32⟩ : BufTy).Contents (Elt F)) ]

/-- Each touches TensorCore references only. -/
theorem ops6_sub : (ops6 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub ..⟩

/-- The windows, in order. -/
abbrev opss : List (List (HloOp τ sig (Elt F))) := [ops0, ops1, ops2, ops3, ops4, ops5, ops6]

/-- @main's operations, in order. -/
abbrev ops : List (HloOp τ sig (Elt F)) := opss.flatten

end Cert.ReferenceIdeal.Hand

end
-- ==== Proof.RefRun.lean ====
/- The reference program's run. Its @main is one straight line of 390 host operations, printed in seven windows
   and calling two outlined functions once each; `ops` lists the operations in order, the functions' own at their
   calls. Three facts are proved here. (1) @main IS the straight line of `ops`: each window is the line of its own
   list (both sides unfold to the same chain of steps, a called function's body opening in place), and lines run
   one after the other are the line of the concatenation. (2) Hence every weakly fair execution terminates with
   every buffer at the fold of the operations' results over its launch contents: a line of operations that touch
   whole unscoped buffers only, none leaving its result undetermined, runs step by step, each step rewriting the
   one buffer it writes. (3) No operation writes an argument's buffer — each writes the buffer of its own result,
   a reference other than the two arguments — so the fold leaves the arguments at their launch contents. -/
import proofs.«173088_j25065429139728_2_alg».proof.Proof.RefOps
import Idealize.ShloMosaic.Lib.Pipeline.Regions

noncomputable section

namespace Cert.ReferenceIdeal.Hand

open Idealize.ShloMosaic Idealize.ShloMosaic.TcCoe Idealize.SL.Sem Idealize.ShloMosaic.StableHlo

/-! ## Lists of lists of operations

General facts about a list of operation lists and its concatenation: a property of every operation of every list is
a property of every operation of the concatenation, and the line of the concatenation is the lines run in order. -/

section Lists

/-- A property holding throughout every list of a list of lists holds throughout its concatenation. -/
theorem forall_flatten {α : Type _} {p : α → Prop} (ls : List (List α)) (h : ls.Forall fun l => l.Forall p) :
    ls.flatten.Forall p :=
  List.forall_iff_forall_mem.2 fun x hx => by
    obtain ⟨l, hl, hxl⟩ := List.mem_flatten.1 hx
    exact List.forall_iff_forall_mem.1 (List.forall_iff_forall_mem.1 h l hl) x hxl

variable {n : Nat} {t : Topo} {s : RefSig} {V : EltTy → Type} {L : Labels}

/-- The lines of some lists of operations run one after the other, then the return. -/
def seqs : List (List (HloOp t s V)) → Prog (TpuEff n t s V L .tc) PUnit
  | [] => pure ⟨⟩
  | l :: ls => seq l >>= fun _ => seqs ls

/-- The line of a concatenation is the lines of its parts in order. -/
theorem seq_flatten : ∀ ls : List (List (HloOp t s V)),
    (seq ls.flatten : Prog (TpuEff n t s V L .tc) PUnit) = seqs ls
  | [] => rfl
  | l :: ls => by rw [List.flatten_cons, seq_append, seq_flatten ls]; rfl

/-- An operation whose one written buffer is the reference `y`'s writes no other reference's. -/
theorem not_mem_writes_of_ne {op : HloOp t s V} {y r : Ref s .tc} (hw : op.writes = {Proc.devRef .tc y}) (h : r ≠ y) :
    Proc.devRef (τ := t) .tc r ∉ op.writes := by
  rw [hw, Finset.mem_singleton]; exact devRef_ne_of_ne h

end Lists

open Cert.ReferenceIdeal Cert.ReferenceIdeal.Gen

variable {F : FTy → Type} [FloatOps F]

/-! ## @main is the line of its operations

Window by window: a window's statements are the steps of its list in order (windows 0 and 6 call a function, whose
body is the steps listed at the call; a window but the last ends in its last step, the line in the return after it,
which are equal). Both sides are closed terms; the equation is checked by unfolding them. -/

theorem main_part0_eq (c : Dev nD) : main_part0 (F := F) c = seq ops0 := by
  chain_rfl

theorem main_part1_eq (c : Dev nD) : main_part1 (F := F) c = seq ops1 := by
  chain_rfl

theorem main_part2_eq (c : Dev nD) : main_part2 (F := F) c = seq ops2 := by
  chain_rfl

theorem main_part3_eq (c : Dev nD) : main_part3 (F := F) c = seq ops3 := by
  chain_rfl

theorem main_part4_eq (c : Dev nD) : main_part4 (F := F) c = seq ops4 := by
  chain_rfl

theorem main_part5_eq (c : Dev nD) : main_part5 (F := F) c = seq ops5 := by
  chain_rfl

theorem main_part6_eq (c : Dev nD) : main_part6 (F := F) c = seq ops6 := by
  chain_rfl

/-- @main is the straight line of its 390 operations. -/
theorem main_eq (c : Dev nD) : main (F := F) c = seq ops := by
  rw [show (ops : List (HloOp τ sig (Elt F))) = opss.flatten from rfl, seq_flatten]
  show (main_part0 (F := F) c >>= fun _ => main_part1 (F := F) c >>= fun _ => main_part2 (F := F) c >>= fun _ =>
      main_part3 (F := F) c >>= fun _ => main_part4 (F := F) c >>= fun _ => main_part5 (F := F) c >>= fun _ =>
      main_part6 (F := F) c)
    = (seq ops0 >>= fun _ => seq ops1 >>= fun _ => seq ops2 >>= fun _ => seq ops3 >>= fun _ => seq ops4 >>= fun _ =>
      seq ops5 >>= fun _ => seq ops6 >>= fun _ => pure ⟨⟩)
  rw [main_part0_eq, main_part1_eq, main_part2_eq, main_part3_eq, main_part4_eq, main_part5_eq, main_part6_eq,
    bind_pure_unit]

/-! ## The side conditions of the run -/

/-- Every operation touches TensorCore references only: each window's do. -/
theorem ops_sub : (ops : List (HloOp τ sig (Elt F))).Forall fun op => op.bufs ⊆ tcRefs τ sig :=
  forall_flatten opss ⟨ops0_sub, ops1_sub, ops2_sub, ops3_sub, ops4_sub, ops5_sub, ops6_sub⟩

/-- Every operation of window 0 determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of window 1 determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of window 2 determines its result. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of window 3 determines its result. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of window 4 determines its result. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of window 5 determines its result. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of window 6 determines its result. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Every operation determines its result (none allocates an uninitialised buffer). -/
theorem ops_fresh : (ops : List (HloOp τ sig (Elt F))).Forall fun op => op.fresh = ∅ :=
  forall_flatten opss ⟨ops0_fresh, ops1_fresh, ops2_fresh, ops3_fresh, ops4_fresh, ops5_fresh, ops6_fresh⟩

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-! ## The run -/

/-- At the compiled mesh, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

/-! ## The arguments are kept

Each operation writes exactly the buffer of its result, and no result is an argument. -/

/-- The operation writes neither argument's buffer. -/
def Keeps (op : HloOp τ sig (Elt F)) : Prop :=
  Proc.devRef (τ := τ) .tc main_arg0 ∉ op.writes ∧ Proc.devRef (τ := τ) .tc main_arg1 ∉ op.writes

/-- An operation whose one written buffer is a reference other than the arguments writes neither argument's. -/
theorem keeps_of_writes {op : HloOp τ sig (Elt F)} {y : Ref sig .tc} (hw : op.writes = {Proc.devRef .tc y})
    (h0 : main_arg0 ≠ y) (h1 : main_arg1 ≠ y) : Keeps op :=
  ⟨not_mem_writes_of_ne hw h0, not_mem_writes_of_ne hw h1⟩

theorem ops0_keeps : (ops0 : List (HloOp τ sig (Elt F))).Forall Keeps := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact keeps_of_writes rfl (by decide) (by decide)

theorem ops1_keeps : (ops1 : List (HloOp τ sig (Elt F))).Forall Keeps := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact keeps_of_writes rfl (by decide) (by decide)

theorem ops2_keeps : (ops2 : List (HloOp τ sig (Elt F))).Forall Keeps := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact keeps_of_writes rfl (by decide) (by decide)

theorem ops3_keeps : (ops3 : List (HloOp τ sig (Elt F))).Forall Keeps := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact keeps_of_writes rfl (by decide) (by decide)

theorem ops4_keeps : (ops4 : List (HloOp τ sig (Elt F))).Forall Keeps := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact keeps_of_writes rfl (by decide) (by decide)

theorem ops5_keeps : (ops5 : List (HloOp τ sig (Elt F))).Forall Keeps := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact keeps_of_writes rfl (by decide) (by decide)

theorem ops6_keeps : (ops6 : List (HloOp τ sig (Elt F))).Forall Keeps := by
  refine ⟨?_, ?_, ?_, ?_, ?_, ?_, ?_, ?_, ?_, ?_, ?_, ?_, ?_, ?_, ?_, ?_, ?_, ?_, ?_, ?_, ?_, ?_, ?_, ?_, ?_⟩ <;> exact keeps_of_writes rfl (by decide) (by decide)

/-- No operation writes an argument's buffer. -/
theorem ops_keeps : (ops : List (HloOp τ sig (Elt F))).Forall Keeps :=
  forall_flatten opss ⟨ops0_keeps, ops1_keeps, ops2_keeps, ops3_keeps, ops4_keeps, ops5_keeps, ops6_keeps⟩

/-- The fold of the operations leaves the first argument's buffer as it was. -/
theorem arg0_kept (W : Valuation τ sig (Elt F)) :
    after ops W (Proc.devRef .tc main_arg0) = W (Proc.devRef .tc main_arg0) :=
  after_of_forall_not_mem ops W fun op hop => (List.forall_iff_forall_mem.1 ops_keeps op hop).1

/-- The fold of the operations leaves the second argument's buffer as it was. -/
theorem arg1_kept (W : Valuation τ sig (Elt F)) :
    after ops W (Proc.devRef .tc main_arg1) = W (Proc.devRef .tc main_arg1) :=
  after_of_forall_not_mem ops W fun op hop => (List.forall_iff_forall_mem.1 ops_keeps op hop).2

/-- @main runs to its end from any memory with zero counters, nothing faulting, and its two argument arrays end as
    they were launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0).trans (arg0_kept _), (h c main_arg1).trans (arg1_kept _)⟩)
    (run_main m ρ)

end Cert.ReferenceIdeal.Hand

end
-- ==== Proof.Spec.lean ====
/-
  What both programs compute for ONE query point, as a scalar expression.

  A query point has, per axis d = 0, 1, 2, a lower cell index i0 d and an upper one i1 d (32-bit words, already clamped
  into the grid by the programs' shared first lines) and a fraction fr d; its eight corners are the choices of lower /
  upper per axis.  A corner's value is the grid read at its three cell indices — each read the way an integer array
  index is read: a negative one counts from the end (`wrapS`), and the result is clamped into the axis as a gather
  clamps it — and its weight is the product over the axes of the fraction (upper) or one minus it (lower).  The
  point's result is the sum of value times weight over the corners, in the fixed order 000, 001, …, 111, where the
  validity flag is set, and zero where it is not.  Both programs add and multiply in exactly this order, so no law of
  the extended reals beyond 0 + x = x is needed.
-/
import Idealize.ShloMosaic.PureOps.Ideal
import Idealize.ShloMosaic.Lib.ValueIdx

noncomputable section

namespace Cert.Spec

open Idealize.ShloMosaic Idealize.ShloMosaic.ValueIdx

/-- The number of query points. -/
abbrev NP : Nat := 8388608
/-- The shapes the specification speaks of: one entry per point, three per point, the grid with its unit last axis. -/
abbrev SN : Shape := ⟨1, ![8388608]⟩
abbrev SN3 : Shape := ⟨2, ![8388608, 3]⟩
abbrev SG4 : Shape := ⟨4, ![200, 200, 50, 1]⟩

/-- The float literals one and zero, kept as their words. -/
abbrev one : EReal := Ideal.ofBits .f32 0x3F800000#32
abbrev zero : EReal := Ideal.ofBits .f32 0x00000000#32

/-- An integer array index read the way array indexing reads it: a negative one counts from the end of an axis of
    extent `s`. -/
def wrapS (j s : BitVec 32) : BitVec 32 := Scalar.select (IntOp.cmpi .slt j 0#32) (IntOp.addi j s) j

/-- A cell coordinate from an index word: read signed, negative to zero, clamped to the last cell `hi`. -/
def clampTo (hi : Nat) (j : BitVec 32) : Fin (hi + 1) := ⟨min j.toInt.toNat hi, Nat.lt_succ_of_le (Nat.min_le_right _ _)⟩

/-- The grid read at three index words. -/
def cellS (g : SG4.Idx → EReal) (jx jy jz : BitVec 32) : EReal :=
  g (ix4 (clampTo 199 jx) (clampTo 199 jy) (clampTo 49 jz) (0 : Fin 1))

/-- Lower or upper. -/
def pick (lo hi : BitVec 32) : Bool → BitVec 32
  | false => lo
  | true => hi

/-- An axis' weight: one minus the fraction for the lower cell, the fraction for the upper. -/
def wgt (fr : EReal) : Bool → EReal
  | false => one - fr
  | true => fr

/-- One corner's contribution: the grid at the corner's cell times the product of its three weights. -/
def term (g : SG4.Idx → EReal) (i0 i1 : Fin 3 → BitVec 32) (fr : Fin 3 → EReal) (a b c : Bool) : EReal :=
  cellS g (wrapS (pick (i0 0) (i1 0) a) 200#32) (wrapS (pick (i0 1) (i1 1) b) 200#32) (wrapS (pick (i0 2) (i1 2) c) 50#32)
    * ((wgt (fr 0) a * wgt (fr 1) b) * wgt (fr 2) c)

/-- The eight contributions added in the order 000, 001, 010, 011, 100, 101, 110, 111, each sum bracketed to the left. -/
def acc (g : SG4.Idx → EReal) (i0 i1 : Fin 3 → BitVec 32) (fr : Fin 3 → EReal) : EReal :=
  ((((((term g i0 i1 fr false false false + term g i0 i1 fr false false true) + term g i0 i1 fr false true false)
    + term g i0 i1 fr false true true) + term g i0 i1 fr true false false) + term g i0 i1 fr true false true)
    + term g i0 i1 fr true true false) + term g i0 i1 fr true true true

/-- A point's result: the sum where the point is valid, zero where it is not. -/
def rowOut (va : BitVec 1) (g : SG4.Idx → EReal) (i0 i1 : Fin 3 → BitVec 32) (fr : Fin 3 → EReal) : EReal :=
  Scalar.select va (acc g i0 i1 fr) zero

/-- The whole result array, from the validity flags, the two index arrays, the fractions and the grid. -/
def out (VA : IVec SN 1) (I0 I1 : IVec SN3 32) (FR : SN3.Idx → EReal) (g : SG4.Idx → EReal) : SN.Idx → EReal :=
  fun j => rowOut (VA j) g (fun d => I0 (ix2 (j 0) d)) (fun d => I1 (ix2 (j 0) d)) (fun d => FR (ix2 (j 0) d))

theorem out_apply (VA : IVec SN 1) (I0 I1 : IVec SN3 32) (FR : SN3.Idx → EReal) (g : SG4.Idx → EReal) (n : Fin 8388608) :
    out VA I0 I1 FR g (ix1 n) = rowOut (VA (ix1 n)) g (fun d => I0 (ix2 n d)) (fun d => I1 (ix2 n d)) (fun d => FR (ix2 n d)) := rfl

/-- The other result of both programs: zero everywhere. -/
def zeros : SN.Idx → EReal := fun _ => zero

end Cert.Spec

end
-- ==== Proof.KValueBody.lean ====
/-
  The value the region's body stores, read at ONE column of its block.

  The body sees a block of 131072 columns of three arrays: eight rows of corner values, three rows of fractions and one
  row holding the validity flag as a float.  At column q it forms, per axis, the pair of weights (one minus the fraction,
  the fraction), multiplies the corner in row k = 4a + 2b + c by the product of the weights the bits a, b, c choose —
  bracketed ((x · y) · z) — adds the eight products from row 0 to row 7, each sum bracketed to the left, and keeps the
  sum where the flag is not zero, zero elsewhere.  Nothing at column q depends on another column.
-/
import proofs.«173088_j25065429139728_2_alg».proof.Proof.KDefs
import proofs.«173088_j25065429139728_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open Cert.Spec (wgt)

/-- Eight corner values weighted and added: corner k = 4a + 2b + c times ((w_x a · w_y b) · w_z c), the products added
    from corner 0 to corner 7 with every sum bracketed to the left. -/
def wsum (c0 c1 c2 c3 c4 c5 c6 c7 fx fy fz : EReal) : EReal :=
  ((((((c0 * ((wgt fx false * wgt fy false) * wgt fz false) + c1 * ((wgt fx false * wgt fy false) * wgt fz true))
    + c2 * ((wgt fx false * wgt fy true) * wgt fz false)) + c3 * ((wgt fx false * wgt fy true) * wgt fz true))
    + c4 * ((wgt fx true * wgt fy false) * wgt fz false)) + c5 * ((wgt fx true * wgt fy false) * wgt fz true))
    + c6 * ((wgt fx true * wgt fy true) * wgt fz false)) + c7 * ((wgt fx true * wgt fy true) * wgt fz true)

/-- The specification's sum over the corners is this sum of its eight cells. -/
theorem acc_eq_wsum (g : Cert.Spec.SG4.Idx → EReal) (i0 i1 : Fin 3 → BitVec 32) (fr : Fin 3 → EReal) :
    Cert.Spec.acc g i0 i1 fr
      = wsum
          (Cert.Spec.cellS g (Cert.Spec.wrapS (i0 0) 200#32) (Cert.Spec.wrapS (i0 1) 200#32) (Cert.Spec.wrapS (i0 2) 50#32))
          (Cert.Spec.cellS g (Cert.Spec.wrapS (i0 0) 200#32) (Cert.Spec.wrapS (i0 1) 200#32) (Cert.Spec.wrapS (i1 2) 50#32))
          (Cert.Spec.cellS g (Cert.Spec.wrapS (i0 0) 200#32) (Cert.Spec.wrapS (i1 1) 200#32) (Cert.Spec.wrapS (i0 2) 50#32))
          (Cert.Spec.cellS g (Cert.Spec.wrapS (i0 0) 200#32) (Cert.Spec.wrapS (i1 1) 200#32) (Cert.Spec.wrapS (i1 2) 50#32))
          (Cert.Spec.cellS g (Cert.Spec.wrapS (i1 0) 200#32) (Cert.Spec.wrapS (i0 1) 200#32) (Cert.Spec.wrapS (i0 2) 50#32))
          (Cert.Spec.cellS g (Cert.Spec.wrapS (i1 0) 200#32) (Cert.Spec.wrapS (i0 1) 200#32) (Cert.Spec.wrapS (i1 2) 50#32))
          (Cert.Spec.cellS g (Cert.Spec.wrapS (i1 0) 200#32) (Cert.Spec.wrapS (i1 1) 200#32) (Cert.Spec.wrapS (i0 2) 50#32))
          (Cert.Spec.cellS g (Cert.Spec.wrapS (i1 0) 200#32) (Cert.Spec.wrapS (i1 1) 200#32) (Cert.Spec.wrapS (i1 2) 50#32))
          (fr 0) (fr 1) (fr 2) := rfl

/-- THE BODY AT A COLUMN: the masked weighted sum of the column's eight corners. -/
theorem body_at (xc : Vec Ideal S8x131072 .f32) (xf : Vec Ideal S3x131072 .f32) (xv : Vec Ideal S1x131072 .f32)
    (q : Fin 131072) :
    k0_pay1 (F := Ideal) (k0_pay2 (F := Ideal) xf xc) xv (ix2 (0 : Fin 1) q)
      = Scalar.select (FloatOps.cmpf (F := Ideal) (φ := .f32) .one (xv (ix2 (0 : Fin 1) q)) Cert.Spec.zero)
          (wsum (xc (ix2 (0 : Fin 8) q)) (xc (ix2 (1 : Fin 8) q)) (xc (ix2 (2 : Fin 8) q)) (xc (ix2 (3 : Fin 8) q))
            (xc (ix2 (4 : Fin 8) q)) (xc (ix2 (5 : Fin 8) q)) (xc (ix2 (6 : Fin 8) q)) (xc (ix2 (7 : Fin 8) q))
            (xf (ix2 (0 : Fin 3) q)) (xf (ix2 (1 : Fin 3) q)) (xf (ix2 (2 : Fin 3) q)))
          Cert.Spec.zero := by
  unfold k0_pay1 k0_pay2
  simp only [select_apply, cmpf_apply, addf_apply, mulf_apply, subf_apply, broadcast_apply, shapeCast_self,
    slice2_axis0_eq]
  rfl

end Cert.KernelIdeal.Hand

end
-- ==== Proof.KValueBlocks.lean ====
/-
  From the blocks to the whole output array.

  The region's grid has 64 points; at point t every window's block is columns t·131072 … t·131072 + 131071 of its array,
  all rows.  The body's result at a column depends on that column of the three inputs only, so what point t writes back
  is block t of ONE function of the three whole input arrays; the 64 blocks tile the output's 8388608 columns (column j
  lies in block j / 131072), so the output array ends holding that function everywhere.
-/
import proofs.«173088_j25065429139728_2_alg».proof.Proof.KValueBody

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- An index of a one-row block is row 0 at its column. -/
theorem idx_row0 (j : S1x131072.Idx) : j = ix2 (0 : Fin 1) (j 1) := by
  funext a
  match a with
  | ⟨0, h⟩ =>
    have h1 : ∀ x : Fin 1, x = 0 := fun x => Subsingleton.elim _ _
    exact h1 (j ⟨0, h⟩)
  | ⟨1, _⟩ => rfl

/-- The body's stored value at ANY index of its one-row block: the masked weighted sum at the index's column. -/
theorem out_blk (xc : Vec Ideal S8x131072 .f32) (xf : Vec Ideal S3x131072 .f32) (xv : Vec Ideal S1x131072 .f32)
    (j : S1x131072.Idx) :
    k0_pay1 (F := Ideal) (k0_pay2 (F := Ideal) xf xc) xv j
      = Scalar.select (FloatOps.cmpf (F := Ideal) (φ := .f32) .one (xv (ix2 (0 : Fin 1) (j 1))) Cert.Spec.zero)
          (wsum (xc (ix2 (0 : Fin 8) (j 1))) (xc (ix2 (1 : Fin 8) (j 1))) (xc (ix2 (2 : Fin 8) (j 1)))
            (xc (ix2 (3 : Fin 8) (j 1))) (xc (ix2 (4 : Fin 8) (j 1))) (xc (ix2 (5 : Fin 8) (j 1)))
            (xc (ix2 (6 : Fin 8) (j 1))) (xc (ix2 (7 : Fin 8) (j 1)))
            (xf (ix2 (0 : Fin 3) (j 1))) (xf (ix2 (1 : Fin 3) (j 1))) (xf (ix2 (2 : Fin 3) (j 1))))
          Cert.Spec.zero := by
  obtain ⟨q, rfl⟩ : ∃ q : Fin 131072, j = ix2 (0 : Fin 1) q := ⟨j 1, idx_row0 j⟩
  exact body_at xc xf xv q

/-- The body's stored value as a function of the block index. -/
theorem pay_fun (xc : Vec Ideal S8x131072 .f32) (xf : Vec Ideal S3x131072 .f32) (xv : Vec Ideal S1x131072 .f32) :
    k0_pay1 (F := Ideal) (k0_pay2 (F := Ideal) xf xc) xv
      = fun j : S1x131072.Idx =>
          Scalar.select (FloatOps.cmpf (F := Ideal) (φ := .f32) .one (xv (ix2 (0 : Fin 1) (j 1))) Cert.Spec.zero)
            (wsum (xc (ix2 (0 : Fin 8) (j 1))) (xc (ix2 (1 : Fin 8) (j 1))) (xc (ix2 (2 : Fin 8) (j 1)))
              (xc (ix2 (3 : Fin 8) (j 1))) (xc (ix2 (4 : Fin 8) (j 1))) (xc (ix2 (5 : Fin 8) (j 1)))
              (xc (ix2 (6 : Fin 8) (j 1))) (xc (ix2 (7 : Fin 8) (j 1)))
              (xf (ix2 (0 : Fin 3) (j 1))) (xf (ix2 (1 : Fin 3) (j 1))) (xf (ix2 (2 : Fin 3) (j 1))))
            Cert.Spec.zero :=
  funext (out_blk xc xf xv)

/-- What the output array ends holding, as ONE function of the three input arrays: at column j the masked weighted sum
    of column j of the corner values, the fractions and the flag. -/
def G3 (a0 : S8x8388608.Idx → EReal) (a1 : S3x8388608.Idx → EReal) (a2 : S1x8388608.Idx → EReal) : S1x8388608.Idx → EReal :=
  fun i => Scalar.select (FloatOps.cmpf (F := Ideal) (φ := .f32) .one (a2 (ix2 (0 : Fin 1) (i 1))) Cert.Spec.zero)
    (wsum (a0 (ix2 (0 : Fin 8) (i 1))) (a0 (ix2 (1 : Fin 8) (i 1))) (a0 (ix2 (2 : Fin 8) (i 1))) (a0 (ix2 (3 : Fin 8) (i 1)))
      (a0 (ix2 (4 : Fin 8) (i 1))) (a0 (ix2 (5 : Fin 8) (i 1))) (a0 (ix2 (6 : Fin 8) (i 1))) (a0 (ix2 (7 : Fin 8) (i 1)))
      (a1 (ix2 (0 : Fin 3) (i 1))) (a1 (ix2 (1 : Fin 3) (i 1))) (a1 (ix2 (2 : Fin 3) (i 1))))
    Cert.Spec.zero

/-- THE BODY AGAINST THE ARRAYS, at matching columns: if column q of the three blocks is column p of three arrays, the
    body's value at column q is G3 of the arrays at column p. -/
theorem body_eq_G3 (xc : Vec Ideal S8x131072 .f32) (xf : Vec Ideal S3x131072 .f32) (xv : Vec Ideal S1x131072 .f32)
    (a0 : S8x8388608.Idx → EReal) (a1 : S3x8388608.Idx → EReal) (a2 : S1x8388608.Idx → EReal)
    (q : Fin 131072) (p : Fin 8388608)
    (h0 : ∀ k : Fin 8, xc (ix2 k q) = a0 (ix2 k p)) (h1 : ∀ k : Fin 3, xf (ix2 k q) = a1 (ix2 k p))
    (h2 : xv (ix2 (0 : Fin 1) q) = a2 (ix2 (0 : Fin 1) p)) :
    k0_pay1 (F := Ideal) (k0_pay2 (F := Ideal) xf xc) xv (ix2 (0 : Fin 1) q) = G3 a0 a1 a2 (ix2 (0 : Fin 1) p) := by
  rw [body_at, h0, h0, h0, h0, h0, h0, h0, h0, h1, h1, h1, h2]
  rfl

theorem hz2 : (![0, 0] : Fin 2 → Nat) = fun _ => 0 := funext fun a => by fin_cases a <;> rfl

/-- The four index maps, decided over the 64 points: every window's block at point t is block row 0, block column t. -/
theorem idx_facts3 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- THE BLOCK LEMMA, for ANY three input arrays: the body's result on block t of the arrays, as the write-back takes it,
    is block t of G3 of the arrays.  (Stated over arbitrary arrays: nothing here looks inside what the arrays hold.) -/
theorem blk_eq (A0 : S8x8388608.Idx → EReal) (A1 : S3x8388608.Idx → EReal) (A2 : S1x8388608.Idx → EReal)
    (t : Fin cfg0.N) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (G3 A0 A1 A2) := by
  unfold out0_3
  rw [View.canon_unit_zero hz2]
  simp only [View.ld_unit_zero (S := S8x131072) hz2, View.ld_unit_zero (S := S3x131072) hz2,
    View.ld_unit_zero (S := S1x131072) hz2]
  -- the stored value as a function of the block index
  rw [pay_fun]
  obtain ⟨e00, e01, e10, e11, e20, e21, e30, e31⟩ := idx_facts3 t
  refine funext fun (j : S1x131072.Idx) => ?_
  have hj : (j 1).val < 131072 := (j 1).isLt
  -- column (j 1) of each input block is the column of its array under the output block's index j
  have h0 : ∀ k : Fin 8, ((cfg0.win 0).blk t).view.read (Elt Ideal) A0 (ix2 k (j 1))
      = A0 (ix2 k ((((cfg0.win 3).blk t).view.emb j) 1)) := fun k => by
    show A0 (((cfg0.win 0).blk t).view.emb (ix2 k (j 1))) = _
    refine congrArg A0 (funext fun a => Fin.ext ?_)
    match a with
    | ⟨0, _⟩ => show win0_0.index t (0 : Fin 2) * 8 + 1 * k.val = k.val; omega
    | ⟨1, _⟩ =>
      show win0_0.index t (1 : Fin 2) * 131072 + 1 * (j 1).val = win0_3.index t (1 : Fin 2) * 131072 + 1 * (j 1).val
      omega
  have h1 : ∀ k : Fin 3, ((cfg0.win 1).blk t).view.read (Elt Ideal) A1 (ix2 k (j 1))
      = A1 (ix2 k ((((cfg0.win 3).blk t).view.emb j) 1)) := fun k => by
    show A1 (((cfg0.win 1).blk t).view.emb (ix2 k (j 1))) = _
    refine congrArg A1 (funext fun a => Fin.ext ?_)
    match a with
    | ⟨0, _⟩ => show win0_1.index t (0 : Fin 2) * 3 + 1 * k.val = k.val; omega
    | ⟨1, _⟩ =>
      show win0_1.index t (1 : Fin 2) * 131072 + 1 * (j 1).val = win0_3.index t (1 : Fin 2) * 131072 + 1 * (j 1).val
      omega
  have h2 : ∀ k : Fin 1, ((cfg0.win 2).blk t).view.read (Elt Ideal) A2 (ix2 k (j 1))
      = A2 (ix2 k ((((cfg0.win 3).blk t).view.emb j) 1)) := fun k => by
    show A2 (((cfg0.win 2).blk t).view.emb (ix2 k (j 1))) = _
    refine congrArg A2 (funext fun a => Fin.ext ?_)
    match a with
    | ⟨0, _⟩ => show win0_2.index t (0 : Fin 2) * 1 + 1 * k.val = k.val; omega
    | ⟨1, _⟩ =>
      show win0_2.index t (1 : Fin 2) * 131072 + 1 * (j 1).val = win0_3.index t (1 : Fin 2) * 131072 + 1 * (j 1).val
      omega
  show Scalar.select (FloatOps.cmpf (F := Ideal) (φ := .f32) .one
        (((cfg0.win 2).blk t).view.read (Elt Ideal) A2 (ix2 (0 : Fin 1) (j 1))) Cert.Spec.zero)
      (wsum (((cfg0.win 0).blk t).view.read (Elt Ideal) A0 (ix2 (0 : Fin 8) (j 1)))
        (((cfg0.win 0).blk t).view.read (Elt Ideal) A0 (ix2 (1 : Fin 8) (j 1)))
        (((cfg0.win 0).blk t).view.read (Elt Ideal) A0 (ix2 (2 : Fin 8) (j 1)))
        (((cfg0.win 0).blk t).view.read (Elt Ideal) A0 (ix2 (3 : Fin 8) (j 1)))
        (((cfg0.win 0).blk t).view.read (Elt Ideal) A0 (ix2 (4 : Fin 8) (j 1)))
        (((cfg0.win 0).blk t).view.read (Elt Ideal) A0 (ix2 (5 : Fin 8) (j 1)))
        (((cfg0.win 0).blk t).view.read (Elt Ideal) A0 (ix2 (6 : Fin 8) (j 1)))
        (((cfg0.win 0).blk t).view.read (Elt Ideal) A0 (ix2 (7 : Fin 8) (j 1)))
        (((cfg0.win 1).blk t).view.read (Elt Ideal) A1 (ix2 (0 : Fin 3) (j 1)))
        (((cfg0.win 1).blk t).view.read (Elt Ideal) A1 (ix2 (1 : Fin 3) (j 1)))
        (((cfg0.win 1).blk t).view.read (Elt Ideal) A1 (ix2 (2 : Fin 3) (j 1))))
      Cert.Spec.zero
    = G3 A0 A1 A2 (((cfg0.win 3).blk t).view.emb j)
  rw [h0, h0, h0, h0, h0, h0, h0, h0, h1, h1, h1, h2]
  rfl

/-- WHAT POINT t WRITES BACK is block t of G3 of the three input arrays as the region finds them. -/
theorem flushed3_eq (c : Dev nD) (t : Fin cfg0.N) :
    (dats m 0 c).flushed 3 t
      = ((cfg0.win 3).blk t).view.read (Elt Ideal) (G3 (V m c main_v209) (V m c main_v210) (V m c main_v212)) := by
  show (cfg0.win 3).cut (grid0.coords t) ((dats m 0 c).after 3 t) = _
  rw [after0_3]
  exact blk_eq (V m c main_v209) (V m c main_v210) (V m c main_v212) t

/-- An index of the output array is in point t's block iff each coordinate is in the block's range on its axis. -/
theorem mem_blk3 (t : Fin cfg0.N) (i : S1x8388608.Idx) :
    i ∈ ((cfg0.win 3).blk t).view.set ↔ ∀ a : Fin 2, win0_3.index t a * S1x131072.size a ≤ (i a).val
      ∧ (i a).val < win0_3.index t a * S1x131072.size a + S1x131072.size a := by
  show i ∈ ((View.whole main_v213).slice (win0_3.rect t)).set ↔ _
  rw [View.set_slice_whole, Rect.mem_set_unit]
  exact Iff.rfl

/-- THE COVER: column j of the output lies in the block of point j / 131072. -/
theorem cover3 (i : S1x8388608.Idx) :
    ∃ t : Fin cfg0.N, (cfg0.win 3).flush t = true ∧ i ∈ ((cfg0.win 3).blk t).view.set := by
  have hi0 : (i 0).val < 1 := (i 0).isLt
  have hi1 : (i 1).val < 8388608 := (i 1).isLt
  refine ⟨⟨(i 1).val / 131072, by show (i 1).val / 131072 < 64; omega⟩, flush0_3 _, ?_⟩
  rw [mem_blk3]
  obtain ⟨-, -, -, -, -, -, e30, e31⟩ := idx_facts3 ⟨(i 1).val / 131072, by show (i 1).val / 131072 < 64; omega⟩
  have e31' : win0_3.index ⟨(i 1).val / 131072, by show (i 1).val / 131072 < 64; omega⟩ (1 : Fin 2) = (i 1).val / 131072 := e31
  intro a
  match a with
  | ⟨0, _⟩ =>
    show win0_3.index _ (0 : Fin 2) * 1 ≤ (i 0).val ∧ (i 0).val < win0_3.index _ (0 : Fin 2) * 1 + 1
    omega
  | ⟨1, _⟩ =>
    show win0_3.index _ (1 : Fin 2) * 131072 ≤ (i 1).val ∧ (i 1).val < win0_3.index _ (1 : Fin 2) * 131072 + 131072
    omega

/-- THE OUTPUT ARRAY after the region: G3 of the three input arrays, everywhere. -/
theorem final3 (c : Dev nD) :
    (dats m 0 c).arrAt 3 cfg0.N = G3 (V m c main_v209) (V m c main_v210) (V m c main_v212) :=
  (dats m 0 c).arrAt_eq_of_cover 3 _ (fun t _ => flushed3_eq m c t) cover3

end Cert.KernelIdeal.Hand

end
-- ==== Proof.KChunks.lean ====
/- For each stretch of host operations of the program: the buffers its operations write, in order; that each operation
   writes only such a buffer; and so a buffer outside the list holds after the stretch what it held before. -/
import proofs.«173088_j25065429139728_2_alg».proof.Proof.Gen.KernelIdeal.Launch
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxHeartbeats 40000000 in
/-- 11 operations. -/
abbrev k_pre : List (HloOp τ sig (Elt F)) :=
  [ StableHlo.nullary main_c_7 (constantI S_ 32 1#32),
    StableHlo.unary main_c_7 main_v19 (broadcastInDim S8388608x3 ![] bcast_S_S8388608x3 : (⟨S_, .i32⟩ : BufTy).Contents (Elt F) → (⟨S8388608x3, .i32⟩ : BufTy).Contents (Elt F)),
    StableHlo.binary main_v18 main_v19 main_v20 (addi : (⟨S8388608x3, .i32⟩ : BufTy).Contents (Elt F) → (⟨S8388608x3, .i32⟩ : BufTy).Contents (Elt F) → (⟨S8388608x3, .i32⟩ : BufTy).Contents (Elt F)),
    StableHlo.nullary main_c_8 (constantI S_ 32 1#32),
    StableHlo.unary main_c_8 main_v21 (broadcastInDim S3 ![] bcast_S_S3 : (⟨S_, .i32⟩ : BufTy).Contents (Elt F) → (⟨S3, .i32⟩ : BufTy).Contents (Elt F)),
    StableHlo.binary main_c main_v21 main_v22 (subi : (⟨S3, .i32⟩ : BufTy).Contents (Elt F) → (⟨S3, .i32⟩ : BufTy).Contents (Elt F) → (⟨S3, .i32⟩ : BufTy).Contents (Elt F)),
    StableHlo.unary main_v22 main_v23 (broadcastInDim S1x3 ![1] bcast_S3_S1x3_1 : (⟨S3, .i32⟩ : BufTy).Contents (Elt F) → (⟨S1x3, .i32⟩ : BufTy).Contents (Elt F)),
    StableHlo.unary main_v23 main_v24 (broadcastInDim S8388608x3 ![0, 1] bcast_S1x3_S8388608x3_0_1 : (⟨S1x3, .i32⟩ : BufTy).Contents (Elt F) → (⟨S8388608x3, .i32⟩ : BufTy).Contents (Elt F)),
    StableHlo.binary main_v20 main_v24 main_v25 (minsi : (⟨S8388608x3, .i32⟩ : BufTy).Contents (Elt F) → (⟨S8388608x3, .i32⟩ : BufTy).Contents (Elt F) → (⟨S8388608x3, .i32⟩ : BufTy).Contents (Elt F)),
    StableHlo.unary main_v4 main_v26 (Host.floor : (⟨S8388608x3, .f32⟩ : BufTy).Contents (Elt F) → (⟨S8388608x3, .f32⟩ : BufTy).Contents (Elt F)),
    StableHlo.binary main_v4 main_v26 main_v27 (subf : (⟨S8388608x3, .f32⟩ : BufTy).Contents (Elt F) → (⟨S8388608x3, .f32⟩ : BufTy).Contents (Elt F) → (⟨S8388608x3, .f32⟩ : BufTy).Contents (Elt F)) ]

set_option maxHeartbeats 40000000 in
/-- 13 operations. -/
abbrev k_cols : List (HloOp τ sig (Elt F)) :=
  [ StableHlo.reshape main_arg1 main_v28 rfl shapeCasts_S200x200x50x1_S200x200x50,
    StableHlo.unary main_v18 main_v29 ((extractStridedSlice S8388608x1 ![0, 0] · slices_S8388608x3_S8388608x1_0_0) : (⟨S8388608x3, .i32⟩ : BufTy).Contents (Elt F) → (⟨S8388608x1, .i32⟩ : BufTy).Contents (Elt F)),
    StableHlo.reshape main_v29 main_v30 rfl shapeCasts_S8388608x1_S8388608,
    StableHlo.unary main_v25 main_v31 ((extractStridedSlice S8388608x1 ![0, 0] · slices_S8388608x3_S8388608x1_0_0) : (⟨S8388608x3, .i32⟩ : BufTy).Contents (Elt F) → (⟨S8388608x1, .i32⟩ : BufTy).Contents (Elt F)),
    StableHlo.reshape main_v31 main_v32 rfl shapeCasts_S8388608x1_S8388608,
    StableHlo.unary main_v18 main_v33 ((extractStridedSlice S8388608x1 ![0, 1] · slices_S8388608x3_S8388608x1_0_1) : (⟨S8388608x3, .i32⟩ : BufTy).Contents (Elt F) → (⟨S8388608x1, .i32⟩ : BufTy).Contents (Elt F)),
    StableHlo.reshape main_v33 main_v34 rfl shapeCasts_S8388608x1_S8388608,
    StableHlo.unary main_v25 main_v35 ((extractStridedSlice S8388608x1 ![0, 1] · slices_S8388608x3_S8388608x1_0_1) : (⟨S8388608x3, .i32⟩ : BufTy).Contents (Elt F) → (⟨S8388608x1, .i32⟩ : BufTy).Contents (Elt F)),
    StableHlo.reshape main_v35 main_v36 rfl shapeCasts_S8388608x1_S8388608,
    StableHlo.unary main_v18 main_v37 ((extractStridedSlice S8388608x1 ![0, 2] · slices_S8388608x3_S8388608x1_0_2) : (⟨S8388608x3, .i32⟩ : BufTy).Contents (Elt F) → (⟨S8388608x1, .i32⟩ : BufTy).Contents (Elt F)),
    StableHlo.reshape main_v37 main_v38 rfl shapeCasts_S8388608x1_S8388608,
    StableHlo.unary main_v25 main_v39 ((extractStridedSlice S8388608x1 ![0, 2] · slices_S8388608x3_S8388608x1_0_2) : (⟨S8388608x3, .i32⟩ : BufTy).Contents (Elt F) → (⟨S8388608x1, .i32⟩ : BufTy).Contents (Elt F)),
    StableHlo.reshape main_v39 main_v40 rfl shapeCasts_S8388608x1_S8388608 ]

set_option maxHeartbeats 40000000 in
/-- 26 operations. -/
abbrev k_c0 : List (HloOp τ sig (Elt F)) :=
  [ StableHlo.nullary main_c_9 (constantI S_ 32 0#32),
    StableHlo.unary main_c_9 main_v41 (broadcastInDim S8388608 ![] bcast_S_S8388608 : (⟨S_, .i32⟩ : BufTy).Contents (Elt F) → (⟨S8388608, .i32⟩ : BufTy).Contents (Elt F)),
    StableHlo.binary main_v30 main_v41 main_v42 (cmpi .slt : (⟨S8388608, .i32⟩ : BufTy).Contents (Elt F) → (⟨S8388608, .i32⟩ : BufTy).Contents (Elt F) → (⟨S8388608, .i1⟩ : BufTy).Contents (Elt F)),
    StableHlo.nullary main_c_10 (constantI S_ 32 200#32),
    StableHlo.unary main_c_10 main_v43 (broadcastInDim S8388608 ![] bcast_S_S8388608 : (⟨S_, .i32⟩ : BufTy).Contents (Elt F) → (⟨S8388608, .i32⟩ : BufTy).Contents (Elt F)),
    StableHlo.binary main_v30 main_v43 main_v44 (addi : (⟨S8388608, .i32⟩ : BufTy).Contents (Elt F) → (⟨S8388608, .i32⟩ : BufTy).Contents (Elt F) → (⟨S8388608, .i32⟩ : BufTy).Contents (Elt F)),
    StableHlo.ternary main_v42 main_v44 main_v30 main_v45 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_11 (constantI S_ 32 0#32),
    StableHlo.unary main_c_11 main_v46 (broadcastInDim S8388608 ![] bcast_S_S8388608 : (⟨S_, .i32⟩ : BufTy).Contents (Elt F) → (⟨S8388608, .i32⟩ : BufTy).Contents (Elt F)),
    StableHlo.binary main_v34 main_v46 main_v47 (cmpi .slt : (⟨S8388608, .i32⟩ : BufTy).Contents (Elt F) → (⟨S8388608, .i32⟩ : BufTy).Contents (Elt F) → (⟨S8388608, .i1⟩ : BufTy).Contents (Elt F)),
    StableHlo.nullary main_c_12 (constantI S_ 32 200#32),
    StableHlo.unary main_c_12 main_v48 (broadcastInDim S8388608 ![] bcast_S_S8388608 : (⟨S_, .i32⟩ : BufTy).Contents (Elt F) → (⟨S8388608, .i32⟩ : BufTy).Contents (Elt F)),
    StableHlo.binary main_v34 main_v48 main_v49 (addi : (⟨S8388608, .i32⟩ : BufTy).Contents (Elt F) → (⟨S8388608, .i32⟩ : BufTy).Contents (Elt F) → (⟨S8388608, .i32⟩ : BufTy).Contents (Elt F)),
    StableHlo.ternary main_v47 main_v49 main_v34 main_v50 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_13 (constantI S_ 32 0#32),
    StableHlo.unary main_c_13 main_v51 (broadcastInDim S8388608 ![] bcast_S_S8388608 : (⟨S_, .i32⟩ : BufTy).Contents (Elt F) → (⟨S8388608, .i32⟩ : BufTy).Contents (Elt F)),
    StableHlo.binary main_v38 main_v51 main_v52 (cmpi .slt : (⟨S8388608, .i32⟩ : BufTy).Contents (Elt F) → (⟨S8388608, .i32⟩ : BufTy).Contents (Elt F) → (⟨S8388608, .i1⟩ : BufTy).Contents (Elt F)),
    StableHlo.nullary main_c_14 (constantI S_ 32 50#32),
    StableHlo.unary main_c_14 main_v53 (broadcastInDim S8388608 ![] bcast_S_S8388608 : (⟨S_, .i32⟩ : BufTy).Contents (Elt F) → (⟨S8388608, .i32⟩ : BufTy).Contents (Elt F)),
    StableHlo.binary main_v38 main_v53 main_v54 (addi : (⟨S8388608, .i32⟩ : BufTy).Contents (Elt F) → (⟨S8388608, .i32⟩ : BufTy).Contents (Elt F) → (⟨S8388608, .i32⟩ : BufTy).Contents (Elt F)),
    StableHlo.ternary main_v52 main_v54 main_v38 main_v55 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v45 main_v56 (broadcastInDim S8388608x1 ![0] bcast_S8388608_S8388608x1_0 : (⟨S8388608, .i32⟩ : BufTy).Contents (Elt F) → (⟨S8388608x1, .i32⟩ : BufTy).Contents (Elt F)),
    StableHlo.unary main_v50 main_v57 (broadcastInDim S8388608x1 ![0] bcast_S8388608_S8388608x1_0 : (⟨S8388608, .i32⟩ : BufTy).Contents (Elt F) → (⟨S8388608x1, .i32⟩ : BufTy).Contents (Elt F)),
    StableHlo.unary main_v55 main_v58 (broadcastInDim S8388608x1 ![0] bcast_S8388608_S8388608x1_0 : (⟨S8388608, .i32⟩ : BufTy).Contents (Elt F) → (⟨S8388608x1, .i32⟩ : BufTy).Contents (Elt F)),
    StableHlo.nary ![main_v56, main_v57, main_v58] main_v59 (fun u => concatenate S8388608x3 1 [⟨S8388608x1, u 0⟩, ⟨S8388608x1, u 1⟩, ⟨S8388608x1, u 2⟩] concatenates_S8388608x1_S8388608x1_S8388608x1_S8388608x3_d1),
    StableHlo.binary main_v28 main_v59 main_v60 ((fun x i => Host.gather gather_S200x200x50_S8388608x3_S8388608_n_012_n_n_012_1_111 x i) : (⟨S200x200x50, .f32⟩ : BufTy).Contents (Elt F) → (⟨S8388608x3, .i32⟩ : BufTy).Contents (Elt F) → (⟨S8388608, .f32⟩ : BufTy).Contents (Elt F)) ]

set_option maxHeartbeats 40000000 in
/-- 26 operations. -/
abbrev k_c1 : List (HloOp τ sig (Elt F)) :=
  [ StableHlo.nullary main_c_15 (constantI S_ 32 0#32),
    StableHlo.unary main_c_15 main_v61 (broadcastInDim S8388608 ![] bcast_S_S8388608 : (⟨S_, .i32⟩ : BufTy).Contents (Elt F) → (⟨S8388608, .i32⟩ : BufTy).Contents (Elt F)),
    StableHlo.binary main_v30 main_v61 main_v62 (cmpi .slt : (⟨S8388608, .i32⟩ : BufTy).Contents (Elt F) → (⟨S8388608, .i32⟩ : BufTy).Contents (Elt F) → (⟨S8388608, .i1⟩ : BufTy).Contents (Elt F)),
    StableHlo.nullary main_c_16 (constantI S_ 32 200#32),
    StableHlo.unary main_c_16 main_v63 (broadcastInDim S8388608 ![] bcast_S_S8388608 : (⟨S_, .i32⟩ : BufTy).Contents (Elt F) → (⟨S8388608, .i32⟩ : BufTy).Contents (Elt F)),
    StableHlo.binary main_v30 main_v63 main_v64 (addi : (⟨S8388608, .i32⟩ : BufTy).Contents (Elt F) → (⟨S8388608, .i32⟩ : BufTy).Contents (Elt F) → (⟨S8388608, .i32⟩ : BufTy).Contents (Elt F)),
    StableHlo.ternary main_v62 main_v64 main_v30 main_v65 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_17 (constantI S_ 32 0#32),
    StableHlo.unary main_c_17 main_v66 (broadcastInDim S8388608 ![] bcast_S_S8388608 : (⟨S_, .i32⟩ : BufTy).Contents (Elt F) → (⟨S8388608, .i32⟩ : BufTy).Contents (Elt F)),
    StableHlo.binary main_v34 main_v66 main_v67 (cmpi .slt : (⟨S8388608, .i32⟩ : BufTy).Contents (Elt F) → (⟨S8388608, .i32⟩ : BufTy).Contents (Elt F) → (⟨S8388608, .i1⟩ : BufTy).Contents (Elt F)),
    StableHlo.nullary main_c_18 (constantI S_ 32 200#32),
    StableHlo.unary main_c_18 main_v68 (broadcastInDim S8388608 ![] bcast_S_S8388608 : (⟨S_, .i32⟩ : BufTy).Contents (Elt F) → (⟨S8388608, .i32⟩ : BufTy).Contents (Elt F)),
    StableHlo.binary main_v34 main_v68 main_v69 (addi : (⟨S8388608, .i32⟩ : BufTy).Contents (Elt F) → (⟨S8388608, .i32⟩ : BufTy).Contents (Elt F) → (⟨S8388608, .i32⟩ : BufTy).Contents (Elt F)),
    StableHlo.ternary main_v67 main_v69 main_v34 main_v70 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_19 (constantI S_ 32 0#32),
    StableHlo.unary main_c_19 main_v71 (broadcastInDim S8388608 ![] bcast_S_S8388608 : (⟨S_, .i32⟩ : BufTy).Contents (Elt F) → (⟨S8388608, .i32⟩ : BufTy).Contents (Elt F)),
    StableHlo.binary main_v40 main_v71 main_v72 (cmpi .slt : (⟨S8388608, .i32⟩ : BufTy).Contents (Elt F) → (⟨S8388608, .i32⟩ : BufTy).Contents (Elt F) → (⟨S8388608, .i1⟩ : BufTy).Contents (Elt F)),
    StableHlo.nullary main_c_20 (constantI S_ 32 50#32),
    StableHlo.unary main_c_20 main_v73 (broadcastInDim S8388608 ![] bcast_S_S8388608 : (⟨S_, .i32⟩ : BufTy).Contents (Elt F) → (⟨S8388608, .i32⟩ : BufTy).Contents (Elt F)),
    StableHlo.binary main_v40 main_v73 main_v74 (addi : (⟨S8388608, .i32⟩ : BufTy).Contents (Elt F) → (⟨S8388608, .i32⟩ : BufTy).Contents (Elt F) → (⟨S8388608, .i32⟩ : BufTy).Contents (Elt F)),
    StableHlo.ternary main_v72 main_v74 main_v40 main_v75 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v65 main_v76 (broadcastInDim S8388608x1 ![0] bcast_S8388608_S8388608x1_0 : (⟨S8388608, .i32⟩ : BufTy).Contents (Elt F) → (⟨S8388608x1, .i32⟩ : BufTy).Contents (Elt F)),
    StableHlo.unary main_v70 main_v77 (broadcastInDim S8388608x1 ![0] bcast_S8388608_S8388608x1_0 : (⟨S8388608, .i32⟩ : BufTy).Contents (Elt F) → (⟨S8388608x1, .i32⟩ : BufTy).Contents (Elt F)),
    StableHlo.unary main_v75 main_v78 (broadcastInDim S8388608x1 ![0] bcast_S8388608_S8388608x1_0 : (⟨S8388608, .i32⟩ : BufTy).Contents (Elt F) → (⟨S8388608x1, .i32⟩ : BufTy).Contents (Elt F)),
    StableHlo.nary ![main_v76, main_v77, main_v78] main_v79 (fun u => concatenate S8388608x3 1 [⟨S8388608x1, u 0⟩, ⟨S8388608x1, u 1⟩, ⟨S8388608x1, u 2⟩] concatenates_S8388608x1_S8388608x1_S8388608x1_S8388608x3_d1),
    StableHlo.binary main_v28 main_v79 main_v80 ((fun x i => Host.gather gather_S200x200x50_S8388608x3_S8388608_n_012_n_n_012_1_111 x i) : (⟨S200x200x50, .f32⟩ : BufTy).Contents (Elt F) → (⟨S8388608x3, .i32⟩ : BufTy).Contents (Elt F) → (⟨S8388608, .f32⟩ : BufTy).Contents (Elt F)) ]

set_option maxHeartbeats 40000000 in
/-- 26 operations. -/
abbrev k_c2 : List (HloOp τ sig (Elt F)) :=
  [ StableHlo.nullary main_c_21 (constantI S_ 32 0#32),
    StableHlo.unary main_c_21 main_v81 (broadcastInDim S8388608 ![] bcast_S_S8388608 : (⟨S_, .i32⟩ : BufTy).Contents (Elt F) → (⟨S8388608, .i32⟩ : BufTy).Contents (Elt F)),
    StableHlo.binary main_v30 main_v81 main_v82 (cmpi .slt : (⟨S8388608, .i32⟩ : BufTy).Contents (Elt F) → (⟨S8388608, .i32⟩ : BufTy).Contents (Elt F) → (⟨S8388608, .i1⟩ : BufTy).Contents (Elt F)),
    StableHlo.nullary main_c_22 (constantI S_ 32 200#32),
    StableHlo.unary main_c_22 main_v83 (broadcastInDim S8388608 ![] bcast_S_S8388608 : (⟨S_, .i32⟩ : BufTy).Contents (Elt F) → (⟨S8388608, .i32⟩ : BufTy).Contents (Elt F)),
    StableHlo.binary main_v30 main_v83 main_v84 (addi : (⟨S8388608, .i32⟩ : BufTy).Contents (Elt F) → (⟨S8388608, .i32⟩ : BufTy).Contents (Elt F) → (⟨S8388608, .i32⟩ : BufTy).Contents (Elt F)),
    StableHlo.ternary main_v82 main_v84 main_v30 main_v85 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_23 (constantI S_ 32 0#32),
    StableHlo.unary main_c_23 main_v86 (broadcastInDim S8388608 ![] bcast_S_S8388608 : (⟨S_, .i32⟩ : BufTy).Contents (Elt F) → (⟨S8388608, .i32⟩ : BufTy).Contents (Elt F)),
    StableHlo.binary main_v36 main_v86 main_v87 (cmpi .slt : (⟨S8388608, .i32⟩ : BufTy).Contents (Elt F) → (⟨S8388608, .i32⟩ : BufTy).Contents (Elt F) → (⟨S8388608, .i1⟩ : BufTy).Contents (Elt F)),
    StableHlo.nullary main_c_24 (constantI S_ 32 200#32),
    StableHlo.unary main_c_24 main_v88 (broadcastInDim S8388608 ![] bcast_S_S8388608 : (⟨S_, .i32⟩ : BufTy).Contents (Elt F) → (⟨S8388608, .i32⟩ : BufTy).Contents (Elt F)),
    StableHlo.binary main_v36 main_v88 main_v89 (addi : (⟨S8388608, .i32⟩ : BufTy).Contents (Elt F) → (⟨S8388608, .i32⟩ : BufTy).Contents (Elt F) → (⟨S8388608, .i32⟩ : BufTy).Contents (Elt F)),
    StableHlo.ternary main_v87 main_v89 main_v36 main_v90 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_25 (constantI S_ 32 0#32),
    StableHlo.unary main_c_25 main_v91 (broadcastInDim S8388608 ![] bcast_S_S8388608 : (⟨S_, .i32⟩ : BufTy).Contents (Elt F) → (⟨S8388608, .i32⟩ : BufTy).Contents (Elt F)),
    StableHlo.binary main_v38 main_v91 main_v92 (cmpi .slt : (⟨S8388608, .i32⟩ : BufTy).Contents (Elt F) → (⟨S8388608, .i32⟩ : BufTy).Contents (Elt F) → (⟨S8388608, .i1⟩ : BufTy).Contents (Elt F)),
    StableHlo.nullary main_c_26 (constantI S_ 32 50#32),
    StableHlo.unary main_c_26 main_v93 (broadcastInDim S8388608 ![] bcast_S_S8388608 : (⟨S_, .i32⟩ : BufTy).Contents (Elt F) → (⟨S8388608, .i32⟩ : BufTy).Contents (Elt F)),
    StableHlo.binary main_v38 main_v93 main_v94 (addi : (⟨S8388608, .i32⟩ : BufTy).Contents (Elt F) → (⟨S8388608, .i32⟩ : BufTy).Contents (Elt F) → (⟨S8388608, .i32⟩ : BufTy).Contents (Elt F)),
    StableHlo.ternary main_v92 main_v94 main_v38 main_v95 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v85 main_v96 (broadcastInDim S8388608x1 ![0] bcast_S8388608_S8388608x1_0 : (⟨S8388608, .i32⟩ : BufTy).Contents (Elt F) → (⟨S8388608x1, .i32⟩ : BufTy).Contents (Elt F)),
    StableHlo.unary main_v90 main_v97 (broadcastInDim S8388608x1 ![0] bcast_S8388608_S8388608x1_0 : (⟨S8388608, .i32⟩ : BufTy).Contents (Elt F) → (⟨S8388608x1, .i32⟩ : BufTy).Contents (Elt F)),
    StableHlo.unary main_v95 main_v98 (broadcastInDim S8388608x1 ![0] bcast_S8388608_S8388608x1_0 : (⟨S8388608, .i32⟩ : BufTy).Contents (Elt F) → (⟨S8388608x1, .i32⟩ : BufTy).Contents (Elt F)),
    StableHlo.nary ![main_v96, main_v97, main_v98] main_v99 (fun u => concatenate S8388608x3 1 [⟨S8388608x1, u 0⟩, ⟨S8388608x1, u 1⟩, ⟨S8388608x1, u 2⟩] concatenates_S8388608x1_S8388608x1_S8388608x1_S8388608x3_d1),
    StableHlo.binary main_v28 main_v99 main_v100 ((fun x i => Host.gather gather_S200x200x50_S8388608x3_S8388608_n_012_n_n_012_1_111 x i) : (⟨S200x200x50, .f32⟩ : BufTy).Contents (Elt F) → (⟨S8388608x3, .i32⟩ : BufTy).Contents (Elt F) → (⟨S8388608, .f32⟩ : BufTy).Contents (Elt F)) ]

set_option maxHeartbeats 40000000 in
/-- 26 operations. -/
abbrev k_c3 : List (HloOp τ sig (Elt F)) :=
  [ StableHlo.nullary main_c_27 (constantI S_ 32 0#32),
    StableHlo.unary main_c_27 main_v101 (broadcastInDim S8388608 ![] bcast_S_S8388608 : (⟨S_, .i32⟩ : BufTy).Contents (Elt F) → (⟨S8388608, .i32⟩ : BufTy).Contents (Elt F)),
    StableHlo.binary main_v30 main_v101 main_v102 (cmpi .slt : (⟨S8388608, .i32⟩ : BufTy).Contents (Elt F) → (⟨S8388608, .i32⟩ : BufTy).Contents (Elt F) → (⟨S8388608, .i1⟩ : BufTy).Contents (Elt F)),
    StableHlo.nullary main_c_28 (constantI S_ 32 200#32),
    StableHlo.unary main_c_28 main_v103 (broadcastInDim S8388608 ![] bcast_S_S8388608 : (⟨S_, .i32⟩ : BufTy).Contents (Elt F) → (⟨S8388608, .i32⟩ : BufTy).Contents (Elt F)),
    StableHlo.binary main_v30 main_v103 main_v104 (addi : (⟨S8388608, .i32⟩ : BufTy).Contents (Elt F) → (⟨S8388608, .i32⟩ : BufTy).Contents (Elt F) → (⟨S8388608, .i32⟩ : BufTy).Contents (Elt F)),
    StableHlo.ternary main_v102 main_v104 main_v30 main_v105 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_29 (constantI S_ 32 0#32),
    StableHlo.unary main_c_29 main_v106 (broadcastInDim S8388608 ![] bcast_S_S8388608 : (⟨S_, .i32⟩ : BufTy).Contents (Elt F) → (⟨S8388608, .i32⟩ : BufTy).Contents (Elt F)),
    StableHlo.binary main_v36 main_v106 main_v107 (cmpi .slt : (⟨S8388608, .i32⟩ : BufTy).Contents (Elt F) → (⟨S8388608, .i32⟩ : BufTy).Contents (Elt F) → (⟨S8388608, .i1⟩ : BufTy).Contents (Elt F)),
    StableHlo.nullary main_c_30 (constantI S_ 32 200#32),
    StableHlo.unary main_c_30 main_v108 (broadcastInDim S8388608 ![] bcast_S_S8388608 : (⟨S_, .i32⟩ : BufTy).Contents (Elt F) → (⟨S8388608, .i32⟩ : BufTy).Contents (Elt F)),
    StableHlo.binary main_v36 main_v108 main_v109 (addi : (⟨S8388608, .i32⟩ : BufTy).Contents (Elt F) → (⟨S8388608, .i32⟩ : BufTy).Contents (Elt F) → (⟨S8388608, .i32⟩ : BufTy).Contents (Elt F)),
    StableHlo.ternary main_v107 main_v109 main_v36 main_v110 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_31 (constantI S_ 32 0#32),
    StableHlo.unary main_c_31 main_v111 (broadcastInDim S8388608 ![] bcast_S_S8388608 : (⟨S_, .i32⟩ : BufTy).Contents (Elt F) → (⟨S8388608, .i32⟩ : BufTy).Contents (Elt F)),
    StableHlo.binary main_v40 main_v111 main_v112 (cmpi .slt : (⟨S8388608, .i32⟩ : BufTy).Contents (Elt F) → (⟨S8388608, .i32⟩ : BufTy).Contents (Elt F) → (⟨S8388608, .i1⟩ : BufTy).Contents (Elt F)),
    StableHlo.nullary main_c_32 (constantI S_ 32 50#32),
    StableHlo.unary main_c_32 main_v113 (broadcastInDim S8388608 ![] bcast_S_S8388608 : (⟨S_, .i32⟩ : BufTy).Contents (Elt F) → (⟨S8388608, .i32⟩ : BufTy).Contents (Elt F)),
    StableHlo.binary main_v40 main_v113 main_v114 (addi : (⟨S8388608, .i32⟩ : BufTy).Contents (Elt F) → (⟨S8388608, .i32⟩ : BufTy).Contents (Elt F) → (⟨S8388608, .i32⟩ : BufTy).Contents (Elt F)),
    StableHlo.ternary main_v112 main_v114 main_v40 main_v115 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v105 main_v116 (broadcastInDim S8388608x1 ![0] bcast_S8388608_S8388608x1_0 : (⟨S8388608, .i32⟩ : BufTy).Contents (Elt F) → (⟨S8388608x1, .i32⟩ : BufTy).Contents (Elt F)),
    StableHlo.unary main_v110 main_v117 (broadcastInDim S8388608x1 ![0] bcast_S8388608_S8388608x1_0 : (⟨S8388608, .i32⟩ : BufTy).Contents (Elt F) → (⟨S8388608x1, .i32⟩ : BufTy).Contents (Elt F)),
    StableHlo.unary main_v115 main_v118 (broadcastInDim S8388608x1 ![0] bcast_S8388608_S8388608x1_0 : (⟨S8388608, .i32⟩ : BufTy).Contents (Elt F) → (⟨S8388608x1, .i32⟩ : BufTy).Contents (Elt F)),
    StableHlo.nary ![main_v116, main_v117, main_v118] main_v119 (fun u => concatenate S8388608x3 1 [⟨S8388608x1, u 0⟩, ⟨S8388608x1, u 1⟩, ⟨S8388608x1, u 2⟩] concatenates_S8388608x1_S8388608x1_S8388608x1_S8388608x3_d1),
    StableHlo.binary main_v28 main_v119 main_v120 ((fun x i => Host.gather gather_S200x200x50_S8388608x3_S8388608_n_012_n_n_012_1_111 x i) : (⟨S200x200x50, .f32⟩ : BufTy).Contents (Elt F) → (⟨S8388608x3, .i32⟩ : BufTy).Contents (Elt F) → (⟨S8388608, .f32⟩ : BufTy).Contents (Elt F)) ]

set_option maxHeartbeats 40000000 in
/-- 26 operations. -/
abbrev k_c4 : List (HloOp τ sig (Elt F)) :=
  [ StableHlo.nullary main_c_33 (constantI S_ 32 0#32),
    StableHlo.unary main_c_33 main_v121 (broadcastInDim S8388608 ![] bcast_S_S8388608 : (⟨S_, .i32⟩ : BufTy).Contents (Elt F) → (⟨S8388608, .i32⟩ : BufTy).Contents (Elt F)),
    StableHlo.binary main_v32 main_v121 main_v122 (cmpi .slt : (⟨S8388608, .i32⟩ : BufTy).Contents (Elt F) → (⟨S8388608, .i32⟩ : BufTy).Contents (Elt F) → (⟨S8388608, .i1⟩ : BufTy).Contents (Elt F)),
    StableHlo.nullary main_c_34 (constantI S_ 32 200#32),
    StableHlo.unary main_c_34 main_v123 (broadcastInDim S8388608 ![] bcast_S_S8388608 : (⟨S_, .i32⟩ : BufTy).Contents (Elt F) → (⟨S8388608, .i32⟩ : BufTy).Contents (Elt F)),
    StableHlo.binary main_v32 main_v123 main_v124 (addi : (⟨S8388608, .i32⟩ : BufTy).Contents (Elt F) → (⟨S8388608, .i32⟩ : BufTy).Contents (Elt F) → (⟨S8388608, .i32⟩ : BufTy).Contents (Elt F)),
    StableHlo.ternary main_v122 main_v124 main_v32 main_v125 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_35 (constantI S_ 32 0#32),
    StableHlo.unary main_c_35 main_v126 (broadcastInDim S8388608 ![] bcast_S_S8388608 : (⟨S_, .i32⟩ : BufTy).Contents (Elt F) → (⟨S8388608, .i32⟩ : BufTy).Contents (Elt F)),
    StableHlo.binary main_v34 main_v126 main_v127 (cmpi .slt : (⟨S8388608, .i32⟩ : BufTy).Contents (Elt F) → (⟨S8388608, .i32⟩ : BufTy).Contents (Elt F) → (⟨S8388608, .i1⟩ : BufTy).Contents (Elt F)),
    StableHlo.nullary main_c_36 (constantI S_ 32 200#32),
    StableHlo.unary main_c_36 main_v128 (broadcastInDim S8388608 ![] bcast_S_S8388608 : (⟨S_, .i32⟩ : BufTy).Contents (Elt F) → (⟨S8388608, .i32⟩ : BufTy).Contents (Elt F)),
    StableHlo.binary main_v34 main_v128 main_v129 (addi : (⟨S8388608, .i32⟩ : BufTy).Contents (Elt F) → (⟨S8388608, .i32⟩ : BufTy).Contents (Elt F) → (⟨S8388608, .i32⟩ : BufTy).Contents (Elt F)),
    StableHlo.ternary main_v127 main_v129 main_v34 main_v130 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_37 (constantI S_ 32 0#32),
    StableHlo.unary main_c_37 main_v131 (broadcastInDim S8388608 ![] bcast_S_S8388608 : (⟨S_, .i32⟩ : BufTy).Contents (Elt F) → (⟨S8388608, .i32⟩ : BufTy).Contents (Elt F)),
    StableHlo.binary main_v38 main_v131 main_v132 (cmpi .slt : (⟨S8388608, .i32⟩ : BufTy).Contents (Elt F) → (⟨S8388608, .i32⟩ : BufTy).Contents (Elt F) → (⟨S8388608, .i1⟩ : BufTy).Contents (Elt F)),
    StableHlo.nullary main_c_38 (constantI S_ 32 50#32),
    StableHlo.unary main_c_38 main_v133 (broadcastInDim S8388608 ![] bcast_S_S8388608 : (⟨S_, .i32⟩ : BufTy).Contents (Elt F) → (⟨S8388608, .i32⟩ : BufTy).Contents (Elt F)),
    StableHlo.binary main_v38 main_v133 main_v134 (addi : (⟨S8388608, .i32⟩ : BufTy).Contents (Elt F) → (⟨S8388608, .i32⟩ : BufTy).Contents (Elt F) → (⟨S8388608, .i32⟩ : BufTy).Contents (Elt F)),
    StableHlo.ternary main_v132 main_v134 main_v38 main_v135 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v125 main_v136 (broadcastInDim S8388608x1 ![0] bcast_S8388608_S8388608x1_0 : (⟨S8388608, .i32⟩ : BufTy).Contents (Elt F) → (⟨S8388608x1, .i32⟩ : BufTy).Contents (Elt F)),
    StableHlo.unary main_v130 main_v137 (broadcastInDim S8388608x1 ![0] bcast_S8388608_S8388608x1_0 : (⟨S8388608, .i32⟩ : BufTy).Contents (Elt F) → (⟨S8388608x1, .i32⟩ : BufTy).Contents (Elt F)),
    StableHlo.unary main_v135 main_v138 (broadcastInDim S8388608x1 ![0] bcast_S8388608_S8388608x1_0 : (⟨S8388608, .i32⟩ : BufTy).Contents (Elt F) → (⟨S8388608x1, .i32⟩ : BufTy).Contents (Elt F)),
    StableHlo.nary ![main_v136, main_v137, main_v138] main_v139 (fun u => concatenate S8388608x3 1 [⟨S8388608x1, u 0⟩, ⟨S8388608x1, u 1⟩, ⟨S8388608x1, u 2⟩] concatenates_S8388608x1_S8388608x1_S8388608x1_S8388608x3_d1),
    StableHlo.binary main_v28 main_v139 main_v140 ((fun x i => Host.gather gather_S200x200x50_S8388608x3_S8388608_n_012_n_n_012_1_111 x i) : (⟨S200x200x50, .f32⟩ : BufTy).Contents (Elt F) → (⟨S8388608x3, .i32⟩ : BufTy).Contents (Elt F) → (⟨S8388608, .f32⟩ : BufTy).Contents (Elt F)) ]

set_option maxHeartbeats 40000000 in
/-- 26 operations. -/
abbrev k_c5 : List (HloOp τ sig (Elt F)) :=
  [ StableHlo.nullary main_c_39 (constantI S_ 32 0#32),
    StableHlo.unary main_c_39 main_v141 (broadcastInDim S8388608 ![] bcast_S_S8388608 : (⟨S_, .i32⟩ : BufTy).Contents (Elt F) → (⟨S8388608, .i32⟩ : BufTy).Contents (Elt F)),
    StableHlo.binary main_v32 main_v141 main_v142 (cmpi .slt : (⟨S8388608, .i32⟩ : BufTy).Contents (Elt F) → (⟨S8388608, .i32⟩ : BufTy).Contents (Elt F) → (⟨S8388608, .i1⟩ : BufTy).Contents (Elt F)),
    StableHlo.nullary main_c_40 (constantI S_ 32 200#32),
    StableHlo.unary main_c_40 main_v143 (broadcastInDim S8388608 ![] bcast_S_S8388608 : (⟨S_, .i32⟩ : BufTy).Contents (Elt F) → (⟨S8388608, .i32⟩ : BufTy).Contents (Elt F)),
    StableHlo.binary main_v32 main_v143 main_v144 (addi : (⟨S8388608, .i32⟩ : BufTy).Contents (Elt F) → (⟨S8388608, .i32⟩ : BufTy).Contents (Elt F) → (⟨S8388608, .i32⟩ : BufTy).Contents (Elt F)),
    StableHlo.ternary main_v142 main_v144 main_v32 main_v145 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_41 (constantI S_ 32 0#32),
    StableHlo.unary main_c_41 main_v146 (broadcastInDim S8388608 ![] bcast_S_S8388608 : (⟨S_, .i32⟩ : BufTy).Contents (Elt F) → (⟨S8388608, .i32⟩ : BufTy).Contents (Elt F)),
    StableHlo.binary main_v34 main_v146 main_v147 (cmpi .slt : (⟨S8388608, .i32⟩ : BufTy).Contents (Elt F) → (⟨S8388608, .i32⟩ : BufTy).Contents (Elt F) → (⟨S8388608, .i1⟩ : BufTy).Contents (Elt F)),
    StableHlo.nullary main_c_42 (constantI S_ 32 200#32),
    StableHlo.unary main_c_42 main_v148 (broadcastInDim S8388608 ![] bcast_S_S8388608 : (⟨S_, .i32⟩ : BufTy).Contents (Elt F) → (⟨S8388608, .i32⟩ : BufTy).Contents (Elt F)),
    StableHlo.binary main_v34 main_v148 main_v149 (addi : (⟨S8388608, .i32⟩ : BufTy).Contents (Elt F) → (⟨S8388608, .i32⟩ : BufTy).Contents (Elt F) → (⟨S8388608, .i32⟩ : BufTy).Contents (Elt F)),
    StableHlo.ternary main_v147 main_v149 main_v34 main_v150 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_43 (constantI S_ 32 0#32),
    StableHlo.unary main_c_43 main_v151 (broadcastInDim S8388608 ![] bcast_S_S8388608 : (⟨S_, .i32⟩ : BufTy).Contents (Elt F) → (⟨S8388608, .i32⟩ : BufTy).Contents (Elt F)),
    StableHlo.binary main_v40 main_v151 main_v152 (cmpi .slt : (⟨S8388608, .i32⟩ : BufTy).Contents (Elt F) → (⟨S8388608, .i32⟩ : BufTy).Contents (Elt F) → (⟨S8388608, .i1⟩ : BufTy).Contents (Elt F)),
    StableHlo.nullary main_c_44 (constantI S_ 32 50#32),
    StableHlo.unary main_c_44 main_v153 (broadcastInDim S8388608 ![] bcast_S_S8388608 : (⟨S_, .i32⟩ : BufTy).Contents (Elt F) → (⟨S8388608, .i32⟩ : BufTy).Contents (Elt F)),
    StableHlo.binary main_v40 main_v153 main_v154 (addi : (⟨S8388608, .i32⟩ : BufTy).Contents (Elt F) → (⟨S8388608, .i32⟩ : BufTy).Contents (Elt F) → (⟨S8388608, .i32⟩ : BufTy).Contents (Elt F)),
    StableHlo.ternary main_v152 main_v154 main_v40 main_v155 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v145 main_v156 (broadcastInDim S8388608x1 ![0] bcast_S8388608_S8388608x1_0 : (⟨S8388608, .i32⟩ : BufTy).Contents (Elt F) → (⟨S8388608x1, .i32⟩ : BufTy).Contents (Elt F)),
    StableHlo.unary main_v150 main_v157 (broadcastInDim S8388608x1 ![0] bcast_S8388608_S8388608x1_0 : (⟨S8388608, .i32⟩ : BufTy).Contents (Elt F) → (⟨S8388608x1, .i32⟩ : BufTy).Contents (Elt F)),
    StableHlo.unary main_v155 main_v158 (broadcastInDim S8388608x1 ![0] bcast_S8388608_S8388608x1_0 : (⟨S8388608, .i32⟩ : BufTy).Contents (Elt F) → (⟨S8388608x1, .i32⟩ : BufTy).Contents (Elt F)),
    StableHlo.nary ![main_v156, main_v157, main_v158] main_v159 (fun u => concatenate S8388608x3 1 [⟨S8388608x1, u 0⟩, ⟨S8388608x1, u 1⟩, ⟨S8388608x1, u 2⟩] concatenates_S8388608x1_S8388608x1_S8388608x1_S8388608x3_d1),
    StableHlo.binary main_v28 main_v159 main_v160 ((fun x i => Host.gather gather_S200x200x50_S8388608x3_S8388608_n_012_n_n_012_1_111 x i) : (⟨S200x200x50, .f32⟩ : BufTy).Contents (Elt F) → (⟨S8388608x3, .i32⟩ : BufTy).Contents (Elt F) → (⟨S8388608, .f32⟩ : BufTy).Contents (Elt F)) ]

set_option maxHeartbeats 40000000 in
/-- 26 operations. -/
abbrev k_c6 : List (HloOp τ sig (Elt F)) :=
  [ StableHlo.nullary main_c_45 (constantI S_ 32 0#32),
    StableHlo.unary main_c_45 main_v161 (broadcastInDim S8388608 ![] bcast_S_S8388608 : (⟨S_, .i32⟩ : BufTy).Contents (Elt F) → (⟨S8388608, .i32⟩ : BufTy).Contents (Elt F)),
    StableHlo.binary main_v32 main_v161 main_v162 (cmpi .slt : (⟨S8388608, .i32⟩ : BufTy).Contents (Elt F) → (⟨S8388608, .i32⟩ : BufTy).Contents (Elt F) → (⟨S8388608, .i1⟩ : BufTy).Contents (Elt F)),
    StableHlo.nullary main_c_46 (constantI S_ 32 200#32),
    StableHlo.unary main_c_46 main_v163 (broadcastInDim S8388608 ![] bcast_S_S8388608 : (⟨S_, .i32⟩ : BufTy).Contents (Elt F) → (⟨S8388608, .i32⟩ : BufTy).Contents (Elt F)),
    StableHlo.binary main_v32 main_v163 main_v164 (addi : (⟨S8388608, .i32⟩ : BufTy).Contents (Elt F) → (⟨S8388608, .i32⟩ : BufTy).Contents (Elt F) → (⟨S8388608, .i32⟩ : BufTy).Contents (Elt F)),
    StableHlo.ternary main_v162 main_v164 main_v32 main_v165 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_47 (constantI S_ 32 0#32),
    StableHlo.unary main_c_47 main_v166 (broadcastInDim S8388608 ![] bcast_S_S8388608 : (⟨S_, .i32⟩ : BufTy).Contents (Elt F) → (⟨S8388608, .i32⟩ : BufTy).Contents (Elt F)),
    StableHlo.binary main_v36 main_v166 main_v167 (cmpi .slt : (⟨S8388608, .i32⟩ : BufTy).Contents (Elt F) → (⟨S8388608, .i32⟩ : BufTy).Contents (Elt F) → (⟨S8388608, .i1⟩ : BufTy).Contents (Elt F)),
    StableHlo.nullary main_c_48 (constantI S_ 32 200#32),
    StableHlo.unary main_c_48 main_v168 (broadcastInDim S8388608 ![] bcast_S_S8388608 : (⟨S_, .i32⟩ : BufTy).Contents (Elt F) → (⟨S8388608, .i32⟩ : BufTy).Contents (Elt F)),
    StableHlo.binary main_v36 main_v168 main_v169 (addi : (⟨S8388608, .i32⟩ : BufTy).Contents (Elt F) → (⟨S8388608, .i32⟩ : BufTy).Contents (Elt F) → (⟨S8388608, .i32⟩ : BufTy).Contents (Elt F)),
    StableHlo.ternary main_v167 main_v169 main_v36 main_v170 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_49 (constantI S_ 32 0#32),
    StableHlo.unary main_c_49 main_v171 (broadcastInDim S8388608 ![] bcast_S_S8388608 : (⟨S_, .i32⟩ : BufTy).Contents (Elt F) → (⟨S8388608, .i32⟩ : BufTy).Contents (Elt F)),
    StableHlo.binary main_v38 main_v171 main_v172 (cmpi .slt : (⟨S8388608, .i32⟩ : BufTy).Contents (Elt F) → (⟨S8388608, .i32⟩ : BufTy).Contents (Elt F) → (⟨S8388608, .i1⟩ : BufTy).Contents (Elt F)),
    StableHlo.nullary main_c_50 (constantI S_ 32 50#32),
    StableHlo.unary main_c_50 main_v173 (broadcastInDim S8388608 ![] bcast_S_S8388608 : (⟨S_, .i32⟩ : BufTy).Contents (Elt F) → (⟨S8388608, .i32⟩ : BufTy).Contents (Elt F)),
    StableHlo.binary main_v38 main_v173 main_v174 (addi : (⟨S8388608, .i32⟩ : BufTy).Contents (Elt F) → (⟨S8388608, .i32⟩ : BufTy).Contents (Elt F) → (⟨S8388608, .i32⟩ : BufTy).Contents (Elt F)),
    StableHlo.ternary main_v172 main_v174 main_v38 main_v175 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v165 main_v176 (broadcastInDim S8388608x1 ![0] bcast_S8388608_S8388608x1_0 : (⟨S8388608, .i32⟩ : BufTy).Contents (Elt F) → (⟨S8388608x1, .i32⟩ : BufTy).Contents (Elt F)),
    StableHlo.unary main_v170 main_v177 (broadcastInDim S8388608x1 ![0] bcast_S8388608_S8388608x1_0 : (⟨S8388608, .i32⟩ : BufTy).Contents (Elt F) → (⟨S8388608x1, .i32⟩ : BufTy).Contents (Elt F)),
    StableHlo.unary main_v175 main_v178 (broadcastInDim S8388608x1 ![0] bcast_S8388608_S8388608x1_0 : (⟨S8388608, .i32⟩ : BufTy).Contents (Elt F) → (⟨S8388608x1, .i32⟩ : BufTy).Contents (Elt F)),
    StableHlo.nary ![main_v176, main_v177, main_v178] main_v179 (fun u => concatenate S8388608x3 1 [⟨S8388608x1, u 0⟩, ⟨S8388608x1, u 1⟩, ⟨S8388608x1, u 2⟩] concatenates_S8388608x1_S8388608x1_S8388608x1_S8388608x3_d1),
    StableHlo.binary main_v28 main_v179 main_v180 ((fun x i => Host.gather gather_S200x200x50_S8388608x3_S8388608_n_012_n_n_012_1_111 x i) : (⟨S200x200x50, .f32⟩ : BufTy).Contents (Elt F) → (⟨S8388608x3, .i32⟩ : BufTy).Contents (Elt F) → (⟨S8388608, .f32⟩ : BufTy).Contents (Elt F)) ]

set_option maxHeartbeats 40000000 in
/-- 26 operations. -/
abbrev k_c7 : List (HloOp τ sig (Elt F)) :=
  [ StableHlo.nullary main_c_51 (constantI S_ 32 0#32),
    StableHlo.unary main_c_51 main_v181 (broadcastInDim S8388608 ![] bcast_S_S8388608 : (⟨S_, .i32⟩ : BufTy).Contents (Elt F) → (⟨S8388608, .i32⟩ : BufTy).Contents (Elt F)),
    StableHlo.binary main_v32 main_v181 main_v182 (cmpi .slt : (⟨S8388608, .i32⟩ : BufTy).Contents (Elt F) → (⟨S8388608, .i32⟩ : BufTy).Contents (Elt F) → (⟨S8388608, .i1⟩ : BufTy).Contents (Elt F)),
    StableHlo.nullary main_c_52 (constantI S_ 32 200#32),
    StableHlo.unary main_c_52 main_v183 (broadcastInDim S8388608 ![] bcast_S_S8388608 : (⟨S_, .i32⟩ : BufTy).Contents (Elt F) → (⟨S8388608, .i32⟩ : BufTy).Contents (Elt F)),
    StableHlo.binary main_v32 main_v183 main_v184 (addi : (⟨S8388608, .i32⟩ : BufTy).Contents (Elt F) → (⟨S8388608, .i32⟩ : BufTy).Contents (Elt F) → (⟨S8388608, .i32⟩ : BufTy).Contents (Elt F)),
    StableHlo.ternary main_v182 main_v184 main_v32 main_v185 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_53 (constantI S_ 32 0#32),
    StableHlo.unary main_c_53 main_v186 (broadcastInDim S8388608 ![] bcast_S_S8388608 : (⟨S_, .i32⟩ : BufTy).Contents (Elt F) → (⟨S8388608, .i32⟩ : BufTy).Contents (Elt F)),
    StableHlo.binary main_v36 main_v186 main_v187 (cmpi .slt : (⟨S8388608, .i32⟩ : BufTy).Contents (Elt F) → (⟨S8388608, .i32⟩ : BufTy).Contents (Elt F) → (⟨S8388608, .i1⟩ : BufTy).Contents (Elt F)),
    StableHlo.nullary main_c_54 (constantI S_ 32 200#32),
    StableHlo.unary main_c_54 main_v188 (broadcastInDim S8388608 ![] bcast_S_S8388608 : (⟨S_, .i32⟩ : BufTy).Contents (Elt F) → (⟨S8388608, .i32⟩ : BufTy).Contents (Elt F)),
    StableHlo.binary main_v36 main_v188 main_v189 (addi : (⟨S8388608, .i32⟩ : BufTy).Contents (Elt F) → (⟨S8388608, .i32⟩ : BufTy).Contents (Elt F) → (⟨S8388608, .i32⟩ : BufTy).Contents (Elt F)),
    StableHlo.ternary main_v187 main_v189 main_v36 main_v190 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_55 (constantI S_ 32 0#32),
    StableHlo.unary main_c_55 main_v191 (broadcastInDim S8388608 ![] bcast_S_S8388608 : (⟨S_, .i32⟩ : BufTy).Contents (Elt F) → (⟨S8388608, .i32⟩ : BufTy).Contents (Elt F)),
    StableHlo.binary main_v40 main_v191 main_v192 (cmpi .slt : (⟨S8388608, .i32⟩ : BufTy).Contents (Elt F) → (⟨S8388608, .i32⟩ : BufTy).Contents (Elt F) → (⟨S8388608, .i1⟩ : BufTy).Contents (Elt F)),
    StableHlo.nullary main_c_56 (constantI S_ 32 50#32),
    StableHlo.unary main_c_56 main_v193 (broadcastInDim S8388608 ![] bcast_S_S8388608 : (⟨S_, .i32⟩ : BufTy).Contents (Elt F) → (⟨S8388608, .i32⟩ : BufTy).Contents (Elt F)),
    StableHlo.binary main_v40 main_v193 main_v194 (addi : (⟨S8388608, .i32⟩ : BufTy).Contents (Elt F) → (⟨S8388608, .i32⟩ : BufTy).Contents (Elt F) → (⟨S8388608, .i32⟩ : BufTy).Contents (Elt F)),
    StableHlo.ternary main_v192 main_v194 main_v40 main_v195 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v185 main_v196 (broadcastInDim S8388608x1 ![0] bcast_S8388608_S8388608x1_0 : (⟨S8388608, .i32⟩ : BufTy).Contents (Elt F) → (⟨S8388608x1, .i32⟩ : BufTy).Contents (Elt F)),
    StableHlo.unary main_v190 main_v197 (broadcastInDim S8388608x1 ![0] bcast_S8388608_S8388608x1_0 : (⟨S8388608, .i32⟩ : BufTy).Contents (Elt F) → (⟨S8388608x1, .i32⟩ : BufTy).Contents (Elt F)),
    StableHlo.unary main_v195 main_v198 (broadcastInDim S8388608x1 ![0] bcast_S8388608_S8388608x1_0 : (⟨S8388608, .i32⟩ : BufTy).Contents (Elt F) → (⟨S8388608x1, .i32⟩ : BufTy).Contents (Elt F)),
    StableHlo.nary ![main_v196, main_v197, main_v198] main_v199 (fun u => concatenate S8388608x3 1 [⟨S8388608x1, u 0⟩, ⟨S8388608x1, u 1⟩, ⟨S8388608x1, u 2⟩] concatenates_S8388608x1_S8388608x1_S8388608x1_S8388608x3_d1),
    StableHlo.binary main_v28 main_v199 main_v200 ((fun x i => Host.gather gather_S200x200x50_S8388608x3_S8388608_n_012_n_n_012_1_111 x i) : (⟨S200x200x50, .f32⟩ : BufTy).Contents (Elt F) → (⟨S8388608x3, .i32⟩ : BufTy).Contents (Elt F) → (⟨S8388608, .f32⟩ : BufTy).Contents (Elt F)) ]

set_option maxHeartbeats 40000000 in
/-- 12 operations. -/
abbrev k_lay : List (HloOp τ sig (Elt F)) :=
  [ StableHlo.unary main_v60 main_v201 (broadcastInDim S1x8388608 ![1] bcast_S8388608_S1x8388608_1 : (⟨S8388608, .f32⟩ : BufTy).Contents (Elt F) → (⟨S1x8388608, .f32⟩ : BufTy).Contents (Elt F)),
    StableHlo.unary main_v80 main_v202 (broadcastInDim S1x8388608 ![1] bcast_S8388608_S1x8388608_1 : (⟨S8388608, .f32⟩ : BufTy).Contents (Elt F) → (⟨S1x8388608, .f32⟩ : BufTy).Contents (Elt F)),
    StableHlo.unary main_v100 main_v203 (broadcastInDim S1x8388608 ![1] bcast_S8388608_S1x8388608_1 : (⟨S8388608, .f32⟩ : BufTy).Contents (Elt F) → (⟨S1x8388608, .f32⟩ : BufTy).Contents (Elt F)),
    StableHlo.unary main_v120 main_v204 (broadcastInDim S1x8388608 ![1] bcast_S8388608_S1x8388608_1 : (⟨S8388608, .f32⟩ : BufTy).Contents (Elt F) → (⟨S1x8388608, .f32⟩ : BufTy).Contents (Elt F)),
    StableHlo.unary main_v140 main_v205 (broadcastInDim S1x8388608 ![1] bcast_S8388608_S1x8388608_1 : (⟨S8388608, .f32⟩ : BufTy).Contents (Elt F) → (⟨S1x8388608, .f32⟩ : BufTy).Contents (Elt F)),
    StableHlo.unary main_v160 main_v206 (broadcastInDim S1x8388608 ![1] bcast_S8388608_S1x8388608_1 : (⟨S8388608, .f32⟩ : BufTy).Contents (Elt F) → (⟨S1x8388608, .f32⟩ : BufTy).Contents (Elt F)),
    StableHlo.unary main_v180 main_v207 (broadcastInDim S1x8388608 ![1] bcast_S8388608_S1x8388608_1 : (⟨S8388608, .f32⟩ : BufTy).Contents (Elt F) → (⟨S1x8388608, .f32⟩ : BufTy).Contents (Elt F)),
    StableHlo.unary main_v200 main_v208 (broadcastInDim S1x8388608 ![1] bcast_S8388608_S1x8388608_1 : (⟨S8388608, .f32⟩ : BufTy).Contents (Elt F) → (⟨S1x8388608, .f32⟩ : BufTy).Contents (Elt F)),
    StableHlo.nary ![main_v201, main_v202, main_v203, main_v204, main_v205, main_v206, main_v207, main_v208] main_v209 (fun u => concatenate S8x8388608 0 [⟨S1x8388608, u 0⟩, ⟨S1x8388608, u 1⟩, ⟨S1x8388608, u 2⟩, ⟨S1x8388608, u 3⟩, ⟨S1x8388608, u 4⟩, ⟨S1x8388608, u 5⟩, ⟨S1x8388608, u 6⟩, ⟨S1x8388608, u 7⟩] concatenates_S1x8388608_S1x8388608_S1x8388608_S1x8388608_S1x8388608_S1x8388608_S1x8388608_S1x8388608_S8x8388608_d0),
    StableHlo.unary main_v27 main_v210 ((transpose S3x8388608 [1, 0] · transposes_S8388608x3_S3x8388608_1_0) : (⟨S8388608x3, .f32⟩ : BufTy).Contents (Elt F) → (⟨S3x8388608, .f32⟩ : BufTy).Contents (Elt F)),
    StableHlo.unary main_v13 main_v211 (uitofp .f32 : (⟨S8388608, .i1⟩ : BufTy).Contents (Elt F) → (⟨S8388608, .f32⟩ : BufTy).Contents (Elt F)),
    StableHlo.unary main_v211 main_v212 (broadcastInDim S1x8388608 ![1] bcast_S8388608_S1x8388608_1 : (⟨S8388608, .f32⟩ : BufTy).Contents (Elt F) → (⟨S1x8388608, .f32⟩ : BufTy).Contents (Elt F)) ]

set_option maxHeartbeats 40000000 in
/-- The pieces, in order, are the whole stretch. -/
theorem hostOps0_2_split : (hostOps0_2 : List (HloOp τ sig (Elt F))) = k_pre ++ (k_cols ++ (k_c0 ++ (k_c1 ++ (k_c2 ++ (k_c3 ++ (k_c4 ++ (k_c5 ++ (k_c6 ++ (k_c7 ++ (k_lay)))))))))) := rfl

/-- The buffers k_pre's 11 operations write, in order. -/
abbrev k_pre_W : List (Ref sig .tc) := [main_c_7, main_v19, main_v20, main_c_8, main_v21, main_v22, main_v23, main_v24, main_v25, main_v26, main_v27]
set_option maxHeartbeats 4000000 in
theorem k_pre_writes : (k_pre : List (HloOp τ sig (Elt F))).Forall fun op => op.writes ⊆ (k_pre_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_pre does not write keeps its contents through it. -/
theorem k_pre_keep (V : Valuation τ sig (Elt F)) (r : Ref sig .tc) (h : r ∉ k_pre_W) :
    after (k_pre : List (HloOp τ sig (Elt F))) V (Proc.devRef .tc r) = V (Proc.devRef .tc r) :=
  after_of_writes_sub k_pre _ k_pre_writes h

/-- The buffers k_cols's 13 operations write, in order. -/
abbrev k_cols_W : List (Ref sig .tc) := [main_v28, main_v29, main_v30, main_v31, main_v32, main_v33, main_v34, main_v35, main_v36, main_v37, main_v38, main_v39, main_v40]
set_option maxHeartbeats 4000000 in
theorem k_cols_writes : (k_cols : List (HloOp τ sig (Elt F))).Forall fun op => op.writes ⊆ (k_cols_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_cols does not write keeps its contents through it. -/
theorem k_cols_keep (V : Valuation τ sig (Elt F)) (r : Ref sig .tc) (h : r ∉ k_cols_W) :
    after (k_cols : List (HloOp τ sig (Elt F))) V (Proc.devRef .tc r) = V (Proc.devRef .tc r) :=
  after_of_writes_sub k_cols _ k_cols_writes h

/-- The buffers k_c0's 26 operations write, in order. -/
abbrev k_c0_W : List (Ref sig .tc) := [main_c_9, main_v41, main_v42, main_c_10, main_v43, main_v44, main_v45, main_c_11, main_v46, main_v47, main_c_12, main_v48, main_v49, main_v50, main_c_13, main_v51, main_v52, main_c_14, main_v53, main_v54, main_v55, main_v56, main_v57, main_v58, main_v59, main_v60]
set_option maxHeartbeats 4000000 in
theorem k_c0_writes : (k_c0 : List (HloOp τ sig (Elt F))).Forall fun op => op.writes ⊆ (k_c0_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_c0 does not write keeps its contents through it. -/
theorem k_c0_keep (V : Valuation τ sig (Elt F)) (r : Ref sig .tc) (h : r ∉ k_c0_W) :
    after (k_c0 : List (HloOp τ sig (Elt F))) V (Proc.devRef .tc r) = V (Proc.devRef .tc r) :=
  after_of_writes_sub k_c0 _ k_c0_writes h

/-- The buffers k_c1's 26 operations write, in order. -/
abbrev k_c1_W : List (Ref sig .tc) := [main_c_15, main_v61, main_v62, main_c_16, main_v63, main_v64, main_v65, main_c_17, main_v66, main_v67, main_c_18, main_v68, main_v69, main_v70, main_c_19, main_v71, main_v72, main_c_20, main_v73, main_v74, main_v75, main_v76, main_v77, main_v78, main_v79, main_v80]
set_option maxHeartbeats 4000000 in
theorem k_c1_writes : (k_c1 : List (HloOp τ sig (Elt F))).Forall fun op => op.writes ⊆ (k_c1_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_c1 does not write keeps its contents through it. -/
theorem k_c1_keep (V : Valuation τ sig (Elt F)) (r : Ref sig .tc) (h : r ∉ k_c1_W) :
    after (k_c1 : List (HloOp τ sig (Elt F))) V (Proc.devRef .tc r) = V (Proc.devRef .tc r) :=
  after_of_writes_sub k_c1 _ k_c1_writes h

/-- The buffers k_c2's 26 operations write, in order. -/
abbrev k_c2_W : List (Ref sig .tc) := [main_c_21, main_v81, main_v82, main_c_22, main_v83, main_v84, main_v85, main_c_23, main_v86, main_v87, main_c_24, main_v88, main_v89, main_v90, main_c_25, main_v91, main_v92, main_c_26, main_v93, main_v94, main_v95, main_v96, main_v97, main_v98, main_v99, main_v100]
set_option maxHeartbeats 4000000 in
theorem k_c2_writes : (k_c2 : List (HloOp τ sig (Elt F))).Forall fun op => op.writes ⊆ (k_c2_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_c2 does not write keeps its contents through it. -/
theorem k_c2_keep (V : Valuation τ sig (Elt F)) (r : Ref sig .tc) (h : r ∉ k_c2_W) :
    after (k_c2 : List (HloOp τ sig (Elt F))) V (Proc.devRef .tc r) = V (Proc.devRef .tc r) :=
  after_of_writes_sub k_c2 _ k_c2_writes h

/-- The buffers k_c3's 26 operations write, in order. -/
abbrev k_c3_W : List (Ref sig .tc) := [main_c_27, main_v101, main_v102, main_c_28, main_v103, main_v104, main_v105, main_c_29, main_v106, main_v107, main_c_30, main_v108, main_v109, main_v110, main_c_31, main_v111, main_v112, main_c_32, main_v113, main_v114, main_v115, main_v116, main_v117, main_v118, main_v119, main_v120]
set_option maxHeartbeats 4000000 in
theorem k_c3_writes : (k_c3 : List (HloOp τ sig (Elt F))).Forall fun op => op.writes ⊆ (k_c3_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_c3 does not write keeps its contents through it. -/
theorem k_c3_keep (V : Valuation τ sig (Elt F)) (r : Ref sig .tc) (h : r ∉ k_c3_W) :
    after (k_c3 : List (HloOp τ sig (Elt F))) V (Proc.devRef .tc r) = V (Proc.devRef .tc r) :=
  after_of_writes_sub k_c3 _ k_c3_writes h

/-- The buffers k_c4's 26 operations write, in order. -/
abbrev k_c4_W : List (Ref sig .tc) := [main_c_33, main_v121, main_v122, main_c_34, main_v123, main_v124, main_v125, main_c_35, main_v126, main_v127, main_c_36, main_v128, main_v129, main_v130, main_c_37, main_v131, main_v132, main_c_38, main_v133, main_v134, main_v135, main_v136, main_v137, main_v138, main_v139, main_v140]
set_option maxHeartbeats 4000000 in
theorem k_c4_writes : (k_c4 : List (HloOp τ sig (Elt F))).Forall fun op => op.writes ⊆ (k_c4_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_c4 does not write keeps its contents through it. -/
theorem k_c4_keep (V : Valuation τ sig (Elt F)) (r : Ref sig .tc) (h : r ∉ k_c4_W) :
    after (k_c4 : List (HloOp τ sig (Elt F))) V (Proc.devRef .tc r) = V (Proc.devRef .tc r) :=
  after_of_writes_sub k_c4 _ k_c4_writes h

/-- The buffers k_c5's 26 operations write, in order. -/
abbrev k_c5_W : List (Ref sig .tc) := [main_c_39, main_v141, main_v142, main_c_40, main_v143, main_v144, main_v145, main_c_41, main_v146, main_v147, main_c_42, main_v148, main_v149, main_v150, main_c_43, main_v151, main_v152, main_c_44, main_v153, main_v154, main_v155, main_v156, main_v157, main_v158, main_v159, main_v160]
set_option maxHeartbeats 4000000 in
theorem k_c5_writes : (k_c5 : List (HloOp τ sig (Elt F))).Forall fun op => op.writes ⊆ (k_c5_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_c5 does not write keeps its contents through it. -/
theorem k_c5_keep (V : Valuation τ sig (Elt F)) (r : Ref sig .tc) (h : r ∉ k_c5_W) :
    after (k_c5 : List (HloOp τ sig (Elt F))) V (Proc.devRef .tc r) = V (Proc.devRef .tc r) :=
  after_of_writes_sub k_c5 _ k_c5_writes h

/-- The buffers k_c6's 26 operations write, in order. -/
abbrev k_c6_W : List (Ref sig .tc) := [main_c_45, main_v161, main_v162, main_c_46, main_v163, main_v164, main_v165, main_c_47, main_v166, main_v167, main_c_48, main_v168, main_v169, main_v170, main_c_49, main_v171, main_v172, main_c_50, main_v173, main_v174, main_v175, main_v176, main_v177, main_v178, main_v179, main_v180]
set_option maxHeartbeats 4000000 in
theorem k_c6_writes : (k_c6 : List (HloOp τ sig (Elt F))).Forall fun op => op.writes ⊆ (k_c6_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_c6 does not write keeps its contents through it. -/
theorem k_c6_keep (V : Valuation τ sig (Elt F)) (r : Ref sig .tc) (h : r ∉ k_c6_W) :
    after (k_c6 : List (HloOp τ sig (Elt F))) V (Proc.devRef .tc r) = V (Proc.devRef .tc r) :=
  after_of_writes_sub k_c6 _ k_c6_writes h

/-- The buffers k_c7's 26 operations write, in order. -/
abbrev k_c7_W : List (Ref sig .tc) := [main_c_51, main_v181, main_v182, main_c_52, main_v183, main_v184, main_v185, main_c_53, main_v186, main_v187, main_c_54, main_v188, main_v189, main_v190, main_c_55, main_v191, main_v192, main_c_56, main_v193, main_v194, main_v195, main_v196, main_v197, main_v198, main_v199, main_v200]
set_option maxHeartbeats 4000000 in
theorem k_c7_writes : (k_c7 : List (HloOp τ sig (Elt F))).Forall fun op => op.writes ⊆ (k_c7_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_c7 does not write keeps its contents through it. -/
theorem k_c7_keep (V : Valuation τ sig (Elt F)) (r : Ref sig .tc) (h : r ∉ k_c7_W) :
    after (k_c7 : List (HloOp τ sig (Elt F))) V (Proc.devRef .tc r) = V (Proc.devRef .tc r) :=
  after_of_writes_sub k_c7 _ k_c7_writes h

/-- The buffers k_lay's 12 operations write, in order. -/
abbrev k_lay_W : List (Ref sig .tc) := [main_v201, main_v202, main_v203, main_v204, main_v205, main_v206, main_v207, main_v208, main_v209, main_v210, main_v211, main_v212]
set_option maxHeartbeats 4000000 in
theorem k_lay_writes : (k_lay : List (HloOp τ sig (Elt F))).Forall fun op => op.writes ⊆ (k_lay_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer k_lay does not write keeps its contents through it. -/
theorem k_lay_keep (V : Valuation τ sig (Elt F)) (r : Ref sig .tc) (h : r ∉ k_lay_W) :
    after (k_lay : List (HloOp τ sig (Elt F))) V (Proc.devRef .tc r) = V (Proc.devRef .tc r) :=
  after_of_writes_sub k_lay _ k_lay_writes h

/-- The buffers hostOps0's 27 operations write, in order. -/
abbrev hostOps0_W : List (Ref sig .tc) := [main_cst, main_c, main_cst_0, main_v0, main_v1, main_v2, main_cst_1, main_v3, main_v4, main_cst_2, main_v5, main_v6, main_cst_3, main_v7, main_v8, main_v9, main_v10, main_v11, main_v12, main_c_4, main_v13, main_v14, main_v15, main_c_5, main_v16, main_v17, main_c_6]
set_option maxHeartbeats 4000000 in
theorem hostOps0_writes : (hostOps0 : List (HloOp τ sig (Elt F))).Forall fun op => op.writes ⊆ (hostOps0_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer hostOps0 does not write keeps its contents through it. -/
theorem hostOps0_keep (V : Valuation τ sig (Elt F)) (r : Ref sig .tc) (h : r ∉ hostOps0_W) :
    after (hostOps0 : List (HloOp τ sig (Elt F))) V (Proc.devRef .tc r) = V (Proc.devRef .tc r) :=
  after_of_writes_sub hostOps0 _ hostOps0_writes h

/-- The buffers hostOps0_1's 6 operations write, in order. -/
abbrev hostOps0_1_W : List (Ref sig .tc) := [main_call0_v0, main_call0_v1, main_call0_v2, main_call0_v3, main_call0_v4, main_v18]
set_option maxHeartbeats 4000000 in
theorem hostOps0_1_writes : (hostOps0_1 : List (HloOp τ sig (Elt F))).Forall fun op => op.writes ⊆ (hostOps0_1_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer hostOps0_1 does not write keeps its contents through it. -/
theorem hostOps0_1_keep (V : Valuation τ sig (Elt F)) (r : Ref sig .tc) (h : r ∉ hostOps0_1_W) :
    after (hostOps0_1 : List (HloOp τ sig (Elt F))) V (Proc.devRef .tc r) = V (Proc.devRef .tc r) :=
  after_of_writes_sub hostOps0_1 _ hostOps0_1_writes h

/-- The buffers hostOps1's 3 operations write, in order. -/
abbrev hostOps1_W : List (Ref sig .tc) := [main_v214, main_cst_57, main_v215]
set_option maxHeartbeats 4000000 in
theorem hostOps1_writes : (hostOps1 : List (HloOp τ sig (Elt F))).Forall fun op => op.writes ⊆ (hostOps1_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer hostOps1 does not write keeps its contents through it. -/
theorem hostOps1_keep (V : Valuation τ sig (Elt F)) (r : Ref sig .tc) (h : r ∉ hostOps1_W) :
    after (hostOps1 : List (HloOp τ sig (Elt F))) V (Proc.devRef .tc r) = V (Proc.devRef .tc r) :=
  after_of_writes_sub hostOps1 _ hostOps1_writes h

end Cert.KernelIdeal.Hand

end
-- ==== Proof.LibPointGather.lean ====
/-
  A gather of SINGLE ELEMENTS read at an index: the operand has rank 3 (or 4), every operand axis is collapsed with
  slice size one, the start indices are an [N, 3] (or [N, 4]) array whose rows are the index vectors
  (index_vector_dim 1, start_index_map the identity), and the result has one entry per row.  Entry `n` is the operand
  at the cell whose coordinate on axis `a` is the row's word `a` read as a signed integer and clamped into the axis —
  negative to 0, beyond the end to the last cell — as a gather clamps every start index.
-/
import Idealize.ShloMosaic.PureOps.ShapeOps
import Idealize.ShloMosaic.Lib.ValueIdx

noncomputable section

namespace Cert.Lib.PointGather

open Idealize.ShloMosaic Idealize.ShloMosaic.ValueIdx

variable {α : Type}

/-- An index word read signed and clamped into an axis of positive extent `A`. -/
def clampIdx {w : Nat} (A : Nat) (hA : 0 < A) (j : BitVec w) : Fin A := ⟨min j.toInt.toNat (A - 1), by omega⟩

/-- The dimension numbers of the rank-3 single-element gather. -/
abbrev dims3 (A B C N : Nat)
    (wf : GatherDims.WF ⟨3, ![A, B, C]⟩ ⟨2, ![N, 3]⟩ ⟨1, ![N]⟩ [] [0, 1, 2] [] [0, 1, 2] [] 1 ![1, 1, 1]) :
    GatherDims ⟨3, ![A, B, C]⟩ ⟨2, ![N, 3]⟩ ⟨1, ![N]⟩ where
  offsetDims := []
  collapsedSliceDims := [0, 1, 2]
  operandBatchingDims := []
  startIndicesBatchingDims := []
  startIndexMap := [0, 1, 2]
  indexVectorDim := 1
  sliceSizes := ![1, 1, 1]
  wf := wf

/-- The dimension numbers of the rank-4 single-element gather. -/
abbrev dims4 (A B C D N : Nat)
    (wf : GatherDims.WF ⟨4, ![A, B, C, D]⟩ ⟨2, ![N, 4]⟩ ⟨1, ![N]⟩ [] [0, 1, 2, 3] [] [0, 1, 2, 3] [] 1 ![1, 1, 1, 1]) :
    GatherDims ⟨4, ![A, B, C, D]⟩ ⟨2, ![N, 4]⟩ ⟨1, ![N]⟩ where
  offsetDims := []
  collapsedSliceDims := [0, 1, 2, 3]
  operandBatchingDims := []
  startIndicesBatchingDims := []
  startIndexMap := [0, 1, 2, 3]
  indexVectorDim := 1
  sliceSizes := ![1, 1, 1, 1]
  wf := wf

/-- THE RANK-3 GATHER READ AT ROW `n`: the operand at the row's three words, each clamped into its axis. -/
theorem gather3_apply {A B C N w : Nat} (hA : 0 < A) (hB : 0 < B) (hC : 0 < C)
    (wf : GatherDims.WF ⟨3, ![A, B, C]⟩ ⟨2, ![N, 3]⟩ ⟨1, ![N]⟩ [] [0, 1, 2] [] [0, 1, 2] [] 1 ![1, 1, 1])
    (x : (⟨3, ![A, B, C]⟩ : Shape).Idx → α) (idx : IVec ⟨2, ![N, 3]⟩ w) (n : Fin N) :
    Host.gather (dims3 A B C N wf) x idx (ix1 n)
      = x (ix3 (clampIdx A hA (idx (ix2 n 0))) (clampIdx B hB (idx (ix2 n 1))) (clampIdx C hC (idx (ix2 n 2)))) := by
  unfold Host.gather
  congr 1
  funext a
  refine Fin.ext ?_
  have hcol : a ∈ (dims3 A B C N wf).collapsedSliceDims := by
    match a with
    | ⟨0, _⟩ => exact List.mem_cons_self
    | ⟨1, _⟩ => exact List.mem_cons_of_mem _ List.mem_cons_self
    | ⟨2, _⟩ => exact List.mem_cons_of_mem _ (List.mem_cons_of_mem _ List.mem_cons_self)
  show (dims3 A B C N wf).start (ix1 n) idx a + (dims3 A B C N wf).batchCoord (ix1 n) a + (dims3 A B C N wf).offCoord (ix1 n) a = _
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos (show a ∈ (dims3 A B C N wf).startIndexMap from hcol)]
  match a, hcol with
  | ⟨0, _⟩, _ =>
    have hsi : (dims3 A B C N wf).siIdx (ix1 n) ⟨List.idxOf (⟨0, by decide⟩ : Fin 3) (dims3 A B C N wf).startIndexMap,
        List.idxOf_lt_length_iff.2 List.mem_cons_self⟩ = ix2 n 0 := by
      funext b; refine Fin.ext ?_
      match b with
      | ⟨0, _⟩ => rfl
      | ⟨1, _⟩ => rfl
    rw [hsi]; rfl
  | ⟨1, _⟩, _ =>
    have hsi : (dims3 A B C N wf).siIdx (ix1 n) ⟨List.idxOf (⟨1, by decide⟩ : Fin 3) (dims3 A B C N wf).startIndexMap,
        List.idxOf_lt_length_iff.2 (List.mem_cons_of_mem _ List.mem_cons_self)⟩ = ix2 n 1 := by
      funext b; refine Fin.ext ?_
      match b with
      | ⟨0, _⟩ => rfl
      | ⟨1, _⟩ => rfl
    rw [hsi]; rfl
  | ⟨2, _⟩, _ =>
    have hsi : (dims3 A B C N wf).siIdx (ix1 n) ⟨List.idxOf (⟨2, by decide⟩ : Fin 3) (dims3 A B C N wf).startIndexMap,
        List.idxOf_lt_length_iff.2 (List.mem_cons_of_mem _ (List.mem_cons_of_mem _ List.mem_cons_self))⟩ = ix2 n 2 := by
      funext b; refine Fin.ext ?_
      match b with
      | ⟨0, _⟩ => rfl
      | ⟨1, _⟩ => rfl
    rw [hsi]; rfl

/-- THE RANK-4 GATHER READ AT ROW `n`: the operand at the row's four words, each clamped into its axis. -/
theorem gather4_apply {A B C D N w : Nat} (hA : 0 < A) (hB : 0 < B) (hC : 0 < C) (hD : 0 < D)
    (wf : GatherDims.WF ⟨4, ![A, B, C, D]⟩ ⟨2, ![N, 4]⟩ ⟨1, ![N]⟩ [] [0, 1, 2, 3] [] [0, 1, 2, 3] [] 1 ![1, 1, 1, 1])
    (x : (⟨4, ![A, B, C, D]⟩ : Shape).Idx → α) (idx : IVec ⟨2, ![N, 4]⟩ w) (n : Fin N) :
    Host.gather (dims4 A B C D N wf) x idx (ix1 n)
      = x (ix4 (clampIdx A hA (idx (ix2 n 0))) (clampIdx B hB (idx (ix2 n 1))) (clampIdx C hC (idx (ix2 n 2)))
          (clampIdx D hD (idx (ix2 n 3)))) := by
  unfold Host.gather
  congr 1
  funext a
  refine Fin.ext ?_
  have hcol : a ∈ (dims4 A B C D N wf).collapsedSliceDims := by
    match a with
    | ⟨0, _⟩ => exact List.mem_cons_self
    | ⟨1, _⟩ => exact List.mem_cons_of_mem _ List.mem_cons_self
    | ⟨2, _⟩ => exact List.mem_cons_of_mem _ (List.mem_cons_of_mem _ List.mem_cons_self)
    | ⟨3, _⟩ => exact List.mem_cons_of_mem _ (List.mem_cons_of_mem _ (List.mem_cons_of_mem _ List.mem_cons_self))
  show (dims4 A B C D N wf).start (ix1 n) idx a + (dims4 A B C D N wf).batchCoord (ix1 n) a + (dims4 A B C D N wf).offCoord (ix1 n) a = _
  rw [GatherDims.batchCoord_eq_zero _ _ _ List.not_mem_nil,
    GatherDims.offCoord_eq_zero _ _ _ (fun h => ((GatherDims.mem_sKept _ _).mp h).1 hcol)]
  simp only [Nat.add_zero]
  unfold GatherDims.start
  rw [dif_pos (show a ∈ (dims4 A B C D N wf).startIndexMap from hcol)]
  match a, hcol with
  | ⟨0, _⟩, _ =>
    have hsi : (dims4 A B C D N wf).siIdx (ix1 n) ⟨List.idxOf (⟨0, by decide⟩ : Fin 4) (dims4 A B C D N wf).startIndexMap,
        List.idxOf_lt_length_iff.2 List.mem_cons_self⟩ = ix2 n 0 := by
      funext b; refine Fin.ext ?_
      match b with
      | ⟨0, _⟩ => rfl
      | ⟨1, _⟩ => rfl
    rw [hsi]; rfl
  | ⟨1, _⟩, _ =>
    have hsi : (dims4 A B C D N wf).siIdx (ix1 n) ⟨List.idxOf (⟨1, by decide⟩ : Fin 4) (dims4 A B C D N wf).startIndexMap,
        List.idxOf_lt_length_iff.2 (List.mem_cons_of_mem _ List.mem_cons_self)⟩ = ix2 n 1 := by
      funext b; refine Fin.ext ?_
      match b with
      | ⟨0, _⟩ => rfl
      | ⟨1, _⟩ => rfl
    rw [hsi]; rfl
  | ⟨2, _⟩, _ =>
    have hsi : (dims4 A B C D N wf).siIdx (ix1 n) ⟨List.idxOf (⟨2, by decide⟩ : Fin 4) (dims4 A B C D N wf).startIndexMap,
        List.idxOf_lt_length_iff.2 (List.mem_cons_of_mem _ (List.mem_cons_of_mem _ List.mem_cons_self))⟩ = ix2 n 2 := by
      funext b; refine Fin.ext ?_
      match b with
      | ⟨0, _⟩ => rfl
      | ⟨1, _⟩ => rfl
    rw [hsi]; rfl
  | ⟨3, _⟩, _ =>
    have hsi : (dims4 A B C D N wf).siIdx (ix1 n) ⟨List.idxOf (⟨3, by decide⟩ : Fin 4) (dims4 A B C D N wf).startIndexMap,
        List.idxOf_lt_length_iff.2 (List.mem_cons_of_mem _ (List.mem_cons_of_mem _ (List.mem_cons_of_mem _ List.mem_cons_self)))⟩ = ix2 n 3 := by
      funext b; refine Fin.ext ?_
      match b with
      | ⟨0, _⟩ => rfl
      | ⟨1, _⟩ => rfl
    rw [hsi]; rfl

end Cert.Lib.PointGather

end
-- ==== Proof.KValueGather.lean ====
/-
  The host operations before the region that gather the eight corner values, evaluated one stretch at a time and read
  at one query point.

  A gather stretch takes three index columns, wraps each the way an integer array index is read (a negative index
  counts from the end of its axis), sets the three side by side as an [N, 3] array of index vectors, and gathers single
  cells of the grid at them; a gather clamps every index into its axis.  Read at point `n`, its result is the grid at
  the three wrapped and clamped words of point `n`.  Everything is stated over arbitrary contents `U` of the buffers before the stretch.
-/
import proofs.«173088_j25065429139728_2_alg».proof.Proof.KChunks
import proofs.«173088_j25065429139728_2_alg».proof.Proof.LibPointGather
import proofs.«173088_j25065429139728_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem
open Cert.Lib.PointGather

/-! ## Layout operations read at an index -/

section Pure

variable {α : Type}

/-- The grid with its unit last axis dropped reads, at a cell, the grid at that cell. -/
theorem grid_cast_apply (g : S200x200x50x1.Idx → α) (h : S200x200x50x1.ShapeCasts S200x200x50) (a : Fin 200) (b : Fin 200) (c : Fin 50) :
    shapeCast S200x200x50 g h (ix3 a b c) = g (ix4 a b c (0 : Fin 1)) :=
  shapeCast_apply g h _ _ (by
    rw [Shape.rowMajor_val_four, Shape.rowMajor_val_three]
    show ((a.val * 200 + b.val) * 50 + c.val) * 1 + 0 = (a.val * 200 + b.val) * 50 + c.val
    omega)

/-- Column `d` of an `[N, 3]` array, cut out as `[N, 1]` and flattened to `[N]`, reads at `n` the array at `(n, d)`. -/
theorem col_apply (J : S8388608x3.Idx → α) (o : Nat) (hs : S8388608x3.Slices ![0, o] S8388608x1) (hc : S8388608x1.ShapeCasts S8388608)
    (n : Fin 8388608) (d : Fin 3) (hd : d.val = o) :
    shapeCast S8388608 (extractStridedSlice S8388608x1 ![0, o] J hs) hc (ix1 n) = J (ix2 n d) := by
  rw [shapeCast_apply _ hc (ix1 n) (ix2 n (0 : Fin 1)) (by
    rw [Shape.rowMajor_val_two, Shape.rowMajor_val_one]
    show n.val * 1 + 0 = n.val
    omega)]
  exact slice2_axis1_apply o J hs n (0 : Fin 1) d (by rw [hd]; rfl)

/-- A scalar spread over the points reads the scalar everywhere. -/
theorem bcast_scalar_apply (x : S_.Idx → α) (h : S_.BroadcastsInDim S8388608 ![]) (i : S8388608.Idx) :
    broadcastInDim S8388608 ![] h x i = x ix0 :=
  broadcastInDim_apply _ h x i ix0 (fun a => a.elim0)

/-- An `[N]` array given a unit second axis reads, at `(n, 0)`, the array at `n`. -/
theorem bcast_col_apply (x : S8388608.Idx → α) (h : S8388608.BroadcastsInDim S8388608x1 ![0]) (n : Fin 8388608) (u : Fin 1) :
    broadcastInDim S8388608x1 ![0] h x (ix2 n u) = x (ix1 n) :=
  broadcastInDim_apply _ h x _ _ (fun a => by
    match a with
    | ⟨0, _⟩ =>
      show n.val = if (8388608 : Nat) = 1 then 0 else n.val
      rw [if_neg (by decide)])

/-- Three `[N, 1]` columns set side by side read, at `(n, d)`, column `d` at `(n, 0)`. -/
theorem cat3_apply (p0 p1 p2 : S8388608x1.Idx → α) (h : Shape.Concatenates [S8388608x1, S8388608x1, S8388608x1] S8388608x3 1) (n : Fin 8388608) :
    concatenate S8388608x3 1 [⟨S8388608x1, p0⟩, ⟨S8388608x1, p1⟩, ⟨S8388608x1, p2⟩] h (ix2 n 0) = p0 (ix2 n 0)
    ∧ concatenate S8388608x3 1 [⟨S8388608x1, p0⟩, ⟨S8388608x1, p1⟩, ⟨S8388608x1, p2⟩] h (ix2 n 1) = p1 (ix2 n 0)
    ∧ concatenate S8388608x3 1 [⟨S8388608x1, p0⟩, ⟨S8388608x1, p1⟩, ⟨S8388608x1, p2⟩] h (ix2 n 2) = p2 (ix2 n 0) := by
  refine ⟨?_, ?_, ?_⟩
  · exact concatenate_apply_piece (t := S8388608x3) (a := (1 : Fin 2)) (xs := [⟨S8388608x1, p0⟩, ⟨S8388608x1, p1⟩, ⟨S8388608x1, p2⟩]) (h := h) (j := ix2 n 0) (k := 0)
      (hk := by show (0 : Nat) < 3; decide) (s₁ := S8388608x1) (x₁ := p0) (hxk := rfl) (hr := rfl) (pre := 0) (hpre := by simp) (i := ix2 n 0)
      (hi := fun b hb => by
        match b with
        | ⟨0, _⟩ => rfl
        | ⟨1, _⟩ => exact absurd rfl hb)
      (ha := by simp)
  · exact concatenate_apply_piece (t := S8388608x3) (a := (1 : Fin 2)) (xs := [⟨S8388608x1, p0⟩, ⟨S8388608x1, p1⟩, ⟨S8388608x1, p2⟩]) (h := h) (j := ix2 n 1) (k := 1)
      (hk := by show (1 : Nat) < 3; decide) (s₁ := S8388608x1) (x₁ := p1) (hxk := rfl) (hr := rfl) (pre := 1) (hpre := by simp) (i := ix2 n 0)
      (hi := fun b hb => by
        match b with
        | ⟨0, _⟩ => rfl
        | ⟨1, _⟩ => exact absurd rfl hb)
      (ha := by simp)
  · exact concatenate_apply_piece (t := S8388608x3) (a := (1 : Fin 2)) (xs := [⟨S8388608x1, p0⟩, ⟨S8388608x1, p1⟩, ⟨S8388608x1, p2⟩]) (h := h) (j := ix2 n 2) (k := 2)
      (hk := by show (2 : Nat) < 3; decide) (s₁ := S8388608x1) (x₁ := p2) (hxk := rfl) (hr := rfl) (pre := 2) (hpre := by simp) (i := ix2 n 0)
      (hi := fun b hb => by
        match b with
        | ⟨0, _⟩ => rfl
        | ⟨1, _⟩ => exact absurd rfl hb)
      (ha := by simp)

end Pure

/-! ## One corner, as a function of the grid and three index columns -/

/-- An index column wrapped the way array indexing wraps it, as the program computes it on whole columns: where the index
    is negative, the index plus the axis' extent `s`. -/
def wrapV (j : IVec S8388608 32) (s : BitVec 32) : IVec S8388608 32 :=
  select (cmpi .slt j (broadcastInDim S8388608 ![] bcast_S_S8388608 (constantI S_ 32 0#32)))
    (addi j (broadcastInDim S8388608 ![] bcast_S_S8388608 (constantI S_ 32 s))) j

theorem wrapV_apply (j : IVec S8388608 32) (s : BitVec 32) (i : S8388608.Idx) : wrapV j s i = Cert.Spec.wrapS (j i) s := by
  unfold wrapV Cert.Spec.wrapS
  show Scalar.select (IntOp.cmpi .slt (j i) (broadcastInDim S8388608 ![] bcast_S_S8388608 (constantI S_ 32 0#32) i))
      (IntOp.addi (j i) (broadcastInDim S8388608 ![] bcast_S_S8388608 (constantI S_ 32 s) i)) (j i) = _
  rw [bcast_scalar_apply, bcast_scalar_apply]
  rfl

/-- THE CORNER: the gather of single cells at the three wrapped index columns reads, at point `n`, the grid at the
    three wrapped index words of the point, each clamped into its axis. -/
theorem corner_fn_apply {α : Type} (g3 : S200x200x50.Idx → α) (jx jy jz : IVec S8388608 32) (sx sy sz : BitVec 32) (n : Fin 8388608) :
    Host.gather gather_S200x200x50_S8388608x3_S8388608_n_012_n_n_012_1_111 g3
        (concatenate S8388608x3 1 [⟨S8388608x1, broadcastInDim S8388608x1 ![0] bcast_S8388608_S8388608x1_0 (wrapV jx sx)⟩,
          ⟨S8388608x1, broadcastInDim S8388608x1 ![0] bcast_S8388608_S8388608x1_0 (wrapV jy sy)⟩,
          ⟨S8388608x1, broadcastInDim S8388608x1 ![0] bcast_S8388608_S8388608x1_0 (wrapV jz sz)⟩] concatenates_S8388608x1_S8388608x1_S8388608x1_S8388608x3_d1) (ix1 n)
      = g3 (ix3 (clampIdx 200 (by decide) (Cert.Spec.wrapS (jx (ix1 n)) sx)) (clampIdx 200 (by decide) (Cert.Spec.wrapS (jy (ix1 n)) sy))
          (clampIdx 50 (by decide) (Cert.Spec.wrapS (jz (ix1 n)) sz))) := by
  show Host.gather (dims3 200 200 50 8388608 gather_S200x200x50_S8388608x3_S8388608_n_012_n_n_012_1_111_wf) g3 _ (ix1 n) = _
  rw [gather3_apply (by decide) (by decide) (by decide)]
  obtain ⟨h0, h1, h2⟩ := cat3_apply (broadcastInDim S8388608x1 ![0] bcast_S8388608_S8388608x1_0 (wrapV jx sx))
    (broadcastInDim S8388608x1 ![0] bcast_S8388608_S8388608x1_0 (wrapV jy sy))
    (broadcastInDim S8388608x1 ![0] bcast_S8388608_S8388608x1_0 (wrapV jz sz)) concatenates_S8388608x1_S8388608x1_S8388608x1_S8388608x3_d1 n
  rw [h0, h1, h2, bcast_col_apply, bcast_col_apply, bcast_col_apply, wrapV_apply, wrapV_apply, wrapV_apply]

/-- A cell coordinate clamped as a gather clamps it is the specification's clamp. -/
theorem clamp200_eq (j : BitVec 32) : clampIdx 200 (by decide) j = Cert.Spec.clampTo 199 j := rfl
theorem clamp50_eq (j : BitVec 32) : clampIdx 50 (by decide) j = Cert.Spec.clampTo 49 j := rfl

/-- The grid at three index words clamped as a gather clamps them is the specification's cell read. -/
theorem cellS_eq (g : Cert.Spec.SG4.Idx → EReal) (jx jy jz : BitVec 32) :
    g (ix4 (clampIdx 200 (by decide) jx) (clampIdx 200 (by decide) jy) (clampIdx 50 (by decide) jz) (0 : Fin 1))
      = Cert.Spec.cellS g jx jy jz := rfl

/-! ## A stretch's operations evaluated -/

/-- A three-operand operation's result with each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Rewrites each operation's result at its own result buffer to its function's value and at any other reference to what
    was there, outermost first, until none applies. -/
macro "host_results" : tactic =>
  `(tactic| repeat (first
      | rw [nullary_result] | rw [unary_result] | rw [binary_result] | rw [ternary_result] | rw [reshape_result] | rw [nary3_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

set_option maxHeartbeats 4000000 in
/-- Stretch 0 of the gathers, from any contents `U`: its result at point `n` is the grid buffer at the wrapped and
    clamped words of the three index columns it reads. -/
theorem c0_apply (U : Valuation τ sig (Elt Ideal)) (n : Fin 8388608) :
    (after (k_c0 (F := Ideal)) U (Proc.devRef .tc main_v60) : S8388608.Idx → EReal) (ix1 n)
      = (U (Proc.devRef .tc main_v28) : S200x200x50.Idx → EReal)
          (ix3 (clampIdx 200 (by decide) (Cert.Spec.wrapS ((U (Proc.devRef .tc main_v30) : S8388608.Idx → BitVec 32) (ix1 n)) 200#32))
            (clampIdx 200 (by decide) (Cert.Spec.wrapS ((U (Proc.devRef .tc main_v34) : S8388608.Idx → BitVec 32) (ix1 n)) 200#32))
            (clampIdx 50 (by decide) (Cert.Spec.wrapS ((U (Proc.devRef .tc main_v38) : S8388608.Idx → BitVec 32) (ix1 n)) 50#32))) := by
  have h : after (k_c0 (F := Ideal)) U (Proc.devRef .tc main_v60)
      = Host.gather gather_S200x200x50_S8388608x3_S8388608_n_012_n_n_012_1_111 (U (Proc.devRef .tc main_v28))
          (concatenate S8388608x3 1 [⟨S8388608x1, broadcastInDim S8388608x1 ![0] bcast_S8388608_S8388608x1_0 (wrapV (U (Proc.devRef .tc main_v30)) 200#32)⟩,
            ⟨S8388608x1, broadcastInDim S8388608x1 ![0] bcast_S8388608_S8388608x1_0 (wrapV (U (Proc.devRef .tc main_v34)) 200#32)⟩,
            ⟨S8388608x1, broadcastInDim S8388608x1 ![0] bcast_S8388608_S8388608x1_0 (wrapV (U (Proc.devRef .tc main_v38)) 50#32)⟩] concatenates_S8388608x1_S8388608x1_S8388608x1_S8388608x3_d1) := by
    simp only [k_c0, after_cons, after_nil]
    host_results
    rfl
  rw [h]
  exact corner_fn_apply _ _ _ _ _ _ _ n

set_option maxHeartbeats 4000000 in
/-- Stretch 1 of the gathers, from any contents `U`: its result at point `n` is the grid buffer at the wrapped and
    clamped words of the three index columns it reads. -/
theorem c1_apply (U : Valuation τ sig (Elt Ideal)) (n : Fin 8388608) :
    (after (k_c1 (F := Ideal)) U (Proc.devRef .tc main_v80) : S8388608.Idx → EReal) (ix1 n)
      = (U (Proc.devRef .tc main_v28) : S200x200x50.Idx → EReal)
          (ix3 (clampIdx 200 (by decide) (Cert.Spec.wrapS ((U (Proc.devRef .tc main_v30) : S8388608.Idx → BitVec 32) (ix1 n)) 200#32))
            (clampIdx 200 (by decide) (Cert.Spec.wrapS ((U (Proc.devRef .tc main_v34) : S8388608.Idx → BitVec 32) (ix1 n)) 200#32))
            (clampIdx 50 (by decide) (Cert.Spec.wrapS ((U (Proc.devRef .tc main_v40) : S8388608.Idx → BitVec 32) (ix1 n)) 50#32))) := by
  have h : after (k_c1 (F := Ideal)) U (Proc.devRef .tc main_v80)
      = Host.gather gather_S200x200x50_S8388608x3_S8388608_n_012_n_n_012_1_111 (U (Proc.devRef .tc main_v28))
          (concatenate S8388608x3 1 [⟨S8388608x1, broadcastInDim S8388608x1 ![0] bcast_S8388608_S8388608x1_0 (wrapV (U (Proc.devRef .tc main_v30)) 200#32)⟩,
            ⟨S8388608x1, broadcastInDim S8388608x1 ![0] bcast_S8388608_S8388608x1_0 (wrapV (U (Proc.devRef .tc main_v34)) 200#32)⟩,
            ⟨S8388608x1, broadcastInDim S8388608x1 ![0] bcast_S8388608_S8388608x1_0 (wrapV (U (Proc.devRef .tc main_v40)) 50#32)⟩] concatenates_S8388608x1_S8388608x1_S8388608x1_S8388608x3_d1) := by
    simp only [k_c1, after_cons, after_nil]
    host_results
    rfl
  rw [h]
  exact corner_fn_apply _ _ _ _ _ _ _ n

set_option maxHeartbeats 4000000 in
/-- Stretch 2 of the gathers, from any contents `U`: its result at point `n` is the grid buffer at the wrapped and
    clamped words of the three index columns it reads. -/
theorem c2_apply (U : Valuation τ sig (Elt Ideal)) (n : Fin 8388608) :
    (after (k_c2 (F := Ideal)) U (Proc.devRef .tc main_v100) : S8388608.Idx → EReal) (ix1 n)
      = (U (Proc.devRef .tc main_v28) : S200x200x50.Idx → EReal)
          (ix3 (clampIdx 200 (by decide) (Cert.Spec.wrapS ((U (Proc.devRef .tc main_v30) : S8388608.Idx → BitVec 32) (ix1 n)) 200#32))
            (clampIdx 200 (by decide) (Cert.Spec.wrapS ((U (Proc.devRef .tc main_v36) : S8388608.Idx → BitVec 32) (ix1 n)) 200#32))
            (clampIdx 50 (by decide) (Cert.Spec.wrapS ((U (Proc.devRef .tc main_v38) : S8388608.Idx → BitVec 32) (ix1 n)) 50#32))) := by
  have h : after (k_c2 (F := Ideal)) U (Proc.devRef .tc main_v100)
      = Host.gather gather_S200x200x50_S8388608x3_S8388608_n_012_n_n_012_1_111 (U (Proc.devRef .tc main_v28))
          (concatenate S8388608x3 1 [⟨S8388608x1, broadcastInDim S8388608x1 ![0] bcast_S8388608_S8388608x1_0 (wrapV (U (Proc.devRef .tc main_v30)) 200#32)⟩,
            ⟨S8388608x1, broadcastInDim S8388608x1 ![0] bcast_S8388608_S8388608x1_0 (wrapV (U (Proc.devRef .tc main_v36)) 200#32)⟩,
            ⟨S8388608x1, broadcastInDim S8388608x1 ![0] bcast_S8388608_S8388608x1_0 (wrapV (U (Proc.devRef .tc main_v38)) 50#32)⟩] concatenates_S8388608x1_S8388608x1_S8388608x1_S8388608x3_d1) := by
    simp only [k_c2, after_cons, after_nil]
    host_results
    rfl
  rw [h]
  exact corner_fn_apply _ _ _ _ _ _ _ n

set_option maxHeartbeats 4000000 in
/-- Stretch 3 of the gathers, from any contents `U`: its result at point `n` is the grid buffer at the wrapped and
    clamped words of the three index columns it reads. -/
theorem c3_apply (U : Valuation τ sig (Elt Ideal)) (n : Fin 8388608) :
    (after (k_c3 (F := Ideal)) U (Proc.devRef .tc main_v120) : S8388608.Idx → EReal) (ix1 n)
      = (U (Proc.devRef .tc main_v28) : S200x200x50.Idx → EReal)
          (ix3 (clampIdx 200 (by decide) (Cert.Spec.wrapS ((U (Proc.devRef .tc main_v30) : S8388608.Idx → BitVec 32) (ix1 n)) 200#32))
            (clampIdx 200 (by decide) (Cert.Spec.wrapS ((U (Proc.devRef .tc main_v36) : S8388608.Idx → BitVec 32) (ix1 n)) 200#32))
            (clampIdx 50 (by decide) (Cert.Spec.wrapS ((U (Proc.devRef .tc main_v40) : S8388608.Idx → BitVec 32) (ix1 n)) 50#32))) := by
  have h : after (k_c3 (F := Ideal)) U (Proc.devRef .tc main_v120)
      = Host.gather gather_S200x200x50_S8388608x3_S8388608_n_012_n_n_012_1_111 (U (Proc.devRef .tc main_v28))
          (concatenate S8388608x3 1 [⟨S8388608x1, broadcastInDim S8388608x1 ![0] bcast_S8388608_S8388608x1_0 (wrapV (U (Proc.devRef .tc main_v30)) 200#32)⟩,
            ⟨S8388608x1, broadcastInDim S8388608x1 ![0] bcast_S8388608_S8388608x1_0 (wrapV (U (Proc.devRef .tc main_v36)) 200#32)⟩,
            ⟨S8388608x1, broadcastInDim S8388608x1 ![0] bcast_S8388608_S8388608x1_0 (wrapV (U (Proc.devRef .tc main_v40)) 50#32)⟩] concatenates_S8388608x1_S8388608x1_S8388608x1_S8388608x3_d1) := by
    simp only [k_c3, after_cons, after_nil]
    host_results
    rfl
  rw [h]
  exact corner_fn_apply _ _ _ _ _ _ _ n

set_option maxHeartbeats 4000000 in
/-- Stretch 4 of the gathers, from any contents `U`: its result at point `n` is the grid buffer at the wrapped and
    clamped words of the three index columns it reads. -/
theorem c4_apply (U : Valuation τ sig (Elt Ideal)) (n : Fin 8388608) :
    (after (k_c4 (F := Ideal)) U (Proc.devRef .tc main_v140) : S8388608.Idx → EReal) (ix1 n)
      = (U (Proc.devRef .tc main_v28) : S200x200x50.Idx → EReal)
          (ix3 (clampIdx 200 (by decide) (Cert.Spec.wrapS ((U (Proc.devRef .tc main_v32) : S8388608.Idx → BitVec 32) (ix1 n)) 200#32))
            (clampIdx 200 (by decide) (Cert.Spec.wrapS ((U (Proc.devRef .tc main_v34) : S8388608.Idx → BitVec 32) (ix1 n)) 200#32))
            (clampIdx 50 (by decide) (Cert.Spec.wrapS ((U (Proc.devRef .tc main_v38) : S8388608.Idx → BitVec 32) (ix1 n)) 50#32))) := by
  have h : after (k_c4 (F := Ideal)) U (Proc.devRef .tc main_v140)
      = Host.gather gather_S200x200x50_S8388608x3_S8388608_n_012_n_n_012_1_111 (U (Proc.devRef .tc main_v28))
          (concatenate S8388608x3 1 [⟨S8388608x1, broadcastInDim S8388608x1 ![0] bcast_S8388608_S8388608x1_0 (wrapV (U (Proc.devRef .tc main_v32)) 200#32)⟩,
            ⟨S8388608x1, broadcastInDim S8388608x1 ![0] bcast_S8388608_S8388608x1_0 (wrapV (U (Proc.devRef .tc main_v34)) 200#32)⟩,
            ⟨S8388608x1, broadcastInDim S8388608x1 ![0] bcast_S8388608_S8388608x1_0 (wrapV (U (Proc.devRef .tc main_v38)) 50#32)⟩] concatenates_S8388608x1_S8388608x1_S8388608x1_S8388608x3_d1) := by
    simp only [k_c4, after_cons, after_nil]
    host_results
    rfl
  rw [h]
  exact corner_fn_apply _ _ _ _ _ _ _ n

set_option maxHeartbeats 4000000 in
/-- Stretch 5 of the gathers, from any contents `U`: its result at point `n` is the grid buffer at the wrapped and
    clamped words of the three index columns it reads. -/
theorem c5_apply (U : Valuation τ sig (Elt Ideal)) (n : Fin 8388608) :
    (after (k_c5 (F := Ideal)) U (Proc.devRef .tc main_v160) : S8388608.Idx → EReal) (ix1 n)
      = (U (Proc.devRef .tc main_v28) : S200x200x50.Idx → EReal)
          (ix3 (clampIdx 200 (by decide) (Cert.Spec.wrapS ((U (Proc.devRef .tc main_v32) : S8388608.Idx → BitVec 32) (ix1 n)) 200#32))
            (clampIdx 200 (by decide) (Cert.Spec.wrapS ((U (Proc.devRef .tc main_v34) : S8388608.Idx → BitVec 32) (ix1 n)) 200#32))
            (clampIdx 50 (by decide) (Cert.Spec.wrapS ((U (Proc.devRef .tc main_v40) : S8388608.Idx → BitVec 32) (ix1 n)) 50#32))) := by
  have h : after (k_c5 (F := Ideal)) U (Proc.devRef .tc main_v160)
      = Host.gather gather_S200x200x50_S8388608x3_S8388608_n_012_n_n_012_1_111 (U (Proc.devRef .tc main_v28))
          (concatenate S8388608x3 1 [⟨S8388608x1, broadcastInDim S8388608x1 ![0] bcast_S8388608_S8388608x1_0 (wrapV (U (Proc.devRef .tc main_v32)) 200#32)⟩,
            ⟨S8388608x1, broadcastInDim S8388608x1 ![0] bcast_S8388608_S8388608x1_0 (wrapV (U (Proc.devRef .tc main_v34)) 200#32)⟩,
            ⟨S8388608x1, broadcastInDim S8388608x1 ![0] bcast_S8388608_S8388608x1_0 (wrapV (U (Proc.devRef .tc main_v40)) 50#32)⟩] concatenates_S8388608x1_S8388608x1_S8388608x1_S8388608x3_d1) := by
    simp only [k_c5, after_cons, after_nil]
    host_results
    rfl
  rw [h]
  exact corner_fn_apply _ _ _ _ _ _ _ n

set_option maxHeartbeats 4000000 in
/-- Stretch 6 of the gathers, from any contents `U`: its result at point `n` is the grid buffer at the wrapped and
    clamped words of the three index columns it reads. -/
theorem c6_apply (U : Valuation τ sig (Elt Ideal)) (n : Fin 8388608) :
    (after (k_c6 (F := Ideal)) U (Proc.devRef .tc main_v180) : S8388608.Idx → EReal) (ix1 n)
      = (U (Proc.devRef .tc main_v28) : S200x200x50.Idx → EReal)
          (ix3 (clampIdx 200 (by decide) (Cert.Spec.wrapS ((U (Proc.devRef .tc main_v32) : S8388608.Idx → BitVec 32) (ix1 n)) 200#32))
            (clampIdx 200 (by decide) (Cert.Spec.wrapS ((U (Proc.devRef .tc main_v36) : S8388608.Idx → BitVec 32) (ix1 n)) 200#32))
            (clampIdx 50 (by decide) (Cert.Spec.wrapS ((U (Proc.devRef .tc main_v38) : S8388608.Idx → BitVec 32) (ix1 n)) 50#32))) := by
  have h : after (k_c6 (F := Ideal)) U (Proc.devRef .tc main_v180)
      = Host.gather gather_S200x200x50_S8388608x3_S8388608_n_012_n_n_012_1_111 (U (Proc.devRef .tc main_v28))
          (concatenate S8388608x3 1 [⟨S8388608x1, broadcastInDim S8388608x1 ![0] bcast_S8388608_S8388608x1_0 (wrapV (U (Proc.devRef .tc main_v32)) 200#32)⟩,
            ⟨S8388608x1, broadcastInDim S8388608x1 ![0] bcast_S8388608_S8388608x1_0 (wrapV (U (Proc.devRef .tc main_v36)) 200#32)⟩,
            ⟨S8388608x1, broadcastInDim S8388608x1 ![0] bcast_S8388608_S8388608x1_0 (wrapV (U (Proc.devRef .tc main_v38)) 50#32)⟩] concatenates_S8388608x1_S8388608x1_S8388608x1_S8388608x3_d1) := by
    simp only [k_c6, after_cons, after_nil]
    host_results
    rfl
  rw [h]
  exact corner_fn_apply _ _ _ _ _ _ _ n

set_option maxHeartbeats 4000000 in
/-- Stretch 7 of the gathers, from any contents `U`: its result at point `n` is the grid buffer at the wrapped and
    clamped words of the three index columns it reads. -/
theorem c7_apply (U : Valuation τ sig (Elt Ideal)) (n : Fin 8388608) :
    (after (k_c7 (F := Ideal)) U (Proc.devRef .tc main_v200) : S8388608.Idx → EReal) (ix1 n)
      = (U (Proc.devRef .tc main_v28) : S200x200x50.Idx → EReal)
          (ix3 (clampIdx 200 (by decide) (Cert.Spec.wrapS ((U (Proc.devRef .tc main_v32) : S8388608.Idx → BitVec 32) (ix1 n)) 200#32))
            (clampIdx 200 (by decide) (Cert.Spec.wrapS ((U (Proc.devRef .tc main_v36) : S8388608.Idx → BitVec 32) (ix1 n)) 200#32))
            (clampIdx 50 (by decide) (Cert.Spec.wrapS ((U (Proc.devRef .tc main_v40) : S8388608.Idx → BitVec 32) (ix1 n)) 50#32))) := by
  have h : after (k_c7 (F := Ideal)) U (Proc.devRef .tc main_v200)
      = Host.gather gather_S200x200x50_S8388608x3_S8388608_n_012_n_n_012_1_111 (U (Proc.devRef .tc main_v28))
          (concatenate S8388608x3 1 [⟨S8388608x1, broadcastInDim S8388608x1 ![0] bcast_S8388608_S8388608x1_0 (wrapV (U (Proc.devRef .tc main_v32)) 200#32)⟩,
            ⟨S8388608x1, broadcastInDim S8388608x1 ![0] bcast_S8388608_S8388608x1_0 (wrapV (U (Proc.devRef .tc main_v36)) 200#32)⟩,
            ⟨S8388608x1, broadcastInDim S8388608x1 ![0] bcast_S8388608_S8388608x1_0 (wrapV (U (Proc.devRef .tc main_v40)) 50#32)⟩] concatenates_S8388608x1_S8388608x1_S8388608x1_S8388608x3_d1) := by
    simp only [k_c7, after_cons, after_nil]
    host_results
    rfl
  rw [h]
  exact corner_fn_apply _ _ _ _ _ _ _ n

end Cert.KernelIdeal.Hand

end
-- ==== Proof.KValueCols.lean ====
/- The kernel program's stretch that prepares the grid and the six columns of the cell indices, read one entry at a time.
   The grid [200, 200, 50, 1] loses its trailing unit axis: entry (a, b, c) of the result is entry (a, b, c, 0) of the
   argument (the two have the same row-major position). Each of the two cell-index arrays [N, 3] gives its three columns:
   a one-column slice reshaped [N, 1] → [N], whose entry n is row n's entry in that column. Each statement is over an
   arbitrary valuation of the buffers before the stretch. -/
import proofs.«173088_j25065429139728_2_alg».proof.Proof.KChunks
import proofs.«173088_j25065429139728_2_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.SL.Sem Idealize.ShloMosaic.StableHlo Idealize.ShloMosaic.ValueIdx

/-- The grid without its trailing unit axis: entry `(a, b, c)` is the argument's entry `(a, b, c, 0)`. -/
theorem cols_grid (U : Valuation τ sig (Elt Ideal)) (a : Fin 200) (b : Fin 200) (c : Fin 50) :
    (after k_cols U (Proc.devRef .tc main_v28) : S200x200x50.Idx → EReal) (ix3 a b c)
      = (U (Proc.devRef .tc main_arg1) : S200x200x50x1.Idx → EReal) (ix4 a b c 0) := by
  simp only [k_cols]
  after_results
  show shapeCast S200x200x50 (U (Proc.devRef .tc main_arg1) : S200x200x50x1.Idx → EReal)
    shapeCasts_S200x200x50x1_S200x200x50 (ix3 a b c) = _
  refine shapeCast_apply _ _ (ix3 a b c) (ix4 a b c (0 : Fin 1)) ?_
  rw [Shape.rowMajor_val_four, Shape.rowMajor_val_three]
  show ((a.val * 200 + b.val) * 50 + c.val) * 1 + 0 = (a.val * 200 + b.val) * 50 + c.val
  omega

/-- Column 0 of the lower cell indices: the slice's unit column dropped, entry `n` is row `n`'s entry 0. -/
theorem cols30 (U : Valuation τ sig (Elt Ideal)) (n : Fin 8388608) :
    (after k_cols U (Proc.devRef .tc main_v30) : S8388608.Idx → BitVec 32) (ix1 n)
      = (U (Proc.devRef .tc main_v18) : S8388608x3.Idx → BitVec 32) (ix2 n 0) := by
  simp only [k_cols]
  after_results
  show shapeCast S8388608 (extractStridedSlice S8388608x1 ![0, 0] (U (Proc.devRef .tc main_v18) : S8388608x3.Idx → BitVec 32)
    slices_S8388608x3_S8388608x1_0_0) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 0 _ _ n (0 : Fin 1) (0 : Fin 3) rfl

/-- Column 0 of the upper cell indices: the slice's unit column dropped, entry `n` is row `n`'s entry 0. -/
theorem cols32 (U : Valuation τ sig (Elt Ideal)) (n : Fin 8388608) :
    (after k_cols U (Proc.devRef .tc main_v32) : S8388608.Idx → BitVec 32) (ix1 n)
      = (U (Proc.devRef .tc main_v25) : S8388608x3.Idx → BitVec 32) (ix2 n 0) := by
  simp only [k_cols]
  after_results
  show shapeCast S8388608 (extractStridedSlice S8388608x1 ![0, 0] (U (Proc.devRef .tc main_v25) : S8388608x3.Idx → BitVec 32)
    slices_S8388608x3_S8388608x1_0_0) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 0 _ _ n (0 : Fin 1) (0 : Fin 3) rfl

/-- Column 1 of the lower cell indices: the slice's unit column dropped, entry `n` is row `n`'s entry 1. -/
theorem cols34 (U : Valuation τ sig (Elt Ideal)) (n : Fin 8388608) :
    (after k_cols U (Proc.devRef .tc main_v34) : S8388608.Idx → BitVec 32) (ix1 n)
      = (U (Proc.devRef .tc main_v18) : S8388608x3.Idx → BitVec 32) (ix2 n 1) := by
  simp only [k_cols]
  after_results
  show shapeCast S8388608 (extractStridedSlice S8388608x1 ![0, 1] (U (Proc.devRef .tc main_v18) : S8388608x3.Idx → BitVec 32)
    slices_S8388608x3_S8388608x1_0_1) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 1 _ _ n (0 : Fin 1) (1 : Fin 3) rfl

/-- Column 1 of the upper cell indices: the slice's unit column dropped, entry `n` is row `n`'s entry 1. -/
theorem cols36 (U : Valuation τ sig (Elt Ideal)) (n : Fin 8388608) :
    (after k_cols U (Proc.devRef .tc main_v36) : S8388608.Idx → BitVec 32) (ix1 n)
      = (U (Proc.devRef .tc main_v25) : S8388608x3.Idx → BitVec 32) (ix2 n 1) := by
  simp only [k_cols]
  after_results
  show shapeCast S8388608 (extractStridedSlice S8388608x1 ![0, 1] (U (Proc.devRef .tc main_v25) : S8388608x3.Idx → BitVec 32)
    slices_S8388608x3_S8388608x1_0_1) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 1 _ _ n (0 : Fin 1) (1 : Fin 3) rfl

/-- Column 2 of the lower cell indices: the slice's unit column dropped, entry `n` is row `n`'s entry 2. -/
theorem cols38 (U : Valuation τ sig (Elt Ideal)) (n : Fin 8388608) :
    (after k_cols U (Proc.devRef .tc main_v38) : S8388608.Idx → BitVec 32) (ix1 n)
      = (U (Proc.devRef .tc main_v18) : S8388608x3.Idx → BitVec 32) (ix2 n 2) := by
  simp only [k_cols]
  after_results
  show shapeCast S8388608 (extractStridedSlice S8388608x1 ![0, 2] (U (Proc.devRef .tc main_v18) : S8388608x3.Idx → BitVec 32)
    slices_S8388608x3_S8388608x1_0_2) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 2 _ _ n (0 : Fin 1) (2 : Fin 3) rfl

/-- Column 2 of the upper cell indices: the slice's unit column dropped, entry `n` is row `n`'s entry 2. -/
theorem cols40 (U : Valuation τ sig (Elt Ideal)) (n : Fin 8388608) :
    (after k_cols U (Proc.devRef .tc main_v40) : S8388608.Idx → BitVec 32) (ix1 n)
      = (U (Proc.devRef .tc main_v25) : S8388608x3.Idx → BitVec 32) (ix2 n 2) := by
  simp only [k_cols]
  after_results
  show shapeCast S8388608 (extractStridedSlice S8388608x1 ![0, 2] (U (Proc.devRef .tc main_v25) : S8388608x3.Idx → BitVec 32)
    slices_S8388608x3_S8388608x1_0_2) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 2 _ _ n (0 : Fin 1) (2 : Fin 3) rfl

end Cert.KernelIdeal.Hand

end
-- ==== Proof.KValueLay.lean ====
/- The kernel program's last host stretch before its region, read one entry at a time.
   The stretch lays the operands of the region out with the query points along the last axis: the eight gathered
   corner values, each cast [N] → [1, N], are stacked into an array [8, N] (row k is corner k); the fractions [N, 3] are
   transposed to [3, N]; the validity flag is converted to a float and cast [N] → [1, N]. Each statement is over an
   arbitrary valuation of the buffers before the stretch: the fold of the stretch's operations at the result buffer,
   at one index, is the operand's entry it copies. -/
import proofs.«173088_j25065429139728_2_alg».proof.Proof.KChunks
import proofs.«173088_j25065429139728_2_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.SL.Sem Idealize.ShloMosaic.StableHlo Idealize.ShloMosaic.ValueIdx

/-- A vector cast [N] → [1, N] reads, at `(0, n)`, the vector at `n`. -/
theorem row_cast_apply {α : Type} (x : S8388608.Idx → α) (n : Fin 8388608) :
    broadcastInDim S1x8388608 ![1] bcast_S8388608_S1x8388608_1 x (ix2 (0 : Fin 1) n) = x (ix1 n) :=
  broadcastInDim_apply _ _ _ (ix2 (0 : Fin 1) n) (ix1 n) fun a => match a with | ⟨0, _⟩ => rfl

/-! ## The eight corner rows -/

/-- Row 0 of the stack is corner 0's gathered values. -/
theorem lay_c0 (U : Valuation τ sig (Elt Ideal)) (n : Fin 8388608) :
    (after k_lay U (Proc.devRef .tc main_v209) : S8x8388608.Idx → EReal) (ix2 0 n)
      = (U (Proc.devRef .tc main_v60) : S8388608.Idx → EReal) (ix1 n) := by
  simp only [k_lay]
  after_results
  refine (concatenate_apply_piece (t := S8x8388608) (0 : Fin 2) _ _ (ix2 (0 : Fin 8) n) 0 ?hlen S1x8388608 ?piece ?hpiece rfl 0 ?hbefore
    (ix2 (0 : Fin 1) n) ?hoff ?hon).trans ?rest
  case hlen => exact (by decide : (0 : Nat) < 8)
  case hpiece => rfl
  case hbefore => rfl
  case hon => rfl
  case hoff =>
    intro b hb
    match b, hb with
    | ⟨0, _⟩, hb => exact absurd rfl hb
    | ⟨1, _⟩, _ => rfl
  show ((_ : Valuation τ sig (Elt Ideal)) (Proc.devRef .tc main_v201) : S1x8388608.Idx → EReal) (ix2 (0 : Fin 1) n) = _
  repeat (first | rw [unary_result] | (rw [unary_result_ne]; rotate_left; decide))
  exact row_cast_apply _ n

/-- Row 1 of the stack is corner 1's gathered values. -/
theorem lay_c1 (U : Valuation τ sig (Elt Ideal)) (n : Fin 8388608) :
    (after k_lay U (Proc.devRef .tc main_v209) : S8x8388608.Idx → EReal) (ix2 1 n)
      = (U (Proc.devRef .tc main_v80) : S8388608.Idx → EReal) (ix1 n) := by
  simp only [k_lay]
  after_results
  refine (concatenate_apply_piece (t := S8x8388608) (0 : Fin 2) _ _ (ix2 (1 : Fin 8) n) 1 ?hlen S1x8388608 ?piece ?hpiece rfl 1 ?hbefore
    (ix2 (0 : Fin 1) n) ?hoff ?hon).trans ?rest
  case hlen => exact (by decide : (1 : Nat) < 8)
  case hpiece => rfl
  case hbefore => rfl
  case hon => rfl
  case hoff =>
    intro b hb
    match b, hb with
    | ⟨0, _⟩, hb => exact absurd rfl hb
    | ⟨1, _⟩, _ => rfl
  show ((_ : Valuation τ sig (Elt Ideal)) (Proc.devRef .tc main_v202) : S1x8388608.Idx → EReal) (ix2 (0 : Fin 1) n) = _
  repeat (first | rw [unary_result] | (rw [unary_result_ne]; rotate_left; decide))
  exact row_cast_apply _ n

/-- Row 2 of the stack is corner 2's gathered values. -/
theorem lay_c2 (U : Valuation τ sig (Elt Ideal)) (n : Fin 8388608) :
    (after k_lay U (Proc.devRef .tc main_v209) : S8x8388608.Idx → EReal) (ix2 2 n)
      = (U (Proc.devRef .tc main_v100) : S8388608.Idx → EReal) (ix1 n) := by
  simp only [k_lay]
  after_results
  refine (concatenate_apply_piece (t := S8x8388608) (0 : Fin 2) _ _ (ix2 (2 : Fin 8) n) 2 ?hlen S1x8388608 ?piece ?hpiece rfl 2 ?hbefore
    (ix2 (0 : Fin 1) n) ?hoff ?hon).trans ?rest
  case hlen => exact (by decide : (2 : Nat) < 8)
  case hpiece => rfl
  case hbefore => rfl
  case hon => rfl
  case hoff =>
    intro b hb
    match b, hb with
    | ⟨0, _⟩, hb => exact absurd rfl hb
    | ⟨1, _⟩, _ => rfl
  show ((_ : Valuation τ sig (Elt Ideal)) (Proc.devRef .tc main_v203) : S1x8388608.Idx → EReal) (ix2 (0 : Fin 1) n) = _
  repeat (first | rw [unary_result] | (rw [unary_result_ne]; rotate_left; decide))
  exact row_cast_apply _ n

/-- Row 3 of the stack is corner 3's gathered values. -/
theorem lay_c3 (U : Valuation τ sig (Elt Ideal)) (n : Fin 8388608) :
    (after k_lay U (Proc.devRef .tc main_v209) : S8x8388608.Idx → EReal) (ix2 3 n)
      = (U (Proc.devRef .tc main_v120) : S8388608.Idx → EReal) (ix1 n) := by
  simp only [k_lay]
  after_results
  refine (concatenate_apply_piece (t := S8x8388608) (0 : Fin 2) _ _ (ix2 (3 : Fin 8) n) 3 ?hlen S1x8388608 ?piece ?hpiece rfl 3 ?hbefore
    (ix2 (0 : Fin 1) n) ?hoff ?hon).trans ?rest
  case hlen => exact (by decide : (3 : Nat) < 8)
  case hpiece => rfl
  case hbefore => rfl
  case hon => rfl
  case hoff =>
    intro b hb
    match b, hb with
    | ⟨0, _⟩, hb => exact absurd rfl hb
    | ⟨1, _⟩, _ => rfl
  show ((_ : Valuation τ sig (Elt Ideal)) (Proc.devRef .tc main_v204) : S1x8388608.Idx → EReal) (ix2 (0 : Fin 1) n) = _
  repeat (first | rw [unary_result] | (rw [unary_result_ne]; rotate_left; decide))
  exact row_cast_apply _ n

/-- Row 4 of the stack is corner 4's gathered values. -/
theorem lay_c4 (U : Valuation τ sig (Elt Ideal)) (n : Fin 8388608) :
    (after k_lay U (Proc.devRef .tc main_v209) : S8x8388608.Idx → EReal) (ix2 4 n)
      = (U (Proc.devRef .tc main_v140) : S8388608.Idx → EReal) (ix1 n) := by
  simp only [k_lay]
  after_results
  refine (concatenate_apply_piece (t := S8x8388608) (0 : Fin 2) _ _ (ix2 (4 : Fin 8) n) 4 ?hlen S1x8388608 ?piece ?hpiece rfl 4 ?hbefore
    (ix2 (0 : Fin 1) n) ?hoff ?hon).trans ?rest
  case hlen => exact (by decide : (4 : Nat) < 8)
  case hpiece => rfl
  case hbefore => rfl
  case hon => rfl
  case hoff =>
    intro b hb
    match b, hb with
    | ⟨0, _⟩, hb => exact absurd rfl hb
    | ⟨1, _⟩, _ => rfl
  show ((_ : Valuation τ sig (Elt Ideal)) (Proc.devRef .tc main_v205) : S1x8388608.Idx → EReal) (ix2 (0 : Fin 1) n) = _
  repeat (first | rw [unary_result] | (rw [unary_result_ne]; rotate_left; decide))
  exact row_cast_apply _ n

/-- Row 5 of the stack is corner 5's gathered values. -/
theorem lay_c5 (U : Valuation τ sig (Elt Ideal)) (n : Fin 8388608) :
    (after k_lay U (Proc.devRef .tc main_v209) : S8x8388608.Idx → EReal) (ix2 5 n)
      = (U (Proc.devRef .tc main_v160) : S8388608.Idx → EReal) (ix1 n) := by
  simp only [k_lay]
  after_results
  refine (concatenate_apply_piece (t := S8x8388608) (0 : Fin 2) _ _ (ix2 (5 : Fin 8) n) 5 ?hlen S1x8388608 ?piece ?hpiece rfl 5 ?hbefore
    (ix2 (0 : Fin 1) n) ?hoff ?hon).trans ?rest
  case hlen => exact (by decide : (5 : Nat) < 8)
  case hpiece => rfl
  case hbefore => rfl
  case hon => rfl
  case hoff =>
    intro b hb
    match b, hb with
    | ⟨0, _⟩, hb => exact absurd rfl hb
    | ⟨1, _⟩, _ => rfl
  show ((_ : Valuation τ sig (Elt Ideal)) (Proc.devRef .tc main_v206) : S1x8388608.Idx → EReal) (ix2 (0 : Fin 1) n) = _
  repeat (first | rw [unary_result] | (rw [unary_result_ne]; rotate_left; decide))
  exact row_cast_apply _ n

/-- Row 6 of the stack is corner 6's gathered values. -/
theorem lay_c6 (U : Valuation τ sig (Elt Ideal)) (n : Fin 8388608) :
    (after k_lay U (Proc.devRef .tc main_v209) : S8x8388608.Idx → EReal) (ix2 6 n)
      = (U (Proc.devRef .tc main_v180) : S8388608.Idx → EReal) (ix1 n) := by
  simp only [k_lay]
  after_results
  refine (concatenate_apply_piece (t := S8x8388608) (0 : Fin 2) _ _ (ix2 (6 : Fin 8) n) 6 ?hlen S1x8388608 ?piece ?hpiece rfl 6 ?hbefore
    (ix2 (0 : Fin 1) n) ?hoff ?hon).trans ?rest
  case hlen => exact (by decide : (6 : Nat) < 8)
  case hpiece => rfl
  case hbefore => rfl
  case hon => rfl
  case hoff =>
    intro b hb
    match b, hb with
    | ⟨0, _⟩, hb => exact absurd rfl hb
    | ⟨1, _⟩, _ => rfl
  show ((_ : Valuation τ sig (Elt Ideal)) (Proc.devRef .tc main_v207) : S1x8388608.Idx → EReal) (ix2 (0 : Fin 1) n) = _
  repeat (first | rw [unary_result] | (rw [unary_result_ne]; rotate_left; decide))
  exact row_cast_apply _ n

/-- Row 7 of the stack is corner 7's gathered values. -/
theorem lay_c7 (U : Valuation τ sig (Elt Ideal)) (n : Fin 8388608) :
    (after k_lay U (Proc.devRef .tc main_v209) : S8x8388608.Idx → EReal) (ix2 7 n)
      = (U (Proc.devRef .tc main_v200) : S8388608.Idx → EReal) (ix1 n) := by
  simp only [k_lay]
  after_results
  refine (concatenate_apply_piece (t := S8x8388608) (0 : Fin 2) _ _ (ix2 (7 : Fin 8) n) 7 ?hlen S1x8388608 ?piece ?hpiece rfl 7 ?hbefore
    (ix2 (0 : Fin 1) n) ?hoff ?hon).trans ?rest
  case hlen => exact (by decide : (7 : Nat) < 8)
  case hpiece => rfl
  case hbefore => rfl
  case hon => rfl
  case hoff =>
    intro b hb
    match b, hb with
    | ⟨0, _⟩, hb => exact absurd rfl hb
    | ⟨1, _⟩, _ => rfl
  show ((_ : Valuation τ sig (Elt Ideal)) (Proc.devRef .tc main_v208) : S1x8388608.Idx → EReal) (ix2 (0 : Fin 1) n) = _
  repeat (first | rw [unary_result] | (rw [unary_result_ne]; rotate_left; decide))
  exact row_cast_apply _ n

/-! ## The fractions and the flag -/

/-- The transposed fractions: entry `(d, n)` is point `n`'s fraction on axis `d`. -/
theorem lay_ft (U : Valuation τ sig (Elt Ideal)) (d : Fin 3) (n : Fin 8388608) :
    (after k_lay U (Proc.devRef .tc main_v210) : S3x8388608.Idx → EReal) (ix2 d n)
      = (U (Proc.devRef .tc main_v27) : S8388608x3.Idx → EReal) (ix2 n d) := by
  simp only [k_lay]
  after_results
  exact transpose_ix2_apply _ _ d n

/-- The flag as a float, cast to one row: entry `(0, n)` is point `n`'s flag converted. -/
theorem lay_vf (U : Valuation τ sig (Elt Ideal)) (n : Fin 8388608) :
    (after k_lay U (Proc.devRef .tc main_v212) : S1x8388608.Idx → EReal) (ix2 0 n)
      = FloatOps.uitofp (F := Ideal) .f32 ((U (Proc.devRef .tc main_v13) : S8388608.Idx → BitVec 1) (ix1 n)) := by
  simp only [k_lay]
  after_results
  exact (row_cast_apply _ n).trans rfl

end Cert.KernelIdeal.Hand

end
-- ==== Proof.KValueHost.lean ====
/-
  What the region's three input arrays hold at an index, as the host operations before the region leave them.

  Row `k` of the corner array holds, at point `n`, the grid at corner `k` of the point's cell: the cell index on each
  axis is the lower index word (a bit of `k` clear) or the upper one (set), read the way an integer array index is read —
  a negative one counts from the end of the axis — and then clamped into the axis as a gather clamps it.  Row `d` of the
  fraction array holds, at point `n`, the point's fraction on axis `d`; the flag array holds the validity bit as a float.

  The operations are evaluated stretch by stretch.  A stretch writes a known list of buffers, so a buffer outside the
  list holds after the stretch what it held before; this is what carries a value from the stretch that computes it to the
  end of the host operations.  The contents the region finds are never unfolded: they are related to the stretches only
  through one equation, by rewriting.
-/
import proofs.«173088_j25065429139728_2_alg».proof.Proof.KDefs
import proofs.«173088_j25065429139728_2_alg».proof.Proof.KChunks
import proofs.«173088_j25065429139728_2_alg».proof.Proof.KValueGather
import proofs.«173088_j25065429139728_2_alg».proof.Proof.KValueCols
import proofs.«173088_j25065429139728_2_alg».proof.Proof.KValueLay
import proofs.«173088_j25065429139728_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem
open Cert.Lib.PointGather

/-! ## The contents after each stretch -/

variable (m : (ℓ : Loc nD τ sig) → Buf (Elt Ideal) ℓ)

/-- Core `c`'s contents after the first two stretches and the first 11 operations of the third; after the columns; and
    after each gather stretch in turn. -/
def Upre (c : Dev nD) : Valuation τ sig (Elt Ideal) := after k_pre (after hostOps0_1 (after hostOps0 (fun b => m (c, b))))
def Ucols (c : Dev nD) : Valuation τ sig (Elt Ideal) := after k_cols (Upre m c)
def Uc0 (c : Dev nD) : Valuation τ sig (Elt Ideal) := after k_c0 (Ucols m c)
def Uc1 (c : Dev nD) : Valuation τ sig (Elt Ideal) := after k_c1 (Uc0 m c)
def Uc2 (c : Dev nD) : Valuation τ sig (Elt Ideal) := after k_c2 (Uc1 m c)
def Uc3 (c : Dev nD) : Valuation τ sig (Elt Ideal) := after k_c3 (Uc2 m c)
def Uc4 (c : Dev nD) : Valuation τ sig (Elt Ideal) := after k_c4 (Uc3 m c)
def Uc5 (c : Dev nD) : Valuation τ sig (Elt Ideal) := after k_c5 (Uc4 m c)
def Uc6 (c : Dev nD) : Valuation τ sig (Elt Ideal) := after k_c6 (Uc5 m c)
def Uc7 (c : Dev nD) : Valuation τ sig (Elt Ideal) := after k_c7 (Uc6 m c)

theorem Ucols_def (c : Dev nD) : Ucols m c = after k_cols (Upre m c) := rfl
theorem Uc0_def (c : Dev nD) : Uc0 m c = after k_c0 (Ucols m c) := rfl
theorem Uc1_def (c : Dev nD) : Uc1 m c = after k_c1 (Uc0 m c) := rfl
theorem Uc2_def (c : Dev nD) : Uc2 m c = after k_c2 (Uc1 m c) := rfl
theorem Uc3_def (c : Dev nD) : Uc3 m c = after k_c3 (Uc2 m c) := rfl
theorem Uc4_def (c : Dev nD) : Uc4 m c = after k_c4 (Uc3 m c) := rfl
theorem Uc5_def (c : Dev nD) : Uc5 m c = after k_c5 (Uc4 m c) := rfl
theorem Uc6_def (c : Dev nD) : Uc6 m c = after k_c6 (Uc5 m c) := rfl
theorem Uc7_def (c : Dev nD) : Uc7 m c = after k_c7 (Uc6 m c) := rfl

/-- A buffer as the region finds it, as an entry of the region-entry contents. -/
theorem V_def (c : Dev nD) (b : Ref sig .tc) : V m c b = V0 m c (Proc.devRef .tc b) := rfl

set_option maxHeartbeats 4000000 in
/-- The contents the region finds are those after the last stretch, run from the contents after the gathers. -/
theorem V0_eq (c : Dev nD) : V0 m c = after k_lay (Uc7 m c) := by
  show after (List.flatten [(hostOps0 : List (HloOp τ sig (Elt Ideal))), hostOps0_1, hostOps0_2]) (fun b => m (c, b)) = _
  rw [show List.flatten [(hostOps0 : List (HloOp τ sig (Elt Ideal))), hostOps0_1, hostOps0_2] = hostOps0 ++ (hostOps0_1 ++ hostOps0_2) from by
    simp only [List.flatten_cons, List.flatten_nil, List.append_nil]]
  rw [hostOps0_2_split]
  simp only [after_append]
  rfl

/-- A buffer the last stretch does not write is found by the region as the gathers left it. -/
theorem V_eq_Uc7 (c : Dev nD) (r : Ref sig .tc) (h : r ∉ k_lay_W) : V m c r = Uc7 m c (Proc.devRef .tc r) := by
  rw [V_def, V0_eq]
  exact k_lay_keep (Uc7 m c) r h

/-- The buffers the gather stretches read and none of them writes: the reshaped grid, the six index columns, and the two
    index arrays. -/
abbrev longRefs : List (Ref sig .tc) := [main_v28, main_v30, main_v32, main_v34, main_v36, main_v38, main_v40, main_v18, main_v25]

theorem Uc0_long (c : Dev nD) (r : Ref sig .tc) (hr : r ∈ longRefs) : Uc0 m c (Proc.devRef .tc r) = Ucols m c (Proc.devRef .tc r) :=
  k_c0_keep (Ucols m c) r ((by decide : ∀ r ∈ longRefs, r ∉ k_c0_W) r hr)
theorem Uc1_long (c : Dev nD) (r : Ref sig .tc) (hr : r ∈ longRefs) : Uc1 m c (Proc.devRef .tc r) = Ucols m c (Proc.devRef .tc r) :=
  (k_c1_keep (Uc0 m c) r ((by decide : ∀ r ∈ longRefs, r ∉ k_c1_W) r hr)).trans (Uc0_long m c r hr)
theorem Uc2_long (c : Dev nD) (r : Ref sig .tc) (hr : r ∈ longRefs) : Uc2 m c (Proc.devRef .tc r) = Ucols m c (Proc.devRef .tc r) :=
  (k_c2_keep (Uc1 m c) r ((by decide : ∀ r ∈ longRefs, r ∉ k_c2_W) r hr)).trans (Uc1_long m c r hr)
theorem Uc3_long (c : Dev nD) (r : Ref sig .tc) (hr : r ∈ longRefs) : Uc3 m c (Proc.devRef .tc r) = Ucols m c (Proc.devRef .tc r) :=
  (k_c3_keep (Uc2 m c) r ((by decide : ∀ r ∈ longRefs, r ∉ k_c3_W) r hr)).trans (Uc2_long m c r hr)
theorem Uc4_long (c : Dev nD) (r : Ref sig .tc) (hr : r ∈ longRefs) : Uc4 m c (Proc.devRef .tc r) = Ucols m c (Proc.devRef .tc r) :=
  (k_c4_keep (Uc3 m c) r ((by decide : ∀ r ∈ longRefs, r ∉ k_c4_W) r hr)).trans (Uc3_long m c r hr)
theorem Uc5_long (c : Dev nD) (r : Ref sig .tc) (hr : r ∈ longRefs) : Uc5 m c (Proc.devRef .tc r) = Ucols m c (Proc.devRef .tc r) :=
  (k_c5_keep (Uc4 m c) r ((by decide : ∀ r ∈ longRefs, r ∉ k_c5_W) r hr)).trans (Uc4_long m c r hr)
theorem Uc6_long (c : Dev nD) (r : Ref sig .tc) (hr : r ∈ longRefs) : Uc6 m c (Proc.devRef .tc r) = Ucols m c (Proc.devRef .tc r) :=
  (k_c6_keep (Uc5 m c) r ((by decide : ∀ r ∈ longRefs, r ∉ k_c6_W) r hr)).trans (Uc5_long m c r hr)
theorem Uc7_long (c : Dev nD) (r : Ref sig .tc) (hr : r ∈ longRefs) : Uc7 m c (Proc.devRef .tc r) = Ucols m c (Proc.devRef .tc r) :=
  (k_c7_keep (Uc6 m c) r ((by decide : ∀ r ∈ longRefs, r ∉ k_c7_W) r hr)).trans (Uc6_long m c r hr)

/-- The two index arrays as the region finds them are as the third stretch's first operations left them. -/
theorem V_v18 (c : Dev nD) : V m c main_v18 = Upre m c (Proc.devRef .tc main_v18) :=
  ((V_eq_Uc7 m c main_v18 (by decide)).trans (Uc7_long m c main_v18 (by decide))).trans (k_cols_keep (Upre m c) main_v18 (by decide))
theorem V_v25 (c : Dev nD) : V m c main_v25 = Upre m c (Proc.devRef .tc main_v25) :=
  ((V_eq_Uc7 m c main_v25 (by decide)).trans (Uc7_long m c main_v25 (by decide))).trans (k_cols_keep (Upre m c) main_v25 (by decide))

/-- No operation before the columns writes the grid argument. -/
theorem Upre_arg1 (c : Dev nD) : Upre m c (Proc.devRef .tc main_arg1) = m ((c : Thread nD τ).loc main_arg1) :=
  (k_pre_keep (after hostOps0_1 (after hostOps0 (fun b => m (c, b)))) main_arg1 (by decide)).trans
    ((hostOps0_1_keep (after hostOps0 (fun b => m (c, b))) main_arg1 (by decide)).trans (hostOps0_keep (fun b => m (c, b)) main_arg1 (by decide)))

/-- The reshaped grid at a cell is the grid argument at that cell. -/
theorem Ucols_v28 (c : Dev nD) (a : Fin 200) (b : Fin 200) (cc : Fin 50) :
    (Ucols m c (Proc.devRef .tc main_v28) : S200x200x50.Idx → EReal) (ix3 a b cc)
      = (m ((c : Thread nD τ).loc main_arg1) : S200x200x50x1.Idx → EReal) (ix4 a b cc (0 : Fin 1)) := by
  rw [Ucols_def, cols_grid, Upre_arg1]
/-- Index column `main_v30` at point `n` is the region-entry `main_v18` at `(n, 0)`. -/
theorem Ucols_v30 (c : Dev nD) (n : Fin 8388608) :
    (Ucols m c (Proc.devRef .tc main_v30) : S8388608.Idx → BitVec 32) (ix1 n) = (V m c main_v18 : S8388608x3.Idx → BitVec 32) (ix2 n 0) := by
  rw [V_v18, Ucols_def, cols30]
/-- Index column `main_v32` at point `n` is the region-entry `main_v25` at `(n, 0)`. -/
theorem Ucols_v32 (c : Dev nD) (n : Fin 8388608) :
    (Ucols m c (Proc.devRef .tc main_v32) : S8388608.Idx → BitVec 32) (ix1 n) = (V m c main_v25 : S8388608x3.Idx → BitVec 32) (ix2 n 0) := by
  rw [V_v25, Ucols_def, cols32]
/-- Index column `main_v34` at point `n` is the region-entry `main_v18` at `(n, 1)`. -/
theorem Ucols_v34 (c : Dev nD) (n : Fin 8388608) :
    (Ucols m c (Proc.devRef .tc main_v34) : S8388608.Idx → BitVec 32) (ix1 n) = (V m c main_v18 : S8388608x3.Idx → BitVec 32) (ix2 n 1) := by
  rw [V_v18, Ucols_def, cols34]
/-- Index column `main_v36` at point `n` is the region-entry `main_v25` at `(n, 1)`. -/
theorem Ucols_v36 (c : Dev nD) (n : Fin 8388608) :
    (Ucols m c (Proc.devRef .tc main_v36) : S8388608.Idx → BitVec 32) (ix1 n) = (V m c main_v25 : S8388608x3.Idx → BitVec 32) (ix2 n 1) := by
  rw [V_v25, Ucols_def, cols36]
/-- Index column `main_v38` at point `n` is the region-entry `main_v18` at `(n, 2)`. -/
theorem Ucols_v38 (c : Dev nD) (n : Fin 8388608) :
    (Ucols m c (Proc.devRef .tc main_v38) : S8388608.Idx → BitVec 32) (ix1 n) = (V m c main_v18 : S8388608x3.Idx → BitVec 32) (ix2 n 2) := by
  rw [V_v18, Ucols_def, cols38]
/-- Index column `main_v40` at point `n` is the region-entry `main_v25` at `(n, 2)`. -/
theorem Ucols_v40 (c : Dev nD) (n : Fin 8388608) :
    (Ucols m c (Proc.devRef .tc main_v40) : S8388608.Idx → BitVec 32) (ix1 n) = (V m c main_v25 : S8388608x3.Idx → BitVec 32) (ix2 n 2) := by
  rw [V_v25, Ucols_def, cols40]

/-! ## The region's inputs at an index -/

/-- Row 0 of the corner array: the grid at the lower / lower / lower cell indices. -/
theorem corner0_at (c : Dev nD) (n : Fin 8388608) :
    (V m c main_v209 : S8x8388608.Idx → EReal) (ix2 0 n)
      = Cert.Spec.cellS (m ((c : Thread nD τ).loc main_arg1)) (Cert.Spec.wrapS (Cert.Spec.pick ((V m c main_v18 : S8388608x3.Idx → BitVec 32) (ix2 n 0)) ((V m c main_v25 : S8388608x3.Idx → BitVec 32) (ix2 n 0)) false) 200#32)
          (Cert.Spec.wrapS (Cert.Spec.pick ((V m c main_v18 : S8388608x3.Idx → BitVec 32) (ix2 n 1)) ((V m c main_v25 : S8388608x3.Idx → BitVec 32) (ix2 n 1)) false) 200#32)
          (Cert.Spec.wrapS (Cert.Spec.pick ((V m c main_v18 : S8388608x3.Idx → BitVec 32) (ix2 n 2)) ((V m c main_v25 : S8388608x3.Idx → BitVec 32) (ix2 n 2)) false) 50#32) := by
  rw [V_def m c main_v209, V0_eq, lay_c0]
  rw [show Uc7 m c (Proc.devRef .tc main_v60) = Uc0 m c (Proc.devRef .tc main_v60) from (((((((k_c7_keep (Uc6 m c) main_v60 (by decide)).trans (k_c6_keep (Uc5 m c) main_v60 (by decide))).trans (k_c5_keep (Uc4 m c) main_v60 (by decide))).trans (k_c4_keep (Uc3 m c) main_v60 (by decide))).trans (k_c3_keep (Uc2 m c) main_v60 (by decide))).trans (k_c2_keep (Uc1 m c) main_v60 (by decide))).trans (k_c1_keep (Uc0 m c) main_v60 (by decide)))]
  rw [Uc0_def, c0_apply]
  rw [Ucols_v28, Ucols_v30, Ucols_v34, Ucols_v38]
  refine (cellS_eq (m ((c : Thread nD τ).loc main_arg1)) _ _ _).trans ?_
  simp only [Cert.Spec.pick]

/-- Row 1 of the corner array: the grid at the lower / lower / upper cell indices. -/
theorem corner1_at (c : Dev nD) (n : Fin 8388608) :
    (V m c main_v209 : S8x8388608.Idx → EReal) (ix2 1 n)
      = Cert.Spec.cellS (m ((c : Thread nD τ).loc main_arg1)) (Cert.Spec.wrapS (Cert.Spec.pick ((V m c main_v18 : S8388608x3.Idx → BitVec 32) (ix2 n 0)) ((V m c main_v25 : S8388608x3.Idx → BitVec 32) (ix2 n 0)) false) 200#32)
          (Cert.Spec.wrapS (Cert.Spec.pick ((V m c main_v18 : S8388608x3.Idx → BitVec 32) (ix2 n 1)) ((V m c main_v25 : S8388608x3.Idx → BitVec 32) (ix2 n 1)) false) 200#32)
          (Cert.Spec.wrapS (Cert.Spec.pick ((V m c main_v18 : S8388608x3.Idx → BitVec 32) (ix2 n 2)) ((V m c main_v25 : S8388608x3.Idx → BitVec 32) (ix2 n 2)) true) 50#32) := by
  rw [V_def m c main_v209, V0_eq, lay_c1]
  rw [show Uc7 m c (Proc.devRef .tc main_v80) = Uc1 m c (Proc.devRef .tc main_v80) from ((((((k_c7_keep (Uc6 m c) main_v80 (by decide)).trans (k_c6_keep (Uc5 m c) main_v80 (by decide))).trans (k_c5_keep (Uc4 m c) main_v80 (by decide))).trans (k_c4_keep (Uc3 m c) main_v80 (by decide))).trans (k_c3_keep (Uc2 m c) main_v80 (by decide))).trans (k_c2_keep (Uc1 m c) main_v80 (by decide)))]
  rw [Uc1_def, c1_apply]
  rw [Uc0_long m c main_v28 (by decide), Uc0_long m c main_v30 (by decide), Uc0_long m c main_v34 (by decide), Uc0_long m c main_v40 (by decide)]
  rw [Ucols_v28, Ucols_v30, Ucols_v34, Ucols_v40]
  refine (cellS_eq (m ((c : Thread nD τ).loc main_arg1)) _ _ _).trans ?_
  simp only [Cert.Spec.pick]

/-- Row 2 of the corner array: the grid at the lower / upper / lower cell indices. -/
theorem corner2_at (c : Dev nD) (n : Fin 8388608) :
    (V m c main_v209 : S8x8388608.Idx → EReal) (ix2 2 n)
      = Cert.Spec.cellS (m ((c : Thread nD τ).loc main_arg1)) (Cert.Spec.wrapS (Cert.Spec.pick ((V m c main_v18 : S8388608x3.Idx → BitVec 32) (ix2 n 0)) ((V m c main_v25 : S8388608x3.Idx → BitVec 32) (ix2 n 0)) false) 200#32)
          (Cert.Spec.wrapS (Cert.Spec.pick ((V m c main_v18 : S8388608x3.Idx → BitVec 32) (ix2 n 1)) ((V m c main_v25 : S8388608x3.Idx → BitVec 32) (ix2 n 1)) true) 200#32)
          (Cert.Spec.wrapS (Cert.Spec.pick ((V m c main_v18 : S8388608x3.Idx → BitVec 32) (ix2 n 2)) ((V m c main_v25 : S8388608x3.Idx → BitVec 32) (ix2 n 2)) false) 50#32) := by
  rw [V_def m c main_v209, V0_eq, lay_c2]
  rw [show Uc7 m c (Proc.devRef .tc main_v100) = Uc2 m c (Proc.devRef .tc main_v100) from (((((k_c7_keep (Uc6 m c) main_v100 (by decide)).trans (k_c6_keep (Uc5 m c) main_v100 (by decide))).trans (k_c5_keep (Uc4 m c) main_v100 (by decide))).trans (k_c4_keep (Uc3 m c) main_v100 (by decide))).trans (k_c3_keep (Uc2 m c) main_v100 (by decide)))]
  rw [Uc2_def, c2_apply]
  rw [Uc1_long m c main_v28 (by decide), Uc1_long m c main_v30 (by decide), Uc1_long m c main_v36 (by decide), Uc1_long m c main_v38 (by decide)]
  rw [Ucols_v28, Ucols_v30, Ucols_v36, Ucols_v38]
  refine (cellS_eq (m ((c : Thread nD τ).loc main_arg1)) _ _ _).trans ?_
  simp only [Cert.Spec.pick]

/-- Row 3 of the corner array: the grid at the lower / upper / upper cell indices. -/
theorem corner3_at (c : Dev nD) (n : Fin 8388608) :
    (V m c main_v209 : S8x8388608.Idx → EReal) (ix2 3 n)
      = Cert.Spec.cellS (m ((c : Thread nD τ).loc main_arg1)) (Cert.Spec.wrapS (Cert.Spec.pick ((V m c main_v18 : S8388608x3.Idx → BitVec 32) (ix2 n 0)) ((V m c main_v25 : S8388608x3.Idx → BitVec 32) (ix2 n 0)) false) 200#32)
          (Cert.Spec.wrapS (Cert.Spec.pick ((V m c main_v18 : S8388608x3.Idx → BitVec 32) (ix2 n 1)) ((V m c main_v25 : S8388608x3.Idx → BitVec 32) (ix2 n 1)) true) 200#32)
          (Cert.Spec.wrapS (Cert.Spec.pick ((V m c main_v18 : S8388608x3.Idx → BitVec 32) (ix2 n 2)) ((V m c main_v25 : S8388608x3.Idx → BitVec 32) (ix2 n 2)) true) 50#32) := by
  rw [V_def m c main_v209, V0_eq, lay_c3]
  rw [show Uc7 m c (Proc.devRef .tc main_v120) = Uc3 m c (Proc.devRef .tc main_v120) from ((((k_c7_keep (Uc6 m c) main_v120 (by decide)).trans (k_c6_keep (Uc5 m c) main_v120 (by decide))).trans (k_c5_keep (Uc4 m c) main_v120 (by decide))).trans (k_c4_keep (Uc3 m c) main_v120 (by decide)))]
  rw [Uc3_def, c3_apply]
  rw [Uc2_long m c main_v28 (by decide), Uc2_long m c main_v30 (by decide), Uc2_long m c main_v36 (by decide), Uc2_long m c main_v40 (by decide)]
  rw [Ucols_v28, Ucols_v30, Ucols_v36, Ucols_v40]
  refine (cellS_eq (m ((c : Thread nD τ).loc main_arg1)) _ _ _).trans ?_
  simp only [Cert.Spec.pick]

/-- Row 4 of the corner array: the grid at the upper / lower / lower cell indices. -/
theorem corner4_at (c : Dev nD) (n : Fin 8388608) :
    (V m c main_v209 : S8x8388608.Idx → EReal) (ix2 4 n)
      = Cert.Spec.cellS (m ((c : Thread nD τ).loc main_arg1)) (Cert.Spec.wrapS (Cert.Spec.pick ((V m c main_v18 : S8388608x3.Idx → BitVec 32) (ix2 n 0)) ((V m c main_v25 : S8388608x3.Idx → BitVec 32) (ix2 n 0)) true) 200#32)
          (Cert.Spec.wrapS (Cert.Spec.pick ((V m c main_v18 : S8388608x3.Idx → BitVec 32) (ix2 n 1)) ((V m c main_v25 : S8388608x3.Idx → BitVec 32) (ix2 n 1)) false) 200#32)
          (Cert.Spec.wrapS (Cert.Spec.pick ((V m c main_v18 : S8388608x3.Idx → BitVec 32) (ix2 n 2)) ((V m c main_v25 : S8388608x3.Idx → BitVec 32) (ix2 n 2)) false) 50#32) := by
  rw [V_def m c main_v209, V0_eq, lay_c4]
  rw [show Uc7 m c (Proc.devRef .tc main_v140) = Uc4 m c (Proc.devRef .tc main_v140) from (((k_c7_keep (Uc6 m c) main_v140 (by decide)).trans (k_c6_keep (Uc5 m c) main_v140 (by decide))).trans (k_c5_keep (Uc4 m c) main_v140 (by decide)))]
  rw [Uc4_def, c4_apply]
  rw [Uc3_long m c main_v28 (by decide), Uc3_long m c main_v32 (by decide), Uc3_long m c main_v34 (by decide), Uc3_long m c main_v38 (by decide)]
  rw [Ucols_v28, Ucols_v32, Ucols_v34, Ucols_v38]
  refine (cellS_eq (m ((c : Thread nD τ).loc main_arg1)) _ _ _).trans ?_
  simp only [Cert.Spec.pick]

/-- Row 5 of the corner array: the grid at the upper / lower / upper cell indices. -/
theorem corner5_at (c : Dev nD) (n : Fin 8388608) :
    (V m c main_v209 : S8x8388608.Idx → EReal) (ix2 5 n)
      = Cert.Spec.cellS (m ((c : Thread nD τ).loc main_arg1)) (Cert.Spec.wrapS (Cert.Spec.pick ((V m c main_v18 : S8388608x3.Idx → BitVec 32) (ix2 n 0)) ((V m c main_v25 : S8388608x3.Idx → BitVec 32) (ix2 n 0)) true) 200#32)
          (Cert.Spec.wrapS (Cert.Spec.pick ((V m c main_v18 : S8388608x3.Idx → BitVec 32) (ix2 n 1)) ((V m c main_v25 : S8388608x3.Idx → BitVec 32) (ix2 n 1)) false) 200#32)
          (Cert.Spec.wrapS (Cert.Spec.pick ((V m c main_v18 : S8388608x3.Idx → BitVec 32) (ix2 n 2)) ((V m c main_v25 : S8388608x3.Idx → BitVec 32) (ix2 n 2)) true) 50#32) := by
  rw [V_def m c main_v209, V0_eq, lay_c5]
  rw [show Uc7 m c (Proc.devRef .tc main_v160) = Uc5 m c (Proc.devRef .tc main_v160) from ((k_c7_keep (Uc6 m c) main_v160 (by decide)).trans (k_c6_keep (Uc5 m c) main_v160 (by decide)))]
  rw [Uc5_def, c5_apply]
  rw [Uc4_long m c main_v28 (by decide), Uc4_long m c main_v32 (by decide), Uc4_long m c main_v34 (by decide), Uc4_long m c main_v40 (by decide)]
  rw [Ucols_v28, Ucols_v32, Ucols_v34, Ucols_v40]
  refine (cellS_eq (m ((c : Thread nD τ).loc main_arg1)) _ _ _).trans ?_
  simp only [Cert.Spec.pick]

/-- Row 6 of the corner array: the grid at the upper / upper / lower cell indices. -/
theorem corner6_at (c : Dev nD) (n : Fin 8388608) :
    (V m c main_v209 : S8x8388608.Idx → EReal) (ix2 6 n)
      = Cert.Spec.cellS (m ((c : Thread nD τ).loc main_arg1)) (Cert.Spec.wrapS (Cert.Spec.pick ((V m c main_v18 : S8388608x3.Idx → BitVec 32) (ix2 n 0)) ((V m c main_v25 : S8388608x3.Idx → BitVec 32) (ix2 n 0)) true) 200#32)
          (Cert.Spec.wrapS (Cert.Spec.pick ((V m c main_v18 : S8388608x3.Idx → BitVec 32) (ix2 n 1)) ((V m c main_v25 : S8388608x3.Idx → BitVec 32) (ix2 n 1)) true) 200#32)
          (Cert.Spec.wrapS (Cert.Spec.pick ((V m c main_v18 : S8388608x3.Idx → BitVec 32) (ix2 n 2)) ((V m c main_v25 : S8388608x3.Idx → BitVec 32) (ix2 n 2)) false) 50#32) := by
  rw [V_def m c main_v209, V0_eq, lay_c6]
  rw [show Uc7 m c (Proc.devRef .tc main_v180) = Uc6 m c (Proc.devRef .tc main_v180) from (k_c7_keep (Uc6 m c) main_v180 (by decide))]
  rw [Uc6_def, c6_apply]
  rw [Uc5_long m c main_v28 (by decide), Uc5_long m c main_v32 (by decide), Uc5_long m c main_v36 (by decide), Uc5_long m c main_v38 (by decide)]
  rw [Ucols_v28, Ucols_v32, Ucols_v36, Ucols_v38]
  refine (cellS_eq (m ((c : Thread nD τ).loc main_arg1)) _ _ _).trans ?_
  simp only [Cert.Spec.pick]

/-- Row 7 of the corner array: the grid at the upper / upper / upper cell indices. -/
theorem corner7_at (c : Dev nD) (n : Fin 8388608) :
    (V m c main_v209 : S8x8388608.Idx → EReal) (ix2 7 n)
      = Cert.Spec.cellS (m ((c : Thread nD τ).loc main_arg1)) (Cert.Spec.wrapS (Cert.Spec.pick ((V m c main_v18 : S8388608x3.Idx → BitVec 32) (ix2 n 0)) ((V m c main_v25 : S8388608x3.Idx → BitVec 32) (ix2 n 0)) true) 200#32)
          (Cert.Spec.wrapS (Cert.Spec.pick ((V m c main_v18 : S8388608x3.Idx → BitVec 32) (ix2 n 1)) ((V m c main_v25 : S8388608x3.Idx → BitVec 32) (ix2 n 1)) true) 200#32)
          (Cert.Spec.wrapS (Cert.Spec.pick ((V m c main_v18 : S8388608x3.Idx → BitVec 32) (ix2 n 2)) ((V m c main_v25 : S8388608x3.Idx → BitVec 32) (ix2 n 2)) true) 50#32) := by
  rw [V_def m c main_v209, V0_eq, lay_c7]
  rw [Uc7_def, c7_apply]
  rw [Uc6_long m c main_v28 (by decide), Uc6_long m c main_v32 (by decide), Uc6_long m c main_v36 (by decide), Uc6_long m c main_v40 (by decide)]
  rw [Ucols_v28, Ucols_v32, Ucols_v36, Ucols_v40]
  refine (cellS_eq (m ((c : Thread nD τ).loc main_arg1)) _ _ _).trans ?_
  simp only [Cert.Spec.pick]

/-- The fraction array is the fractions transposed. -/
theorem ft_at (c : Dev nD) (d : Fin 3) (n : Fin 8388608) :
    (V m c main_v210 : S3x8388608.Idx → EReal) (ix2 d n) = (V m c main_v27 : S8388608x3.Idx → EReal) (ix2 n d) := by
  rw [V_def m c main_v210, V0_eq, lay_ft, ← V_eq_Uc7 m c main_v27 (by decide)]

/-- The flag array is the validity bit as a float. -/
theorem vf_at (c : Dev nD) (n : Fin 8388608) :
    (V m c main_v212 : S1x8388608.Idx → EReal) (ix2 0 n) = FloatOps.uitofp (F := Ideal) .f32 ((V m c main_v13 : S8388608.Idx → BitVec 1) (ix1 n)) := by
  rw [V_def m c main_v212, V0_eq, lay_vf, ← V_eq_Uc7 m c main_v13 (by decide)]

/-- The flag read back: the float of a bit differs from zero exactly when the bit is set. -/
theorem one_ne_zero_flag (b : BitVec 1) :
    FloatOps.cmpf (F := Ideal) (φ := .f32) .one (FloatOps.uitofp (F := Ideal) .f32 b) Cert.Spec.zero = b := by
  have hz : Cert.Spec.zero = ((0 : ℝ) : EReal) := by simp [Ideal.ofBits, Ideal.ieee]
  show Ideal.cmp .one (((b.toNat : ℝ) : EReal)) Cert.Spec.zero = b
  rw [hz]
  unfold Ideal.cmp
  rcases (by decide : ∀ b : BitVec 1, b = 0#1 ∨ b = 1#1) b with rfl | rfl
  · simp
  · simp

end Cert.KernelIdeal.Hand

end
-- ==== Proof.KValue.lean ====
/-
  The kernel program's two results at the ideal instance, read at an index.

  After the region the program reshapes the one-row output array [1, N] to [N] and makes a second result that is zero
  everywhere.  Entry n of the first result is therefore column n of the region's output, which is the masked weighted
  sum of column n of the three arrays the region reads: the eight gathered corner values, the three fractions and the
  validity flag as a float.  Each of those columns is, by the host lines before the region, an expression of the point's
  clamped cell indices, its fractions, its flag and the grid — and together they make up the specification's result for
  point n: the corner in row k = 4a + 2b + c is the grid at the lower or upper cell per axis as the bits a, b, c say,
  the fraction rows are the point's fractions, and the flag as a float is not zero exactly where the flag is set.
-/
import proofs.«173088_j25065429139728_2_alg».proof.Proof.KValueBlocks
import proofs.«173088_j25065429139728_2_alg».proof.Proof.KValueHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec (cellS wrapS pick)

variable (m : (ℓ : Loc nD τ sig) → Buf (Elt Ideal) ℓ)

/-- THE FIRST RESULT AFTER THE REGION'S TAIL: entry n is column n of the region's output array (the reshape drops the
    unit row axis; the two later lines write other buffers). -/
theorem tail214 (c : Dev nD) (n : Fin 8388608) :
    (Pipeline.afterTail₀ cfgs (dats m) 0 (V0 m) [hostOps1] c main_v214 : S8388608.Idx → EReal) (ix1 n)
      = ((dats m 0 c).arrAt 3 cfg0.N : S1x8388608.Idx → EReal) (ix2 (0 : Fin 1) n) := by
  have h : Pipeline.afterTail₀ cfgs (dats m) 0 (V0 m) [hostOps1] c main_v214
      = fun i => shapeCast S8388608 ((dats m 0 c).arrAt 3 cfg0.N : S1x8388608.Idx → EReal) shapeCasts_S1x8388608_S8388608 i := by
    unfold Pipeline.afterTail₀
    show StableHlo.after hostOps1 _ (Proc.devRef .tc main_v214) = _
    after_results
    rw [show Pipeline.withArrays (cfgs 0).spec c (V0 m c) (fun w => (dats m 0 c).arrAt w (cfgs 0).N) (Proc.devRef .tc main_v213)
        = (dats m 0 c).arrAt 3 cfg0.N from Pipeline.withArrays_arr spec0 launch0.win.arr_inj c _ _ 3]
    rfl
  rw [h]
  exact shapeCast_1a_a_apply _ _ n

/-- THE SECOND RESULT is zero everywhere: the broadcast of the zero constant. -/
theorem zeros_eq (c : Dev nD) :
    (Pipeline.afterTail₀ cfgs (dats m) 0 (V0 m) [hostOps1] c main_v215 : S8388608.Idx → EReal) = Cert.Spec.zeros := by
  unfold Pipeline.afterTail₀
  show StableHlo.after hostOps1 _ (Proc.devRef .tc main_v215) = _
  after_results
  funext i
  rfl

/-- G3 AT A COLUMN, for ANY three arrays: if at column n row k = 4a + 2b + c of the first array is the grid g at the cells
    the bits choose from the index rows i0 (lower) and i1 (upper), the rows of the second are the fractions fr, and the
    third compares unequal to zero exactly as the bit va says, then G3 at column n is the specification's result. -/
theorem G3_at (A0 : S8x8388608.Idx → EReal) (A1 : S3x8388608.Idx → EReal) (A2 : S1x8388608.Idx → EReal) (n : Fin 8388608)
    (g : Cert.Spec.SG4.Idx → EReal) (i0 i1 : Fin 3 → BitVec 32) (fr : Fin 3 → EReal) (va : BitVec 1)
    (hc0 : A0 (ix2 (0 : Fin 8) n)
      = cellS g (wrapS (pick (i0 0) (i1 0) false) 200#32) (wrapS (pick (i0 1) (i1 1) false) 200#32) (wrapS (pick (i0 2) (i1 2) false) 50#32))
    (hc1 : A0 (ix2 (1 : Fin 8) n)
      = cellS g (wrapS (pick (i0 0) (i1 0) false) 200#32) (wrapS (pick (i0 1) (i1 1) false) 200#32) (wrapS (pick (i0 2) (i1 2) true) 50#32))
    (hc2 : A0 (ix2 (2 : Fin 8) n)
      = cellS g (wrapS (pick (i0 0) (i1 0) false) 200#32) (wrapS (pick (i0 1) (i1 1) true) 200#32) (wrapS (pick (i0 2) (i1 2) false) 50#32))
    (hc3 : A0 (ix2 (3 : Fin 8) n)
      = cellS g (wrapS (pick (i0 0) (i1 0) false) 200#32) (wrapS (pick (i0 1) (i1 1) true) 200#32) (wrapS (pick (i0 2) (i1 2) true) 50#32))
    (hc4 : A0 (ix2 (4 : Fin 8) n)
      = cellS g (wrapS (pick (i0 0) (i1 0) true) 200#32) (wrapS (pick (i0 1) (i1 1) false) 200#32) (wrapS (pick (i0 2) (i1 2) false) 50#32))
    (hc5 : A0 (ix2 (5 : Fin 8) n)
      = cellS g (wrapS (pick (i0 0) (i1 0) true) 200#32) (wrapS (pick (i0 1) (i1 1) false) 200#32) (wrapS (pick (i0 2) (i1 2) true) 50#32))
    (hc6 : A0 (ix2 (6 : Fin 8) n)
      = cellS g (wrapS (pick (i0 0) (i1 0) true) 200#32) (wrapS (pick (i0 1) (i1 1) true) 200#32) (wrapS (pick (i0 2) (i1 2) false) 50#32))
    (hc7 : A0 (ix2 (7 : Fin 8) n)
      = cellS g (wrapS (pick (i0 0) (i1 0) true) 200#32) (wrapS (pick (i0 1) (i1 1) true) 200#32) (wrapS (pick (i0 2) (i1 2) true) 50#32))
    (hf : ∀ d : Fin 3, A1 (ix2 d n) = fr d)
    (hv : FloatOps.cmpf (F := Ideal) (φ := .f32) .one (A2 (ix2 (0 : Fin 1) n)) Cert.Spec.zero = va) :
    G3 A0 A1 A2 (ix2 (0 : Fin 1) n) = Cert.Spec.rowOut va g i0 i1 fr := by
  show Scalar.select (FloatOps.cmpf (F := Ideal) (φ := .f32) .one (A2 (ix2 (0 : Fin 1) n)) Cert.Spec.zero)
      (wsum (A0 (ix2 (0 : Fin 8) n)) (A0 (ix2 (1 : Fin 8) n)) (A0 (ix2 (2 : Fin 8) n)) (A0 (ix2 (3 : Fin 8) n))
        (A0 (ix2 (4 : Fin 8) n)) (A0 (ix2 (5 : Fin 8) n)) (A0 (ix2 (6 : Fin 8) n)) (A0 (ix2 (7 : Fin 8) n))
        (A1 (ix2 (0 : Fin 3) n)) (A1 (ix2 (1 : Fin 3) n)) (A1 (ix2 (2 : Fin 3) n)))
      Cert.Spec.zero = _
  rw [hv, hc0, hc1, hc2, hc3, hc4, hc5, hc6, hc7, hf 0, hf 1, hf 2]
  unfold Cert.Spec.rowOut
  rw [acc_eq_wsum]
  rfl

/-- THE FIRST RESULT AT n, from what column n of the region's three inputs holds (the hypotheses of G3_at, at the three
    arrays as the region finds them): entry n is the specification's result. -/
theorem value_at_of (c : Dev nD) (n : Fin 8388608)
    (g : Cert.Spec.SG4.Idx → EReal) (i0 i1 : Fin 3 → BitVec 32) (fr : Fin 3 → EReal) (va : BitVec 1)
    (hc0 : (V m c main_v209 : S8x8388608.Idx → EReal) (ix2 (0 : Fin 8) n)
      = cellS g (wrapS (pick (i0 0) (i1 0) false) 200#32) (wrapS (pick (i0 1) (i1 1) false) 200#32) (wrapS (pick (i0 2) (i1 2) false) 50#32))
    (hc1 : (V m c main_v209 : S8x8388608.Idx → EReal) (ix2 (1 : Fin 8) n)
      = cellS g (wrapS (pick (i0 0) (i1 0) false) 200#32) (wrapS (pick (i0 1) (i1 1) false) 200#32) (wrapS (pick (i0 2) (i1 2) true) 50#32))
    (hc2 : (V m c main_v209 : S8x8388608.Idx → EReal) (ix2 (2 : Fin 8) n)
      = cellS g (wrapS (pick (i0 0) (i1 0) false) 200#32) (wrapS (pick (i0 1) (i1 1) true) 200#32) (wrapS (pick (i0 2) (i1 2) false) 50#32))
    (hc3 : (V m c main_v209 : S8x8388608.Idx → EReal) (ix2 (3 : Fin 8) n)
      = cellS g (wrapS (pick (i0 0) (i1 0) false) 200#32) (wrapS (pick (i0 1) (i1 1) true) 200#32) (wrapS (pick (i0 2) (i1 2) true) 50#32))
    (hc4 : (V m c main_v209 : S8x8388608.Idx → EReal) (ix2 (4 : Fin 8) n)
      = cellS g (wrapS (pick (i0 0) (i1 0) true) 200#32) (wrapS (pick (i0 1) (i1 1) false) 200#32) (wrapS (pick (i0 2) (i1 2) false) 50#32))
    (hc5 : (V m c main_v209 : S8x8388608.Idx → EReal) (ix2 (5 : Fin 8) n)
      = cellS g (wrapS (pick (i0 0) (i1 0) true) 200#32) (wrapS (pick (i0 1) (i1 1) false) 200#32) (wrapS (pick (i0 2) (i1 2) true) 50#32))
    (hc6 : (V m c main_v209 : S8x8388608.Idx → EReal) (ix2 (6 : Fin 8) n)
      = cellS g (wrapS (pick (i0 0) (i1 0) true) 200#32) (wrapS (pick (i0 1) (i1 1) true) 200#32) (wrapS (pick (i0 2) (i1 2) false) 50#32))
    (hc7 : (V m c main_v209 : S8x8388608.Idx → EReal) (ix2 (7 : Fin 8) n)
      = cellS g (wrapS (pick (i0 0) (i1 0) true) 200#32) (wrapS (pick (i0 1) (i1 1) true) 200#32) (wrapS (pick (i0 2) (i1 2) true) 50#32))
    (hf : ∀ d : Fin 3, (V m c main_v210 : S3x8388608.Idx → EReal) (ix2 d n) = fr d)
    (hv : FloatOps.cmpf (F := Ideal) (φ := .f32) .one ((V m c main_v212 : S1x8388608.Idx → EReal) (ix2 (0 : Fin 1) n)) Cert.Spec.zero = va) :
    (Pipeline.afterTail₀ cfgs (dats m) 0 (V0 m) [hostOps1] c main_v214 : S8388608.Idx → EReal) (ix1 n)
      = Cert.Spec.rowOut va g i0 i1 fr :=
  (tail214 m c n).trans ((congrFun (final3 m c) (ix2 (0 : Fin 1) n)).trans
    (G3_at (V m c main_v209) (V m c main_v210) (V m c main_v212) n g i0 i1 fr va hc0 hc1 hc2 hc3 hc4 hc5 hc6 hc7 hf hv))

/-- THE FIRST RESULT AT n IS THE SPECIFICATION'S: the corner rows, the fraction rows and the flag row of the region's inputs
    are what the host lines before the region make of the point's cell indices, fractions and flag. -/
theorem value_at (c : Dev nD) (n : Fin 8388608) :
    (Pipeline.afterTail₀ cfgs (dats m) 0 (V0 m) [hostOps1] c main_v214 : S8388608.Idx → EReal) (ix1 n)
      = Cert.Spec.rowOut ((V m c main_v13 : S8388608.Idx → BitVec 1) (ix1 n)) (m ((c : Thread nD τ).loc main_arg1))
          (fun d => (V m c main_v18 : S8388608x3.Idx → BitVec 32) (ix2 n d))
          (fun d => (V m c main_v25 : S8388608x3.Idx → BitVec 32) (ix2 n d))
          (fun d => (V m c main_v27 : S8388608x3.Idx → EReal) (ix2 n d)) :=
  value_at_of m c n (m ((c : Thread nD τ).loc main_arg1))
    (fun d => (V m c main_v18 : S8388608x3.Idx → BitVec 32) (ix2 n d))
    (fun d => (V m c main_v25 : S8388608x3.Idx → BitVec 32) (ix2 n d))
    (fun d => (V m c main_v27 : S8388608x3.Idx → EReal) (ix2 n d))
    ((V m c main_v13 : S8388608.Idx → BitVec 1) (ix1 n))
    (corner0_at m c n) (corner1_at m c n) (corner2_at m c n) (corner3_at m c n)
    (corner4_at m c n) (corner5_at m c n) (corner6_at m c n) (corner7_at m c n)
    (fun d => ft_at m c d n)
    ((congrArg (fun x => FloatOps.cmpf (F := Ideal) (φ := .f32) .one x Cert.Spec.zero) (vf_at m c n)).trans
      (one_ne_zero_flag _))

end Cert.KernelIdeal.Hand

end
-- ==== Proof.RChunks.lean ====
/- For each stretch of host operations of the program: the buffers its operations write, in order; that each operation
   writes only such a buffer; and so a buffer outside the list holds after the stretch what it held before. -/
import proofs.«173088_j25065429139728_2_alg».proof.Proof.RefOps

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 27 operations. -/
abbrev r_head : List (HloOp τ sig (Elt F)) :=
  [ StableHlo.nullary main_c (fun i => lit0 (S3.rowMajor i)),
    StableHlo.nullary main_cst (fun i => FloatOps.ofBits .f32 (lit1 (S3.rowMajor i))),
    StableHlo.nullary main_cst_0 (fun i => FloatOps.ofBits .f32 (lit2 (S3.rowMajor i))),
    StableHlo.unary main_cst_0 main_v0 (broadcastInDim S1x3 ![1] bcast_S3_S1x3_1 : (⟨S3, .f32⟩ : BufTy).Contents (Elt F) → (⟨S1x3, .f32⟩ : BufTy).Contents (Elt F)),
    StableHlo.unary main_v0 main_v1 (broadcastInDim S8388608x3 ![0, 1] bcast_S1x3_S8388608x3_0_1 : (⟨S1x3, .f32⟩ : BufTy).Contents (Elt F) → (⟨S8388608x3, .f32⟩ : BufTy).Contents (Elt F)),
    StableHlo.binary main_arg0 main_v1 main_v2 (subf : (⟨S8388608x3, .f32⟩ : BufTy).Contents (Elt F) → (⟨S8388608x3, .f32⟩ : BufTy).Contents (Elt F) → (⟨S8388608x3, .f32⟩ : BufTy).Contents (Elt F)),
    StableHlo.nullary main_cst_1 (constant S_ .f32 0x41C80000#32),
    StableHlo.unary main_cst_1 main_v3 (broadcastInDim S8388608x3 ![] bcast_S_S8388608x3 : (⟨S_, .f32⟩ : BufTy).Contents (Elt F) → (⟨S8388608x3, .f32⟩ : BufTy).Contents (Elt F)),
    StableHlo.binary main_v2 main_v3 main_v4 (mulf : (⟨S8388608x3, .f32⟩ : BufTy).Contents (Elt F) → (⟨S8388608x3, .f32⟩ : BufTy).Contents (Elt F) → (⟨S8388608x3, .f32⟩ : BufTy).Contents (Elt F)),
    StableHlo.nullary main_cst_2 (constant S_ .f32 0x00000000#32),
    StableHlo.unary main_cst_2 main_v5 (broadcastInDim S8388608x3 ![] bcast_S_S8388608x3 : (⟨S_, .f32⟩ : BufTy).Contents (Elt F) → (⟨S8388608x3, .f32⟩ : BufTy).Contents (Elt F)),
    StableHlo.binary main_v4 main_v5 main_v6 (cmpf .oge : (⟨S8388608x3, .f32⟩ : BufTy).Contents (Elt F) → (⟨S8388608x3, .f32⟩ : BufTy).Contents (Elt F) → (⟨S8388608x3, .i1⟩ : BufTy).Contents (Elt F)),
    StableHlo.nullary main_cst_3 (constant S_ .f32 0x3F800000#32),
    StableHlo.unary main_cst_3 main_v7 (broadcastInDim S3 ![] bcast_S_S3 : (⟨S_, .f32⟩ : BufTy).Contents (Elt F) → (⟨S3, .f32⟩ : BufTy).Contents (Elt F)),
    StableHlo.binary main_cst main_v7 main_v8 (subf : (⟨S3, .f32⟩ : BufTy).Contents (Elt F) → (⟨S3, .f32⟩ : BufTy).Contents (Elt F) → (⟨S3, .f32⟩ : BufTy).Contents (Elt F)),
    StableHlo.unary main_v8 main_v9 (broadcastInDim S1x3 ![1] bcast_S3_S1x3_1 : (⟨S3, .f32⟩ : BufTy).Contents (Elt F) → (⟨S1x3, .f32⟩ : BufTy).Contents (Elt F)),
    StableHlo.unary main_v9 main_v10 (broadcastInDim S8388608x3 ![0, 1] bcast_S1x3_S8388608x3_0_1 : (⟨S1x3, .f32⟩ : BufTy).Contents (Elt F) → (⟨S8388608x3, .f32⟩ : BufTy).Contents (Elt F)),
    StableHlo.binary main_v4 main_v10 main_v11 (cmpf .ole : (⟨S8388608x3, .f32⟩ : BufTy).Contents (Elt F) → (⟨S8388608x3, .f32⟩ : BufTy).Contents (Elt F) → (⟨S8388608x3, .i1⟩ : BufTy).Contents (Elt F)),
    StableHlo.binary main_v6 main_v11 main_v12 (andi : (⟨S8388608x3, .i1⟩ : BufTy).Contents (Elt F) → (⟨S8388608x3, .i1⟩ : BufTy).Contents (Elt F) → (⟨S8388608x3, .i1⟩ : BufTy).Contents (Elt F)),
    StableHlo.nullary main_c_4 (constantI S_ 1 1#1),
    StableHlo.binary main_v12 main_c_4 main_v13 ((fun x v => Host.reduce IntOp.andi x v reducesTo_S8388608x3_S8388608_d1 h_S_) : (⟨S8388608x3, .i1⟩ : BufTy).Contents (Elt F) → (⟨S_, .i1⟩ : BufTy).Contents (Elt F) → (⟨S8388608, .i1⟩ : BufTy).Contents (Elt F)),
    StableHlo.unary main_v4 main_v14 (Host.floor : (⟨S8388608x3, .f32⟩ : BufTy).Contents (Elt F) → (⟨S8388608x3, .f32⟩ : BufTy).Contents (Elt F)),
    StableHlo.unary main_v14 main_v15 (fptosi 32 : (⟨S8388608x3, .f32⟩ : BufTy).Contents (Elt F) → (⟨S8388608x3, .i32⟩ : BufTy).Contents (Elt F)),
    StableHlo.nullary main_c_5 (constantI S_ 32 1#32),
    StableHlo.unary main_c_5 main_v16 (broadcastInDim S3 ![] bcast_S_S3 : (⟨S_, .i32⟩ : BufTy).Contents (Elt F) → (⟨S3, .i32⟩ : BufTy).Contents (Elt F)),
    StableHlo.binary main_c main_v16 main_v17 (subi : (⟨S3, .i32⟩ : BufTy).Contents (Elt F) → (⟨S3, .i32⟩ : BufTy).Contents (Elt F) → (⟨S3, .i32⟩ : BufTy).Contents (Elt F)),
    StableHlo.nullary main_c_6 (constantI S_ 32 0#32) ]

set_option maxHeartbeats 40000000 in
/-- 6 operations. -/
abbrev r_clip : List (HloOp τ sig (Elt F)) :=
  [ StableHlo.TRef.unary (.of main_c_6 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S8388608x3, .i32⟩) (broadcastInDim S8388608x3 ![] bcast_S_S8388608x3),
    StableHlo.TRef.binary (.of main_call0_v1 : StableHlo.TRef sig ⟨S8388608x3, .i32⟩) (.of main_v15 : StableHlo.TRef sig ⟨S8388608x3, .i32⟩) (.of main_call0_v2 : StableHlo.TRef sig ⟨S8388608x3, .i32⟩) maxsi,
    StableHlo.TRef.unary (.of main_v17 : StableHlo.TRef sig ⟨S3, .i32⟩) (.of main_call0_v3 : StableHlo.TRef sig ⟨S1x3, .i32⟩) (broadcastInDim S1x3 ![1] bcast_S3_S1x3_1),
    StableHlo.TRef.unary (.of main_call0_v3 : StableHlo.TRef sig ⟨S1x3, .i32⟩) (.of main_call0_v4 : StableHlo.TRef sig ⟨S8388608x3, .i32⟩) (broadcastInDim S8388608x3 ![0, 1] bcast_S1x3_S8388608x3_0_1),
    StableHlo.TRef.binary (.of main_call0_v4 : StableHlo.TRef sig ⟨S8388608x3, .i32⟩) (.of main_call0_v2 : StableHlo.TRef sig ⟨S8388608x3, .i32⟩) (.of main_v18 : StableHlo.TRef sig ⟨S8388608x3, .i32⟩) minsi ]

set_option maxHeartbeats 40000000 in
/-- 11 operations. -/
abbrev r_pre : List (HloOp τ sig (Elt F)) :=
  [ StableHlo.nullary main_c_7 (constantI S_ 32 1#32),
    StableHlo.unary main_c_7 main_v19 (broadcastInDim S8388608x3 ![] bcast_S_S8388608x3 : (⟨S_, .i32⟩ : BufTy).Contents (Elt F) → (⟨S8388608x3, .i32⟩ : BufTy).Contents (Elt F)),
    StableHlo.binary main_v18 main_v19 main_v20 (addi : (⟨S8388608x3, .i32⟩ : BufTy).Contents (Elt F) → (⟨S8388608x3, .i32⟩ : BufTy).Contents (Elt F) → (⟨S8388608x3, .i32⟩ : BufTy).Contents (Elt F)),
    StableHlo.nullary main_c_8 (constantI S_ 32 1#32),
    StableHlo.unary main_c_8 main_v21 (broadcastInDim S3 ![] bcast_S_S3 : (⟨S_, .i32⟩ : BufTy).Contents (Elt F) → (⟨S3, .i32⟩ : BufTy).Contents (Elt F)),
    StableHlo.binary main_c main_v21 main_v22 (subi : (⟨S3, .i32⟩ : BufTy).Contents (Elt F) → (⟨S3, .i32⟩ : BufTy).Contents (Elt F) → (⟨S3, .i32⟩ : BufTy).Contents (Elt F)),
    StableHlo.unary main_v22 main_v23 (broadcastInDim S1x3 ![1] bcast_S3_S1x3_1 : (⟨S3, .i32⟩ : BufTy).Contents (Elt F) → (⟨S1x3, .i32⟩ : BufTy).Contents (Elt F)),
    StableHlo.unary main_v23 main_v24 (broadcastInDim S8388608x3 ![0, 1] bcast_S1x3_S8388608x3_0_1 : (⟨S1x3, .i32⟩ : BufTy).Contents (Elt F) → (⟨S8388608x3, .i32⟩ : BufTy).Contents (Elt F)),
    StableHlo.binary main_v20 main_v24 main_v25 (minsi : (⟨S8388608x3, .i32⟩ : BufTy).Contents (Elt F) → (⟨S8388608x3, .i32⟩ : BufTy).Contents (Elt F) → (⟨S8388608x3, .i32⟩ : BufTy).Contents (Elt F)),
    StableHlo.unary main_v4 main_v26 (Host.floor : (⟨S8388608x3, .f32⟩ : BufTy).Contents (Elt F) → (⟨S8388608x3, .f32⟩ : BufTy).Contents (Elt F)),
    StableHlo.binary main_v4 main_v26 main_v27 (subf : (⟨S8388608x3, .f32⟩ : BufTy).Contents (Elt F) → (⟨S8388608x3, .f32⟩ : BufTy).Contents (Elt F) → (⟨S8388608x3, .f32⟩ : BufTy).Contents (Elt F)) ]

set_option maxHeartbeats 40000000 in
/-- 6 operations. -/
abbrev r_w : List (HloOp τ sig (Elt F)) :=
  [ StableHlo.nullary main_cst_9 (constant S_ .f32 0x3F800000#32),
    StableHlo.unary main_cst_9 main_v28 (broadcastInDim S8388608x3 ![] bcast_S_S8388608x3 : (⟨S_, .f32⟩ : BufTy).Contents (Elt F) → (⟨S8388608x3, .f32⟩ : BufTy).Contents (Elt F)),
    StableHlo.binary main_v28 main_v27 main_v29 (subf : (⟨S8388608x3, .f32⟩ : BufTy).Contents (Elt F) → (⟨S8388608x3, .f32⟩ : BufTy).Contents (Elt F) → (⟨S8388608x3, .f32⟩ : BufTy).Contents (Elt F)),
    StableHlo.unary main_v29 main_v30 (broadcastInDim S8388608x3x1 ![0, 1] bcast_S8388608x3_S8388608x3x1_0_1 : (⟨S8388608x3, .f32⟩ : BufTy).Contents (Elt F) → (⟨S8388608x3x1, .f32⟩ : BufTy).Contents (Elt F)),
    StableHlo.unary main_v27 main_v31 (broadcastInDim S8388608x3x1 ![0, 1] bcast_S8388608x3_S8388608x3x1_0_1 : (⟨S8388608x3, .f32⟩ : BufTy).Contents (Elt F) → (⟨S8388608x3x1, .f32⟩ : BufTy).Contents (Elt F)),
    StableHlo.binary main_v30 main_v31 main_v32 ((fun a b => concatenate S8388608x3x2 2 [⟨S8388608x3x1, a⟩, ⟨S8388608x3x1, b⟩] concatenates_S8388608x3x1_S8388608x3x1_S8388608x3x2_d2) : (⟨S8388608x3x1, .f32⟩ : BufTy).Contents (Elt F) → (⟨S8388608x3x1, .f32⟩ : BufTy).Contents (Elt F) → (⟨S8388608x3x2, .f32⟩ : BufTy).Contents (Elt F)) ]

set_option maxHeartbeats 40000000 in
/-- 12 operations. -/
abbrev r_cols : List (HloOp τ sig (Elt F)) :=
  [ StableHlo.unary main_v18 main_v33 ((extractStridedSlice S8388608x1 ![0, 0] · slices_S8388608x3_S8388608x1_0_0) : (⟨S8388608x3, .i32⟩ : BufTy).Contents (Elt F) → (⟨S8388608x1, .i32⟩ : BufTy).Contents (Elt F)),
    StableHlo.reshape main_v33 main_v34 rfl shapeCasts_S8388608x1_S8388608,
    StableHlo.unary main_v25 main_v35 ((extractStridedSlice S8388608x1 ![0, 0] · slices_S8388608x3_S8388608x1_0_0) : (⟨S8388608x3, .i32⟩ : BufTy).Contents (Elt F) → (⟨S8388608x1, .i32⟩ : BufTy).Contents (Elt F)),
    StableHlo.reshape main_v35 main_v36 rfl shapeCasts_S8388608x1_S8388608,
    StableHlo.unary main_v18 main_v37 ((extractStridedSlice S8388608x1 ![0, 1] · slices_S8388608x3_S8388608x1_0_1) : (⟨S8388608x3, .i32⟩ : BufTy).Contents (Elt F) → (⟨S8388608x1, .i32⟩ : BufTy).Contents (Elt F)),
    StableHlo.reshape main_v37 main_v38 rfl shapeCasts_S8388608x1_S8388608,
    StableHlo.unary main_v25 main_v39 ((extractStridedSlice S8388608x1 ![0, 1] · slices_S8388608x3_S8388608x1_0_1) : (⟨S8388608x3, .i32⟩ : BufTy).Contents (Elt F) → (⟨S8388608x1, .i32⟩ : BufTy).Contents (Elt F)),
    StableHlo.reshape main_v39 main_v40 rfl shapeCasts_S8388608x1_S8388608,
    StableHlo.unary main_v18 main_v41 ((extractStridedSlice S8388608x1 ![0, 2] · slices_S8388608x3_S8388608x1_0_2) : (⟨S8388608x3, .i32⟩ : BufTy).Contents (Elt F) → (⟨S8388608x1, .i32⟩ : BufTy).Contents (Elt F)),
    StableHlo.reshape main_v41 main_v42 rfl shapeCasts_S8388608x1_S8388608,
    StableHlo.unary main_v25 main_v43 ((extractStridedSlice S8388608x1 ![0, 2] · slices_S8388608x3_S8388608x1_0_2) : (⟨S8388608x3, .i32⟩ : BufTy).Contents (Elt F) → (⟨S8388608x1, .i32⟩ : BufTy).Contents (Elt F)),
    StableHlo.reshape main_v43 main_v44 rfl shapeCasts_S8388608x1_S8388608 ]

set_option maxHeartbeats 40000000 in
/-- 2 operations. -/
abbrev r_acc0 : List (HloOp τ sig (Elt F)) :=
  [ StableHlo.nullary main_cst_10 (constant S_ .f32 0x00000000#32),
    StableHlo.unary main_cst_10 main_v45 (broadcastInDim S8388608 ![] bcast_S_S8388608 : (⟨S_, .f32⟩ : BufTy).Contents (Elt F) → (⟨S8388608, .f32⟩ : BufTy).Contents (Elt F)) ]

set_option maxHeartbeats 40000000 in
/-- 40 operations. -/
abbrev r_c0 : List (HloOp τ sig (Elt F)) :=
  [ StableHlo.nullary main_c_11 (constantI S_ 32 0#32),
    StableHlo.unary main_c_11 main_v46 (broadcastInDim S8388608 ![] bcast_S_S8388608 : (⟨S_, .i32⟩ : BufTy).Contents (Elt F) → (⟨S8388608, .i32⟩ : BufTy).Contents (Elt F)),
    StableHlo.binary main_v34 main_v46 main_v47 (cmpi .slt : (⟨S8388608, .i32⟩ : BufTy).Contents (Elt F) → (⟨S8388608, .i32⟩ : BufTy).Contents (Elt F) → (⟨S8388608, .i1⟩ : BufTy).Contents (Elt F)),
    StableHlo.nullary main_c_12 (constantI S_ 32 200#32),
    StableHlo.unary main_c_12 main_v48 (broadcastInDim S8388608 ![] bcast_S_S8388608 : (⟨S_, .i32⟩ : BufTy).Contents (Elt F) → (⟨S8388608, .i32⟩ : BufTy).Contents (Elt F)),
    StableHlo.binary main_v34 main_v48 main_v49 (addi : (⟨S8388608, .i32⟩ : BufTy).Contents (Elt F) → (⟨S8388608, .i32⟩ : BufTy).Contents (Elt F) → (⟨S8388608, .i32⟩ : BufTy).Contents (Elt F)),
    StableHlo.ternary main_v47 main_v49 main_v34 main_v50 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_13 (constantI S_ 32 0#32),
    StableHlo.unary main_c_13 main_v51 (broadcastInDim S8388608 ![] bcast_S_S8388608 : (⟨S_, .i32⟩ : BufTy).Contents (Elt F) → (⟨S8388608, .i32⟩ : BufTy).Contents (Elt F)),
    StableHlo.binary main_v38 main_v51 main_v52 (cmpi .slt : (⟨S8388608, .i32⟩ : BufTy).Contents (Elt F) → (⟨S8388608, .i32⟩ : BufTy).Contents (Elt F) → (⟨S8388608, .i1⟩ : BufTy).Contents (Elt F)),
    StableHlo.nullary main_c_14 (constantI S_ 32 200#32),
    StableHlo.unary main_c_14 main_v53 (broadcastInDim S8388608 ![] bcast_S_S8388608 : (⟨S_, .i32⟩ : BufTy).Contents (Elt F) → (⟨S8388608, .i32⟩ : BufTy).Contents (Elt F)),
    StableHlo.binary main_v38 main_v53 main_v54 (addi : (⟨S8388608, .i32⟩ : BufTy).Contents (Elt F) → (⟨S8388608, .i32⟩ : BufTy).Contents (Elt F) → (⟨S8388608, .i32⟩ : BufTy).Contents (Elt F)),
    StableHlo.ternary main_v52 main_v54 main_v38 main_v55 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_15 (constantI S_ 32 0#32),
    StableHlo.unary main_c_15 main_v56 (broadcastInDim S8388608 ![] bcast_S_S8388608 : (⟨S_, .i32⟩ : BufTy).Contents (Elt F) → (⟨S8388608, .i32⟩ : BufTy).Contents (Elt F)),
    StableHlo.binary main_v42 main_v56 main_v57 (cmpi .slt : (⟨S8388608, .i32⟩ : BufTy).Contents (Elt F) → (⟨S8388608, .i32⟩ : BufTy).Contents (Elt F) → (⟨S8388608, .i1⟩ : BufTy).Contents (Elt F)),
    StableHlo.nullary main_c_16 (constantI S_ 32 50#32),
    StableHlo.unary main_c_16 main_v58 (broadcastInDim S8388608 ![] bcast_S_S8388608 : (⟨S_, .i32⟩ : BufTy).Contents (Elt F) → (⟨S8388608, .i32⟩ : BufTy).Contents (Elt F)),
    StableHlo.binary main_v42 main_v58 main_v59 (addi : (⟨S8388608, .i32⟩ : BufTy).Contents (Elt F) → (⟨S8388608, .i32⟩ : BufTy).Contents (Elt F) → (⟨S8388608, .i32⟩ : BufTy).Contents (Elt F)),
    StableHlo.ternary main_v57 main_v59 main_v42 main_v60 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_17 (constantI S_ 32 0#32),
    StableHlo.unary main_c_17 main_v61 (broadcastInDim S8388608 ![] bcast_S_S8388608 : (⟨S_, .i32⟩ : BufTy).Contents (Elt F) → (⟨S8388608, .i32⟩ : BufTy).Contents (Elt F)),
    StableHlo.unary main_v61 main_v62 (id : (⟨S8388608, .i32⟩ : BufTy).Contents (Elt F) → (⟨S8388608, .i32⟩ : BufTy).Contents (Elt F)),
    StableHlo.unary main_v50 main_v63 (broadcastInDim S8388608x1 ![0] bcast_S8388608_S8388608x1_0 : (⟨S8388608, .i32⟩ : BufTy).Contents (Elt F) → (⟨S8388608x1, .i32⟩ : BufTy).Contents (Elt F)),
    StableHlo.unary main_v55 main_v64 (broadcastInDim S8388608x1 ![0] bcast_S8388608_S8388608x1_0 : (⟨S8388608, .i32⟩ : BufTy).Contents (Elt F) → (⟨S8388608x1, .i32⟩ : BufTy).Contents (Elt F)),
    StableHlo.unary main_v60 main_v65 (broadcastInDim S8388608x1 ![0] bcast_S8388608_S8388608x1_0 : (⟨S8388608, .i32⟩ : BufTy).Contents (Elt F) → (⟨S8388608x1, .i32⟩ : BufTy).Contents (Elt F)),
    StableHlo.unary main_v62 main_v66 (broadcastInDim S8388608x1 ![0] bcast_S8388608_S8388608x1_0 : (⟨S8388608, .i32⟩ : BufTy).Contents (Elt F) → (⟨S8388608x1, .i32⟩ : BufTy).Contents (Elt F)),
    StableHlo.nary ![main_v63, main_v64, main_v65, main_v66] main_v67 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v67 main_v68 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v69 ((extractStridedSlice S8388608x1x1 ![0, 0, 0] · slices_S8388608x3x2_S8388608x1x1_0_0_0) : (⟨S8388608x3x2, .f32⟩ : BufTy).Contents (Elt F) → (⟨S8388608x1x1, .f32⟩ : BufTy).Contents (Elt F)),
    StableHlo.reshape main_v69 main_v70 rfl shapeCasts_S8388608x1x1_S8388608,
    StableHlo.unary main_v32 main_v71 ((extractStridedSlice S8388608x1x1 ![0, 1, 0] · slices_S8388608x3x2_S8388608x1x1_0_1_0) : (⟨S8388608x3x2, .f32⟩ : BufTy).Contents (Elt F) → (⟨S8388608x1x1, .f32⟩ : BufTy).Contents (Elt F)),
    StableHlo.reshape main_v71 main_v72 rfl shapeCasts_S8388608x1x1_S8388608,
    StableHlo.binary main_v70 main_v72 main_v73 (mulf : (⟨S8388608, .f32⟩ : BufTy).Contents (Elt F) → (⟨S8388608, .f32⟩ : BufTy).Contents (Elt F) → (⟨S8388608, .f32⟩ : BufTy).Contents (Elt F)),
    StableHlo.unary main_v32 main_v74 ((extractStridedSlice S8388608x1x1 ![0, 2, 0] · slices_S8388608x3x2_S8388608x1x1_0_2_0) : (⟨S8388608x3x2, .f32⟩ : BufTy).Contents (Elt F) → (⟨S8388608x1x1, .f32⟩ : BufTy).Contents (Elt F)),
    StableHlo.reshape main_v74 main_v75 rfl shapeCasts_S8388608x1x1_S8388608,
    StableHlo.binary main_v73 main_v75 main_v76 (mulf : (⟨S8388608, .f32⟩ : BufTy).Contents (Elt F) → (⟨S8388608, .f32⟩ : BufTy).Contents (Elt F) → (⟨S8388608, .f32⟩ : BufTy).Contents (Elt F)),
    StableHlo.binary main_v68 main_v76 main_v77 (mulf : (⟨S8388608, .f32⟩ : BufTy).Contents (Elt F) → (⟨S8388608, .f32⟩ : BufTy).Contents (Elt F) → (⟨S8388608, .f32⟩ : BufTy).Contents (Elt F)),
    StableHlo.binary main_v45 main_v77 main_v78 (addf : (⟨S8388608, .f32⟩ : BufTy).Contents (Elt F) → (⟨S8388608, .f32⟩ : BufTy).Contents (Elt F) → (⟨S8388608, .f32⟩ : BufTy).Contents (Elt F)) ]

set_option maxHeartbeats 40000000 in
/-- 40 operations. -/
abbrev r_c1 : List (HloOp τ sig (Elt F)) :=
  [ StableHlo.nullary main_c_18 (constantI S_ 32 0#32),
    StableHlo.unary main_c_18 main_v79 (broadcastInDim S8388608 ![] bcast_S_S8388608 : (⟨S_, .i32⟩ : BufTy).Contents (Elt F) → (⟨S8388608, .i32⟩ : BufTy).Contents (Elt F)),
    StableHlo.binary main_v34 main_v79 main_v80 (cmpi .slt : (⟨S8388608, .i32⟩ : BufTy).Contents (Elt F) → (⟨S8388608, .i32⟩ : BufTy).Contents (Elt F) → (⟨S8388608, .i1⟩ : BufTy).Contents (Elt F)),
    StableHlo.nullary main_c_19 (constantI S_ 32 200#32),
    StableHlo.unary main_c_19 main_v81 (broadcastInDim S8388608 ![] bcast_S_S8388608 : (⟨S_, .i32⟩ : BufTy).Contents (Elt F) → (⟨S8388608, .i32⟩ : BufTy).Contents (Elt F)),
    StableHlo.binary main_v34 main_v81 main_v82 (addi : (⟨S8388608, .i32⟩ : BufTy).Contents (Elt F) → (⟨S8388608, .i32⟩ : BufTy).Contents (Elt F) → (⟨S8388608, .i32⟩ : BufTy).Contents (Elt F)),
    StableHlo.ternary main_v80 main_v82 main_v34 main_v83 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_20 (constantI S_ 32 0#32),
    StableHlo.unary main_c_20 main_v84 (broadcastInDim S8388608 ![] bcast_S_S8388608 : (⟨S_, .i32⟩ : BufTy).Contents (Elt F) → (⟨S8388608, .i32⟩ : BufTy).Contents (Elt F)),
    StableHlo.binary main_v38 main_v84 main_v85 (cmpi .slt : (⟨S8388608, .i32⟩ : BufTy).Contents (Elt F) → (⟨S8388608, .i32⟩ : BufTy).Contents (Elt F) → (⟨S8388608, .i1⟩ : BufTy).Contents (Elt F)),
    StableHlo.nullary main_c_21 (constantI S_ 32 200#32),
    StableHlo.unary main_c_21 main_v86 (broadcastInDim S8388608 ![] bcast_S_S8388608 : (⟨S_, .i32⟩ : BufTy).Contents (Elt F) → (⟨S8388608, .i32⟩ : BufTy).Contents (Elt F)),
    StableHlo.binary main_v38 main_v86 main_v87 (addi : (⟨S8388608, .i32⟩ : BufTy).Contents (Elt F) → (⟨S8388608, .i32⟩ : BufTy).Contents (Elt F) → (⟨S8388608, .i32⟩ : BufTy).Contents (Elt F)),
    StableHlo.ternary main_v85 main_v87 main_v38 main_v88 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_22 (constantI S_ 32 0#32),
    StableHlo.unary main_c_22 main_v89 (broadcastInDim S8388608 ![] bcast_S_S8388608 : (⟨S_, .i32⟩ : BufTy).Contents (Elt F) → (⟨S8388608, .i32⟩ : BufTy).Contents (Elt F)),
    StableHlo.binary main_v44 main_v89 main_v90 (cmpi .slt : (⟨S8388608, .i32⟩ : BufTy).Contents (Elt F) → (⟨S8388608, .i32⟩ : BufTy).Contents (Elt F) → (⟨S8388608, .i1⟩ : BufTy).Contents (Elt F)),
    StableHlo.nullary main_c_23 (constantI S_ 32 50#32),
    StableHlo.unary main_c_23 main_v91 (broadcastInDim S8388608 ![] bcast_S_S8388608 : (⟨S_, .i32⟩ : BufTy).Contents (Elt F) → (⟨S8388608, .i32⟩ : BufTy).Contents (Elt F)),
    StableHlo.binary main_v44 main_v91 main_v92 (addi : (⟨S8388608, .i32⟩ : BufTy).Contents (Elt F) → (⟨S8388608, .i32⟩ : BufTy).Contents (Elt F) → (⟨S8388608, .i32⟩ : BufTy).Contents (Elt F)),
    StableHlo.ternary main_v90 main_v92 main_v44 main_v93 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_24 (constantI S_ 32 0#32),
    StableHlo.unary main_c_24 main_v94 (broadcastInDim S8388608 ![] bcast_S_S8388608 : (⟨S_, .i32⟩ : BufTy).Contents (Elt F) → (⟨S8388608, .i32⟩ : BufTy).Contents (Elt F)),
    StableHlo.unary main_v94 main_v95 (id : (⟨S8388608, .i32⟩ : BufTy).Contents (Elt F) → (⟨S8388608, .i32⟩ : BufTy).Contents (Elt F)),
    StableHlo.unary main_v83 main_v96 (broadcastInDim S8388608x1 ![0] bcast_S8388608_S8388608x1_0 : (⟨S8388608, .i32⟩ : BufTy).Contents (Elt F) → (⟨S8388608x1, .i32⟩ : BufTy).Contents (Elt F)),
    StableHlo.unary main_v88 main_v97 (broadcastInDim S8388608x1 ![0] bcast_S8388608_S8388608x1_0 : (⟨S8388608, .i32⟩ : BufTy).Contents (Elt F) → (⟨S8388608x1, .i32⟩ : BufTy).Contents (Elt F)),
    StableHlo.unary main_v93 main_v98 (broadcastInDim S8388608x1 ![0] bcast_S8388608_S8388608x1_0 : (⟨S8388608, .i32⟩ : BufTy).Contents (Elt F) → (⟨S8388608x1, .i32⟩ : BufTy).Contents (Elt F)),
    StableHlo.unary main_v95 main_v99 (broadcastInDim S8388608x1 ![0] bcast_S8388608_S8388608x1_0 : (⟨S8388608, .i32⟩ : BufTy).Contents (Elt F) → (⟨S8388608x1, .i32⟩ : BufTy).Contents (Elt F)),
    StableHlo.nary ![main_v96, main_v97, main_v98, main_v99] main_v100 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v100 main_v101 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v102 ((extractStridedSlice S8388608x1x1 ![0, 0, 0] · slices_S8388608x3x2_S8388608x1x1_0_0_0) : (⟨S8388608x3x2, .f32⟩ : BufTy).Contents (Elt F) → (⟨S8388608x1x1, .f32⟩ : BufTy).Contents (Elt F)),
    StableHlo.reshape main_v102 main_v103 rfl shapeCasts_S8388608x1x1_S8388608,
    StableHlo.unary main_v32 main_v104 ((extractStridedSlice S8388608x1x1 ![0, 1, 0] · slices_S8388608x3x2_S8388608x1x1_0_1_0) : (⟨S8388608x3x2, .f32⟩ : BufTy).Contents (Elt F) → (⟨S8388608x1x1, .f32⟩ : BufTy).Contents (Elt F)),
    StableHlo.reshape main_v104 main_v105 rfl shapeCasts_S8388608x1x1_S8388608,
    StableHlo.binary main_v103 main_v105 main_v106 (mulf : (⟨S8388608, .f32⟩ : BufTy).Contents (Elt F) → (⟨S8388608, .f32⟩ : BufTy).Contents (Elt F) → (⟨S8388608, .f32⟩ : BufTy).Contents (Elt F)),
    StableHlo.unary main_v32 main_v107 ((extractStridedSlice S8388608x1x1 ![0, 2, 1] · slices_S8388608x3x2_S8388608x1x1_0_2_1) : (⟨S8388608x3x2, .f32⟩ : BufTy).Contents (Elt F) → (⟨S8388608x1x1, .f32⟩ : BufTy).Contents (Elt F)),
    StableHlo.reshape main_v107 main_v108 rfl shapeCasts_S8388608x1x1_S8388608,
    StableHlo.binary main_v106 main_v108 main_v109 (mulf : (⟨S8388608, .f32⟩ : BufTy).Contents (Elt F) → (⟨S8388608, .f32⟩ : BufTy).Contents (Elt F) → (⟨S8388608, .f32⟩ : BufTy).Contents (Elt F)),
    StableHlo.binary main_v101 main_v109 main_v110 (mulf : (⟨S8388608, .f32⟩ : BufTy).Contents (Elt F) → (⟨S8388608, .f32⟩ : BufTy).Contents (Elt F) → (⟨S8388608, .f32⟩ : BufTy).Contents (Elt F)),
    StableHlo.binary main_v78 main_v110 main_v111 (addf : (⟨S8388608, .f32⟩ : BufTy).Contents (Elt F) → (⟨S8388608, .f32⟩ : BufTy).Contents (Elt F) → (⟨S8388608, .f32⟩ : BufTy).Contents (Elt F)) ]

set_option maxHeartbeats 40000000 in
/-- 40 operations. -/
abbrev r_c2 : List (HloOp τ sig (Elt F)) :=
  [ StableHlo.nullary main_c_25 (constantI S_ 32 0#32),
    StableHlo.unary main_c_25 main_v112 (broadcastInDim S8388608 ![] bcast_S_S8388608 : (⟨S_, .i32⟩ : BufTy).Contents (Elt F) → (⟨S8388608, .i32⟩ : BufTy).Contents (Elt F)),
    StableHlo.binary main_v34 main_v112 main_v113 (cmpi .slt : (⟨S8388608, .i32⟩ : BufTy).Contents (Elt F) → (⟨S8388608, .i32⟩ : BufTy).Contents (Elt F) → (⟨S8388608, .i1⟩ : BufTy).Contents (Elt F)),
    StableHlo.nullary main_c_26 (constantI S_ 32 200#32),
    StableHlo.unary main_c_26 main_v114 (broadcastInDim S8388608 ![] bcast_S_S8388608 : (⟨S_, .i32⟩ : BufTy).Contents (Elt F) → (⟨S8388608, .i32⟩ : BufTy).Contents (Elt F)),
    StableHlo.binary main_v34 main_v114 main_v115 (addi : (⟨S8388608, .i32⟩ : BufTy).Contents (Elt F) → (⟨S8388608, .i32⟩ : BufTy).Contents (Elt F) → (⟨S8388608, .i32⟩ : BufTy).Contents (Elt F)),
    StableHlo.ternary main_v113 main_v115 main_v34 main_v116 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_27 (constantI S_ 32 0#32),
    StableHlo.unary main_c_27 main_v117 (broadcastInDim S8388608 ![] bcast_S_S8388608 : (⟨S_, .i32⟩ : BufTy).Contents (Elt F) → (⟨S8388608, .i32⟩ : BufTy).Contents (Elt F)),
    StableHlo.binary main_v40 main_v117 main_v118 (cmpi .slt : (⟨S8388608, .i32⟩ : BufTy).Contents (Elt F) → (⟨S8388608, .i32⟩ : BufTy).Contents (Elt F) → (⟨S8388608, .i1⟩ : BufTy).Contents (Elt F)),
    StableHlo.nullary main_c_28 (constantI S_ 32 200#32),
    StableHlo.unary main_c_28 main_v119 (broadcastInDim S8388608 ![] bcast_S_S8388608 : (⟨S_, .i32⟩ : BufTy).Contents (Elt F) → (⟨S8388608, .i32⟩ : BufTy).Contents (Elt F)),
    StableHlo.binary main_v40 main_v119 main_v120 (addi : (⟨S8388608, .i32⟩ : BufTy).Contents (Elt F) → (⟨S8388608, .i32⟩ : BufTy).Contents (Elt F) → (⟨S8388608, .i32⟩ : BufTy).Contents (Elt F)),
    StableHlo.ternary main_v118 main_v120 main_v40 main_v121 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_29 (constantI S_ 32 0#32),
    StableHlo.unary main_c_29 main_v122 (broadcastInDim S8388608 ![] bcast_S_S8388608 : (⟨S_, .i32⟩ : BufTy).Contents (Elt F) → (⟨S8388608, .i32⟩ : BufTy).Contents (Elt F)),
    StableHlo.binary main_v42 main_v122 main_v123 (cmpi .slt : (⟨S8388608, .i32⟩ : BufTy).Contents (Elt F) → (⟨S8388608, .i32⟩ : BufTy).Contents (Elt F) → (⟨S8388608, .i1⟩ : BufTy).Contents (Elt F)),
    StableHlo.nullary main_c_30 (constantI S_ 32 50#32),
    StableHlo.unary main_c_30 main_v124 (broadcastInDim S8388608 ![] bcast_S_S8388608 : (⟨S_, .i32⟩ : BufTy).Contents (Elt F) → (⟨S8388608, .i32⟩ : BufTy).Contents (Elt F)),
    StableHlo.binary main_v42 main_v124 main_v125 (addi : (⟨S8388608, .i32⟩ : BufTy).Contents (Elt F) → (⟨S8388608, .i32⟩ : BufTy).Contents (Elt F) → (⟨S8388608, .i32⟩ : BufTy).Contents (Elt F)),
    StableHlo.ternary main_v123 main_v125 main_v42 main_v126 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_31 (constantI S_ 32 0#32),
    StableHlo.unary main_c_31 main_v127 (broadcastInDim S8388608 ![] bcast_S_S8388608 : (⟨S_, .i32⟩ : BufTy).Contents (Elt F) → (⟨S8388608, .i32⟩ : BufTy).Contents (Elt F)),
    StableHlo.unary main_v127 main_v128 (id : (⟨S8388608, .i32⟩ : BufTy).Contents (Elt F) → (⟨S8388608, .i32⟩ : BufTy).Contents (Elt F)),
    StableHlo.unary main_v116 main_v129 (broadcastInDim S8388608x1 ![0] bcast_S8388608_S8388608x1_0 : (⟨S8388608, .i32⟩ : BufTy).Contents (Elt F) → (⟨S8388608x1, .i32⟩ : BufTy).Contents (Elt F)),
    StableHlo.unary main_v121 main_v130 (broadcastInDim S8388608x1 ![0] bcast_S8388608_S8388608x1_0 : (⟨S8388608, .i32⟩ : BufTy).Contents (Elt F) → (⟨S8388608x1, .i32⟩ : BufTy).Contents (Elt F)),
    StableHlo.unary main_v126 main_v131 (broadcastInDim S8388608x1 ![0] bcast_S8388608_S8388608x1_0 : (⟨S8388608, .i32⟩ : BufTy).Contents (Elt F) → (⟨S8388608x1, .i32⟩ : BufTy).Contents (Elt F)),
    StableHlo.unary main_v128 main_v132 (broadcastInDim S8388608x1 ![0] bcast_S8388608_S8388608x1_0 : (⟨S8388608, .i32⟩ : BufTy).Contents (Elt F) → (⟨S8388608x1, .i32⟩ : BufTy).Contents (Elt F)),
    StableHlo.nary ![main_v129, main_v130, main_v131, main_v132] main_v133 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v133 main_v134 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v135 ((extractStridedSlice S8388608x1x1 ![0, 0, 0] · slices_S8388608x3x2_S8388608x1x1_0_0_0) : (⟨S8388608x3x2, .f32⟩ : BufTy).Contents (Elt F) → (⟨S8388608x1x1, .f32⟩ : BufTy).Contents (Elt F)),
    StableHlo.reshape main_v135 main_v136 rfl shapeCasts_S8388608x1x1_S8388608,
    StableHlo.unary main_v32 main_v137 ((extractStridedSlice S8388608x1x1 ![0, 1, 1] · slices_S8388608x3x2_S8388608x1x1_0_1_1) : (⟨S8388608x3x2, .f32⟩ : BufTy).Contents (Elt F) → (⟨S8388608x1x1, .f32⟩ : BufTy).Contents (Elt F)),
    StableHlo.reshape main_v137 main_v138 rfl shapeCasts_S8388608x1x1_S8388608,
    StableHlo.binary main_v136 main_v138 main_v139 (mulf : (⟨S8388608, .f32⟩ : BufTy).Contents (Elt F) → (⟨S8388608, .f32⟩ : BufTy).Contents (Elt F) → (⟨S8388608, .f32⟩ : BufTy).Contents (Elt F)),
    StableHlo.unary main_v32 main_v140 ((extractStridedSlice S8388608x1x1 ![0, 2, 0] · slices_S8388608x3x2_S8388608x1x1_0_2_0) : (⟨S8388608x3x2, .f32⟩ : BufTy).Contents (Elt F) → (⟨S8388608x1x1, .f32⟩ : BufTy).Contents (Elt F)),
    StableHlo.reshape main_v140 main_v141 rfl shapeCasts_S8388608x1x1_S8388608,
    StableHlo.binary main_v139 main_v141 main_v142 (mulf : (⟨S8388608, .f32⟩ : BufTy).Contents (Elt F) → (⟨S8388608, .f32⟩ : BufTy).Contents (Elt F) → (⟨S8388608, .f32⟩ : BufTy).Contents (Elt F)),
    StableHlo.binary main_v134 main_v142 main_v143 (mulf : (⟨S8388608, .f32⟩ : BufTy).Contents (Elt F) → (⟨S8388608, .f32⟩ : BufTy).Contents (Elt F) → (⟨S8388608, .f32⟩ : BufTy).Contents (Elt F)),
    StableHlo.binary main_v111 main_v143 main_v144 (addf : (⟨S8388608, .f32⟩ : BufTy).Contents (Elt F) → (⟨S8388608, .f32⟩ : BufTy).Contents (Elt F) → (⟨S8388608, .f32⟩ : BufTy).Contents (Elt F)) ]

set_option maxHeartbeats 40000000 in
/-- 40 operations. -/
abbrev r_c3 : List (HloOp τ sig (Elt F)) :=
  [ StableHlo.nullary main_c_32 (constantI S_ 32 0#32),
    StableHlo.unary main_c_32 main_v145 (broadcastInDim S8388608 ![] bcast_S_S8388608 : (⟨S_, .i32⟩ : BufTy).Contents (Elt F) → (⟨S8388608, .i32⟩ : BufTy).Contents (Elt F)),
    StableHlo.binary main_v34 main_v145 main_v146 (cmpi .slt : (⟨S8388608, .i32⟩ : BufTy).Contents (Elt F) → (⟨S8388608, .i32⟩ : BufTy).Contents (Elt F) → (⟨S8388608, .i1⟩ : BufTy).Contents (Elt F)),
    StableHlo.nullary main_c_33 (constantI S_ 32 200#32),
    StableHlo.unary main_c_33 main_v147 (broadcastInDim S8388608 ![] bcast_S_S8388608 : (⟨S_, .i32⟩ : BufTy).Contents (Elt F) → (⟨S8388608, .i32⟩ : BufTy).Contents (Elt F)),
    StableHlo.binary main_v34 main_v147 main_v148 (addi : (⟨S8388608, .i32⟩ : BufTy).Contents (Elt F) → (⟨S8388608, .i32⟩ : BufTy).Contents (Elt F) → (⟨S8388608, .i32⟩ : BufTy).Contents (Elt F)),
    StableHlo.ternary main_v146 main_v148 main_v34 main_v149 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_34 (constantI S_ 32 0#32),
    StableHlo.unary main_c_34 main_v150 (broadcastInDim S8388608 ![] bcast_S_S8388608 : (⟨S_, .i32⟩ : BufTy).Contents (Elt F) → (⟨S8388608, .i32⟩ : BufTy).Contents (Elt F)),
    StableHlo.binary main_v40 main_v150 main_v151 (cmpi .slt : (⟨S8388608, .i32⟩ : BufTy).Contents (Elt F) → (⟨S8388608, .i32⟩ : BufTy).Contents (Elt F) → (⟨S8388608, .i1⟩ : BufTy).Contents (Elt F)),
    StableHlo.nullary main_c_35 (constantI S_ 32 200#32),
    StableHlo.unary main_c_35 main_v152 (broadcastInDim S8388608 ![] bcast_S_S8388608 : (⟨S_, .i32⟩ : BufTy).Contents (Elt F) → (⟨S8388608, .i32⟩ : BufTy).Contents (Elt F)),
    StableHlo.binary main_v40 main_v152 main_v153 (addi : (⟨S8388608, .i32⟩ : BufTy).Contents (Elt F) → (⟨S8388608, .i32⟩ : BufTy).Contents (Elt F) → (⟨S8388608, .i32⟩ : BufTy).Contents (Elt F)),
    StableHlo.ternary main_v151 main_v153 main_v40 main_v154 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_36 (constantI S_ 32 0#32),
    StableHlo.unary main_c_36 main_v155 (broadcastInDim S8388608 ![] bcast_S_S8388608 : (⟨S_, .i32⟩ : BufTy).Contents (Elt F) → (⟨S8388608, .i32⟩ : BufTy).Contents (Elt F)),
    StableHlo.binary main_v44 main_v155 main_v156 (cmpi .slt : (⟨S8388608, .i32⟩ : BufTy).Contents (Elt F) → (⟨S8388608, .i32⟩ : BufTy).Contents (Elt F) → (⟨S8388608, .i1⟩ : BufTy).Contents (Elt F)),
    StableHlo.nullary main_c_37 (constantI S_ 32 50#32),
    StableHlo.unary main_c_37 main_v157 (broadcastInDim S8388608 ![] bcast_S_S8388608 : (⟨S_, .i32⟩ : BufTy).Contents (Elt F) → (⟨S8388608, .i32⟩ : BufTy).Contents (Elt F)),
    StableHlo.binary main_v44 main_v157 main_v158 (addi : (⟨S8388608, .i32⟩ : BufTy).Contents (Elt F) → (⟨S8388608, .i32⟩ : BufTy).Contents (Elt F) → (⟨S8388608, .i32⟩ : BufTy).Contents (Elt F)),
    StableHlo.ternary main_v156 main_v158 main_v44 main_v159 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_38 (constantI S_ 32 0#32),
    StableHlo.unary main_c_38 main_v160 (broadcastInDim S8388608 ![] bcast_S_S8388608 : (⟨S_, .i32⟩ : BufTy).Contents (Elt F) → (⟨S8388608, .i32⟩ : BufTy).Contents (Elt F)),
    StableHlo.unary main_v160 main_v161 (id : (⟨S8388608, .i32⟩ : BufTy).Contents (Elt F) → (⟨S8388608, .i32⟩ : BufTy).Contents (Elt F)),
    StableHlo.unary main_v149 main_v162 (broadcastInDim S8388608x1 ![0] bcast_S8388608_S8388608x1_0 : (⟨S8388608, .i32⟩ : BufTy).Contents (Elt F) → (⟨S8388608x1, .i32⟩ : BufTy).Contents (Elt F)),
    StableHlo.unary main_v154 main_v163 (broadcastInDim S8388608x1 ![0] bcast_S8388608_S8388608x1_0 : (⟨S8388608, .i32⟩ : BufTy).Contents (Elt F) → (⟨S8388608x1, .i32⟩ : BufTy).Contents (Elt F)),
    StableHlo.unary main_v159 main_v164 (broadcastInDim S8388608x1 ![0] bcast_S8388608_S8388608x1_0 : (⟨S8388608, .i32⟩ : BufTy).Contents (Elt F) → (⟨S8388608x1, .i32⟩ : BufTy).Contents (Elt F)),
    StableHlo.unary main_v161 main_v165 (broadcastInDim S8388608x1 ![0] bcast_S8388608_S8388608x1_0 : (⟨S8388608, .i32⟩ : BufTy).Contents (Elt F) → (⟨S8388608x1, .i32⟩ : BufTy).Contents (Elt F)),
    StableHlo.nary ![main_v162, main_v163, main_v164, main_v165] main_v166 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v166 main_v167 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v168 ((extractStridedSlice S8388608x1x1 ![0, 0, 0] · slices_S8388608x3x2_S8388608x1x1_0_0_0) : (⟨S8388608x3x2, .f32⟩ : BufTy).Contents (Elt F) → (⟨S8388608x1x1, .f32⟩ : BufTy).Contents (Elt F)),
    StableHlo.reshape main_v168 main_v169 rfl shapeCasts_S8388608x1x1_S8388608,
    StableHlo.unary main_v32 main_v170 ((extractStridedSlice S8388608x1x1 ![0, 1, 1] · slices_S8388608x3x2_S8388608x1x1_0_1_1) : (⟨S8388608x3x2, .f32⟩ : BufTy).Contents (Elt F) → (⟨S8388608x1x1, .f32⟩ : BufTy).Contents (Elt F)),
    StableHlo.reshape main_v170 main_v171 rfl shapeCasts_S8388608x1x1_S8388608,
    StableHlo.binary main_v169 main_v171 main_v172 (mulf : (⟨S8388608, .f32⟩ : BufTy).Contents (Elt F) → (⟨S8388608, .f32⟩ : BufTy).Contents (Elt F) → (⟨S8388608, .f32⟩ : BufTy).Contents (Elt F)),
    StableHlo.unary main_v32 main_v173 ((extractStridedSlice S8388608x1x1 ![0, 2, 1] · slices_S8388608x3x2_S8388608x1x1_0_2_1) : (⟨S8388608x3x2, .f32⟩ : BufTy).Contents (Elt F) → (⟨S8388608x1x1, .f32⟩ : BufTy).Contents (Elt F)),
    StableHlo.reshape main_v173 main_v174 rfl shapeCasts_S8388608x1x1_S8388608,
    StableHlo.binary main_v172 main_v174 main_v175 (mulf : (⟨S8388608, .f32⟩ : BufTy).Contents (Elt F) → (⟨S8388608, .f32⟩ : BufTy).Contents (Elt F) → (⟨S8388608, .f32⟩ : BufTy).Contents (Elt F)),
    StableHlo.binary main_v167 main_v175 main_v176 (mulf : (⟨S8388608, .f32⟩ : BufTy).Contents (Elt F) → (⟨S8388608, .f32⟩ : BufTy).Contents (Elt F) → (⟨S8388608, .f32⟩ : BufTy).Contents (Elt F)),
    StableHlo.binary main_v144 main_v176 main_v177 (addf : (⟨S8388608, .f32⟩ : BufTy).Contents (Elt F) → (⟨S8388608, .f32⟩ : BufTy).Contents (Elt F) → (⟨S8388608, .f32⟩ : BufTy).Contents (Elt F)) ]

set_option maxHeartbeats 40000000 in
/-- 40 operations. -/
abbrev r_c4 : List (HloOp τ sig (Elt F)) :=
  [ StableHlo.nullary main_c_39 (constantI S_ 32 0#32),
    StableHlo.unary main_c_39 main_v178 (broadcastInDim S8388608 ![] bcast_S_S8388608 : (⟨S_, .i32⟩ : BufTy).Contents (Elt F) → (⟨S8388608, .i32⟩ : BufTy).Contents (Elt F)),
    StableHlo.binary main_v36 main_v178 main_v179 (cmpi .slt : (⟨S8388608, .i32⟩ : BufTy).Contents (Elt F) → (⟨S8388608, .i32⟩ : BufTy).Contents (Elt F) → (⟨S8388608, .i1⟩ : BufTy).Contents (Elt F)),
    StableHlo.nullary main_c_40 (constantI S_ 32 200#32),
    StableHlo.unary main_c_40 main_v180 (broadcastInDim S8388608 ![] bcast_S_S8388608 : (⟨S_, .i32⟩ : BufTy).Contents (Elt F) → (⟨S8388608, .i32⟩ : BufTy).Contents (Elt F)),
    StableHlo.binary main_v36 main_v180 main_v181 (addi : (⟨S8388608, .i32⟩ : BufTy).Contents (Elt F) → (⟨S8388608, .i32⟩ : BufTy).Contents (Elt F) → (⟨S8388608, .i32⟩ : BufTy).Contents (Elt F)),
    StableHlo.ternary main_v179 main_v181 main_v36 main_v182 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_41 (constantI S_ 32 0#32),
    StableHlo.unary main_c_41 main_v183 (broadcastInDim S8388608 ![] bcast_S_S8388608 : (⟨S_, .i32⟩ : BufTy).Contents (Elt F) → (⟨S8388608, .i32⟩ : BufTy).Contents (Elt F)),
    StableHlo.binary main_v38 main_v183 main_v184 (cmpi .slt : (⟨S8388608, .i32⟩ : BufTy).Contents (Elt F) → (⟨S8388608, .i32⟩ : BufTy).Contents (Elt F) → (⟨S8388608, .i1⟩ : BufTy).Contents (Elt F)),
    StableHlo.nullary main_c_42 (constantI S_ 32 200#32),
    StableHlo.unary main_c_42 main_v185 (broadcastInDim S8388608 ![] bcast_S_S8388608 : (⟨S_, .i32⟩ : BufTy).Contents (Elt F) → (⟨S8388608, .i32⟩ : BufTy).Contents (Elt F)),
    StableHlo.binary main_v38 main_v185 main_v186 (addi : (⟨S8388608, .i32⟩ : BufTy).Contents (Elt F) → (⟨S8388608, .i32⟩ : BufTy).Contents (Elt F) → (⟨S8388608, .i32⟩ : BufTy).Contents (Elt F)),
    StableHlo.ternary main_v184 main_v186 main_v38 main_v187 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_43 (constantI S_ 32 0#32),
    StableHlo.unary main_c_43 main_v188 (broadcastInDim S8388608 ![] bcast_S_S8388608 : (⟨S_, .i32⟩ : BufTy).Contents (Elt F) → (⟨S8388608, .i32⟩ : BufTy).Contents (Elt F)),
    StableHlo.binary main_v42 main_v188 main_v189 (cmpi .slt : (⟨S8388608, .i32⟩ : BufTy).Contents (Elt F) → (⟨S8388608, .i32⟩ : BufTy).Contents (Elt F) → (⟨S8388608, .i1⟩ : BufTy).Contents (Elt F)),
    StableHlo.nullary main_c_44 (constantI S_ 32 50#32),
    StableHlo.unary main_c_44 main_v190 (broadcastInDim S8388608 ![] bcast_S_S8388608 : (⟨S_, .i32⟩ : BufTy).Contents (Elt F) → (⟨S8388608, .i32⟩ : BufTy).Contents (Elt F)),
    StableHlo.binary main_v42 main_v190 main_v191 (addi : (⟨S8388608, .i32⟩ : BufTy).Contents (Elt F) → (⟨S8388608, .i32⟩ : BufTy).Contents (Elt F) → (⟨S8388608, .i32⟩ : BufTy).Contents (Elt F)),
    StableHlo.ternary main_v189 main_v191 main_v42 main_v192 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_45 (constantI S_ 32 0#32),
    StableHlo.unary main_c_45 main_v193 (broadcastInDim S8388608 ![] bcast_S_S8388608 : (⟨S_, .i32⟩ : BufTy).Contents (Elt F) → (⟨S8388608, .i32⟩ : BufTy).Contents (Elt F)),
    StableHlo.unary main_v193 main_v194 (id : (⟨S8388608, .i32⟩ : BufTy).Contents (Elt F) → (⟨S8388608, .i32⟩ : BufTy).Contents (Elt F)),
    StableHlo.unary main_v182 main_v195 (broadcastInDim S8388608x1 ![0] bcast_S8388608_S8388608x1_0 : (⟨S8388608, .i32⟩ : BufTy).Contents (Elt F) → (⟨S8388608x1, .i32⟩ : BufTy).Contents (Elt F)),
    StableHlo.unary main_v187 main_v196 (broadcastInDim S8388608x1 ![0] bcast_S8388608_S8388608x1_0 : (⟨S8388608, .i32⟩ : BufTy).Contents (Elt F) → (⟨S8388608x1, .i32⟩ : BufTy).Contents (Elt F)),
    StableHlo.unary main_v192 main_v197 (broadcastInDim S8388608x1 ![0] bcast_S8388608_S8388608x1_0 : (⟨S8388608, .i32⟩ : BufTy).Contents (Elt F) → (⟨S8388608x1, .i32⟩ : BufTy).Contents (Elt F)),
    StableHlo.unary main_v194 main_v198 (broadcastInDim S8388608x1 ![0] bcast_S8388608_S8388608x1_0 : (⟨S8388608, .i32⟩ : BufTy).Contents (Elt F) → (⟨S8388608x1, .i32⟩ : BufTy).Contents (Elt F)),
    StableHlo.nary ![main_v195, main_v196, main_v197, main_v198] main_v199 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v199 main_v200 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v201 ((extractStridedSlice S8388608x1x1 ![0, 0, 1] · slices_S8388608x3x2_S8388608x1x1_0_0_1) : (⟨S8388608x3x2, .f32⟩ : BufTy).Contents (Elt F) → (⟨S8388608x1x1, .f32⟩ : BufTy).Contents (Elt F)),
    StableHlo.reshape main_v201 main_v202 rfl shapeCasts_S8388608x1x1_S8388608,
    StableHlo.unary main_v32 main_v203 ((extractStridedSlice S8388608x1x1 ![0, 1, 0] · slices_S8388608x3x2_S8388608x1x1_0_1_0) : (⟨S8388608x3x2, .f32⟩ : BufTy).Contents (Elt F) → (⟨S8388608x1x1, .f32⟩ : BufTy).Contents (Elt F)),
    StableHlo.reshape main_v203 main_v204 rfl shapeCasts_S8388608x1x1_S8388608,
    StableHlo.binary main_v202 main_v204 main_v205 (mulf : (⟨S8388608, .f32⟩ : BufTy).Contents (Elt F) → (⟨S8388608, .f32⟩ : BufTy).Contents (Elt F) → (⟨S8388608, .f32⟩ : BufTy).Contents (Elt F)),
    StableHlo.unary main_v32 main_v206 ((extractStridedSlice S8388608x1x1 ![0, 2, 0] · slices_S8388608x3x2_S8388608x1x1_0_2_0) : (⟨S8388608x3x2, .f32⟩ : BufTy).Contents (Elt F) → (⟨S8388608x1x1, .f32⟩ : BufTy).Contents (Elt F)),
    StableHlo.reshape main_v206 main_v207 rfl shapeCasts_S8388608x1x1_S8388608,
    StableHlo.binary main_v205 main_v207 main_v208 (mulf : (⟨S8388608, .f32⟩ : BufTy).Contents (Elt F) → (⟨S8388608, .f32⟩ : BufTy).Contents (Elt F) → (⟨S8388608, .f32⟩ : BufTy).Contents (Elt F)),
    StableHlo.binary main_v200 main_v208 main_v209 (mulf : (⟨S8388608, .f32⟩ : BufTy).Contents (Elt F) → (⟨S8388608, .f32⟩ : BufTy).Contents (Elt F) → (⟨S8388608, .f32⟩ : BufTy).Contents (Elt F)),
    StableHlo.binary main_v177 main_v209 main_v210 (addf : (⟨S8388608, .f32⟩ : BufTy).Contents (Elt F) → (⟨S8388608, .f32⟩ : BufTy).Contents (Elt F) → (⟨S8388608, .f32⟩ : BufTy).Contents (Elt F)) ]

set_option maxHeartbeats 40000000 in
/-- 40 operations. -/
abbrev r_c5 : List (HloOp τ sig (Elt F)) :=
  [ StableHlo.nullary main_c_46 (constantI S_ 32 0#32),
    StableHlo.unary main_c_46 main_v211 (broadcastInDim S8388608 ![] bcast_S_S8388608 : (⟨S_, .i32⟩ : BufTy).Contents (Elt F) → (⟨S8388608, .i32⟩ : BufTy).Contents (Elt F)),
    StableHlo.binary main_v36 main_v211 main_v212 (cmpi .slt : (⟨S8388608, .i32⟩ : BufTy).Contents (Elt F) → (⟨S8388608, .i32⟩ : BufTy).Contents (Elt F) → (⟨S8388608, .i1⟩ : BufTy).Contents (Elt F)),
    StableHlo.nullary main_c_47 (constantI S_ 32 200#32),
    StableHlo.unary main_c_47 main_v213 (broadcastInDim S8388608 ![] bcast_S_S8388608 : (⟨S_, .i32⟩ : BufTy).Contents (Elt F) → (⟨S8388608, .i32⟩ : BufTy).Contents (Elt F)),
    StableHlo.binary main_v36 main_v213 main_v214 (addi : (⟨S8388608, .i32⟩ : BufTy).Contents (Elt F) → (⟨S8388608, .i32⟩ : BufTy).Contents (Elt F) → (⟨S8388608, .i32⟩ : BufTy).Contents (Elt F)),
    StableHlo.ternary main_v212 main_v214 main_v36 main_v215 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_48 (constantI S_ 32 0#32),
    StableHlo.unary main_c_48 main_v216 (broadcastInDim S8388608 ![] bcast_S_S8388608 : (⟨S_, .i32⟩ : BufTy).Contents (Elt F) → (⟨S8388608, .i32⟩ : BufTy).Contents (Elt F)),
    StableHlo.binary main_v38 main_v216 main_v217 (cmpi .slt : (⟨S8388608, .i32⟩ : BufTy).Contents (Elt F) → (⟨S8388608, .i32⟩ : BufTy).Contents (Elt F) → (⟨S8388608, .i1⟩ : BufTy).Contents (Elt F)),
    StableHlo.nullary main_c_49 (constantI S_ 32 200#32),
    StableHlo.unary main_c_49 main_v218 (broadcastInDim S8388608 ![] bcast_S_S8388608 : (⟨S_, .i32⟩ : BufTy).Contents (Elt F) → (⟨S8388608, .i32⟩ : BufTy).Contents (Elt F)),
    StableHlo.binary main_v38 main_v218 main_v219 (addi : (⟨S8388608, .i32⟩ : BufTy).Contents (Elt F) → (⟨S8388608, .i32⟩ : BufTy).Contents (Elt F) → (⟨S8388608, .i32⟩ : BufTy).Contents (Elt F)),
    StableHlo.ternary main_v217 main_v219 main_v38 main_v220 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_50 (constantI S_ 32 0#32),
    StableHlo.unary main_c_50 main_v221 (broadcastInDim S8388608 ![] bcast_S_S8388608 : (⟨S_, .i32⟩ : BufTy).Contents (Elt F) → (⟨S8388608, .i32⟩ : BufTy).Contents (Elt F)),
    StableHlo.binary main_v44 main_v221 main_v222 (cmpi .slt : (⟨S8388608, .i32⟩ : BufTy).Contents (Elt F) → (⟨S8388608, .i32⟩ : BufTy).Contents (Elt F) → (⟨S8388608, .i1⟩ : BufTy).Contents (Elt F)),
    StableHlo.nullary main_c_51 (constantI S_ 32 50#32),
    StableHlo.unary main_c_51 main_v223 (broadcastInDim S8388608 ![] bcast_S_S8388608 : (⟨S_, .i32⟩ : BufTy).Contents (Elt F) → (⟨S8388608, .i32⟩ : BufTy).Contents (Elt F)),
    StableHlo.binary main_v44 main_v223 main_v224 (addi : (⟨S8388608, .i32⟩ : BufTy).Contents (Elt F) → (⟨S8388608, .i32⟩ : BufTy).Contents (Elt F) → (⟨S8388608, .i32⟩ : BufTy).Contents (Elt F)),
    StableHlo.ternary main_v222 main_v224 main_v44 main_v225 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_52 (constantI S_ 32 0#32),
    StableHlo.unary main_c_52 main_v226 (broadcastInDim S8388608 ![] bcast_S_S8388608 : (⟨S_, .i32⟩ : BufTy).Contents (Elt F) → (⟨S8388608, .i32⟩ : BufTy).Contents (Elt F)),
    StableHlo.unary main_v226 main_v227 (id : (⟨S8388608, .i32⟩ : BufTy).Contents (Elt F) → (⟨S8388608, .i32⟩ : BufTy).Contents (Elt F)),
    StableHlo.unary main_v215 main_v228 (broadcastInDim S8388608x1 ![0] bcast_S8388608_S8388608x1_0 : (⟨S8388608, .i32⟩ : BufTy).Contents (Elt F) → (⟨S8388608x1, .i32⟩ : BufTy).Contents (Elt F)),
    StableHlo.unary main_v220 main_v229 (broadcastInDim S8388608x1 ![0] bcast_S8388608_S8388608x1_0 : (⟨S8388608, .i32⟩ : BufTy).Contents (Elt F) → (⟨S8388608x1, .i32⟩ : BufTy).Contents (Elt F)),
    StableHlo.unary main_v225 main_v230 (broadcastInDim S8388608x1 ![0] bcast_S8388608_S8388608x1_0 : (⟨S8388608, .i32⟩ : BufTy).Contents (Elt F) → (⟨S8388608x1, .i32⟩ : BufTy).Contents (Elt F)),
    StableHlo.unary main_v227 main_v231 (broadcastInDim S8388608x1 ![0] bcast_S8388608_S8388608x1_0 : (⟨S8388608, .i32⟩ : BufTy).Contents (Elt F) → (⟨S8388608x1, .i32⟩ : BufTy).Contents (Elt F)),
    StableHlo.nary ![main_v228, main_v229, main_v230, main_v231] main_v232 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v232 main_v233 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v234 ((extractStridedSlice S8388608x1x1 ![0, 0, 1] · slices_S8388608x3x2_S8388608x1x1_0_0_1) : (⟨S8388608x3x2, .f32⟩ : BufTy).Contents (Elt F) → (⟨S8388608x1x1, .f32⟩ : BufTy).Contents (Elt F)),
    StableHlo.reshape main_v234 main_v235 rfl shapeCasts_S8388608x1x1_S8388608,
    StableHlo.unary main_v32 main_v236 ((extractStridedSlice S8388608x1x1 ![0, 1, 0] · slices_S8388608x3x2_S8388608x1x1_0_1_0) : (⟨S8388608x3x2, .f32⟩ : BufTy).Contents (Elt F) → (⟨S8388608x1x1, .f32⟩ : BufTy).Contents (Elt F)),
    StableHlo.reshape main_v236 main_v237 rfl shapeCasts_S8388608x1x1_S8388608,
    StableHlo.binary main_v235 main_v237 main_v238 (mulf : (⟨S8388608, .f32⟩ : BufTy).Contents (Elt F) → (⟨S8388608, .f32⟩ : BufTy).Contents (Elt F) → (⟨S8388608, .f32⟩ : BufTy).Contents (Elt F)),
    StableHlo.unary main_v32 main_v239 ((extractStridedSlice S8388608x1x1 ![0, 2, 1] · slices_S8388608x3x2_S8388608x1x1_0_2_1) : (⟨S8388608x3x2, .f32⟩ : BufTy).Contents (Elt F) → (⟨S8388608x1x1, .f32⟩ : BufTy).Contents (Elt F)),
    StableHlo.reshape main_v239 main_v240 rfl shapeCasts_S8388608x1x1_S8388608,
    StableHlo.binary main_v238 main_v240 main_v241 (mulf : (⟨S8388608, .f32⟩ : BufTy).Contents (Elt F) → (⟨S8388608, .f32⟩ : BufTy).Contents (Elt F) → (⟨S8388608, .f32⟩ : BufTy).Contents (Elt F)),
    StableHlo.binary main_v233 main_v241 main_v242 (mulf : (⟨S8388608, .f32⟩ : BufTy).Contents (Elt F) → (⟨S8388608, .f32⟩ : BufTy).Contents (Elt F) → (⟨S8388608, .f32⟩ : BufTy).Contents (Elt F)),
    StableHlo.binary main_v210 main_v242 main_v243 (addf : (⟨S8388608, .f32⟩ : BufTy).Contents (Elt F) → (⟨S8388608, .f32⟩ : BufTy).Contents (Elt F) → (⟨S8388608, .f32⟩ : BufTy).Contents (Elt F)) ]

set_option maxHeartbeats 40000000 in
/-- 40 operations. -/
abbrev r_c6 : List (HloOp τ sig (Elt F)) :=
  [ StableHlo.nullary main_c_53 (constantI S_ 32 0#32),
    StableHlo.unary main_c_53 main_v244 (broadcastInDim S8388608 ![] bcast_S_S8388608 : (⟨S_, .i32⟩ : BufTy).Contents (Elt F) → (⟨S8388608, .i32⟩ : BufTy).Contents (Elt F)),
    StableHlo.binary main_v36 main_v244 main_v245 (cmpi .slt : (⟨S8388608, .i32⟩ : BufTy).Contents (Elt F) → (⟨S8388608, .i32⟩ : BufTy).Contents (Elt F) → (⟨S8388608, .i1⟩ : BufTy).Contents (Elt F)),
    StableHlo.nullary main_c_54 (constantI S_ 32 200#32),
    StableHlo.unary main_c_54 main_v246 (broadcastInDim S8388608 ![] bcast_S_S8388608 : (⟨S_, .i32⟩ : BufTy).Contents (Elt F) → (⟨S8388608, .i32⟩ : BufTy).Contents (Elt F)),
    StableHlo.binary main_v36 main_v246 main_v247 (addi : (⟨S8388608, .i32⟩ : BufTy).Contents (Elt F) → (⟨S8388608, .i32⟩ : BufTy).Contents (Elt F) → (⟨S8388608, .i32⟩ : BufTy).Contents (Elt F)),
    StableHlo.ternary main_v245 main_v247 main_v36 main_v248 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_55 (constantI S_ 32 0#32),
    StableHlo.unary main_c_55 main_v249 (broadcastInDim S8388608 ![] bcast_S_S8388608 : (⟨S_, .i32⟩ : BufTy).Contents (Elt F) → (⟨S8388608, .i32⟩ : BufTy).Contents (Elt F)),
    StableHlo.binary main_v40 main_v249 main_v250 (cmpi .slt : (⟨S8388608, .i32⟩ : BufTy).Contents (Elt F) → (⟨S8388608, .i32⟩ : BufTy).Contents (Elt F) → (⟨S8388608, .i1⟩ : BufTy).Contents (Elt F)),
    StableHlo.nullary main_c_56 (constantI S_ 32 200#32),
    StableHlo.unary main_c_56 main_v251 (broadcastInDim S8388608 ![] bcast_S_S8388608 : (⟨S_, .i32⟩ : BufTy).Contents (Elt F) → (⟨S8388608, .i32⟩ : BufTy).Contents (Elt F)),
    StableHlo.binary main_v40 main_v251 main_v252 (addi : (⟨S8388608, .i32⟩ : BufTy).Contents (Elt F) → (⟨S8388608, .i32⟩ : BufTy).Contents (Elt F) → (⟨S8388608, .i32⟩ : BufTy).Contents (Elt F)),
    StableHlo.ternary main_v250 main_v252 main_v40 main_v253 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_57 (constantI S_ 32 0#32),
    StableHlo.unary main_c_57 main_v254 (broadcastInDim S8388608 ![] bcast_S_S8388608 : (⟨S_, .i32⟩ : BufTy).Contents (Elt F) → (⟨S8388608, .i32⟩ : BufTy).Contents (Elt F)),
    StableHlo.binary main_v42 main_v254 main_v255 (cmpi .slt : (⟨S8388608, .i32⟩ : BufTy).Contents (Elt F) → (⟨S8388608, .i32⟩ : BufTy).Contents (Elt F) → (⟨S8388608, .i1⟩ : BufTy).Contents (Elt F)),
    StableHlo.nullary main_c_58 (constantI S_ 32 50#32),
    StableHlo.unary main_c_58 main_v256 (broadcastInDim S8388608 ![] bcast_S_S8388608 : (⟨S_, .i32⟩ : BufTy).Contents (Elt F) → (⟨S8388608, .i32⟩ : BufTy).Contents (Elt F)),
    StableHlo.binary main_v42 main_v256 main_v257 (addi : (⟨S8388608, .i32⟩ : BufTy).Contents (Elt F) → (⟨S8388608, .i32⟩ : BufTy).Contents (Elt F) → (⟨S8388608, .i32⟩ : BufTy).Contents (Elt F)),
    StableHlo.ternary main_v255 main_v257 main_v42 main_v258 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_59 (constantI S_ 32 0#32),
    StableHlo.unary main_c_59 main_v259 (broadcastInDim S8388608 ![] bcast_S_S8388608 : (⟨S_, .i32⟩ : BufTy).Contents (Elt F) → (⟨S8388608, .i32⟩ : BufTy).Contents (Elt F)),
    StableHlo.unary main_v259 main_v260 (id : (⟨S8388608, .i32⟩ : BufTy).Contents (Elt F) → (⟨S8388608, .i32⟩ : BufTy).Contents (Elt F)),
    StableHlo.unary main_v248 main_v261 (broadcastInDim S8388608x1 ![0] bcast_S8388608_S8388608x1_0 : (⟨S8388608, .i32⟩ : BufTy).Contents (Elt F) → (⟨S8388608x1, .i32⟩ : BufTy).Contents (Elt F)),
    StableHlo.unary main_v253 main_v262 (broadcastInDim S8388608x1 ![0] bcast_S8388608_S8388608x1_0 : (⟨S8388608, .i32⟩ : BufTy).Contents (Elt F) → (⟨S8388608x1, .i32⟩ : BufTy).Contents (Elt F)),
    StableHlo.unary main_v258 main_v263 (broadcastInDim S8388608x1 ![0] bcast_S8388608_S8388608x1_0 : (⟨S8388608, .i32⟩ : BufTy).Contents (Elt F) → (⟨S8388608x1, .i32⟩ : BufTy).Contents (Elt F)),
    StableHlo.unary main_v260 main_v264 (broadcastInDim S8388608x1 ![0] bcast_S8388608_S8388608x1_0 : (⟨S8388608, .i32⟩ : BufTy).Contents (Elt F) → (⟨S8388608x1, .i32⟩ : BufTy).Contents (Elt F)),
    StableHlo.nary ![main_v261, main_v262, main_v263, main_v264] main_v265 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v265 main_v266 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v267 ((extractStridedSlice S8388608x1x1 ![0, 0, 1] · slices_S8388608x3x2_S8388608x1x1_0_0_1) : (⟨S8388608x3x2, .f32⟩ : BufTy).Contents (Elt F) → (⟨S8388608x1x1, .f32⟩ : BufTy).Contents (Elt F)),
    StableHlo.reshape main_v267 main_v268 rfl shapeCasts_S8388608x1x1_S8388608,
    StableHlo.unary main_v32 main_v269 ((extractStridedSlice S8388608x1x1 ![0, 1, 1] · slices_S8388608x3x2_S8388608x1x1_0_1_1) : (⟨S8388608x3x2, .f32⟩ : BufTy).Contents (Elt F) → (⟨S8388608x1x1, .f32⟩ : BufTy).Contents (Elt F)),
    StableHlo.reshape main_v269 main_v270 rfl shapeCasts_S8388608x1x1_S8388608,
    StableHlo.binary main_v268 main_v270 main_v271 (mulf : (⟨S8388608, .f32⟩ : BufTy).Contents (Elt F) → (⟨S8388608, .f32⟩ : BufTy).Contents (Elt F) → (⟨S8388608, .f32⟩ : BufTy).Contents (Elt F)),
    StableHlo.unary main_v32 main_v272 ((extractStridedSlice S8388608x1x1 ![0, 2, 0] · slices_S8388608x3x2_S8388608x1x1_0_2_0) : (⟨S8388608x3x2, .f32⟩ : BufTy).Contents (Elt F) → (⟨S8388608x1x1, .f32⟩ : BufTy).Contents (Elt F)),
    StableHlo.reshape main_v272 main_v273 rfl shapeCasts_S8388608x1x1_S8388608,
    StableHlo.binary main_v271 main_v273 main_v274 (mulf : (⟨S8388608, .f32⟩ : BufTy).Contents (Elt F) → (⟨S8388608, .f32⟩ : BufTy).Contents (Elt F) → (⟨S8388608, .f32⟩ : BufTy).Contents (Elt F)),
    StableHlo.binary main_v266 main_v274 main_v275 (mulf : (⟨S8388608, .f32⟩ : BufTy).Contents (Elt F) → (⟨S8388608, .f32⟩ : BufTy).Contents (Elt F) → (⟨S8388608, .f32⟩ : BufTy).Contents (Elt F)),
    StableHlo.binary main_v243 main_v275 main_v276 (addf : (⟨S8388608, .f32⟩ : BufTy).Contents (Elt F) → (⟨S8388608, .f32⟩ : BufTy).Contents (Elt F) → (⟨S8388608, .f32⟩ : BufTy).Contents (Elt F)) ]

set_option maxHeartbeats 40000000 in
/-- 40 operations. -/
abbrev r_c7 : List (HloOp τ sig (Elt F)) :=
  [ StableHlo.nullary main_c_60 (constantI S_ 32 0#32),
    StableHlo.unary main_c_60 main_v277 (broadcastInDim S8388608 ![] bcast_S_S8388608 : (⟨S_, .i32⟩ : BufTy).Contents (Elt F) → (⟨S8388608, .i32⟩ : BufTy).Contents (Elt F)),
    StableHlo.binary main_v36 main_v277 main_v278 (cmpi .slt : (⟨S8388608, .i32⟩ : BufTy).Contents (Elt F) → (⟨S8388608, .i32⟩ : BufTy).Contents (Elt F) → (⟨S8388608, .i1⟩ : BufTy).Contents (Elt F)),
    StableHlo.nullary main_c_61 (constantI S_ 32 200#32),
    StableHlo.unary main_c_61 main_v279 (broadcastInDim S8388608 ![] bcast_S_S8388608 : (⟨S_, .i32⟩ : BufTy).Contents (Elt F) → (⟨S8388608, .i32⟩ : BufTy).Contents (Elt F)),
    StableHlo.binary main_v36 main_v279 main_v280 (addi : (⟨S8388608, .i32⟩ : BufTy).Contents (Elt F) → (⟨S8388608, .i32⟩ : BufTy).Contents (Elt F) → (⟨S8388608, .i32⟩ : BufTy).Contents (Elt F)),
    StableHlo.ternary main_v278 main_v280 main_v36 main_v281 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_62 (constantI S_ 32 0#32),
    StableHlo.unary main_c_62 main_v282 (broadcastInDim S8388608 ![] bcast_S_S8388608 : (⟨S_, .i32⟩ : BufTy).Contents (Elt F) → (⟨S8388608, .i32⟩ : BufTy).Contents (Elt F)),
    StableHlo.binary main_v40 main_v282 main_v283 (cmpi .slt : (⟨S8388608, .i32⟩ : BufTy).Contents (Elt F) → (⟨S8388608, .i32⟩ : BufTy).Contents (Elt F) → (⟨S8388608, .i1⟩ : BufTy).Contents (Elt F)),
    StableHlo.nullary main_c_63 (constantI S_ 32 200#32),
    StableHlo.unary main_c_63 main_v284 (broadcastInDim S8388608 ![] bcast_S_S8388608 : (⟨S_, .i32⟩ : BufTy).Contents (Elt F) → (⟨S8388608, .i32⟩ : BufTy).Contents (Elt F)),
    StableHlo.binary main_v40 main_v284 main_v285 (addi : (⟨S8388608, .i32⟩ : BufTy).Contents (Elt F) → (⟨S8388608, .i32⟩ : BufTy).Contents (Elt F) → (⟨S8388608, .i32⟩ : BufTy).Contents (Elt F)),
    StableHlo.ternary main_v283 main_v285 main_v40 main_v286 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_64 (constantI S_ 32 0#32),
    StableHlo.unary main_c_64 main_v287 (broadcastInDim S8388608 ![] bcast_S_S8388608 : (⟨S_, .i32⟩ : BufTy).Contents (Elt F) → (⟨S8388608, .i32⟩ : BufTy).Contents (Elt F)),
    StableHlo.binary main_v44 main_v287 main_v288 (cmpi .slt : (⟨S8388608, .i32⟩ : BufTy).Contents (Elt F) → (⟨S8388608, .i32⟩ : BufTy).Contents (Elt F) → (⟨S8388608, .i1⟩ : BufTy).Contents (Elt F)),
    StableHlo.nullary main_c_65 (constantI S_ 32 50#32),
    StableHlo.unary main_c_65 main_v289 (broadcastInDim S8388608 ![] bcast_S_S8388608 : (⟨S_, .i32⟩ : BufTy).Contents (Elt F) → (⟨S8388608, .i32⟩ : BufTy).Contents (Elt F)),
    StableHlo.binary main_v44 main_v289 main_v290 (addi : (⟨S8388608, .i32⟩ : BufTy).Contents (Elt F) → (⟨S8388608, .i32⟩ : BufTy).Contents (Elt F) → (⟨S8388608, .i32⟩ : BufTy).Contents (Elt F)),
    StableHlo.ternary main_v288 main_v290 main_v44 main_v291 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_66 (constantI S_ 32 0#32),
    StableHlo.unary main_c_66 main_v292 (broadcastInDim S8388608 ![] bcast_S_S8388608 : (⟨S_, .i32⟩ : BufTy).Contents (Elt F) → (⟨S8388608, .i32⟩ : BufTy).Contents (Elt F)),
    StableHlo.unary main_v292 main_v293 (id : (⟨S8388608, .i32⟩ : BufTy).Contents (Elt F) → (⟨S8388608, .i32⟩ : BufTy).Contents (Elt F)),
    StableHlo.unary main_v281 main_v294 (broadcastInDim S8388608x1 ![0] bcast_S8388608_S8388608x1_0 : (⟨S8388608, .i32⟩ : BufTy).Contents (Elt F) → (⟨S8388608x1, .i32⟩ : BufTy).Contents (Elt F)),
    StableHlo.unary main_v286 main_v295 (broadcastInDim S8388608x1 ![0] bcast_S8388608_S8388608x1_0 : (⟨S8388608, .i32⟩ : BufTy).Contents (Elt F) → (⟨S8388608x1, .i32⟩ : BufTy).Contents (Elt F)),
    StableHlo.unary main_v291 main_v296 (broadcastInDim S8388608x1 ![0] bcast_S8388608_S8388608x1_0 : (⟨S8388608, .i32⟩ : BufTy).Contents (Elt F) → (⟨S8388608x1, .i32⟩ : BufTy).Contents (Elt F)),
    StableHlo.unary main_v293 main_v297 (broadcastInDim S8388608x1 ![0] bcast_S8388608_S8388608x1_0 : (⟨S8388608, .i32⟩ : BufTy).Contents (Elt F) → (⟨S8388608x1, .i32⟩ : BufTy).Contents (Elt F)),
    StableHlo.nary ![main_v294, main_v295, main_v296, main_v297] main_v298 (fun u => concatenate S8388608x4 1 [⟨S8388608x1, u 0⟩, ⟨S8388608x1, u 1⟩, ⟨S8388608x1, u 2⟩, ⟨S8388608x1, u 3⟩] concatenates_S8388608x1_S8388608x1_S8388608x1_S8388608x1_S8388608x4_d1),
    StableHlo.binary main_arg1 main_v298 main_v299 ((fun x i => Host.gather gather_S200x200x50x1_S8388608x4_S8388608_n_0123_n_n_0123_1_1111 x i) : (⟨S200x200x50x1, .f32⟩ : BufTy).Contents (Elt F) → (⟨S8388608x4, .i32⟩ : BufTy).Contents (Elt F) → (⟨S8388608, .f32⟩ : BufTy).Contents (Elt F)),
    StableHlo.unary main_v32 main_v300 ((extractStridedSlice S8388608x1x1 ![0, 0, 1] · slices_S8388608x3x2_S8388608x1x1_0_0_1) : (⟨S8388608x3x2, .f32⟩ : BufTy).Contents (Elt F) → (⟨S8388608x1x1, .f32⟩ : BufTy).Contents (Elt F)),
    StableHlo.reshape main_v300 main_v301 rfl shapeCasts_S8388608x1x1_S8388608,
    StableHlo.unary main_v32 main_v302 ((extractStridedSlice S8388608x1x1 ![0, 1, 1] · slices_S8388608x3x2_S8388608x1x1_0_1_1) : (⟨S8388608x3x2, .f32⟩ : BufTy).Contents (Elt F) → (⟨S8388608x1x1, .f32⟩ : BufTy).Contents (Elt F)),
    StableHlo.reshape main_v302 main_v303 rfl shapeCasts_S8388608x1x1_S8388608,
    StableHlo.binary main_v301 main_v303 main_v304 (mulf : (⟨S8388608, .f32⟩ : BufTy).Contents (Elt F) → (⟨S8388608, .f32⟩ : BufTy).Contents (Elt F) → (⟨S8388608, .f32⟩ : BufTy).Contents (Elt F)),
    StableHlo.unary main_v32 main_v305 ((extractStridedSlice S8388608x1x1 ![0, 2, 1] · slices_S8388608x3x2_S8388608x1x1_0_2_1) : (⟨S8388608x3x2, .f32⟩ : BufTy).Contents (Elt F) → (⟨S8388608x1x1, .f32⟩ : BufTy).Contents (Elt F)),
    StableHlo.reshape main_v305 main_v306 rfl shapeCasts_S8388608x1x1_S8388608,
    StableHlo.binary main_v304 main_v306 main_v307 (mulf : (⟨S8388608, .f32⟩ : BufTy).Contents (Elt F) → (⟨S8388608, .f32⟩ : BufTy).Contents (Elt F) → (⟨S8388608, .f32⟩ : BufTy).Contents (Elt F)),
    StableHlo.binary main_v299 main_v307 main_v308 (mulf : (⟨S8388608, .f32⟩ : BufTy).Contents (Elt F) → (⟨S8388608, .f32⟩ : BufTy).Contents (Elt F) → (⟨S8388608, .f32⟩ : BufTy).Contents (Elt F)),
    StableHlo.binary main_v276 main_v308 main_v309 (addf : (⟨S8388608, .f32⟩ : BufTy).Contents (Elt F) → (⟨S8388608, .f32⟩ : BufTy).Contents (Elt F) → (⟨S8388608, .f32⟩ : BufTy).Contents (Elt F)) ]

set_option maxHeartbeats 40000000 in
/-- 6 operations. -/
abbrev r_tail : List (HloOp τ sig (Elt F)) :=
  [ StableHlo.nullary main_cst_67 (constant S_ .f32 0x00000000#32),
    StableHlo.TRef.unary (.of main_cst_67 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S8388608, .f32⟩) (broadcastInDim S8388608 ![] bcast_S_S8388608),
    StableHlo.TRef.ternary (.of main_v13 : StableHlo.TRef sig ⟨S8388608, .i1⟩) (.of main_v309 : StableHlo.TRef sig ⟨S8388608, .f32⟩) (.of main_call1_v1 : StableHlo.TRef sig ⟨S8388608, .f32⟩) (.of main_v310 : StableHlo.TRef sig ⟨S8388608, .f32⟩) select,
    StableHlo.nullary main_cst_68 (constant S_ .f32 0x00000000#32),
    StableHlo.unary main_cst_68 main_v311 (broadcastInDim S8388608 ![] bcast_S_S8388608 : (⟨S_, .f32⟩ : BufTy).Contents (Elt F) → (⟨S8388608, .f32⟩ : BufTy).Contents (Elt F)) ]

set_option maxHeartbeats 40000000 in
/-- The pieces, in order, are the whole stretch. -/
theorem ops_split : (ops : List (HloOp τ sig (Elt F))) = r_head ++ (r_clip ++ (r_pre ++ (r_w ++ (r_cols ++ (r_acc0 ++ (r_c0 ++ (r_c1 ++ (r_c2 ++ (r_c3 ++ (r_c4 ++ (r_c5 ++ (r_c6 ++ (r_c7 ++ (r_tail)))))))))))))) := rfl

/-- The buffers r_head's 27 operations write, in order. -/
abbrev r_head_W : List (Ref sig .tc) := [main_c, main_cst, main_cst_0, main_v0, main_v1, main_v2, main_cst_1, main_v3, main_v4, main_cst_2, main_v5, main_v6, main_cst_3, main_v7, main_v8, main_v9, main_v10, main_v11, main_v12, main_c_4, main_v13, main_v14, main_v15, main_c_5, main_v16, main_v17, main_c_6]
set_option maxHeartbeats 4000000 in
theorem r_head_writes : (r_head : List (HloOp τ sig (Elt F))).Forall fun op => op.writes ⊆ (r_head_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_head does not write keeps its contents through it. -/
theorem r_head_keep (V : Valuation τ sig (Elt F)) (r : Ref sig .tc) (h : r ∉ r_head_W) :
    after (r_head : List (HloOp τ sig (Elt F))) V (Proc.devRef .tc r) = V (Proc.devRef .tc r) :=
  after_of_writes_sub r_head _ r_head_writes h

/-- The buffers r_clip's 6 operations write, in order. -/
abbrev r_clip_W : List (Ref sig .tc) := [main_call0_v0, main_call0_v1, main_call0_v2, main_call0_v3, main_call0_v4, main_v18]
set_option maxHeartbeats 4000000 in
theorem r_clip_writes : (r_clip : List (HloOp τ sig (Elt F))).Forall fun op => op.writes ⊆ (r_clip_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_clip does not write keeps its contents through it. -/
theorem r_clip_keep (V : Valuation τ sig (Elt F)) (r : Ref sig .tc) (h : r ∉ r_clip_W) :
    after (r_clip : List (HloOp τ sig (Elt F))) V (Proc.devRef .tc r) = V (Proc.devRef .tc r) :=
  after_of_writes_sub r_clip _ r_clip_writes h

/-- The buffers r_pre's 11 operations write, in order. -/
abbrev r_pre_W : List (Ref sig .tc) := [main_c_7, main_v19, main_v20, main_c_8, main_v21, main_v22, main_v23, main_v24, main_v25, main_v26, main_v27]
set_option maxHeartbeats 4000000 in
theorem r_pre_writes : (r_pre : List (HloOp τ sig (Elt F))).Forall fun op => op.writes ⊆ (r_pre_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_pre does not write keeps its contents through it. -/
theorem r_pre_keep (V : Valuation τ sig (Elt F)) (r : Ref sig .tc) (h : r ∉ r_pre_W) :
    after (r_pre : List (HloOp τ sig (Elt F))) V (Proc.devRef .tc r) = V (Proc.devRef .tc r) :=
  after_of_writes_sub r_pre _ r_pre_writes h

/-- The buffers r_w's 6 operations write, in order. -/
abbrev r_w_W : List (Ref sig .tc) := [main_cst_9, main_v28, main_v29, main_v30, main_v31, main_v32]
set_option maxHeartbeats 4000000 in
theorem r_w_writes : (r_w : List (HloOp τ sig (Elt F))).Forall fun op => op.writes ⊆ (r_w_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_w does not write keeps its contents through it. -/
theorem r_w_keep (V : Valuation τ sig (Elt F)) (r : Ref sig .tc) (h : r ∉ r_w_W) :
    after (r_w : List (HloOp τ sig (Elt F))) V (Proc.devRef .tc r) = V (Proc.devRef .tc r) :=
  after_of_writes_sub r_w _ r_w_writes h

/-- The buffers r_cols's 12 operations write, in order. -/
abbrev r_cols_W : List (Ref sig .tc) := [main_v33, main_v34, main_v35, main_v36, main_v37, main_v38, main_v39, main_v40, main_v41, main_v42, main_v43, main_v44]
set_option maxHeartbeats 4000000 in
theorem r_cols_writes : (r_cols : List (HloOp τ sig (Elt F))).Forall fun op => op.writes ⊆ (r_cols_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_cols does not write keeps its contents through it. -/
theorem r_cols_keep (V : Valuation τ sig (Elt F)) (r : Ref sig .tc) (h : r ∉ r_cols_W) :
    after (r_cols : List (HloOp τ sig (Elt F))) V (Proc.devRef .tc r) = V (Proc.devRef .tc r) :=
  after_of_writes_sub r_cols _ r_cols_writes h

/-- The buffers r_acc0's 2 operations write, in order. -/
abbrev r_acc0_W : List (Ref sig .tc) := [main_cst_10, main_v45]
set_option maxHeartbeats 4000000 in
theorem r_acc0_writes : (r_acc0 : List (HloOp τ sig (Elt F))).Forall fun op => op.writes ⊆ (r_acc0_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_acc0 does not write keeps its contents through it. -/
theorem r_acc0_keep (V : Valuation τ sig (Elt F)) (r : Ref sig .tc) (h : r ∉ r_acc0_W) :
    after (r_acc0 : List (HloOp τ sig (Elt F))) V (Proc.devRef .tc r) = V (Proc.devRef .tc r) :=
  after_of_writes_sub r_acc0 _ r_acc0_writes h

/-- The buffers r_c0's 40 operations write, in order. -/
abbrev r_c0_W : List (Ref sig .tc) := [main_c_11, main_v46, main_v47, main_c_12, main_v48, main_v49, main_v50, main_c_13, main_v51, main_v52, main_c_14, main_v53, main_v54, main_v55, main_c_15, main_v56, main_v57, main_c_16, main_v58, main_v59, main_v60, main_c_17, main_v61, main_v62, main_v63, main_v64, main_v65, main_v66, main_v67, main_v68, main_v69, main_v70, main_v71, main_v72, main_v73, main_v74, main_v75, main_v76, main_v77, main_v78]
set_option maxHeartbeats 4000000 in
theorem r_c0_writes : (r_c0 : List (HloOp τ sig (Elt F))).Forall fun op => op.writes ⊆ (r_c0_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_c0 does not write keeps its contents through it. -/
theorem r_c0_keep (V : Valuation τ sig (Elt F)) (r : Ref sig .tc) (h : r ∉ r_c0_W) :
    after (r_c0 : List (HloOp τ sig (Elt F))) V (Proc.devRef .tc r) = V (Proc.devRef .tc r) :=
  after_of_writes_sub r_c0 _ r_c0_writes h

/-- The buffers r_c1's 40 operations write, in order. -/
abbrev r_c1_W : List (Ref sig .tc) := [main_c_18, main_v79, main_v80, main_c_19, main_v81, main_v82, main_v83, main_c_20, main_v84, main_v85, main_c_21, main_v86, main_v87, main_v88, main_c_22, main_v89, main_v90, main_c_23, main_v91, main_v92, main_v93, main_c_24, main_v94, main_v95, main_v96, main_v97, main_v98, main_v99, main_v100, main_v101, main_v102, main_v103, main_v104, main_v105, main_v106, main_v107, main_v108, main_v109, main_v110, main_v111]
set_option maxHeartbeats 4000000 in
theorem r_c1_writes : (r_c1 : List (HloOp τ sig (Elt F))).Forall fun op => op.writes ⊆ (r_c1_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_c1 does not write keeps its contents through it. -/
theorem r_c1_keep (V : Valuation τ sig (Elt F)) (r : Ref sig .tc) (h : r ∉ r_c1_W) :
    after (r_c1 : List (HloOp τ sig (Elt F))) V (Proc.devRef .tc r) = V (Proc.devRef .tc r) :=
  after_of_writes_sub r_c1 _ r_c1_writes h

/-- The buffers r_c2's 40 operations write, in order. -/
abbrev r_c2_W : List (Ref sig .tc) := [main_c_25, main_v112, main_v113, main_c_26, main_v114, main_v115, main_v116, main_c_27, main_v117, main_v118, main_c_28, main_v119, main_v120, main_v121, main_c_29, main_v122, main_v123, main_c_30, main_v124, main_v125, main_v126, main_c_31, main_v127, main_v128, main_v129, main_v130, main_v131, main_v132, main_v133, main_v134, main_v135, main_v136, main_v137, main_v138, main_v139, main_v140, main_v141, main_v142, main_v143, main_v144]
set_option maxHeartbeats 4000000 in
theorem r_c2_writes : (r_c2 : List (HloOp τ sig (Elt F))).Forall fun op => op.writes ⊆ (r_c2_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_c2 does not write keeps its contents through it. -/
theorem r_c2_keep (V : Valuation τ sig (Elt F)) (r : Ref sig .tc) (h : r ∉ r_c2_W) :
    after (r_c2 : List (HloOp τ sig (Elt F))) V (Proc.devRef .tc r) = V (Proc.devRef .tc r) :=
  after_of_writes_sub r_c2 _ r_c2_writes h

/-- The buffers r_c3's 40 operations write, in order. -/
abbrev r_c3_W : List (Ref sig .tc) := [main_c_32, main_v145, main_v146, main_c_33, main_v147, main_v148, main_v149, main_c_34, main_v150, main_v151, main_c_35, main_v152, main_v153, main_v154, main_c_36, main_v155, main_v156, main_c_37, main_v157, main_v158, main_v159, main_c_38, main_v160, main_v161, main_v162, main_v163, main_v164, main_v165, main_v166, main_v167, main_v168, main_v169, main_v170, main_v171, main_v172, main_v173, main_v174, main_v175, main_v176, main_v177]
set_option maxHeartbeats 4000000 in
theorem r_c3_writes : (r_c3 : List (HloOp τ sig (Elt F))).Forall fun op => op.writes ⊆ (r_c3_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_c3 does not write keeps its contents through it. -/
theorem r_c3_keep (V : Valuation τ sig (Elt F)) (r : Ref sig .tc) (h : r ∉ r_c3_W) :
    after (r_c3 : List (HloOp τ sig (Elt F))) V (Proc.devRef .tc r) = V (Proc.devRef .tc r) :=
  after_of_writes_sub r_c3 _ r_c3_writes h

/-- The buffers r_c4's 40 operations write, in order. -/
abbrev r_c4_W : List (Ref sig .tc) := [main_c_39, main_v178, main_v179, main_c_40, main_v180, main_v181, main_v182, main_c_41, main_v183, main_v184, main_c_42, main_v185, main_v186, main_v187, main_c_43, main_v188, main_v189, main_c_44, main_v190, main_v191, main_v192, main_c_45, main_v193, main_v194, main_v195, main_v196, main_v197, main_v198, main_v199, main_v200, main_v201, main_v202, main_v203, main_v204, main_v205, main_v206, main_v207, main_v208, main_v209, main_v210]
set_option maxHeartbeats 4000000 in
theorem r_c4_writes : (r_c4 : List (HloOp τ sig (Elt F))).Forall fun op => op.writes ⊆ (r_c4_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_c4 does not write keeps its contents through it. -/
theorem r_c4_keep (V : Valuation τ sig (Elt F)) (r : Ref sig .tc) (h : r ∉ r_c4_W) :
    after (r_c4 : List (HloOp τ sig (Elt F))) V (Proc.devRef .tc r) = V (Proc.devRef .tc r) :=
  after_of_writes_sub r_c4 _ r_c4_writes h

/-- The buffers r_c5's 40 operations write, in order. -/
abbrev r_c5_W : List (Ref sig .tc) := [main_c_46, main_v211, main_v212, main_c_47, main_v213, main_v214, main_v215, main_c_48, main_v216, main_v217, main_c_49, main_v218, main_v219, main_v220, main_c_50, main_v221, main_v222, main_c_51, main_v223, main_v224, main_v225, main_c_52, main_v226, main_v227, main_v228, main_v229, main_v230, main_v231, main_v232, main_v233, main_v234, main_v235, main_v236, main_v237, main_v238, main_v239, main_v240, main_v241, main_v242, main_v243]
set_option maxHeartbeats 4000000 in
theorem r_c5_writes : (r_c5 : List (HloOp τ sig (Elt F))).Forall fun op => op.writes ⊆ (r_c5_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_c5 does not write keeps its contents through it. -/
theorem r_c5_keep (V : Valuation τ sig (Elt F)) (r : Ref sig .tc) (h : r ∉ r_c5_W) :
    after (r_c5 : List (HloOp τ sig (Elt F))) V (Proc.devRef .tc r) = V (Proc.devRef .tc r) :=
  after_of_writes_sub r_c5 _ r_c5_writes h

/-- The buffers r_c6's 40 operations write, in order. -/
abbrev r_c6_W : List (Ref sig .tc) := [main_c_53, main_v244, main_v245, main_c_54, main_v246, main_v247, main_v248, main_c_55, main_v249, main_v250, main_c_56, main_v251, main_v252, main_v253, main_c_57, main_v254, main_v255, main_c_58, main_v256, main_v257, main_v258, main_c_59, main_v259, main_v260, main_v261, main_v262, main_v263, main_v264, main_v265, main_v266, main_v267, main_v268, main_v269, main_v270, main_v271, main_v272, main_v273, main_v274, main_v275, main_v276]
set_option maxHeartbeats 4000000 in
theorem r_c6_writes : (r_c6 : List (HloOp τ sig (Elt F))).Forall fun op => op.writes ⊆ (r_c6_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_c6 does not write keeps its contents through it. -/
theorem r_c6_keep (V : Valuation τ sig (Elt F)) (r : Ref sig .tc) (h : r ∉ r_c6_W) :
    after (r_c6 : List (HloOp τ sig (Elt F))) V (Proc.devRef .tc r) = V (Proc.devRef .tc r) :=
  after_of_writes_sub r_c6 _ r_c6_writes h

/-- The buffers r_c7's 40 operations write, in order. -/
abbrev r_c7_W : List (Ref sig .tc) := [main_c_60, main_v277, main_v278, main_c_61, main_v279, main_v280, main_v281, main_c_62, main_v282, main_v283, main_c_63, main_v284, main_v285, main_v286, main_c_64, main_v287, main_v288, main_c_65, main_v289, main_v290, main_v291, main_c_66, main_v292, main_v293, main_v294, main_v295, main_v296, main_v297, main_v298, main_v299, main_v300, main_v301, main_v302, main_v303, main_v304, main_v305, main_v306, main_v307, main_v308, main_v309]
set_option maxHeartbeats 4000000 in
theorem r_c7_writes : (r_c7 : List (HloOp τ sig (Elt F))).Forall fun op => op.writes ⊆ (r_c7_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_c7 does not write keeps its contents through it. -/
theorem r_c7_keep (V : Valuation τ sig (Elt F)) (r : Ref sig .tc) (h : r ∉ r_c7_W) :
    after (r_c7 : List (HloOp τ sig (Elt F))) V (Proc.devRef .tc r) = V (Proc.devRef .tc r) :=
  after_of_writes_sub r_c7 _ r_c7_writes h

/-- The buffers r_tail's 6 operations write, in order. -/
abbrev r_tail_W : List (Ref sig .tc) := [main_cst_67, main_call1_v0, main_call1_v1, main_v310, main_cst_68, main_v311]
set_option maxHeartbeats 4000000 in
theorem r_tail_writes : (r_tail : List (HloOp τ sig (Elt F))).Forall fun op => op.writes ⊆ (r_tail_W.map (Proc.devRef (τ := τ) .tc)).toFinset := by
  simp only [List.Forall]
  exact ⟨by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide),
    by simp only [TRef.nullary, TRef.unary, TRef.binary, TRef.ternary, nullary_writes, unary_writes, binary_writes, ternary_writes, quaternary_writes, reshape_writes, binaryIndexed_writes, nary_writes, unaryIndexed_writes, Finset.singleton_subset_iff, List.mem_toFinset]; exact List.mem_map_of_mem (by decide)⟩
/-- A buffer r_tail does not write keeps its contents through it. -/
theorem r_tail_keep (V : Valuation τ sig (Elt F)) (r : Ref sig .tc) (h : r ∉ r_tail_W) :
    after (r_tail : List (HloOp τ sig (Elt F))) V (Proc.devRef .tc r) = V (Proc.devRef .tc r) :=
  after_of_writes_sub r_tail _ r_tail_writes h

end Cert.ReferenceIdeal.Hand

end
-- ==== Proof.RValueAlg.lean ====
/-
  The reference's operations read at ONE query point.  An index column is wrapped the way array indexing wraps a
  negative index; four columns laid side by side are the gather's index rows; the gather of single cells is the grid at
  the row's three words, each clamped into its axis; a unit slice of the stacked weights, flattened, is one weight; and
  one corner's forty operations add, to the running sum, the grid at the corner's cell times the product of its three
  weights.  Everything is stated over variables of the program's literal shapes and read at explicit coordinates.
-/
import proofs.«173088_j25065429139728_2_alg».proof.Proof.Gen.ReferenceIdeal
import proofs.«173088_j25065429139728_2_alg».proof.Proof.Spec
import proofs.«173088_j25065429139728_2_alg».proof.Proof.LibPointGather
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen Idealize.ShloMosaic Idealize.ShloMosaic.ValueIdx

variable {α : Type}

/-! ## Index columns -/

/-- A word broadcast from a scalar constant reads that word at every point. -/
theorem bconst_apply (c : BitVec 32) (i : S8388608.Idx) :
    broadcastInDim S8388608 ![] bcast_S_S8388608 (constantI S_ 32 c) i = c := rfl

/-- An index column wrapped: where the word is negative the axis' extent is added. -/
theorem wrapcol_apply (j : IVec S8388608 32) (E : BitVec 32) (n : Fin 8388608) :
    select (cmpi .slt j (broadcastInDim S8388608 ![] bcast_S_S8388608 (constantI S_ 32 0#32)))
        (addi j (broadcastInDim S8388608 ![] bcast_S_S8388608 (constantI S_ 32 E))) j (ix1 n)
      = Cert.Spec.wrapS (j (ix1 n)) E := rfl

/-- A column given a unit second axis reads, at `(n, 0)`, the column at `n`. -/
theorem col1_apply (c : S8388608.Idx → α) (n : Fin 8388608) (u : Fin 1) :
    broadcastInDim S8388608x1 ![0] bcast_S8388608_S8388608x1_0 c (ix2 n u) = c (ix1 n) :=
  broadcastInDim_apply _ _ c (ix2 n u) (ix1 n) fun a => by
    match a with
    | ⟨0, _⟩ =>
      show n.val = if (8388608 : Nat) = 1 then 0 else n.val
      rw [if_neg (by decide)]

/-- A column of a three-column array, cut out and flattened, reads the array at that column. -/
theorem colOf_apply (x : S8388608x3.Idx → α) (d : Nat) (hs : S8388608x3.Slices ![0, d] S8388608x1)
    (hc : S8388608x1.ShapeCasts S8388608) (n : Fin 8388608) :
    shapeCast S8388608 (extractStridedSlice S8388608x1 ![0, d] x hs) hc (ix1 n)
      = x (ix2 n ⟨d, by have := hs.2 1; exact Nat.lt_of_lt_of_le (Nat.lt_succ_self d) this⟩) := by
  refine (shapeCast_apply _ hc (ix1 n) (ix2 n (0 : Fin 1)) ?_).trans ?_
  · rw [Shape.rowMajor_val_two, Shape.rowMajor_val_one]
    show n.val * 1 + 0 = n.val
    omega
  · exact slice2_axis1_apply d x hs n 0 _ rfl

/-! ## The gather's index rows -/

/-- Four columns, each given a unit second axis, laid side by side: row `n` holds the four columns' words at `n`. -/
theorem rows_apply (c0 c1 c2 c3 : IVec S8388608 32) (n : Fin 8388608) :
    let R := concatenate S8388608x4 1
      [⟨S8388608x1, broadcastInDim S8388608x1 ![0] bcast_S8388608_S8388608x1_0 c0⟩,
       ⟨S8388608x1, broadcastInDim S8388608x1 ![0] bcast_S8388608_S8388608x1_0 c1⟩,
       ⟨S8388608x1, broadcastInDim S8388608x1 ![0] bcast_S8388608_S8388608x1_0 c2⟩,
       ⟨S8388608x1, broadcastInDim S8388608x1 ![0] bcast_S8388608_S8388608x1_0 c3⟩]
      concatenates_S8388608x1_S8388608x1_S8388608x1_S8388608x1_S8388608x4_d1
    R (ix2 n 0) = c0 (ix1 n) ∧ R (ix2 n 1) = c1 (ix1 n) ∧ R (ix2 n 2) = c2 (ix1 n) ∧ R (ix2 n 3) = c3 (ix1 n) := by
  intro R
  have off : ∀ (k : Fin 4) (b : Fin S8388608x1.rank), b.cast (rfl : S8388608x1.rank = S8388608x4.rank) ≠ 1 →
      ((ix2 n (0 : Fin 1) : S8388608x1.Idx) b).val = ((ix2 n k : S8388608x4.Idx) (b.cast rfl)).val := fun k b hb => by
    match b with
    | ⟨0, _⟩ => rfl
    | ⟨1, _⟩ => exact absurd rfl hb
  let xs : List ((s : Shape) × (s.Idx → BitVec 32)) :=
    [⟨S8388608x1, broadcastInDim S8388608x1 ![0] bcast_S8388608_S8388608x1_0 c0⟩,
     ⟨S8388608x1, broadcastInDim S8388608x1 ![0] bcast_S8388608_S8388608x1_0 c1⟩,
     ⟨S8388608x1, broadcastInDim S8388608x1 ![0] bcast_S8388608_S8388608x1_0 c2⟩,
     ⟨S8388608x1, broadcastInDim S8388608x1 ![0] bcast_S8388608_S8388608x1_0 c3⟩]
  refine ⟨?_, ?_, ?_, ?_⟩
  · exact (concatenate_apply_piece (t := S8388608x4) 1 xs concatenates_S8388608x1_S8388608x1_S8388608x1_S8388608x1_S8388608x4_d1
      (ix2 n (0 : Fin 4)) 0 (by show 0 < 4; omega) S8388608x1 _ rfl rfl 0 rfl (ix2 n (0 : Fin 1)) (off 0) rfl).trans (col1_apply c0 n 0)
  · exact (concatenate_apply_piece (t := S8388608x4) 1 xs concatenates_S8388608x1_S8388608x1_S8388608x1_S8388608x1_S8388608x4_d1
      (ix2 n (1 : Fin 4)) 1 (by show 1 < 4; omega) S8388608x1 _ rfl rfl 1 rfl (ix2 n (0 : Fin 1)) (off 1) rfl).trans (col1_apply c1 n 0)
  · exact (concatenate_apply_piece (t := S8388608x4) 1 xs concatenates_S8388608x1_S8388608x1_S8388608x1_S8388608x1_S8388608x4_d1
      (ix2 n (2 : Fin 4)) 2 (by show 2 < 4; omega) S8388608x1 _ rfl rfl 2 rfl (ix2 n (0 : Fin 1)) (off 2) rfl).trans (col1_apply c2 n 0)
  · exact (concatenate_apply_piece (t := S8388608x4) 1 xs concatenates_S8388608x1_S8388608x1_S8388608x1_S8388608x1_S8388608x4_d1
      (ix2 n (3 : Fin 4)) 3 (by show 3 < 4; omega) S8388608x1 _ rfl rfl 3 rfl (ix2 n (0 : Fin 1)) (off 3) rfl).trans (col1_apply c3 n 0)

/-! ## The weights -/

/-- A unit slice of the stacked weights, flattened, reads the stack at the slice's two offsets. -/
theorem wslice_apply (w : S8388608x3x2.Idx → α) (d a : Nat) (hs : S8388608x3x2.Slices ![0, d, a] S8388608x1x1)
    (hc : S8388608x1x1.ShapeCasts S8388608) (n : Fin 8388608) :
    shapeCast S8388608 (extractStridedSlice S8388608x1x1 ![0, d, a] w hs) hc (ix1 n)
      = w (ix3 n ⟨d, hs.2 1⟩ ⟨a, hs.2 2⟩) := by
  refine (shapeCast_apply _ hc (ix1 n) (ix3 n (0 : Fin 1) (0 : Fin 1)) ?_).trans ?_
  · rw [Shape.rowMajor_val_three, Shape.rowMajor_val_one]
    show (n.val * 1 + 0) * 1 + 0 = n.val
    omega
  · exact extractStridedSlice_apply _ w hs _ _ fun ax => by
      match ax with
      | ⟨0, _⟩ => exact (Nat.zero_add _).symm
      | ⟨1, _⟩ => rfl
      | ⟨2, _⟩ => rfl

/-- A three-column array given a unit third axis reads, at `(n, d, 0)`, the array at `(n, d)`. -/
theorem col3_apply (x : S8388608x3.Idx → α) (n : Fin 8388608) (d : Fin 3) (u : Fin 1) :
    broadcastInDim S8388608x3x1 ![0, 1] bcast_S8388608x3_S8388608x3x1_0_1 x (ix3 n d u) = x (ix2 n d) :=
  broadcastInDim_apply _ _ x (ix3 n d u) (ix2 n d) fun a => by
    match a with
    | ⟨0, _⟩ =>
      show n.val = if (8388608 : Nat) = 1 then 0 else n.val
      rw [if_neg (by decide)]
    | ⟨1, _⟩ =>
      show d.val = if (3 : Nat) = 1 then 0 else d.val
      rw [if_neg (by decide)]

/-- Two three-column arrays stacked along a new last axis: the first at position 0 … -/
theorem wstack_lo (x y : S8388608x3.Idx → α) (n : Fin 8388608) (d : Fin 3) :
    concatenate S8388608x3x2 2
        [⟨S8388608x3x1, broadcastInDim S8388608x3x1 ![0, 1] bcast_S8388608x3_S8388608x3x1_0_1 x⟩,
         ⟨S8388608x3x1, broadcastInDim S8388608x3x1 ![0, 1] bcast_S8388608x3_S8388608x3x1_0_1 y⟩]
        concatenates_S8388608x3x1_S8388608x3x1_S8388608x3x2_d2 (ix3 n d 0) = x (ix2 n d) :=
  (concatenate_pair_apply_left (t := S8388608x3x2) (s₁ := S8388608x3x1) (s₂ := S8388608x3x1) 2
    (broadcastInDim S8388608x3x1 ![0, 1] bcast_S8388608x3_S8388608x3x1_0_1 x)
    (broadcastInDim S8388608x3x1 ![0, 1] bcast_S8388608x3_S8388608x3x1_0_1 y)
    concatenates_S8388608x3x1_S8388608x3x1_S8388608x3x2_d2 (ix3 n d (0 : Fin 2)) rfl (ix3 n d (0 : Fin 1)) fun b => by
    match b with
    | ⟨0, _⟩ => rfl
    | ⟨1, _⟩ => rfl
    | ⟨2, _⟩ => rfl).trans (col3_apply x n d 0)

/-- … the second at position 1. -/
theorem wstack_hi (x y : S8388608x3.Idx → α) (n : Fin 8388608) (d : Fin 3) :
    concatenate S8388608x3x2 2
        [⟨S8388608x3x1, broadcastInDim S8388608x3x1 ![0, 1] bcast_S8388608x3_S8388608x3x1_0_1 x⟩,
         ⟨S8388608x3x1, broadcastInDim S8388608x3x1 ![0, 1] bcast_S8388608x3_S8388608x3x1_0_1 y⟩]
        concatenates_S8388608x3x1_S8388608x3x1_S8388608x3x2_d2 (ix3 n d 1) = y (ix2 n d) :=
  (concatenate_pair_apply_right (t := S8388608x3x2) (s₁ := S8388608x3x1) (s₂ := S8388608x3x1) 2
    (broadcastInDim S8388608x3x1 ![0, 1] bcast_S8388608x3_S8388608x3x1_0_1 x)
    (broadcastInDim S8388608x3x1 ![0, 1] bcast_S8388608x3_S8388608x3x1_0_1 y)
    concatenates_S8388608x3x1_S8388608x3x1_S8388608x3x2_d2 (ix3 n d (1 : Fin 2)) rfl rfl (ix3 n d (0 : Fin 1)) (fun b hb => by
    match b with
    | ⟨0, _⟩ => rfl
    | ⟨1, _⟩ => rfl
    | ⟨2, _⟩ => exact absurd rfl hb) rfl).trans (col3_apply y n d 0)

/-! ## The gather -/

/-- The program's gather reads, at point `n`, the grid at the row's first three words, each clamped into its axis (the
    grid's last axis has one cell). -/
theorem gather_cell (g : S200x200x50x1.Idx → α) (idx : IVec S8388608x4 32) (n : Fin 8388608) :
    Host.gather gather_S200x200x50x1_S8388608x4_S8388608_n_0123_n_n_0123_1_1111 g idx (ix1 n)
      = g (ix4 (Cert.Spec.clampTo 199 (idx (ix2 n 0))) (Cert.Spec.clampTo 199 (idx (ix2 n 1)))
          (Cert.Spec.clampTo 49 (idx (ix2 n 2))) (0 : Fin 1)) := by
  refine (Cert.Lib.PointGather.gather4_apply (A := 200) (B := 200) (C := 50) (D := 1) (N := 8388608)
    (by decide) (by decide) (by decide) (by decide)
    gather_S200x200x50x1_S8388608x4_S8388608_n_0123_n_n_0123_1_1111_wf g idx n).trans ?_
  refine congrArg g (funext fun e => ?_)
  match e with
  | ⟨0, _⟩ => rfl
  | ⟨1, _⟩ => rfl
  | ⟨2, _⟩ => rfl
  | ⟨3, _⟩ =>
    refine Fin.ext ?_
    show min _ (1 - 1) = 0
    omega

/-- The gather at the four columns laid side by side: the grid read at the first three columns' words. -/
theorem gather_rows (g : S200x200x50x1.Idx → EReal) (c0 c1 c2 c3 : IVec S8388608 32) (n : Fin 8388608) :
    Host.gather gather_S200x200x50x1_S8388608x4_S8388608_n_0123_n_n_0123_1_1111 g
        (concatenate S8388608x4 1
          [⟨S8388608x1, broadcastInDim S8388608x1 ![0] bcast_S8388608_S8388608x1_0 c0⟩,
           ⟨S8388608x1, broadcastInDim S8388608x1 ![0] bcast_S8388608_S8388608x1_0 c1⟩,
           ⟨S8388608x1, broadcastInDim S8388608x1 ![0] bcast_S8388608_S8388608x1_0 c2⟩,
           ⟨S8388608x1, broadcastInDim S8388608x1 ![0] bcast_S8388608_S8388608x1_0 c3⟩]
          concatenates_S8388608x1_S8388608x1_S8388608x1_S8388608x1_S8388608x4_d1) (ix1 n)
      = Cert.Spec.cellS g (c0 (ix1 n)) (c1 (ix1 n)) (c2 (ix1 n)) := by
  obtain ⟨h0, h1, h2, _⟩ := rows_apply c0 c1 c2 c3 n
  rw [gather_cell, h0, h1, h2]
  rfl

/-! ## One corner -/

/-- A running sum with one corner's contribution added: the grid at the corner's wrapped cell times the product, taken
    left to right, of its three weights. -/
def cornerSum (s : EReal) (g : S200x200x50x1.Idx → EReal) (jx jy jz : BitVec 32) (wa wb wc : EReal) : EReal :=
  s + Cert.Spec.cellS g (Cert.Spec.wrapS jx 200#32) (Cert.Spec.wrapS jy 200#32) (Cert.Spec.wrapS jz 50#32) * ((wa * wb) * wc)

/-- One corner's stretch at a point: to the running sum it adds the grid at the corner's wrapped cell times the product,
    taken left to right, of the three weights the corner picks from the stack. -/
theorem corner_apply (g : S200x200x50x1.Idx → EReal) (jx jy jz : IVec S8388608 32) (w : S8388608x3x2.Idx → EReal)
    (acc : S8388608.Idx → EReal) (a b c : Nat)
    (ha : S8388608x3x2.Slices ![0, 0, a] S8388608x1x1) (hb : S8388608x3x2.Slices ![0, 1, b] S8388608x1x1)
    (hc : S8388608x3x2.Slices ![0, 2, c] S8388608x1x1) (n : Fin 8388608) :
    (addf (F := Ideal) (s := S8388608) (φ := .f32) acc
      (mulf (F := Ideal) (s := S8388608) (φ := .f32)
        (Host.gather gather_S200x200x50x1_S8388608x4_S8388608_n_0123_n_n_0123_1_1111 g
          (concatenate S8388608x4 1
            [⟨S8388608x1, broadcastInDim S8388608x1 ![0] bcast_S8388608_S8388608x1_0
                (select (cmpi .slt jx (broadcastInDim S8388608 ![] bcast_S_S8388608 (constantI S_ 32 0#32)))
                  (addi jx (broadcastInDim S8388608 ![] bcast_S_S8388608 (constantI S_ 32 200#32))) jx)⟩,
             ⟨S8388608x1, broadcastInDim S8388608x1 ![0] bcast_S8388608_S8388608x1_0
                (select (cmpi .slt jy (broadcastInDim S8388608 ![] bcast_S_S8388608 (constantI S_ 32 0#32)))
                  (addi jy (broadcastInDim S8388608 ![] bcast_S_S8388608 (constantI S_ 32 200#32))) jy)⟩,
             ⟨S8388608x1, broadcastInDim S8388608x1 ![0] bcast_S8388608_S8388608x1_0
                (select (cmpi .slt jz (broadcastInDim S8388608 ![] bcast_S_S8388608 (constantI S_ 32 0#32)))
                  (addi jz (broadcastInDim S8388608 ![] bcast_S_S8388608 (constantI S_ 32 50#32))) jz)⟩,
             ⟨S8388608x1, broadcastInDim S8388608x1 ![0] bcast_S8388608_S8388608x1_0
                (id (broadcastInDim S8388608 ![] bcast_S_S8388608 (constantI S_ 32 0#32)))⟩]
            concatenates_S8388608x1_S8388608x1_S8388608x1_S8388608x1_S8388608x4_d1))
        (mulf (F := Ideal) (s := S8388608) (φ := .f32)
          (mulf (F := Ideal) (s := S8388608) (φ := .f32)
            (shapeCast S8388608 (extractStridedSlice S8388608x1x1 ![0, 0, a] w ha) shapeCasts_S8388608x1x1_S8388608)
            (shapeCast S8388608 (extractStridedSlice S8388608x1x1 ![0, 1, b] w hb) shapeCasts_S8388608x1x1_S8388608))
          (shapeCast S8388608 (extractStridedSlice S8388608x1x1 ![0, 2, c] w hc) shapeCasts_S8388608x1x1_S8388608))))
      (ix1 n)
    = cornerSum (acc (ix1 n)) g (jx (ix1 n)) (jy (ix1 n)) (jz (ix1 n))
        (w (ix3 n ⟨0, ha.2 1⟩ ⟨a, ha.2 2⟩)) (w (ix3 n ⟨1, hb.2 1⟩ ⟨b, hb.2 2⟩)) (w (ix3 n ⟨2, hc.2 1⟩ ⟨c, hc.2 2⟩)) := by
  rw [addf_apply, mulf_apply, mulf_apply, mulf_apply, gather_rows, wslice_apply, wslice_apply, wslice_apply]
  rfl

end Cert.ReferenceIdeal.Hand

end
-- ==== Proof.RValueSeg.lean ====
/-
  The eight corners of the reference, one stretch of forty operations each: what a stretch adds to the running sum at a
  query point, first over the contents before the stretch, then over the point's own numbers once the contents are known
  to hold them (`Ctx`), which every stretch leaves as it found them.
-/
import proofs.«173088_j25065429139728_2_alg».proof.Proof.RChunks
import proofs.«173088_j25065429139728_2_alg».proof.Proof.RValueAlg

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## A stretch over the contents before it -/

set_option maxHeartbeats 4000000 in
/-- Corner 000: the sum after its stretch, at a point, from the contents before it. -/
theorem c0_at (U : Valuation τ sig (Elt Ideal)) (n : Fin 8388608) :
    (after (r_c0 (F := Ideal)) U (Proc.devRef .tc main_v78) : S8388608.Idx → EReal) (ix1 n)
      = cornerSum ((U (Proc.devRef .tc main_v45) : S8388608.Idx → EReal) (ix1 n)) (U (Proc.devRef .tc main_arg1))
          ((U (Proc.devRef .tc main_v34) : S8388608.Idx → BitVec 32) (ix1 n))
          ((U (Proc.devRef .tc main_v38) : S8388608.Idx → BitVec 32) (ix1 n))
          ((U (Proc.devRef .tc main_v42) : S8388608.Idx → BitVec 32) (ix1 n))
          ((U (Proc.devRef .tc main_v32) : S8388608x3x2.Idx → EReal) (ix3 n 0 0))
          ((U (Proc.devRef .tc main_v32) : S8388608x3x2.Idx → EReal) (ix3 n 1 0))
          ((U (Proc.devRef .tc main_v32) : S8388608x3x2.Idx → EReal) (ix3 n 2 0)) := by
  after_results_simp
  exact corner_apply _ _ _ _ _ _ 0 0 0 _ _ _ n

set_option maxHeartbeats 4000000 in
/-- Corner 001: the sum after its stretch, at a point, from the contents before it. -/
theorem c1_at (U : Valuation τ sig (Elt Ideal)) (n : Fin 8388608) :
    (after (r_c1 (F := Ideal)) U (Proc.devRef .tc main_v111) : S8388608.Idx → EReal) (ix1 n)
      = cornerSum ((U (Proc.devRef .tc main_v78) : S8388608.Idx → EReal) (ix1 n)) (U (Proc.devRef .tc main_arg1))
          ((U (Proc.devRef .tc main_v34) : S8388608.Idx → BitVec 32) (ix1 n))
          ((U (Proc.devRef .tc main_v38) : S8388608.Idx → BitVec 32) (ix1 n))
          ((U (Proc.devRef .tc main_v44) : S8388608.Idx → BitVec 32) (ix1 n))
          ((U (Proc.devRef .tc main_v32) : S8388608x3x2.Idx → EReal) (ix3 n 0 0))
          ((U (Proc.devRef .tc main_v32) : S8388608x3x2.Idx → EReal) (ix3 n 1 0))
          ((U (Proc.devRef .tc main_v32) : S8388608x3x2.Idx → EReal) (ix3 n 2 1)) := by
  after_results_simp
  exact corner_apply _ _ _ _ _ _ 0 0 1 _ _ _ n

set_option maxHeartbeats 4000000 in
/-- Corner 010: the sum after its stretch, at a point, from the contents before it. -/
theorem c2_at (U : Valuation τ sig (Elt Ideal)) (n : Fin 8388608) :
    (after (r_c2 (F := Ideal)) U (Proc.devRef .tc main_v144) : S8388608.Idx → EReal) (ix1 n)
      = cornerSum ((U (Proc.devRef .tc main_v111) : S8388608.Idx → EReal) (ix1 n)) (U (Proc.devRef .tc main_arg1))
          ((U (Proc.devRef .tc main_v34) : S8388608.Idx → BitVec 32) (ix1 n))
          ((U (Proc.devRef .tc main_v40) : S8388608.Idx → BitVec 32) (ix1 n))
          ((U (Proc.devRef .tc main_v42) : S8388608.Idx → BitVec 32) (ix1 n))
          ((U (Proc.devRef .tc main_v32) : S8388608x3x2.Idx → EReal) (ix3 n 0 0))
          ((U (Proc.devRef .tc main_v32) : S8388608x3x2.Idx → EReal) (ix3 n 1 1))
          ((U (Proc.devRef .tc main_v32) : S8388608x3x2.Idx → EReal) (ix3 n 2 0)) := by
  after_results_simp
  exact corner_apply _ _ _ _ _ _ 0 1 0 _ _ _ n

set_option maxHeartbeats 4000000 in
/-- Corner 011: the sum after its stretch, at a point, from the contents before it. -/
theorem c3_at (U : Valuation τ sig (Elt Ideal)) (n : Fin 8388608) :
    (after (r_c3 (F := Ideal)) U (Proc.devRef .tc main_v177) : S8388608.Idx → EReal) (ix1 n)
      = cornerSum ((U (Proc.devRef .tc main_v144) : S8388608.Idx → EReal) (ix1 n)) (U (Proc.devRef .tc main_arg1))
          ((U (Proc.devRef .tc main_v34) : S8388608.Idx → BitVec 32) (ix1 n))
          ((U (Proc.devRef .tc main_v40) : S8388608.Idx → BitVec 32) (ix1 n))
          ((U (Proc.devRef .tc main_v44) : S8388608.Idx → BitVec 32) (ix1 n))
          ((U (Proc.devRef .tc main_v32) : S8388608x3x2.Idx → EReal) (ix3 n 0 0))
          ((U (Proc.devRef .tc main_v32) : S8388608x3x2.Idx → EReal) (ix3 n 1 1))
          ((U (Proc.devRef .tc main_v32) : S8388608x3x2.Idx → EReal) (ix3 n 2 1)) := by
  after_results_simp
  exact corner_apply _ _ _ _ _ _ 0 1 1 _ _ _ n

set_option maxHeartbeats 4000000 in
/-- Corner 100: the sum after its stretch, at a point, from the contents before it. -/
theorem c4_at (U : Valuation τ sig (Elt Ideal)) (n : Fin 8388608) :
    (after (r_c4 (F := Ideal)) U (Proc.devRef .tc main_v210) : S8388608.Idx → EReal) (ix1 n)
      = cornerSum ((U (Proc.devRef .tc main_v177) : S8388608.Idx → EReal) (ix1 n)) (U (Proc.devRef .tc main_arg1))
          ((U (Proc.devRef .tc main_v36) : S8388608.Idx → BitVec 32) (ix1 n))
          ((U (Proc.devRef .tc main_v38) : S8388608.Idx → BitVec 32) (ix1 n))
          ((U (Proc.devRef .tc main_v42) : S8388608.Idx → BitVec 32) (ix1 n))
          ((U (Proc.devRef .tc main_v32) : S8388608x3x2.Idx → EReal) (ix3 n 0 1))
          ((U (Proc.devRef .tc main_v32) : S8388608x3x2.Idx → EReal) (ix3 n 1 0))
          ((U (Proc.devRef .tc main_v32) : S8388608x3x2.Idx → EReal) (ix3 n 2 0)) := by
  after_results_simp
  exact corner_apply _ _ _ _ _ _ 1 0 0 _ _ _ n

set_option maxHeartbeats 4000000 in
/-- Corner 101: the sum after its stretch, at a point, from the contents before it. -/
theorem c5_at (U : Valuation τ sig (Elt Ideal)) (n : Fin 8388608) :
    (after (r_c5 (F := Ideal)) U (Proc.devRef .tc main_v243) : S8388608.Idx → EReal) (ix1 n)
      = cornerSum ((U (Proc.devRef .tc main_v210) : S8388608.Idx → EReal) (ix1 n)) (U (Proc.devRef .tc main_arg1))
          ((U (Proc.devRef .tc main_v36) : S8388608.Idx → BitVec 32) (ix1 n))
          ((U (Proc.devRef .tc main_v38) : S8388608.Idx → BitVec 32) (ix1 n))
          ((U (Proc.devRef .tc main_v44) : S8388608.Idx → BitVec 32) (ix1 n))
          ((U (Proc.devRef .tc main_v32) : S8388608x3x2.Idx → EReal) (ix3 n 0 1))
          ((U (Proc.devRef .tc main_v32) : S8388608x3x2.Idx → EReal) (ix3 n 1 0))
          ((U (Proc.devRef .tc main_v32) : S8388608x3x2.Idx → EReal) (ix3 n 2 1)) := by
  after_results_simp
  exact corner_apply _ _ _ _ _ _ 1 0 1 _ _ _ n

set_option maxHeartbeats 4000000 in
/-- Corner 110: the sum after its stretch, at a point, from the contents before it. -/
theorem c6_at (U : Valuation τ sig (Elt Ideal)) (n : Fin 8388608) :
    (after (r_c6 (F := Ideal)) U (Proc.devRef .tc main_v276) : S8388608.Idx → EReal) (ix1 n)
      = cornerSum ((U (Proc.devRef .tc main_v243) : S8388608.Idx → EReal) (ix1 n)) (U (Proc.devRef .tc main_arg1))
          ((U (Proc.devRef .tc main_v36) : S8388608.Idx → BitVec 32) (ix1 n))
          ((U (Proc.devRef .tc main_v40) : S8388608.Idx → BitVec 32) (ix1 n))
          ((U (Proc.devRef .tc main_v42) : S8388608.Idx → BitVec 32) (ix1 n))
          ((U (Proc.devRef .tc main_v32) : S8388608x3x2.Idx → EReal) (ix3 n 0 1))
          ((U (Proc.devRef .tc main_v32) : S8388608x3x2.Idx → EReal) (ix3 n 1 1))
          ((U (Proc.devRef .tc main_v32) : S8388608x3x2.Idx → EReal) (ix3 n 2 0)) := by
  after_results_simp
  exact corner_apply _ _ _ _ _ _ 1 1 0 _ _ _ n

set_option maxHeartbeats 4000000 in
/-- Corner 111: the sum after its stretch, at a point, from the contents before it. -/
theorem c7_at (U : Valuation τ sig (Elt Ideal)) (n : Fin 8388608) :
    (after (r_c7 (F := Ideal)) U (Proc.devRef .tc main_v309) : S8388608.Idx → EReal) (ix1 n)
      = cornerSum ((U (Proc.devRef .tc main_v276) : S8388608.Idx → EReal) (ix1 n)) (U (Proc.devRef .tc main_arg1))
          ((U (Proc.devRef .tc main_v36) : S8388608.Idx → BitVec 32) (ix1 n))
          ((U (Proc.devRef .tc main_v40) : S8388608.Idx → BitVec 32) (ix1 n))
          ((U (Proc.devRef .tc main_v44) : S8388608.Idx → BitVec 32) (ix1 n))
          ((U (Proc.devRef .tc main_v32) : S8388608x3x2.Idx → EReal) (ix3 n 0 1))
          ((U (Proc.devRef .tc main_v32) : S8388608x3x2.Idx → EReal) (ix3 n 1 1))
          ((U (Proc.devRef .tc main_v32) : S8388608x3x2.Idx → EReal) (ix3 n 2 1)) := by
  after_results_simp
  exact corner_apply _ _ _ _ _ _ 1 1 1 _ _ _ n

/-! ## The point's numbers in the contents -/

/-- The buffers a corner's stretch reads from before the corners, and the ones the result is stated over. -/
abbrev ctxRefs : List (Ref sig .tc) :=
  [main_arg1, main_v13, main_v18, main_v25, main_v27, main_v32, main_v34, main_v36, main_v38, main_v40, main_v42, main_v44]

/-- Contents `X` hold, at query point `n`, the grid `g`, the validity flag `va`, the lower and upper cell indices
    `i0`, `i1` and the fractions `fr` — in the arrays themselves, in the six index columns cut from them, and in the
    stacked weights. -/
structure Ctx (X : Valuation τ sig (Elt Ideal)) (n : Fin 8388608) (va : BitVec 1) (g : S200x200x50x1.Idx → EReal)
    (i0 i1 : Fin 3 → BitVec 32) (fr : Fin 3 → EReal) : Prop where
  /-- the grid -/
  grid : g = X (Proc.devRef .tc main_arg1)
  /-- the point's validity flag -/
  valid : va = (X (Proc.devRef .tc main_v13) : S8388608.Idx → BitVec 1) (ix1 n)
  /-- its lower cell indices -/
  lo : ∀ d : Fin 3, i0 d = (X (Proc.devRef .tc main_v18) : S8388608x3.Idx → BitVec 32) (ix2 n d)
  /-- its upper cell indices -/
  hi : ∀ d : Fin 3, i1 d = (X (Proc.devRef .tc main_v25) : S8388608x3.Idx → BitVec 32) (ix2 n d)
  /-- its fractions -/
  frac : ∀ d : Fin 3, fr d = (X (Proc.devRef .tc main_v27) : S8388608x3.Idx → EReal) (ix2 n d)
  /-- the lower index column of axis 0 -/
  x0 : i0 0 = (X (Proc.devRef .tc main_v34) : S8388608.Idx → BitVec 32) (ix1 n)
  /-- the upper index column of axis 0 -/
  x1 : i1 0 = (X (Proc.devRef .tc main_v36) : S8388608.Idx → BitVec 32) (ix1 n)
  /-- the lower index column of axis 1 -/
  y0 : i0 1 = (X (Proc.devRef .tc main_v38) : S8388608.Idx → BitVec 32) (ix1 n)
  /-- the upper index column of axis 1 -/
  y1 : i1 1 = (X (Proc.devRef .tc main_v40) : S8388608.Idx → BitVec 32) (ix1 n)
  /-- the lower index column of axis 2 -/
  z0 : i0 2 = (X (Proc.devRef .tc main_v42) : S8388608.Idx → BitVec 32) (ix1 n)
  /-- the upper index column of axis 2 -/
  z1 : i1 2 = (X (Proc.devRef .tc main_v44) : S8388608.Idx → BitVec 32) (ix1 n)
  /-- the stacked weights at position 0: one minus the fraction -/
  wlo : ∀ d : Fin 3, Cert.Spec.one - fr d = (X (Proc.devRef .tc main_v32) : S8388608x3x2.Idx → EReal) (ix3 n d 0)
  /-- the stacked weights at position 1: the fraction -/
  whi : ∀ d : Fin 3, fr d = (X (Proc.devRef .tc main_v32) : S8388608x3x2.Idx → EReal) (ix3 n d 1)

/-- A stretch that writes none of those buffers leaves the point's numbers where they were. -/
theorem Ctx.step {X : Valuation τ sig (Elt Ideal)} {n : Fin 8388608} {va : BitVec 1} {g : S200x200x50x1.Idx → EReal}
    {i0 i1 : Fin 3 → BitVec 32} {fr : Fin 3 → EReal} (L : List (HloOp τ sig (Elt Ideal)))
    (keep : ∀ r ∈ ctxRefs, after L X (Proc.devRef .tc r) = X (Proc.devRef .tc r))
    (h : Ctx X n va g i0 i1 fr) : Ctx (after L X) n va g i0 i1 fr where
  grid := by rw [keep main_arg1 (by decide)]; exact h.grid
  valid := by rw [keep main_v13 (by decide)]; exact h.valid
  lo d := by rw [keep main_v18 (by decide)]; exact h.lo d
  hi d := by rw [keep main_v25 (by decide)]; exact h.hi d
  frac d := by rw [keep main_v27 (by decide)]; exact h.frac d
  x0 := by rw [keep main_v34 (by decide)]; exact h.x0
  x1 := by rw [keep main_v36 (by decide)]; exact h.x1
  y0 := by rw [keep main_v38 (by decide)]; exact h.y0
  y1 := by rw [keep main_v40 (by decide)]; exact h.y1
  z0 := by rw [keep main_v42 (by decide)]; exact h.z0
  z1 := by rw [keep main_v44 (by decide)]; exact h.z1
  wlo d := by rw [keep main_v32 (by decide)]; exact h.wlo d
  whi d := by rw [keep main_v32 (by decide)]; exact h.whi d

/-- Read through the contents, the result's arguments are the point's numbers. -/
theorem Ctx.rowOut_eq {Y : Valuation τ sig (Elt Ideal)} {n : Fin 8388608} {va : BitVec 1} {g : S200x200x50x1.Idx → EReal}
    {i0 i1 : Fin 3 → BitVec 32} {fr : Fin 3 → EReal} (h : Ctx Y n va g i0 i1 fr) :
    Cert.Spec.rowOut ((Y (Proc.devRef .tc main_v13) : S8388608.Idx → BitVec 1) (ix1 n)) g
        (fun d => (Y (Proc.devRef .tc main_v18) : S8388608x3.Idx → BitVec 32) (ix2 n d))
        (fun d => (Y (Proc.devRef .tc main_v25) : S8388608x3.Idx → BitVec 32) (ix2 n d))
        (fun d => (Y (Proc.devRef .tc main_v27) : S8388608x3.Idx → EReal) (ix2 n d))
      = Cert.Spec.rowOut va g i0 i1 fr := by
  have e0 : (fun d => (Y (Proc.devRef .tc main_v18) : S8388608x3.Idx → BitVec 32) (ix2 n d)) = i0 := funext fun d => (h.lo d).symm
  have e1 : (fun d => (Y (Proc.devRef .tc main_v25) : S8388608x3.Idx → BitVec 32) (ix2 n d)) = i1 := funext fun d => (h.hi d).symm
  have e2 : (fun d => (Y (Proc.devRef .tc main_v27) : S8388608x3.Idx → EReal) (ix2 n d)) = fr := funext fun d => (h.frac d).symm
  rw [e0, e1, e2, ← h.valid]

/-! ## A stretch over the point's numbers -/

/-- Corner 000 writes none of the buffers that hold the point's numbers. -/
theorem c0_notin : ∀ r ∈ ctxRefs, r ∉ r_c0_W := by decide

/-- Corner 000 over the point's numbers: the running sum `s` becomes `s` plus the corner's term. -/
theorem c0_step {X : Valuation τ sig (Elt Ideal)} {n : Fin 8388608} {va : BitVec 1} {g : S200x200x50x1.Idx → EReal}
    {i0 i1 : Fin 3 → BitVec 32} {fr : Fin 3 → EReal} (h : Ctx X n va g i0 i1 fr) (s : EReal)
    (hs : s = (X (Proc.devRef .tc main_v45) : S8388608.Idx → EReal) (ix1 n)) :
    s + Cert.Spec.term g i0 i1 fr false false false
      = (after (r_c0 (F := Ideal)) X (Proc.devRef .tc main_v78) : S8388608.Idx → EReal) (ix1 n) := by
  rw [c0_at X n, ← hs, ← h.grid, ← h.x0, ← h.y0, ← h.z0, ← h.wlo 0, ← h.wlo 1, ← h.wlo 2]
  rfl

/-- Corner 001 writes none of the buffers that hold the point's numbers. -/
theorem c1_notin : ∀ r ∈ ctxRefs, r ∉ r_c1_W := by decide

/-- Corner 001 over the point's numbers: the running sum `s` becomes `s` plus the corner's term. -/
theorem c1_step {X : Valuation τ sig (Elt Ideal)} {n : Fin 8388608} {va : BitVec 1} {g : S200x200x50x1.Idx → EReal}
    {i0 i1 : Fin 3 → BitVec 32} {fr : Fin 3 → EReal} (h : Ctx X n va g i0 i1 fr) (s : EReal)
    (hs : s = (X (Proc.devRef .tc main_v78) : S8388608.Idx → EReal) (ix1 n)) :
    s + Cert.Spec.term g i0 i1 fr false false true
      = (after (r_c1 (F := Ideal)) X (Proc.devRef .tc main_v111) : S8388608.Idx → EReal) (ix1 n) := by
  rw [c1_at X n, ← hs, ← h.grid, ← h.x0, ← h.y0, ← h.z1, ← h.wlo 0, ← h.wlo 1, ← h.whi 2]
  rfl

/-- Corner 010 writes none of the buffers that hold the point's numbers. -/
theorem c2_notin : ∀ r ∈ ctxRefs, r ∉ r_c2_W := by decide

/-- Corner 010 over the point's numbers: the running sum `s` becomes `s` plus the corner's term. -/
theorem c2_step {X : Valuation τ sig (Elt Ideal)} {n : Fin 8388608} {va : BitVec 1} {g : S200x200x50x1.Idx → EReal}
    {i0 i1 : Fin 3 → BitVec 32} {fr : Fin 3 → EReal} (h : Ctx X n va g i0 i1 fr) (s : EReal)
    (hs : s = (X (Proc.devRef .tc main_v111) : S8388608.Idx → EReal) (ix1 n)) :
    s + Cert.Spec.term g i0 i1 fr false true false
      = (after (r_c2 (F := Ideal)) X (Proc.devRef .tc main_v144) : S8388608.Idx → EReal) (ix1 n) := by
  rw [c2_at X n, ← hs, ← h.grid, ← h.x0, ← h.y1, ← h.z0, ← h.wlo 0, ← h.whi 1, ← h.wlo 2]
  rfl

/-- Corner 011 writes none of the buffers that hold the point's numbers. -/
theorem c3_notin : ∀ r ∈ ctxRefs, r ∉ r_c3_W := by decide

/-- Corner 011 over the point's numbers: the running sum `s` becomes `s` plus the corner's term. -/
theorem c3_step {X : Valuation τ sig (Elt Ideal)} {n : Fin 8388608} {va : BitVec 1} {g : S200x200x50x1.Idx → EReal}
    {i0 i1 : Fin 3 → BitVec 32} {fr : Fin 3 → EReal} (h : Ctx X n va g i0 i1 fr) (s : EReal)
    (hs : s = (X (Proc.devRef .tc main_v144) : S8388608.Idx → EReal) (ix1 n)) :
    s + Cert.Spec.term g i0 i1 fr false true true
      = (after (r_c3 (F := Ideal)) X (Proc.devRef .tc main_v177) : S8388608.Idx → EReal) (ix1 n) := by
  rw [c3_at X n, ← hs, ← h.grid, ← h.x0, ← h.y1, ← h.z1, ← h.wlo 0, ← h.whi 1, ← h.whi 2]
  rfl

/-- Corner 100 writes none of the buffers that hold the point's numbers. -/
theorem c4_notin : ∀ r ∈ ctxRefs, r ∉ r_c4_W := by decide

/-- Corner 100 over the point's numbers: the running sum `s` becomes `s` plus the corner's term. -/
theorem c4_step {X : Valuation τ sig (Elt Ideal)} {n : Fin 8388608} {va : BitVec 1} {g : S200x200x50x1.Idx → EReal}
    {i0 i1 : Fin 3 → BitVec 32} {fr : Fin 3 → EReal} (h : Ctx X n va g i0 i1 fr) (s : EReal)
    (hs : s = (X (Proc.devRef .tc main_v177) : S8388608.Idx → EReal) (ix1 n)) :
    s + Cert.Spec.term g i0 i1 fr true false false
      = (after (r_c4 (F := Ideal)) X (Proc.devRef .tc main_v210) : S8388608.Idx → EReal) (ix1 n) := by
  rw [c4_at X n, ← hs, ← h.grid, ← h.x1, ← h.y0, ← h.z0, ← h.whi 0, ← h.wlo 1, ← h.wlo 2]
  rfl

/-- Corner 101 writes none of the buffers that hold the point's numbers. -/
theorem c5_notin : ∀ r ∈ ctxRefs, r ∉ r_c5_W := by decide

/-- Corner 101 over the point's numbers: the running sum `s` becomes `s` plus the corner's term. -/
theorem c5_step {X : Valuation τ sig (Elt Ideal)} {n : Fin 8388608} {va : BitVec 1} {g : S200x200x50x1.Idx → EReal}
    {i0 i1 : Fin 3 → BitVec 32} {fr : Fin 3 → EReal} (h : Ctx X n va g i0 i1 fr) (s : EReal)
    (hs : s = (X (Proc.devRef .tc main_v210) : S8388608.Idx → EReal) (ix1 n)) :
    s + Cert.Spec.term g i0 i1 fr true false true
      = (after (r_c5 (F := Ideal)) X (Proc.devRef .tc main_v243) : S8388608.Idx → EReal) (ix1 n) := by
  rw [c5_at X n, ← hs, ← h.grid, ← h.x1, ← h.y0, ← h.z1, ← h.whi 0, ← h.wlo 1, ← h.whi 2]
  rfl

/-- Corner 110 writes none of the buffers that hold the point's numbers. -/
theorem c6_notin : ∀ r ∈ ctxRefs, r ∉ r_c6_W := by decide

/-- Corner 110 over the point's numbers: the running sum `s` becomes `s` plus the corner's term. -/
theorem c6_step {X : Valuation τ sig (Elt Ideal)} {n : Fin 8388608} {va : BitVec 1} {g : S200x200x50x1.Idx → EReal}
    {i0 i1 : Fin 3 → BitVec 32} {fr : Fin 3 → EReal} (h : Ctx X n va g i0 i1 fr) (s : EReal)
    (hs : s = (X (Proc.devRef .tc main_v243) : S8388608.Idx → EReal) (ix1 n)) :
    s + Cert.Spec.term g i0 i1 fr true true false
      = (after (r_c6 (F := Ideal)) X (Proc.devRef .tc main_v276) : S8388608.Idx → EReal) (ix1 n) := by
  rw [c6_at X n, ← hs, ← h.grid, ← h.x1, ← h.y1, ← h.z0, ← h.whi 0, ← h.whi 1, ← h.wlo 2]
  rfl

/-- Corner 111 writes none of the buffers that hold the point's numbers. -/
theorem c7_notin : ∀ r ∈ ctxRefs, r ∉ r_c7_W := by decide

/-- Corner 111 over the point's numbers: the running sum `s` becomes `s` plus the corner's term. -/
theorem c7_step {X : Valuation τ sig (Elt Ideal)} {n : Fin 8388608} {va : BitVec 1} {g : S200x200x50x1.Idx → EReal}
    {i0 i1 : Fin 3 → BitVec 32} {fr : Fin 3 → EReal} (h : Ctx X n va g i0 i1 fr) (s : EReal)
    (hs : s = (X (Proc.devRef .tc main_v276) : S8388608.Idx → EReal) (ix1 n)) :
    s + Cert.Spec.term g i0 i1 fr true true true
      = (after (r_c7 (F := Ideal)) X (Proc.devRef .tc main_v309) : S8388608.Idx → EReal) (ix1 n) := by
  rw [c7_at X n, ← hs, ← h.grid, ← h.x1, ← h.y1, ← h.z1, ← h.whi 0, ← h.whi 1, ← h.whi 2]
  rfl

end Cert.ReferenceIdeal.Hand

end
-- ==== Proof.RValueHead.lean ====
/- The head and the tail of the reference's value, read one entry at a time.
   Between the shared first lines and the eight corner stretches the reference prepares, per query point `n` and axis
   `d`, the two weights of the axis — the array of shape [N, 3, 2] whose slot 0 is one minus the fraction and whose slot 1
   is the fraction (a subtraction from a broadcast one, two casts to [N, 3, 1] and their concatenation along the last
   axis) —, the six columns of the two cell-index arrays (a one-column slice reshaped [N, 1] → [N]), and the zero
   accumulator. After the corners it selects, point by point, the sum where the validity flag is set and zero
   elsewhere, and returns a second array of zeros. Each statement is over an arbitrary valuation of the buffers before
   the stretch: the fold of the stretch's operations at the result buffer, at one index, is the stated scalar. -/
import proofs.«173088_j25065429139728_2_alg».proof.Proof.RChunks
import proofs.«173088_j25065429139728_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-! ## The weights -/

/-- The lower weight: slot 0 of the concatenation is the cast of one minus the fraction. -/
theorem w_lo_at (U : Valuation τ sig (Elt Ideal)) (n : Fin 8388608) (d : Fin 3) :
    (after r_w U (Proc.devRef .tc main_v32) : S8388608x3x2.Idx → EReal) (ix3 n d 0)
      = Cert.Spec.one - (U (Proc.devRef .tc main_v27) : S8388608x3.Idx → EReal) (ix2 n d) := by
  simp only [r_w]
  after_results
  refine (concatenate_pair_apply_left (t := S8388608x3x2) (s₁ := S8388608x3x1) (s₂ := S8388608x3x1) _ _ _ _ (ix3 n d (0 : Fin 2)) rfl (ix3 n d (0 : Fin 1)) (fun b => ?_)).trans ?_
  · match b with
    | ⟨0, _⟩ => rfl
    | ⟨1, _⟩ => rfl
    | ⟨2, _⟩ => rfl
  refine (broadcastInDim_apply _ _ _ (ix3 n d (0 : Fin 1)) (ix2 n d) (fun a => ?_)).trans ?_
  · match a with
    | ⟨0, _⟩ => rfl
    | ⟨1, _⟩ => rfl
  rw [subf_apply]
  exact congrArg (fun x : EReal => x - (U (Proc.devRef .tc main_v27) : S8388608x3.Idx → EReal) (ix2 n d))
    ((broadcastInDim_apply _ _ _ (ix2 n d) ix0 (fun a => a.elim0)).trans rfl)

/-- The upper weight: slot 1 of the concatenation is the cast of the fraction. -/
theorem w_hi_at (U : Valuation τ sig (Elt Ideal)) (n : Fin 8388608) (d : Fin 3) :
    (after r_w U (Proc.devRef .tc main_v32) : S8388608x3x2.Idx → EReal) (ix3 n d 1)
      = (U (Proc.devRef .tc main_v27) : S8388608x3.Idx → EReal) (ix2 n d) := by
  simp only [r_w]
  after_results
  refine (concatenate_pair_apply_right (t := S8388608x3x2) (s₁ := S8388608x3x1) (s₂ := S8388608x3x1) _ _ _ _ (ix3 n d (1 : Fin 2)) rfl rfl (ix3 n d (0 : Fin 1)) (fun b hb => ?_) ?_).trans ?_
  · match b, hb with
    | ⟨0, _⟩, _ => rfl
    | ⟨1, _⟩, _ => rfl
    | ⟨2, _⟩, hb => exact absurd rfl hb
  · rfl
  refine (broadcastInDim_apply _ _ _ (ix3 n d (0 : Fin 1)) (ix2 n d) (fun a => ?_)).trans rfl
  match a with
  | ⟨0, _⟩ => rfl
  | ⟨1, _⟩ => rfl

/-! ## The six columns of the cell indices -/

/-- Column 0 of the lower cell indices: the slice's unit column dropped, entry `n` is row `n`'s entry 0. -/
theorem col34_at (U : Valuation τ sig (Elt Ideal)) (n : Fin 8388608) :
    (after r_cols U (Proc.devRef .tc main_v34) : S8388608.Idx → BitVec 32) (ix1 n)
      = (U (Proc.devRef .tc main_v18) : S8388608x3.Idx → BitVec 32) (ix2 n 0) := by
  simp only [r_cols]
  after_results
  show shapeCast S8388608 (extractStridedSlice S8388608x1 ![0, 0] (U (Proc.devRef .tc main_v18) : S8388608x3.Idx → BitVec 32)
    slices_S8388608x3_S8388608x1_0_0) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 0 _ _ n (0 : Fin 1) (0 : Fin 3) rfl

/-- Column 0 of the upper cell indices: the slice's unit column dropped, entry `n` is row `n`'s entry 0. -/
theorem col36_at (U : Valuation τ sig (Elt Ideal)) (n : Fin 8388608) :
    (after r_cols U (Proc.devRef .tc main_v36) : S8388608.Idx → BitVec 32) (ix1 n)
      = (U (Proc.devRef .tc main_v25) : S8388608x3.Idx → BitVec 32) (ix2 n 0) := by
  simp only [r_cols]
  after_results
  show shapeCast S8388608 (extractStridedSlice S8388608x1 ![0, 0] (U (Proc.devRef .tc main_v25) : S8388608x3.Idx → BitVec 32)
    slices_S8388608x3_S8388608x1_0_0) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 0 _ _ n (0 : Fin 1) (0 : Fin 3) rfl

/-- Column 1 of the lower cell indices: the slice's unit column dropped, entry `n` is row `n`'s entry 1. -/
theorem col38_at (U : Valuation τ sig (Elt Ideal)) (n : Fin 8388608) :
    (after r_cols U (Proc.devRef .tc main_v38) : S8388608.Idx → BitVec 32) (ix1 n)
      = (U (Proc.devRef .tc main_v18) : S8388608x3.Idx → BitVec 32) (ix2 n 1) := by
  simp only [r_cols]
  after_results
  show shapeCast S8388608 (extractStridedSlice S8388608x1 ![0, 1] (U (Proc.devRef .tc main_v18) : S8388608x3.Idx → BitVec 32)
    slices_S8388608x3_S8388608x1_0_1) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 1 _ _ n (0 : Fin 1) (1 : Fin 3) rfl

/-- Column 1 of the upper cell indices: the slice's unit column dropped, entry `n` is row `n`'s entry 1. -/
theorem col40_at (U : Valuation τ sig (Elt Ideal)) (n : Fin 8388608) :
    (after r_cols U (Proc.devRef .tc main_v40) : S8388608.Idx → BitVec 32) (ix1 n)
      = (U (Proc.devRef .tc main_v25) : S8388608x3.Idx → BitVec 32) (ix2 n 1) := by
  simp only [r_cols]
  after_results
  show shapeCast S8388608 (extractStridedSlice S8388608x1 ![0, 1] (U (Proc.devRef .tc main_v25) : S8388608x3.Idx → BitVec 32)
    slices_S8388608x3_S8388608x1_0_1) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 1 _ _ n (0 : Fin 1) (1 : Fin 3) rfl

/-- Column 2 of the lower cell indices: the slice's unit column dropped, entry `n` is row `n`'s entry 2. -/
theorem col42_at (U : Valuation τ sig (Elt Ideal)) (n : Fin 8388608) :
    (after r_cols U (Proc.devRef .tc main_v42) : S8388608.Idx → BitVec 32) (ix1 n)
      = (U (Proc.devRef .tc main_v18) : S8388608x3.Idx → BitVec 32) (ix2 n 2) := by
  simp only [r_cols]
  after_results
  show shapeCast S8388608 (extractStridedSlice S8388608x1 ![0, 2] (U (Proc.devRef .tc main_v18) : S8388608x3.Idx → BitVec 32)
    slices_S8388608x3_S8388608x1_0_2) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 2 _ _ n (0 : Fin 1) (2 : Fin 3) rfl

/-- Column 2 of the upper cell indices: the slice's unit column dropped, entry `n` is row `n`'s entry 2. -/
theorem col44_at (U : Valuation τ sig (Elt Ideal)) (n : Fin 8388608) :
    (after r_cols U (Proc.devRef .tc main_v44) : S8388608.Idx → BitVec 32) (ix1 n)
      = (U (Proc.devRef .tc main_v25) : S8388608x3.Idx → BitVec 32) (ix2 n 2) := by
  simp only [r_cols]
  after_results
  show shapeCast S8388608 (extractStridedSlice S8388608x1 ![0, 2] (U (Proc.devRef .tc main_v25) : S8388608x3.Idx → BitVec 32)
    slices_S8388608x3_S8388608x1_0_2) shapeCasts_S8388608x1_S8388608 (ix1 n) = _
  refine (shapeCast_apply _ _ (ix1 n) (ix2 n (0 : Fin 1)) ?_).trans ?_
  · rw [Shape.rowMajor_val_two, Shape.rowMajor_val_one]
    show n.val * 1 + 0 = n.val
    omega
  exact slice2_axis1_apply 2 _ _ n (0 : Fin 1) (2 : Fin 3) rfl

/-! ## The accumulator's start, and the tail -/

/-- The accumulator starts at zero. -/
theorem acc0_at (U : Valuation τ sig (Elt Ideal)) (n : Fin 8388608) :
    (after r_acc0 U (Proc.devRef .tc main_v45) : S8388608.Idx → EReal) (ix1 n) = Cert.Spec.zero := by
  simp only [r_acc0]
  after_results
  exact (broadcastInDim_apply _ _ _ (ix1 n) ix0 (fun a => a.elim0)).trans rfl

/-- The first result: the sum where the point is valid, zero where it is not. -/
theorem tail_at (U : Valuation τ sig (Elt Ideal)) (n : Fin 8388608) :
    (after r_tail U (Proc.devRef .tc main_v310) : S8388608.Idx → EReal) (ix1 n)
      = Scalar.select ((U (Proc.devRef .tc main_v13) : S8388608.Idx → BitVec 1) (ix1 n))
          ((U (Proc.devRef .tc main_v309) : S8388608.Idx → EReal) (ix1 n)) Cert.Spec.zero := by
  simp only [r_tail]
  after_results
  show Scalar.select ((U (Proc.devRef .tc main_v13) : S8388608.Idx → BitVec 1) (ix1 n))
    ((U (Proc.devRef .tc main_v309) : S8388608.Idx → EReal) (ix1 n))
    (broadcastInDim S8388608 ![] bcast_S_S8388608 (constant (F := Ideal) S_ .f32 0x00000000#32) (ix1 n)) = _
  exact congrArg (Scalar.select _ _) ((broadcastInDim_apply _ _ _ (ix1 n) ix0 (fun a => a.elim0)).trans rfl)

/-- The second result: zero everywhere. -/
theorem tail_zeros (U : Valuation τ sig (Elt Ideal)) :
    (after r_tail U (Proc.devRef .tc main_v311) : S8388608.Idx → EReal) = Cert.Spec.zeros := by
  simp only [r_tail]
  after_results
  funext j
  exact (broadcastInDim_apply _ _ _ j ix0 (fun a => a.elim0)).trans rfl

end Cert.ReferenceIdeal.Hand

end
-- ==== Proof.RValue.lean ====
/-
  The reference's two results at the ideal instance: the first, read at a query point, is the specification's
  expression of the point's validity flag, clamped cell indices and fractions — as the program's own buffers hold them —
  and of the grid; the second is zero everywhere.  The program's operations are run piece by piece: the pieces before
  the corners put the point's numbers in the buffers the corners read, each corner adds its term to the running sum and
  leaves those buffers alone, and the tail selects the sum or zero by the validity flag.
-/
import proofs.«173088_j25065429139728_2_alg».proof.Proof.RValueSeg
import proofs.«173088_j25065429139728_2_alg».proof.Proof.RValueHead
import Idealize.ShloMosaic.Lib.Pipeline.Frame

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-! ## The whole stretch, piece by piece -/

/-- The contents before the eight corners. -/
abbrev before (W : Valuation τ sig (Elt Ideal)) : Valuation τ sig (Elt Ideal) :=
  after (r_acc0 (F := Ideal)) (after (r_cols (F := Ideal)) (after (r_w (F := Ideal)) (after (r_pre (F := Ideal)) (after (r_clip (F := Ideal)) (after (r_head (F := Ideal)) (W))))))

/-- The contents after the eight corners. -/
abbrev corners (X : Valuation τ sig (Elt Ideal)) : Valuation τ sig (Elt Ideal) :=
  after (r_c7 (F := Ideal)) (after (r_c6 (F := Ideal)) (after (r_c5 (F := Ideal)) (after (r_c4 (F := Ideal)) (after (r_c3 (F := Ideal)) (after (r_c2 (F := Ideal)) (after (r_c1 (F := Ideal)) (after (r_c0 (F := Ideal)) (X))))))))

/-- Running the whole stretch is running its pieces in turn. -/
theorem ops_after (W : Valuation τ sig (Elt Ideal)) :
    after (ops (F := Ideal)) W = after (r_tail (F := Ideal)) (corners (before W)) := by
  rw [ops_split]
  simp only [StableHlo.after_append, before, corners]

/-- The tail writes none of the buffers that hold the point's numbers. -/
theorem tail_notin : ∀ r ∈ ctxRefs, r ∉ r_tail_W := by decide

/-! ## The eight corners and the tail, over the point's numbers -/

/-- From contents that hold the point's numbers and a zero running sum, the corners and the masked select leave the
    point's result; and the numbers are still where they were. -/
theorem value_core {X : Valuation τ sig (Elt Ideal)} {n : Fin 8388608} {va : BitVec 1} {g : S200x200x50x1.Idx → EReal}
    {i0 i1 : Fin 3 → BitVec 32} {fr : Fin 3 → EReal} (h : Ctx X n va g i0 i1 fr)
    (hz : Cert.Spec.zero = (X (Proc.devRef .tc main_v45) : S8388608.Idx → EReal) (ix1 n)) :
    Cert.Spec.rowOut va g i0 i1 fr
        = (after (r_tail (F := Ideal)) (corners X) (Proc.devRef .tc main_v310) : S8388608.Idx → EReal) (ix1 n)
      ∧ Ctx (after (r_tail (F := Ideal)) (corners X)) n va g i0 i1 fr := by
  unfold corners
  have h1 := h.step r_c0 fun r hr => r_c0_keep X r (c0_notin r hr)
  have e1 := c0_step h _ hz
  have h2 := h1.step r_c1 fun r hr => r_c1_keep _ r (c1_notin r hr)
  have e2 := c1_step h1 _ e1
  have h3 := h2.step r_c2 fun r hr => r_c2_keep _ r (c2_notin r hr)
  have e3 := c2_step h2 _ e2
  have h4 := h3.step r_c3 fun r hr => r_c3_keep _ r (c3_notin r hr)
  have e4 := c3_step h3 _ e3
  have h5 := h4.step r_c4 fun r hr => r_c4_keep _ r (c4_notin r hr)
  have e5 := c4_step h4 _ e4
  have h6 := h5.step r_c5 fun r hr => r_c5_keep _ r (c5_notin r hr)
  have e6 := c5_step h5 _ e5
  have h7 := h6.step r_c6 fun r hr => r_c6_keep _ r (c6_notin r hr)
  have e7 := c6_step h6 _ e6
  have h8 := h7.step r_c7 fun r hr => r_c7_keep _ r (c7_notin r hr)
  have e8 := c7_step h7 _ e7
  have h9 := h8.step r_tail fun r hr => r_tail_keep _ r (tail_notin r hr)
  refine ⟨?_, h9⟩
  rw [tail_at, ← h8.valid, ← e8]
  have z : Cert.Spec.zero + Cert.Spec.term g i0 i1 fr false false false = Cert.Spec.term g i0 i1 fr false false false := by
    rw [show Cert.Spec.zero = (0 : EReal) from Ideal.ofBits_zero_f32, zero_add]
  rw [z]
  rfl

/-! ## The contents before the corners hold the point's numbers -/

/-- Before the corners the contents hold, at point `n`, the numbers read off their own arrays. -/
theorem before_ctx (W : Valuation τ sig (Elt Ideal)) (n : Fin 8388608) :
    Ctx (before W) n ((before W (Proc.devRef .tc main_v13) : S8388608.Idx → BitVec 1) (ix1 n)) (W (Proc.devRef .tc main_arg1))
      (fun d => (before W (Proc.devRef .tc main_v18) : S8388608x3.Idx → BitVec 32) (ix2 n d))
      (fun d => (before W (Proc.devRef .tc main_v25) : S8388608x3.Idx → BitVec 32) (ix2 n d))
      (fun d => (before W (Proc.devRef .tc main_v27) : S8388608x3.Idx → EReal) (ix2 n d)) where
  grid := by
    unfold before
    rw [r_acc0_keep _ main_arg1 (by decide), r_cols_keep _ main_arg1 (by decide), r_w_keep _ main_arg1 (by decide),
      r_pre_keep _ main_arg1 (by decide), r_clip_keep _ main_arg1 (by decide), r_head_keep _ main_arg1 (by decide)]
  valid := rfl
  lo _ := rfl
  hi _ := rfl
  frac _ := rfl
  x0 := by
    unfold before
    rw [r_acc0_keep _ main_v34 (by decide), col34_at, r_acc0_keep _ main_v18 (by decide), r_cols_keep _ main_v18 (by decide)]
  x1 := by
    unfold before
    rw [r_acc0_keep _ main_v36 (by decide), col36_at, r_acc0_keep _ main_v25 (by decide), r_cols_keep _ main_v25 (by decide)]
  y0 := by
    unfold before
    rw [r_acc0_keep _ main_v38 (by decide), col38_at, r_acc0_keep _ main_v18 (by decide), r_cols_keep _ main_v18 (by decide)]
  y1 := by
    unfold before
    rw [r_acc0_keep _ main_v40 (by decide), col40_at, r_acc0_keep _ main_v25 (by decide), r_cols_keep _ main_v25 (by decide)]
  z0 := by
    unfold before
    rw [r_acc0_keep _ main_v42 (by decide), col42_at, r_acc0_keep _ main_v18 (by decide), r_cols_keep _ main_v18 (by decide)]
  z1 := by
    unfold before
    rw [r_acc0_keep _ main_v44 (by decide), col44_at, r_acc0_keep _ main_v25 (by decide), r_cols_keep _ main_v25 (by decide)]
  wlo d := by
    unfold before
    rw [r_acc0_keep _ main_v32 (by decide), r_cols_keep _ main_v32 (by decide), w_lo_at,
      r_acc0_keep _ main_v27 (by decide), r_cols_keep _ main_v27 (by decide), r_w_keep _ main_v27 (by decide)]
  whi d := by
    unfold before
    rw [r_acc0_keep _ main_v32 (by decide), r_cols_keep _ main_v32 (by decide), w_hi_at,
      r_acc0_keep _ main_v27 (by decide), r_cols_keep _ main_v27 (by decide), r_w_keep _ main_v27 (by decide)]

/-! ## The two results -/

/-- THE REFERENCE'S RESULT AT A POINT: the specification's expression of the point's validity flag, cell indices and
    fractions as the program's own buffers hold them, and of the grid. -/
theorem value_at (W : Valuation τ sig (Elt Ideal)) (n : Fin 8388608) :
    (StableHlo.after ops W (Proc.devRef .tc main_v310) : S8388608.Idx → EReal) (ix1 n)
      = Cert.Spec.rowOut ((StableHlo.after ops W (Proc.devRef .tc main_v13) : S8388608.Idx → BitVec 1) (ix1 n)) (W (Proc.devRef .tc main_arg1))
          (fun d => (StableHlo.after ops W (Proc.devRef .tc main_v18) : S8388608x3.Idx → BitVec 32) (ix2 n d))
          (fun d => (StableHlo.after ops W (Proc.devRef .tc main_v25) : S8388608x3.Idx → BitVec 32) (ix2 n d))
          (fun d => (StableHlo.after ops W (Proc.devRef .tc main_v27) : S8388608x3.Idx → EReal) (ix2 n d)) := by
  rw [ops_after]
  obtain ⟨e, h9⟩ := value_core (before_ctx W n) (acc0_at _ n).symm
  rw [h9.rowOut_eq]
  exact e.symm

/-- THE REFERENCE'S OTHER RESULT: zero everywhere. -/
theorem zeros_eq (W : Valuation τ sig (Elt Ideal)) :
    (StableHlo.after ops W (Proc.devRef .tc main_v311) : S8388608.Idx → EReal) = Cert.Spec.zeros := by
  rw [ops_after]
  exact tail_zeros _

end Cert.ReferenceIdeal.Hand

end
-- ==== Proof.Bridge.lean ====
/-
  The two idealized programs begin with the same lines: from the query points `x` they compute the fractional cell index
  `(x − lower) · 25`, the validity flag (every coordinate of it between 0 and the last cell), the lower cell index
  (its floor, converted and clamped into the grid), the upper one (the lower plus one, clamped) and the fraction (the
  index minus its floor).  Here: from memories that agree on `x`, the buffers holding those four arrays agree across the
  two programs once each has run its host operations — they are the same composition of the same operations of `x`,
  and nothing later overwrites them.
-/
import proofs.«173088_j25065429139728_2_alg».proof.Proof.KDefs
import proofs.«173088_j25065429139728_2_alg».proof.Proof.KChunks
import proofs.«173088_j25065429139728_2_alg».proof.Proof.RChunks
import proofs.«173088_j25065429139728_2_alg».proof.Proof.Spec

set_option maxRecDepth 16384

noncomputable section

namespace Cert.Bridge

open Idealize.ShloMosaic Idealize.ShloMosaic.TcCoe Idealize.SL.Sem Idealize.ShloMosaic.StableHlo
open Cert.Spec (SN SN3 SG4)

/-- Buffer contents of the idealized kernel program, and of the idealized reference. -/
abbrev KVal := Valuation Cert.KernelIdeal.τ Cert.KernelIdeal.sig (Elt Ideal)
abbrev RVal := Valuation Cert.ReferenceIdeal.τ Cert.ReferenceIdeal.sig (Elt Ideal)

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

/-! ## The literal tables: the same three tables, numbered differently by the two programs -/

/-- The lower corner of the grid's extent. -/
theorem lit_lower : Cert.ReferenceIdeal.lit2 = Cert.KernelIdeal.lit0 := by funext i; fin_cases i <;> rfl
/-- The grid's size, as integers. -/
theorem lit_size : Cert.ReferenceIdeal.lit0 = Cert.KernelIdeal.lit1 := by funext i; fin_cases i <;> rfl
/-- The grid's size, as floats. -/
theorem lit_sizef : Cert.ReferenceIdeal.lit1 = Cert.KernelIdeal.lit2 := by funext i; fin_cases i <;> rfl

/-! ## The shared lines, evaluated on both sides -/

set_option maxHeartbeats 4000000 in
/-- The validity flags: the same operations of the query points in both programs. -/
theorem head_v13 (Vk : KVal) (Vr : RVal)
    (h0 : (Vr (rref Cert.ReferenceIdeal.main_arg0) : SN3.Idx → EReal) = Vk (kref Cert.KernelIdeal.main_arg0)) :
    ((after Cert.ReferenceIdeal.Hand.r_head Vr) (rref Cert.ReferenceIdeal.main_v13) : SN.Idx → BitVec 1)
      = (after Cert.KernelIdeal.Gen.hostOps0 Vk) (kref Cert.KernelIdeal.main_v13) := by
  simp only [Cert.ReferenceIdeal.Hand.r_head, Cert.KernelIdeal.Gen.hostOps0]
  after_results_simp
  rw [h0]
  try simp only [lit_lower, lit_size, lit_sizef]
  rfl

set_option maxHeartbeats 4000000 in
/-- The lower cell indices, after the clamp. -/
theorem clip_v18 (Vk : KVal) (Vr : RVal)
    (h0 : (Vr (rref Cert.ReferenceIdeal.main_arg0) : SN3.Idx → EReal) = Vk (kref Cert.KernelIdeal.main_arg0)) :
    ((after Cert.ReferenceIdeal.Hand.r_clip (after Cert.ReferenceIdeal.Hand.r_head Vr)) (rref Cert.ReferenceIdeal.main_v18) : SN3.Idx → BitVec 32)
      = (after Cert.KernelIdeal.Gen.hostOps0_1 (after Cert.KernelIdeal.Gen.hostOps0 Vk)) (kref Cert.KernelIdeal.main_v18) := by
  simp only [Cert.ReferenceIdeal.Hand.r_head, Cert.ReferenceIdeal.Hand.r_clip, Cert.KernelIdeal.Gen.hostOps0, Cert.KernelIdeal.Gen.hostOps0_1]
  after_results_simp
  rw [h0]
  try simp only [lit_lower, lit_size, lit_sizef]
  rfl

set_option maxHeartbeats 4000000 in
/-- The upper cell indices. -/
theorem pre_v25 (Vk : KVal) (Vr : RVal)
    (h0 : (Vr (rref Cert.ReferenceIdeal.main_arg0) : SN3.Idx → EReal) = Vk (kref Cert.KernelIdeal.main_arg0)) :
    ((after Cert.ReferenceIdeal.Hand.r_pre (after Cert.ReferenceIdeal.Hand.r_clip (after Cert.ReferenceIdeal.Hand.r_head Vr))) (rref Cert.ReferenceIdeal.main_v25) : SN3.Idx → BitVec 32)
      = (after Cert.KernelIdeal.Hand.k_pre (after Cert.KernelIdeal.Gen.hostOps0_1 (after Cert.KernelIdeal.Gen.hostOps0 Vk))) (kref Cert.KernelIdeal.main_v25) := by
  simp only [Cert.ReferenceIdeal.Hand.r_head, Cert.ReferenceIdeal.Hand.r_clip, Cert.ReferenceIdeal.Hand.r_pre, Cert.KernelIdeal.Gen.hostOps0, Cert.KernelIdeal.Gen.hostOps0_1, Cert.KernelIdeal.Hand.k_pre]
  after_results_simp
  rw [h0]
  try simp only [lit_lower, lit_size, lit_sizef]
  rfl

set_option maxHeartbeats 4000000 in
/-- The fractions. -/
theorem pre_v27 (Vk : KVal) (Vr : RVal)
    (h0 : (Vr (rref Cert.ReferenceIdeal.main_arg0) : SN3.Idx → EReal) = Vk (kref Cert.KernelIdeal.main_arg0)) :
    ((after Cert.ReferenceIdeal.Hand.r_pre (after Cert.ReferenceIdeal.Hand.r_clip (after Cert.ReferenceIdeal.Hand.r_head Vr))) (rref Cert.ReferenceIdeal.main_v27) : SN3.Idx → EReal)
      = (after Cert.KernelIdeal.Hand.k_pre (after Cert.KernelIdeal.Gen.hostOps0_1 (after Cert.KernelIdeal.Gen.hostOps0 Vk))) (kref Cert.KernelIdeal.main_v27) := by
  simp only [Cert.ReferenceIdeal.Hand.r_head, Cert.ReferenceIdeal.Hand.r_clip, Cert.ReferenceIdeal.Hand.r_pre, Cert.KernelIdeal.Gen.hostOps0, Cert.KernelIdeal.Gen.hostOps0_1, Cert.KernelIdeal.Hand.k_pre]
  after_results_simp
  rw [h0]
  try simp only [lit_lower, lit_size, lit_sizef]
  rfl

/-! ## Each program's final contents of those buffers are the shared lines' -/

/-- The kernel program's host operations before its region, piece by piece. -/
theorem kV_eq (Vk : KVal) : after (List.flatten [Cert.KernelIdeal.Gen.hostOps0, Cert.KernelIdeal.Gen.hostOps0_1, Cert.KernelIdeal.Gen.hostOps0_2]) Vk
    = after Cert.KernelIdeal.Hand.k_lay (after Cert.KernelIdeal.Hand.k_c7 (after Cert.KernelIdeal.Hand.k_c6 (after Cert.KernelIdeal.Hand.k_c5 (after Cert.KernelIdeal.Hand.k_c4 (after Cert.KernelIdeal.Hand.k_c3 (after Cert.KernelIdeal.Hand.k_c2 (after Cert.KernelIdeal.Hand.k_c1 (after Cert.KernelIdeal.Hand.k_c0 (after Cert.KernelIdeal.Hand.k_cols (after Cert.KernelIdeal.Hand.k_pre (after Cert.KernelIdeal.Gen.hostOps0_1 (after Cert.KernelIdeal.Gen.hostOps0 Vk)))))))))))) := by
  show after (Cert.KernelIdeal.Gen.hostOps0 ++ (Cert.KernelIdeal.Gen.hostOps0_1 ++ (Cert.KernelIdeal.Gen.hostOps0_2 ++ []))) Vk = _
  rw [List.append_nil, Cert.KernelIdeal.Hand.hostOps0_2_split]
  simp only [StableHlo.after_append]

/-- The reference's host operations, piece by piece. -/
theorem rV_eq (Vr : RVal) : after Cert.ReferenceIdeal.Hand.ops Vr = after Cert.ReferenceIdeal.Hand.r_tail (after Cert.ReferenceIdeal.Hand.r_c7 (after Cert.ReferenceIdeal.Hand.r_c6 (after Cert.ReferenceIdeal.Hand.r_c5 (after Cert.ReferenceIdeal.Hand.r_c4 (after Cert.ReferenceIdeal.Hand.r_c3 (after Cert.ReferenceIdeal.Hand.r_c2 (after Cert.ReferenceIdeal.Hand.r_c1 (after Cert.ReferenceIdeal.Hand.r_c0 (after Cert.ReferenceIdeal.Hand.r_acc0 (after Cert.ReferenceIdeal.Hand.r_cols (after Cert.ReferenceIdeal.Hand.r_w (after Cert.ReferenceIdeal.Hand.r_pre (after Cert.ReferenceIdeal.Hand.r_clip (after Cert.ReferenceIdeal.Hand.r_head Vr)))))))))))))) := by
  rw [Cert.ReferenceIdeal.Hand.ops_split]
  simp only [StableHlo.after_append]

theorem k_v13 (Vk : KVal) : after (List.flatten [Cert.KernelIdeal.Gen.hostOps0, Cert.KernelIdeal.Gen.hostOps0_1, Cert.KernelIdeal.Gen.hostOps0_2]) Vk (kref Cert.KernelIdeal.main_v13)
    = after Cert.KernelIdeal.Gen.hostOps0 Vk (kref Cert.KernelIdeal.main_v13) := by
  rw [kV_eq, Cert.KernelIdeal.Hand.k_lay_keep _ Cert.KernelIdeal.main_v13 (by decide),
    Cert.KernelIdeal.Hand.k_c7_keep _ Cert.KernelIdeal.main_v13 (by decide),
    Cert.KernelIdeal.Hand.k_c6_keep _ Cert.KernelIdeal.main_v13 (by decide),
    Cert.KernelIdeal.Hand.k_c5_keep _ Cert.KernelIdeal.main_v13 (by decide),
    Cert.KernelIdeal.Hand.k_c4_keep _ Cert.KernelIdeal.main_v13 (by decide),
    Cert.KernelIdeal.Hand.k_c3_keep _ Cert.KernelIdeal.main_v13 (by decide),
    Cert.KernelIdeal.Hand.k_c2_keep _ Cert.KernelIdeal.main_v13 (by decide),
    Cert.KernelIdeal.Hand.k_c1_keep _ Cert.KernelIdeal.main_v13 (by decide),
    Cert.KernelIdeal.Hand.k_c0_keep _ Cert.KernelIdeal.main_v13 (by decide),
    Cert.KernelIdeal.Hand.k_cols_keep _ Cert.KernelIdeal.main_v13 (by decide),
    Cert.KernelIdeal.Hand.k_pre_keep _ Cert.KernelIdeal.main_v13 (by decide),
    Cert.KernelIdeal.Hand.hostOps0_1_keep _ Cert.KernelIdeal.main_v13 (by decide)]
theorem k_v18 (Vk : KVal) : after (List.flatten [Cert.KernelIdeal.Gen.hostOps0, Cert.KernelIdeal.Gen.hostOps0_1, Cert.KernelIdeal.Gen.hostOps0_2]) Vk (kref Cert.KernelIdeal.main_v18)
    = (after Cert.KernelIdeal.Gen.hostOps0_1 (after Cert.KernelIdeal.Gen.hostOps0 Vk)) (kref Cert.KernelIdeal.main_v18) := by
  rw [kV_eq, Cert.KernelIdeal.Hand.k_lay_keep _ Cert.KernelIdeal.main_v18 (by decide),
    Cert.KernelIdeal.Hand.k_c7_keep _ Cert.KernelIdeal.main_v18 (by decide),
    Cert.KernelIdeal.Hand.k_c6_keep _ Cert.KernelIdeal.main_v18 (by decide),
    Cert.KernelIdeal.Hand.k_c5_keep _ Cert.KernelIdeal.main_v18 (by decide),
    Cert.KernelIdeal.Hand.k_c4_keep _ Cert.KernelIdeal.main_v18 (by decide),
    Cert.KernelIdeal.Hand.k_c3_keep _ Cert.KernelIdeal.main_v18 (by decide),
    Cert.KernelIdeal.Hand.k_c2_keep _ Cert.KernelIdeal.main_v18 (by decide),
    Cert.KernelIdeal.Hand.k_c1_keep _ Cert.KernelIdeal.main_v18 (by decide),
    Cert.KernelIdeal.Hand.k_c0_keep _ Cert.KernelIdeal.main_v18 (by decide),
    Cert.KernelIdeal.Hand.k_cols_keep _ Cert.KernelIdeal.main_v18 (by decide),
    Cert.KernelIdeal.Hand.k_pre_keep _ Cert.KernelIdeal.main_v18 (by decide)]
theorem k_v25 (Vk : KVal) : after (List.flatten [Cert.KernelIdeal.Gen.hostOps0, Cert.KernelIdeal.Gen.hostOps0_1, Cert.KernelIdeal.Gen.hostOps0_2]) Vk (kref Cert.KernelIdeal.main_v25)
    = (after Cert.KernelIdeal.Hand.k_pre (after Cert.KernelIdeal.Gen.hostOps0_1 (after Cert.KernelIdeal.Gen.hostOps0 Vk))) (kref Cert.KernelIdeal.main_v25) := by
  rw [kV_eq, Cert.KernelIdeal.Hand.k_lay_keep _ Cert.KernelIdeal.main_v25 (by decide),
    Cert.KernelIdeal.Hand.k_c7_keep _ Cert.KernelIdeal.main_v25 (by decide),
    Cert.KernelIdeal.Hand.k_c6_keep _ Cert.KernelIdeal.main_v25 (by decide),
    Cert.KernelIdeal.Hand.k_c5_keep _ Cert.KernelIdeal.main_v25 (by decide),
    Cert.KernelIdeal.Hand.k_c4_keep _ Cert.KernelIdeal.main_v25 (by decide),
    Cert.KernelIdeal.Hand.k_c3_keep _ Cert.KernelIdeal.main_v25 (by decide),
    Cert.KernelIdeal.Hand.k_c2_keep _ Cert.KernelIdeal.main_v25 (by decide),
    Cert.KernelIdeal.Hand.k_c1_keep _ Cert.KernelIdeal.main_v25 (by decide),
    Cert.KernelIdeal.Hand.k_c0_keep _ Cert.KernelIdeal.main_v25 (by decide),
    Cert.KernelIdeal.Hand.k_cols_keep _ Cert.KernelIdeal.main_v25 (by decide)]
theorem k_v27 (Vk : KVal) : after (List.flatten [Cert.KernelIdeal.Gen.hostOps0, Cert.KernelIdeal.Gen.hostOps0_1, Cert.KernelIdeal.Gen.hostOps0_2]) Vk (kref Cert.KernelIdeal.main_v27)
    = (after Cert.KernelIdeal.Hand.k_pre (after Cert.KernelIdeal.Gen.hostOps0_1 (after Cert.KernelIdeal.Gen.hostOps0 Vk))) (kref Cert.KernelIdeal.main_v27) := by
  rw [kV_eq, Cert.KernelIdeal.Hand.k_lay_keep _ Cert.KernelIdeal.main_v27 (by decide),
    Cert.KernelIdeal.Hand.k_c7_keep _ Cert.KernelIdeal.main_v27 (by decide),
    Cert.KernelIdeal.Hand.k_c6_keep _ Cert.KernelIdeal.main_v27 (by decide),
    Cert.KernelIdeal.Hand.k_c5_keep _ Cert.KernelIdeal.main_v27 (by decide),
    Cert.KernelIdeal.Hand.k_c4_keep _ Cert.KernelIdeal.main_v27 (by decide),
    Cert.KernelIdeal.Hand.k_c3_keep _ Cert.KernelIdeal.main_v27 (by decide),
    Cert.KernelIdeal.Hand.k_c2_keep _ Cert.KernelIdeal.main_v27 (by decide),
    Cert.KernelIdeal.Hand.k_c1_keep _ Cert.KernelIdeal.main_v27 (by decide),
    Cert.KernelIdeal.Hand.k_c0_keep _ Cert.KernelIdeal.main_v27 (by decide),
    Cert.KernelIdeal.Hand.k_cols_keep _ Cert.KernelIdeal.main_v27 (by decide)]

theorem r_v13 (Vr : RVal) : after Cert.ReferenceIdeal.Hand.ops Vr (rref Cert.ReferenceIdeal.main_v13) = after Cert.ReferenceIdeal.Hand.r_head Vr (rref Cert.ReferenceIdeal.main_v13) := by
  rw [rV_eq, Cert.ReferenceIdeal.Hand.r_tail_keep _ Cert.ReferenceIdeal.main_v13 (by decide),
    Cert.ReferenceIdeal.Hand.r_c7_keep _ Cert.ReferenceIdeal.main_v13 (by decide),
    Cert.ReferenceIdeal.Hand.r_c6_keep _ Cert.ReferenceIdeal.main_v13 (by decide),
    Cert.ReferenceIdeal.Hand.r_c5_keep _ Cert.ReferenceIdeal.main_v13 (by decide),
    Cert.ReferenceIdeal.Hand.r_c4_keep _ Cert.ReferenceIdeal.main_v13 (by decide),
    Cert.ReferenceIdeal.Hand.r_c3_keep _ Cert.ReferenceIdeal.main_v13 (by decide),
    Cert.ReferenceIdeal.Hand.r_c2_keep _ Cert.ReferenceIdeal.main_v13 (by decide),
    Cert.ReferenceIdeal.Hand.r_c1_keep _ Cert.ReferenceIdeal.main_v13 (by decide),
    Cert.ReferenceIdeal.Hand.r_c0_keep _ Cert.ReferenceIdeal.main_v13 (by decide),
    Cert.ReferenceIdeal.Hand.r_acc0_keep _ Cert.ReferenceIdeal.main_v13 (by decide),
    Cert.ReferenceIdeal.Hand.r_cols_keep _ Cert.ReferenceIdeal.main_v13 (by decide),
    Cert.ReferenceIdeal.Hand.r_w_keep _ Cert.ReferenceIdeal.main_v13 (by decide),
    Cert.ReferenceIdeal.Hand.r_pre_keep _ Cert.ReferenceIdeal.main_v13 (by decide),
    Cert.ReferenceIdeal.Hand.r_clip_keep _ Cert.ReferenceIdeal.main_v13 (by decide)]
theorem r_v18 (Vr : RVal) : after Cert.ReferenceIdeal.Hand.ops Vr (rref Cert.ReferenceIdeal.main_v18) = (after Cert.ReferenceIdeal.Hand.r_clip (after Cert.ReferenceIdeal.Hand.r_head Vr)) (rref Cert.ReferenceIdeal.main_v18) := by
  rw [rV_eq, Cert.ReferenceIdeal.Hand.r_tail_keep _ Cert.ReferenceIdeal.main_v18 (by decide),
    Cert.ReferenceIdeal.Hand.r_c7_keep _ Cert.ReferenceIdeal.main_v18 (by decide),
    Cert.ReferenceIdeal.Hand.r_c6_keep _ Cert.ReferenceIdeal.main_v18 (by decide),
    Cert.ReferenceIdeal.Hand.r_c5_keep _ Cert.ReferenceIdeal.main_v18 (by decide),
    Cert.ReferenceIdeal.Hand.r_c4_keep _ Cert.ReferenceIdeal.main_v18 (by decide),
    Cert.ReferenceIdeal.Hand.r_c3_keep _ Cert.ReferenceIdeal.main_v18 (by decide),
    Cert.ReferenceIdeal.Hand.r_c2_keep _ Cert.ReferenceIdeal.main_v18 (by decide),
    Cert.ReferenceIdeal.Hand.r_c1_keep _ Cert.ReferenceIdeal.main_v18 (by decide),
    Cert.ReferenceIdeal.Hand.r_c0_keep _ Cert.ReferenceIdeal.main_v18 (by decide),
    Cert.ReferenceIdeal.Hand.r_acc0_keep _ Cert.ReferenceIdeal.main_v18 (by decide),
    Cert.ReferenceIdeal.Hand.r_cols_keep _ Cert.ReferenceIdeal.main_v18 (by decide),
    Cert.ReferenceIdeal.Hand.r_w_keep _ Cert.ReferenceIdeal.main_v18 (by decide),
    Cert.ReferenceIdeal.Hand.r_pre_keep _ Cert.ReferenceIdeal.main_v18 (by decide)]
theorem r_v25 (Vr : RVal) : after Cert.ReferenceIdeal.Hand.ops Vr (rref Cert.ReferenceIdeal.main_v25) = (after Cert.ReferenceIdeal.Hand.r_pre (after Cert.ReferenceIdeal.Hand.r_clip (after Cert.ReferenceIdeal.Hand.r_head Vr))) (rref Cert.ReferenceIdeal.main_v25) := by
  rw [rV_eq, Cert.ReferenceIdeal.Hand.r_tail_keep _ Cert.ReferenceIdeal.main_v25 (by decide),
    Cert.ReferenceIdeal.Hand.r_c7_keep _ Cert.ReferenceIdeal.main_v25 (by decide),
    Cert.ReferenceIdeal.Hand.r_c6_keep _ Cert.ReferenceIdeal.main_v25 (by decide),
    Cert.ReferenceIdeal.Hand.r_c5_keep _ Cert.ReferenceIdeal.main_v25 (by decide),
    Cert.ReferenceIdeal.Hand.r_c4_keep _ Cert.ReferenceIdeal.main_v25 (by decide),
    Cert.ReferenceIdeal.Hand.r_c3_keep _ Cert.ReferenceIdeal.main_v25 (by decide),
    Cert.ReferenceIdeal.Hand.r_c2_keep _ Cert.ReferenceIdeal.main_v25 (by decide),
    Cert.ReferenceIdeal.Hand.r_c1_keep _ Cert.ReferenceIdeal.main_v25 (by decide),
    Cert.ReferenceIdeal.Hand.r_c0_keep _ Cert.ReferenceIdeal.main_v25 (by decide),
    Cert.ReferenceIdeal.Hand.r_acc0_keep _ Cert.ReferenceIdeal.main_v25 (by decide),
    Cert.ReferenceIdeal.Hand.r_cols_keep _ Cert.ReferenceIdeal.main_v25 (by decide),
    Cert.ReferenceIdeal.Hand.r_w_keep _ Cert.ReferenceIdeal.main_v25 (by decide)]
theorem r_v27 (Vr : RVal) : after Cert.ReferenceIdeal.Hand.ops Vr (rref Cert.ReferenceIdeal.main_v27) = (after Cert.ReferenceIdeal.Hand.r_pre (after Cert.ReferenceIdeal.Hand.r_clip (after Cert.ReferenceIdeal.Hand.r_head Vr))) (rref Cert.ReferenceIdeal.main_v27) := by
  rw [rV_eq, Cert.ReferenceIdeal.Hand.r_tail_keep _ Cert.ReferenceIdeal.main_v27 (by decide),
    Cert.ReferenceIdeal.Hand.r_c7_keep _ Cert.ReferenceIdeal.main_v27 (by decide),
    Cert.ReferenceIdeal.Hand.r_c6_keep _ Cert.ReferenceIdeal.main_v27 (by decide),
    Cert.ReferenceIdeal.Hand.r_c5_keep _ Cert.ReferenceIdeal.main_v27 (by decide),
    Cert.ReferenceIdeal.Hand.r_c4_keep _ Cert.ReferenceIdeal.main_v27 (by decide),
    Cert.ReferenceIdeal.Hand.r_c3_keep _ Cert.ReferenceIdeal.main_v27 (by decide),
    Cert.ReferenceIdeal.Hand.r_c2_keep _ Cert.ReferenceIdeal.main_v27 (by decide),
    Cert.ReferenceIdeal.Hand.r_c1_keep _ Cert.ReferenceIdeal.main_v27 (by decide),
    Cert.ReferenceIdeal.Hand.r_c0_keep _ Cert.ReferenceIdeal.main_v27 (by decide),
    Cert.ReferenceIdeal.Hand.r_acc0_keep _ Cert.ReferenceIdeal.main_v27 (by decide),
    Cert.ReferenceIdeal.Hand.r_cols_keep _ Cert.ReferenceIdeal.main_v27 (by decide),
    Cert.ReferenceIdeal.Hand.r_w_keep _ Cert.ReferenceIdeal.main_v27 (by decide)]

/-! ## The agreement -/

section Agree
variable (Vk : KVal) (Vr : RVal)
variable (h0 : (Vr (rref Cert.ReferenceIdeal.main_arg0) : SN3.Idx → EReal) = Vk (kref Cert.KernelIdeal.main_arg0))
include h0

theorem agree_v13 : (after Cert.ReferenceIdeal.Hand.ops Vr (rref Cert.ReferenceIdeal.main_v13) : SN.Idx → BitVec 1)
    = after (List.flatten [Cert.KernelIdeal.Gen.hostOps0, Cert.KernelIdeal.Gen.hostOps0_1, Cert.KernelIdeal.Gen.hostOps0_2]) Vk (kref Cert.KernelIdeal.main_v13) := by
  rw [r_v13, k_v13]; exact head_v13 Vk Vr h0
theorem agree_v18 : (after Cert.ReferenceIdeal.Hand.ops Vr (rref Cert.ReferenceIdeal.main_v18) : SN3.Idx → BitVec 32)
    = after (List.flatten [Cert.KernelIdeal.Gen.hostOps0, Cert.KernelIdeal.Gen.hostOps0_1, Cert.KernelIdeal.Gen.hostOps0_2]) Vk (kref Cert.KernelIdeal.main_v18) := by
  rw [r_v18, k_v18]; exact clip_v18 Vk Vr h0
theorem agree_v25 : (after Cert.ReferenceIdeal.Hand.ops Vr (rref Cert.ReferenceIdeal.main_v25) : SN3.Idx → BitVec 32)
    = after (List.flatten [Cert.KernelIdeal.Gen.hostOps0, Cert.KernelIdeal.Gen.hostOps0_1, Cert.KernelIdeal.Gen.hostOps0_2]) Vk (kref Cert.KernelIdeal.main_v25) := by
  rw [r_v25, k_v25]; exact pre_v25 Vk Vr h0
theorem agree_v27 : (after Cert.ReferenceIdeal.Hand.ops Vr (rref Cert.ReferenceIdeal.main_v27) : SN3.Idx → EReal)
    = after (List.flatten [Cert.KernelIdeal.Gen.hostOps0, Cert.KernelIdeal.Gen.hostOps0_1, Cert.KernelIdeal.Gen.hostOps0_2]) Vk (kref Cert.KernelIdeal.main_v27) := by
  rw [r_v27, k_v27]; exact pre_v27 Vk Vr h0

end Agree

/-! ## The same, from the two programs' launch memories -/

section Memories
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The grid argument, read off the reference's launch memory. -/
theorem grid_eq
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (StableHlo.launchContents m' c (rref Cert.ReferenceIdeal.main_arg1) : SG4.Idx → EReal) = m ((c.tc : Thread Cert.KernelIdeal.nD Cert.KernelIdeal.τ).loc Cert.KernelIdeal.main_arg1) := h1

variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
include h0

theorem mem_v13 : (after Cert.ReferenceIdeal.Hand.ops (StableHlo.launchContents m' c) (rref Cert.ReferenceIdeal.main_v13) : SN.Idx → BitVec 1)
    = Cert.KernelIdeal.Hand.V m c Cert.KernelIdeal.main_v13 := agree_v13 (fun b => m (c, b)) (StableHlo.launchContents m' c) h0
theorem mem_v18 : (after Cert.ReferenceIdeal.Hand.ops (StableHlo.launchContents m' c) (rref Cert.ReferenceIdeal.main_v18) : SN3.Idx → BitVec 32)
    = Cert.KernelIdeal.Hand.V m c Cert.KernelIdeal.main_v18 := agree_v18 (fun b => m (c, b)) (StableHlo.launchContents m' c) h0
theorem mem_v25 : (after Cert.ReferenceIdeal.Hand.ops (StableHlo.launchContents m' c) (rref Cert.ReferenceIdeal.main_v25) : SN3.Idx → BitVec 32)
    = Cert.KernelIdeal.Hand.V m c Cert.KernelIdeal.main_v25 := agree_v25 (fun b => m (c, b)) (StableHlo.launchContents m' c) h0
theorem mem_v27 : (after Cert.ReferenceIdeal.Hand.ops (StableHlo.launchContents m' c) (rref Cert.ReferenceIdeal.main_v27) : SN3.Idx → EReal)
    = Cert.KernelIdeal.Hand.V m c Cert.KernelIdeal.main_v27 := agree_v27 (fun b => m (c, b)) (StableHlo.launchContents m' c) h0

end Memories

end Cert.Bridge

end
-- ==== Proof.lean ====
/-
  The certificate of the voxel-grid trilinear lookup: a Pallas kernel that combines eight gathered corner values per
  query point, against its jnp reference.

  Both programs start with the same host lines: from the query points `x` the fractional cell index
  `(x − lower) · 25`, the validity flag, the clamped lower and upper cell indices and the fractions.  The kernel
  program then gathers the eight corners of every point from the grid reshaped to three axes, stacks them as the rows
  of an [8, N] array, transposes the fractions to [3, N], turns the flag into a float row, and hands blocks of 131072
  columns to the kernel body, which forms the eight weights (products of a fraction or one minus it per axis),
  adds value times weight over the corners and keeps the sum where the flag is not zero; a last reshape gives the
  [N] result, and the second result is a zero array.  The reference gathers from the four-axis grid with a zero
  fourth index, takes the weights from a stacked [N, 3, 2] array and accumulates the same eight products from zero,
  masking with the flag at the end.  Point by point both are the scalar expression of `Cert.Spec.rowOut`: the grid is
  read at the same cell (a reshape only renames it), the products and sums are bracketed identically, the
  reference's leading zero is absorbed by `0 + x = x`, and a one-bit flag converted to a float is non-zero exactly
  when the bit is set.  No finiteness is used.

  The frames: each program's host operations write only their own result buffers, the kernel's region reads its
  three input windows and writes its one output window, so the argument arrays end as they began.
-/
import proofs.«173088_j25065429139728_2_alg».proof.Defs
import proofs.«173088_j25065429139728_2_alg».proof.Proof.Gen.Kernel
import proofs.«173088_j25065429139728_2_alg».proof.Proof.Gen.KernelIdeal
import proofs.«173088_j25065429139728_2_alg».proof.Proof.Gen.ReferenceIdeal
import proofs.«173088_j25065429139728_2_alg».proof.Proof.Gen.Pre_finite_inputs
import proofs.«173088_j25065429139728_2_alg».proof.Proof.BFrame
import proofs.«173088_j25065429139728_2_alg».proof.Proof.KFrame
import proofs.«173088_j25065429139728_2_alg».proof.Proof.RefRun
import proofs.«173088_j25065429139728_2_alg».proof.Proof.KValue
import proofs.«173088_j25065429139728_2_alg».proof.Proof.RValue
import proofs.«173088_j25065429139728_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs to the end and leaves its arguments as they were. -/
theorem frame_k [Cert.Kernel.Facts] [Cert.Pre_finite_inputs.Facts] : Cert.frame_Kernel :=
  fun m ρ _ => Cert.Kernel.Hand.frame m ρ

/-- So does its idealization. -/
theorem frame_ki [Cert.KernelIdeal.Facts] [Cert.Pre_finite_inputs.Facts] : Cert.frame_KernelIdeal :=
  fun m ρ _ => Cert.KernelIdeal.Hand.frame m ρ

/-- So does the reference: a straight line of host operations, none of which writes an argument. -/
theorem frame_ri [Cert.ReferenceIdeal.Facts] [Cert.Pre_finite_inputs.Facts] : Cert.frame_ReferenceIdeal :=
  fun m ρ _ => Cert.ReferenceIdeal.Hand.frame m ρ

/-- The idealization rewrote nothing. -/
theorem preserves : Cert.preserves_Kernel_KernelIdeal := trivial

/-- From memories agreeing on the arguments both idealized programs end with, point by point, the masked weighted sum
    of the eight corners (`Cert.Spec.out` of the shared flags, indices and fractions and of the grid), and with zeros. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.out (Cert.KernelIdeal.Hand.V m c Cert.KernelIdeal.main_v13) (Cert.KernelIdeal.Hand.V m c Cert.KernelIdeal.main_v18)
      (Cert.KernelIdeal.Hand.V m c Cert.KernelIdeal.main_v25) (Cert.KernelIdeal.Hand.V m c Cert.KernelIdeal.main_v27)
      (m ((c.tc : Thread Cert.KernelIdeal.nD Cert.KernelIdeal.τ).loc Cert.KernelIdeal.main_arg1)),
    fun _ => Cert.Spec.zeros, ?_, ?_⟩
  · refine (θ_run Cert.KernelIdeal.defs _ _).mono (fun r h c => ?_) (Cert.KernelIdeal.Hand.run_main (F := Ideal) m ρ)
    obtain ⟨-, hrest⟩ := h c
    refine ⟨?_, ?_, ?_, ?_⟩
    · rw [hrest Cert.KernelIdeal.main_v214 (Pipeline.mem_restRefs_of Cert.KernelIdeal.main_v214 (by decide) (by decide))]
      funext j
      rw [eq_ix1 j]
      exact (Cert.KernelIdeal.Hand.value_at m c (j 0)).trans (Cert.Spec.out_apply _ _ _ _ _ _).symm
    · rw [hrest Cert.KernelIdeal.main_v215 (Pipeline.mem_restRefs_of Cert.KernelIdeal.main_v215 (by decide) (by decide))]
      exact Cert.KernelIdeal.Hand.zeros_eq m c
    · exact (hrest Cert.KernelIdeal.main_arg0 (Pipeline.mem_restRefs_of Cert.KernelIdeal.main_arg0 (by decide) (by decide))).trans
        (Cert.KernelIdeal.Hand.W_main_arg0 m (Cert.KernelIdeal.Hand.dats m) c)
    · exact (hrest Cert.KernelIdeal.main_arg1 (Pipeline.mem_restRefs_of Cert.KernelIdeal.main_arg1 (by decide) (by decide))).trans
        (Cert.KernelIdeal.Hand.W_main_arg1 m (Cert.KernelIdeal.Hand.dats m) c)
  · refine (θ_run Cert.ReferenceIdeal.defs _ _).mono (fun r h c => ?_) (Cert.ReferenceIdeal.Hand.run_main (F := Ideal) m' ρ')
    have h0 := (hagree c).1
    have h1 := (hagree c).2
    refine ⟨?_, ?_, ?_, ?_⟩
    · rw [h c Cert.ReferenceIdeal.main_v310]
      funext j
      rw [eq_ix1 j]
      refine (Cert.ReferenceIdeal.Hand.value_at _ (j 0)).trans ?_
      rw [Cert.Bridge.mem_v13 m m' c h0, Cert.Bridge.mem_v18 m m' c h0, Cert.Bridge.mem_v25 m m' c h0,
        Cert.Bridge.mem_v27 m m' c h0, Cert.Bridge.grid_eq m m' c h1]
      exact (Cert.Spec.out_apply _ _ _ _ _ _).symm
    · rw [h c Cert.ReferenceIdeal.main_v311]
      exact Cert.ReferenceIdeal.Hand.zeros_eq _
    · rw [h c Cert.ReferenceIdeal.main_arg0]; exact Cert.ReferenceIdeal.Hand.arg0_kept _
    · rw [h c Cert.ReferenceIdeal.main_arg1]; exact Cert.ReferenceIdeal.Hand.arg1_kept _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
